-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S25x50x1266 : Shape := ⟨3, ![25, 50, 1266]⟩
abbrev S25x50 : Shape := ⟨2, ![25, 50]⟩
abbrev S1266x1 : Shape := ⟨2, ![1266, 1]⟩
abbrev S1 : Shape := ⟨1, ![1]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S25x50x1266 : S_.BroadcastsInDim S25x50x1266 (![] : Fin 0 → Fin S25x50x1266.rank)
  reducesTo_S25x50x1266_S_d0_1_2 : S25x50x1266.ReducesTo [0, 1, 2] S_
  bcast_S_S25x50 : S_.BroadcastsInDim S25x50 (![] : Fin 0 → Fin S25x50.rank)
  reducesTo_S25x50_S_d0_1 : S25x50.ReducesTo [0, 1] S_
  bcast_S_S1266x1 : S_.BroadcastsInDim S1266x1 (![] : Fin 0 → Fin S1266x1.rank)
  reducesTo_S1266x1_S_d0_1 : S1266x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1266x1 1) : IVec S_ 1 :=
  let main_c_5 : IVec S_ 1 := constantI S_ 1 1#1
  let main_v17 : IVec S_ 1 := (fun x v => Host.reduce IntOp.andi x v reducesTo_S1266x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32768x16 .f32) (main_arg1 : FVec F S25x50x1266 .f32) (main_arg2 : FVec F S25x50 .f32) (main_arg3 : FVec F S1266x1 .f32) (main_arg4 : FVec F S1 .f32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S25x50x1266 .f32 := Host.absf main_arg1
  let main_cst_0 : FVec F S_ .f32 := constant S_ .f32 0x7F800000#32
  let main_v5 : FVec F S25x50x1266 .f32 := broadcastInDim S25x50x1266 ![] bcast_S_S25x50x1266 main_cst_0
  let main_v6 : IVec S25x50x1266 1 := cmpf .olt main_v4 main_v5
  let main_c_1 : IVec S_ 1 := constantI S_ 1 1#1
  let main_v7 : IVec S_ 1 := (fun x v => Host.reduce IntOp.andi x v reducesTo_S25x50x1266_S_d0_1_2 h_S_) main_v6 main_c_1
  let main_v8 : IVec S_ 1 := andi main_v3 main_v7
  let main_v9 : FVec F S25x50 .f32 := Host.absf main_arg2
  let main_cst_2 : FVec F S_ .f32 := constant S_ .f32 0x7F800000#32
  let main_v10 : FVec F S25x50 .f32 := broadcastInDim S25x50 ![] bcast_S_S25x50 main_cst_2
  let main_v11 : IVec S25x50 1 := cmpf .olt main_v9 main_v10
  let main_c_3 : IVec S_ 1 := constantI S_ 1 1#1
  let main_v12 : IVec S_ 1 := (fun x v => Host.reduce IntOp.andi x v reducesTo_S25x50_S_d0_1 h_S_) main_v11 main_c_3
  let main_v13 : IVec S_ 1 := andi main_v8 main_v12
  let main_v14 : FVec F S1266x1 .f32 := Host.absf main_arg3
  let main_cst_4 : FVec F S_ .f32 := constant S_ .f32 0x7F800000#32
  let main_v15 : FVec F S1266x1 .f32 := broadcastInDim S1266x1 ![] bcast_S_S1266x1 main_cst_4
  let main_v16 : IVec S1266x1 1 := cmpf .olt main_v14 main_v15
  fn_part1 (F := F) main_arg4 main_v13 main_v16
-- ==== Kernel.lean ====
abbrev S32768x16 : Shape := ⟨2, ![32768, 16]⟩
abbrev S25x50x1266 : Shape := ⟨3, ![25, 50, 1266]⟩
abbrev S25x50 : Shape := ⟨2, ![25, 50]⟩
abbrev S1266x1 : Shape := ⟨2, ![1266, 1]⟩
abbrev S1 : Shape := ⟨1, ![1]⟩
abbrev S25x1266x50 : Shape := ⟨3, ![25, 1266, 50]⟩
abbrev S25x1x50 : Shape := ⟨3, ![25, 1, 50]⟩
abbrev S1x1 : Shape := ⟨2, ![1, 1]⟩
abbrev S32768x1 : Shape := ⟨2, ![32768, 1]⟩
abbrev S4096x16 : Shape := ⟨2, ![4096, 16]⟩
abbrev S4096x1 : Shape := ⟨2, ![4096, 1]⟩
abbrev S4096x1266 : Shape := ⟨2, ![4096, 1266]⟩
abbrev S4096x112 : Shape := ⟨2, ![4096, 112]⟩
abbrev S4096x128 : Shape := ⟨2, ![4096, 128]⟩
abbrev S1x128x50 : Shape := ⟨3, ![1, 128, 50]⟩
abbrev S128x50 : Shape := ⟨2, ![128, 50]⟩
abbrev S4096x50 : Shape := ⟨2, ![4096, 50]⟩
abbrev S1x1x50 : Shape := ⟨3, ![1, 1, 50]⟩
abbrev S1x50 : Shape := ⟨2, ![1, 50]⟩
abbrev S4096x62 : Shape := ⟨2, ![4096, 62]⟩
abbrev S4096x12 : Shape := ⟨2, ![4096, 12]⟩
abbrev S4096x90 : Shape := ⟨2, ![4096, 90]⟩
abbrev S4096x256 : Shape := ⟨2, ![4096, 256]⟩
abbrev S1x256x50 : Shape := ⟨3, ![1, 256, 50]⟩
abbrev S256x50 : Shape := ⟨2, ![256, 50]⟩
abbrev S4096x40 : Shape := ⟨2, ![4096, 40]⟩
abbrev S4096x118 : Shape := ⟨2, ![4096, 118]⟩
abbrev S4096x384 : Shape := ⟨2, ![4096, 384]⟩
abbrev S1x384x50 : Shape := ⟨3, ![1, 384, 50]⟩
abbrev S384x50 : Shape := ⟨2, ![384, 50]⟩
abbrev S4096x68 : Shape := ⟨2, ![4096, 68]⟩
abbrev S4096x18 : Shape := ⟨2, ![4096, 18]⟩
abbrev S4096x96 : Shape := ⟨2, ![4096, 96]⟩
abbrev S4096x512 : Shape := ⟨2, ![4096, 512]⟩
abbrev S1x512x50 : Shape := ⟨3, ![1, 512, 50]⟩
abbrev S512x50 : Shape := ⟨2, ![512, 50]⟩
abbrev S4096x46 : Shape := ⟨2, ![4096, 46]⟩
abbrev S4096x124 : Shape := ⟨2, ![4096, 124]⟩
abbrev S4096x640 : Shape := ⟨2, ![4096, 640]⟩
abbrev S1x640x50 : Shape := ⟨3, ![1, 640, 50]⟩
abbrev S640x50 : Shape := ⟨2, ![640, 50]⟩
abbrev S4096x74 : Shape := ⟨2, ![4096, 74]⟩
abbrev S4096x24 : Shape := ⟨2, ![4096, 24]⟩
abbrev S4096x102 : Shape := ⟨2, ![4096, 102]⟩
abbrev S4096x768 : Shape := ⟨2, ![4096, 768]⟩
abbrev S1x768x50 : Shape := ⟨3, ![1, 768, 50]⟩
abbrev S768x50 : Shape := ⟨2, ![768, 50]⟩
abbrev S4096x52 : Shape := ⟨2, ![4096, 52]⟩
abbrev S4096x2 : Shape := ⟨2, ![4096, 2]⟩
abbrev S4096x80 : Shape := ⟨2, ![4096, 80]⟩
abbrev S4096x896 : Shape := ⟨2, ![4096, 896]⟩
abbrev S1x896x50 : Shape := ⟨3, ![1, 896, 50]⟩
abbrev S896x50 : Shape := ⟨2, ![896, 50]⟩
abbrev S4096x30 : Shape := ⟨2, ![4096, 30]⟩
abbrev S4096x108 : Shape := ⟨2, ![4096, 108]⟩
abbrev S4096x1024 : Shape := ⟨2, ![4096, 1024]⟩
abbrev S1x1024x50 : Shape := ⟨3, ![1, 1024, 50]⟩
abbrev S1024x50 : Shape := ⟨2, ![1024, 50]⟩
abbrev S4096x58 : Shape := ⟨2, ![4096, 58]⟩
abbrev S4096x8 : Shape := ⟨2, ![4096, 8]⟩
abbrev S4096x86 : Shape := ⟨2, ![4096, 86]⟩
abbrev S4096x1152 : Shape := ⟨2, ![4096, 1152]⟩
abbrev S1x1152x50 : Shape := ⟨3, ![1, 1152, 50]⟩
abbrev S1152x50 : Shape := ⟨2, ![1152, 50]⟩
abbrev S4096x36 : Shape := ⟨2, ![4096, 36]⟩
abbrev S4096x100 : Shape := ⟨2, ![4096, 100]⟩
abbrev S1x1266x50 : Shape := ⟨3, ![1, 1266, 50]⟩
abbrev S1266x50 : Shape := ⟨2, ![1266, 50]⟩

abbrev nBuf : Space → Nat
  | .hbm => 9
  | .vmem => 9
  | .smem => 0
  | _ => 0

abbrev bufTy : (tb : Table) → Fin (tcTables nBuf tb) → BufTy
  | .hbm, ⟨0, _⟩ => ⟨S32768x16, .f32⟩
  | .hbm, ⟨1, _⟩ => ⟨S25x50x1266, .f32⟩
  | .hbm, ⟨2, _⟩ => ⟨S25x50, .f32⟩
  | .hbm, ⟨3, _⟩ => ⟨S1266x1, .f32⟩
  | .hbm, ⟨4, _⟩ => ⟨S1, .f32⟩
  | .hbm, ⟨5, _⟩ => ⟨S25x1266x50, .f32⟩
  | .hbm, ⟨6, _⟩ => ⟨S25x1x50, .f32⟩
  | .hbm, ⟨7, _⟩ => ⟨S1x1, .f32⟩
  | .hbm, ⟨8, _⟩ => ⟨S32768x1, .f32⟩
  | .local _ .vmem, ⟨0, _⟩ => ⟨S4096x16, .f32⟩
  | .local _ .vmem, ⟨1, _⟩ => ⟨S4096x16, .f32⟩
  | .local _ .vmem, ⟨2, _⟩ => ⟨S25x1266x50, .f32⟩
  | .local _ .vmem, ⟨3, _⟩ => ⟨S25x1x50, .f32⟩
  | .local _ .vmem, ⟨4, _⟩ => ⟨S1266x1, .f32⟩
  | .local _ .vmem, ⟨5, _⟩ => ⟨S1x1, .f32⟩
  | .local _ .vmem, ⟨6, _⟩ => ⟨S4096x1, .f32⟩
  | .local _ .vmem, ⟨7, _⟩ => ⟨S4096x1, .f32⟩
  | .local _ .vmem, ⟨8, _⟩ => ⟨S4096x1266, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x1266x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S25x1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1266x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S25x50x1266_S25x1266x50_0_2_1 : S25x50x1266.Transposes [0, 2, 1] S25x1266x50
  shapeCasts_S25x50_S25x1x50 : S25x50.ShapeCasts S25x1x50
  shapeCasts_S1_S1x1 : S1.ShapeCasts S1x1
  inb_S4096x16_S4096x16_0_0 : ∀ a, (![0, 0] : Fin 2 → Nat) a + S4096x16.size a ≤ S4096x16.size a
  h_S4096x16 : 0 < S4096x16.numel
  inb_S4096x1266_S4096x16_0_0 : ∀ a, (![0, 0] : Fin 2 → Nat) a + S4096x16.size a ≤ S4096x1266.size a
  shapeCasts_S4096x16_S4096x16 : S4096x16.ShapeCasts S4096x16
  inb_S4096x1266_S4096x112_0_16 : ∀ a, (![0, 16] : Fin 2 → Nat) a + S4096x112.size a ≤ S4096x1266.size a
  h_S4096x112 : 0 < S4096x112.numel
  shapeCasts_S4096x112_S4096x112 : S4096x112.ShapeCasts S4096x112
  inb_S4096x1266_S4096x128_0_0 : ∀ a, (![0, 0] : Fin 2 → Nat) a + S4096x128.size a ≤ S4096x1266.size a
  h_S4096x128 : 0 < S4096x128.numel
  inb_S25x1266x50_S1x128x50_0_0_0 : ∀ a, (![0, 0, 0] : Fin 3 → Nat) a + S1x128x50.size a ≤ S25x1266x50.size a
  h_S1x128x50 : 0 < S1x128x50.numel
  shapeCasts_S1x128x50_S128x50 : S1x128x50.ShapeCasts S128x50
  inb_S25x1x50_S1x1x50_0_0_0 : ∀ a, (![0, 0, 0] : Fin 3 → Nat) a + S1x1x50.size a ≤ S25x1x50.size a
  h_S1x1x50 : 0 < S1x1x50.numel
  shapeCasts_S1x1x50_S1x50 : S1x1x50.ShapeCasts S1x50
  broadcasts_S1x50_S4096x50 : S1x50.Broadcasts S4096x50
  inb_S4096x1266_S4096x50_0_16 : ∀ a, (![0, 16] : Fin 2 → Nat) a + S4096x50.size a ≤ S4096x1266.size a
  h_S4096x50 : 0 < S4096x50.numel
  shapeCasts_S4096x50_S4096x50 : S4096x50.ShapeCasts S4096x50
  inb_S4096x1266_S4096x62_0_66 : ∀ a, (![0, 66] : Fin 2 → Nat) a + S4096x62.size a ≤ S4096x1266.size a
  h_S4096x62 : 0 < S4096x62.numel
  shapeCasts_S4096x62_S4096x62 : S4096x62.ShapeCasts S4096x62
  inb_S25x1266x50_S1x128x50_1_0_0 : ∀ a, (![1, 0, 0] : Fin 3 → Nat) a + S1x128x50.size a ≤ S25x1266x50.size a
  inb_S25x1x50_S1x1x50_1_0_0 : ∀ a, (![1, 0, 0] : Fin 3 → Nat) a + S1x1x50.size a ≤ S25x1x50.size a
  inb_S4096x1266_S4096x50_0_66 : ∀ a, (![0, 66] : Fin 2 → Nat) a + S4096x50.size a ≤ S4096x1266.size a
  inb_S4096x1266_S4096x12_0_116 : ∀ a, (![0, 116] : Fin 2 → Nat) a + S4096x12.size a ≤ S4096x1266.size a
  h_S4096x12 : 0 < S4096x12.numel
  shapeCasts_S4096x12_S4096x12 : S4096x12.ShapeCasts S4096x12
  inb_S25x1266x50_S1x128x50_2_0_0 : ∀ a, (![2, 0, 0] : Fin 3 → Nat) a + S1x128x50.size a ≤ S25x1266x50.size a
  inb_S25x1x50_S1x1x50_2_0_0 : ∀ a, (![2, 0, 0] : Fin 3 → Nat) a + S1x1x50.size a ≤ S25x1x50.size a
  inb_S4096x1266_S4096x50_0_116 : ∀ a, (![0, 116] : Fin 2 → Nat) a + S4096x50.size a ≤ S4096x1266.size a
  inb_S4096x1266_S4096x90_0_166 : ∀ a, (![0, 166] : Fin 2 → Nat) a + S4096x90.size a ≤ S4096x1266.size a
  h_S4096x90 : 0 < S4096x90.numel
  shapeCasts_S4096x90_S4096x90 : S4096x90.ShapeCasts S4096x90
  inb_S4096x1266_S4096x256_0_0 : ∀ a, (![0, 0] : Fin 2 → Nat) a + S4096x256.size a ≤ S4096x1266.size a
  h_S4096x256 : 0 < S4096x256.numel
  inb_S25x1266x50_S1x256x50_3_0_0 : ∀ a, (![3, 0, 0] : Fin 3 → Nat) a + S1x256x50.size a ≤ S25x1266x50.size a
  h_S1x256x50 : 0 < S1x256x50.numel
  shapeCasts_S1x256x50_S256x50 : S1x256x50.ShapeCasts S256x50
  inb_S25x1x50_S1x1x50_3_0_0 : ∀ a, (![3, 0, 0] : Fin 3 → Nat) a + S1x1x50.size a ≤ S25x1x50.size a
  inb_S4096x1266_S4096x50_0_166 : ∀ a, (![0, 166] : Fin 2 → Nat) a + S4096x50.size a ≤ S4096x1266.size a
  inb_S4096x1266_S4096x40_0_216 : ∀ a, (![0, 216] : Fin 2 → Nat) a + S4096x40.size a ≤ S4096x1266.size a
  h_S4096x40 : 0 < S4096x40.numel
  shapeCasts_S4096x40_S4096x40 : S4096x40.ShapeCasts S4096x40
  inb_S25x1266x50_S1x256x50_4_0_0 : ∀ a, (![4, 0, 0] : Fin 3 → Nat) a + S1x256x50.size a ≤ S25x1266x50.size a
  inb_S25x1x50_S1x1x50_4_0_0 : ∀ a, (![4, 0, 0] : Fin 3 → Nat) a + S1x1x50.size a ≤ S25x1x50.size a
  inb_S4096x1266_S4096x50_0_216 : ∀ a, (![0, 216] : Fin 2 → Nat) a + S4096x50.size a ≤ S4096x1266.size a
  inb_S4096x1266_S4096x118_0_266 : ∀ a, (![0, 266] : Fin 2 → Nat) a + S4096x118.size a ≤ S4096x1266.size a
  h_S4096x118 : 0 < S4096x118.numel
  shapeCasts_S4096x118_S4096x118 : S4096x118.ShapeCasts S4096x118
  inb_S4096x1266_S4096x384_0_0 : ∀ a, (![0, 0] : Fin 2 → Nat) a + S4096x384.size a ≤ S4096x1266.size a
  h_S4096x384 : 0 < S4096x384.numel
  inb_S25x1266x50_S1x384x50_5_0_0 : ∀ a, (![5, 0, 0] : Fin 3 → Nat) a + S1x384x50.size a ≤ S25x1266x50.size a
  h_S1x384x50 : 0 < S1x384x50.numel
  shapeCasts_S1x384x50_S384x50 : S1x384x50.ShapeCasts S384x50
  inb_S25x1x50_S1x1x50_5_0_0 : ∀ a, (![5, 0, 0] : Fin 3 → Nat) a + S1x1x50.size a ≤ S25x1x50.size a
  inb_S4096x1266_S4096x50_0_266 : ∀ a, (![0, 266] : Fin 2 → Nat) a + S4096x50.size a ≤ S4096x1266.size a
  inb_S4096x1266_S4096x68_0_316 : ∀ a, (![0, 316] : Fin 2 → Nat) a + S4096x68.size a ≤ S4096x1266.size a
  h_S4096x68 : 0 < S4096x68.numel
  shapeCasts_S4096x68_S4096x68 : S4096x68.ShapeCasts S4096x68
  inb_S25x1266x50_S1x384x50_6_0_0 : ∀ a, (![6, 0, 0] : Fin 3 → Nat) a + S1x384x50.size a ≤ S25x1266x50.size a
  inb_S25x1x50_S1x1x50_6_0_0 : ∀ a, (![6, 0, 0] : Fin 3 → Nat) a + S1x1x50.size a ≤ S25x1x50.size a
  inb_S4096x1266_S4096x50_0_316 : ∀ a, (![0, 316] : Fin 2 → Nat) a + S4096x50.size a ≤ S4096x1266.size a
  inb_S4096x1266_S4096x18_0_366 : ∀ a, (![0, 366] : Fin 2 → Nat) a + S4096x18.size a ≤ S4096x1266.size a
  h_S4096x18 : 0 < S4096x18.numel
  shapeCasts_S4096x18_S4096x18 : S4096x18.ShapeCasts S4096x18
  inb_S25x1266x50_S1x384x50_7_0_0 : ∀ a, (![7, 0, 0] : Fin 3 → Nat) a + S1x384x50.size a ≤ S25x1266x50.size a
  inb_S25x1x50_S1x1x50_7_0_0 : ∀ a, (![7, 0, 0] : Fin 3 → Nat) a + S1x1x50.size a ≤ S25x1x50.size a
  inb_S4096x1266_S4096x50_0_366 : ∀ a, (![0, 366] : Fin 2 → Nat) a + S4096x50.size a ≤ S4096x1266.size a
  inb_S4096x1266_S4096x96_0_416 : ∀ a, (![0, 416] : Fin 2 → Nat) a + S4096x96.size a ≤ S4096x1266.size a
  h_S4096x96 : 0 < S4096x96.numel
  shapeCasts_S4096x96_S4096x96 : S4096x96.ShapeCasts S4096x96
  inb_S4096x1266_S4096x512_0_0 : ∀ a, (![0, 0] : Fin 2 → Nat) a + S4096x512.size a ≤ S4096x1266.size a
  h_S4096x512 : 0 < S4096x512.numel
  inb_S25x1266x50_S1x512x50_8_0_0 : ∀ a, (![8, 0, 0] : Fin 3 → Nat) a + S1x512x50.size a ≤ S25x1266x50.size a
  h_S1x512x50 : 0 < S1x512x50.numel
  shapeCasts_S1x512x50_S512x50 : S1x512x50.ShapeCasts S512x50
  inb_S25x1x50_S1x1x50_8_0_0 : ∀ a, (![8, 0, 0] : Fin 3 → Nat) a + S1x1x50.size a ≤ S25x1x50.size a
  inb_S4096x1266_S4096x50_0_416 : ∀ a, (![0, 416] : Fin 2 → Nat) a + S4096x50.size a ≤ S4096x1266.size a
  inb_S4096x1266_S4096x46_0_466 : ∀ a, (![0, 466] : Fin 2 → Nat) a + S4096x46.size a ≤ S4096x1266.size a
  h_S4096x46 : 0 < S4096x46.numel
  shapeCasts_S4096x46_S4096x46 : S4096x46.ShapeCasts S4096x46
  inb_S25x1266x50_S1x512x50_9_0_0 : ∀ a, (![9, 0, 0] : Fin 3 → Nat) a + S1x512x50.size a ≤ S25x1266x50.size a
  inb_S25x1x50_S1x1x50_9_0_0 : ∀ a, (![9, 0, 0] : Fin 3 → Nat) a + S1x1x50.size a ≤ S25x1x50.size a
  inb_S4096x1266_S4096x50_0_466 : ∀ a, (![0, 466] : Fin 2 → Nat) a + S4096x50.size a ≤ S4096x1266.size a
  inb_S4096x1266_S4096x124_0_516 : ∀ a, (![0, 516] : Fin 2 → Nat) a + S4096x124.size a ≤ S4096x1266.size a
  h_S4096x124 : 0 < S4096x124.numel
  shapeCasts_S4096x124_S4096x124 : S4096x124.ShapeCasts S4096x124
  inb_S4096x1266_S4096x640_0_0 : ∀ a, (![0, 0] : Fin 2 → Nat) a + S4096x640.size a ≤ S4096x1266.size a
  h_S4096x640 : 0 < S4096x640.numel
  inb_S25x1266x50_S1x640x50_10_0_0 : ∀ a, (![10, 0, 0] : Fin 3 → Nat) a + S1x640x50.size a ≤ S25x1266x50.size a
  h_S1x640x50 : 0 < S1x640x50.numel
  shapeCasts_S1x640x50_S640x50 : S1x640x50.ShapeCasts S640x50
  inb_S25x1x50_S1x1x50_10_0_0 : ∀ a, (![10, 0, 0] : Fin 3 → Nat) a + S1x1x50.size a ≤ S25x1x50.size a
  inb_S4096x1266_S4096x50_0_516 : ∀ a, (![0, 516] : Fin 2 → Nat) a + S4096x50.size a ≤ S4096x1266.size a
  inb_S4096x1266_S4096x74_0_566 : ∀ a, (![0, 566] : Fin 2 → Nat) a + S4096x74.size a ≤ S4096x1266.size a
  h_S4096x74 : 0 < S4096x74.numel
  shapeCasts_S4096x74_S4096x74 : S4096x74.ShapeCasts S4096x74
  inb_S25x1266x50_S1x640x50_11_0_0 : ∀ a, (![11, 0, 0] : Fin 3 → Nat) a + S1x640x50.size a ≤ S25x1266x50.size a
  inb_S25x1x50_S1x1x50_11_0_0 : ∀ a, (![11, 0, 0] : Fin 3 → Nat) a + S1x1x50.size a ≤ S25x1x50.size a
  inb_S4096x1266_S4096x50_0_566 : ∀ a, (![0, 566] : Fin 2 → Nat) a + S4096x50.size a ≤ S4096x1266.size a
  inb_S4096x1266_S4096x24_0_616 : ∀ a, (![0, 616] : Fin 2 → Nat) a + S4096x24.size a ≤ S4096x1266.size a
  h_S4096x24 : 0 < S4096x24.numel
  shapeCasts_S4096x24_S4096x24 : S4096x24.ShapeCasts S4096x24
  inb_S25x1266x50_S1x640x50_12_0_0 : ∀ a, (![12, 0, 0] : Fin 3 → Nat) a + S1x640x50.size a ≤ S25x1266x50.size a
  inb_S25x1x50_S1x1x50_12_0_0 : ∀ a, (![12, 0, 0] : Fin 3 → Nat) a + S1x1x50.size a ≤ S25x1x50.size a
  inb_S4096x1266_S4096x50_0_616 : ∀ a, (![0, 616] : Fin 2 → Nat) a + S4096x50.size a ≤ S4096x1266.size a
  inb_S4096x1266_S4096x102_0_666 : ∀ a, (![0, 666] : Fin 2 → Nat) a + S4096x102.size a ≤ S4096x1266.size a
  h_S4096x102 : 0 < S4096x102.numel
  shapeCasts_S4096x102_S4096x102 : S4096x102.ShapeCasts S4096x102
  inb_S4096x1266_S4096x768_0_0 : ∀ a, (![0, 0] : Fin 2 → Nat) a + S4096x768.size a ≤ S4096x1266.size a
  h_S4096x768 : 0 < S4096x768.numel
  inb_S25x1266x50_S1x768x50_13_0_0 : ∀ a, (![13, 0, 0] : Fin 3 → Nat) a + S1x768x50.size a ≤ S25x1266x50.size a
  h_S1x768x50 : 0 < S1x768x50.numel
  shapeCasts_S1x768x50_S768x50 : S1x768x50.ShapeCasts S768x50
  inb_S25x1x50_S1x1x50_13_0_0 : ∀ a, (![13, 0, 0] : Fin 3 → Nat) a + S1x1x50.size a ≤ S25x1x50.size a
  inb_S4096x1266_S4096x50_0_666 : ∀ a, (![0, 666] : Fin 2 → Nat) a + S4096x50.size a ≤ S4096x1266.size a
  inb_S4096x1266_S4096x52_0_716 : ∀ a, (![0, 716] : Fin 2 → Nat) a + S4096x52.size a ≤ S4096x1266.size a
  h_S4096x52 : 0 < S4096x52.numel
  shapeCasts_S4096x52_S4096x52 : S4096x52.ShapeCasts S4096x52
  inb_S25x1266x50_S1x768x50_14_0_0 : ∀ a, (![14, 0, 0] : Fin 3 → Nat) a + S1x768x50.size a ≤ S25x1266x50.size a
  inb_S25x1x50_S1x1x50_14_0_0 : ∀ a, (![14, 0, 0] : Fin 3 → Nat) a + S1x1x50.size a ≤ S25x1x50.size a
  inb_S4096x1266_S4096x50_0_716 : ∀ a, (![0, 716] : Fin 2 → Nat) a + S4096x50.size a ≤ S4096x1266.size a
  inb_S4096x1266_S4096x2_0_766 : ∀ a, (![0, 766] : Fin 2 → Nat) a + S4096x2.size a ≤ S4096x1266.size a
  h_S4096x2 : 0 < S4096x2.numel
  shapeCasts_S4096x2_S4096x2 : S4096x2.ShapeCasts S4096x2
  inb_S25x1266x50_S1x768x50_15_0_0 : ∀ a, (![15, 0, 0] : Fin 3 → Nat) a + S1x768x50.size a ≤ S25x1266x50.size a
  inb_S25x1x50_S1x1x50_15_0_0 : ∀ a, (![15, 0, 0] : Fin 3 → Nat) a + S1x1x50.size a ≤ S25x1x50.size a
  inb_S4096x1266_S4096x50_0_766 : ∀ a, (![0, 766] : Fin 2 → Nat) a + S4096x50.size a ≤ S4096x1266.size a
  inb_S4096x1266_S4096x80_0_816 : ∀ a, (![0, 816] : Fin 2 → Nat) a + S4096x80.size a ≤ S4096x1266.size a
  h_S4096x80 : 0 < S4096x80.numel
  shapeCasts_S4096x80_S4096x80 : S4096x80.ShapeCasts S4096x80
  inb_S4096x1266_S4096x896_0_0 : ∀ a, (![0, 0] : Fin 2 → Nat) a + S4096x896.size a ≤ S4096x1266.size a
  h_S4096x896 : 0 < S4096x896.numel
  inb_S25x1266x50_S1x896x50_16_0_0 : ∀ a, (![16, 0, 0] : Fin 3 → Nat) a + S1x896x50.size a ≤ S25x1266x50.size a
  h_S1x896x50 : 0 < S1x896x50.numel
  shapeCasts_S1x896x50_S896x50 : S1x896x50.ShapeCasts S896x50
  inb_S25x1x50_S1x1x50_16_0_0 : ∀ a, (![16, 0, 0] : Fin 3 → Nat) a + S1x1x50.size a ≤ S25x1x50.size a
  inb_S4096x1266_S4096x50_0_816 : ∀ a, (![0, 816] : Fin 2 → Nat) a + S4096x50.size a ≤ S4096x1266.size a
  inb_S4096x1266_S4096x30_0_866 : ∀ a, (![0, 866] : Fin 2 → Nat) a + S4096x30.size a ≤ S4096x1266.size a
  h_S4096x30 : 0 < S4096x30.numel
  shapeCasts_S4096x30_S4096x30 : S4096x30.ShapeCasts S4096x30
  inb_S25x1266x50_S1x896x50_17_0_0 : ∀ a, (![17, 0, 0] : Fin 3 → Nat) a + S1x896x50.size a ≤ S25x1266x50.size a
  inb_S25x1x50_S1x1x50_17_0_0 : ∀ a, (![17, 0, 0] : Fin 3 → Nat) a + S1x1x50.size a ≤ S25x1x50.size a
  inb_S4096x1266_S4096x50_0_866 : ∀ a, (![0, 866] : Fin 2 → Nat) a + S4096x50.size a ≤ S4096x1266.size a
  inb_S4096x1266_S4096x108_0_916 : ∀ a, (![0, 916] : Fin 2 → Nat) a + S4096x108.size a ≤ S4096x1266.size a
  h_S4096x108 : 0 < S4096x108.numel
  shapeCasts_S4096x108_S4096x108 : S4096x108.ShapeCasts S4096x108
  inb_S4096x1266_S4096x1024_0_0 : ∀ a, (![0, 0] : Fin 2 → Nat) a + S4096x1024.size a ≤ S4096x1266.size a
  h_S4096x1024 : 0 < S4096x1024.numel
  inb_S25x1266x50_S1x1024x50_18_0_0 : ∀ a, (![18, 0, 0] : Fin 3 → Nat) a + S1x1024x50.size a ≤ S25x1266x50.size a
  h_S1x1024x50 : 0 < S1x1024x50.numel
  shapeCasts_S1x1024x50_S1024x50 : S1x1024x50.ShapeCasts S1024x50
  inb_S25x1x50_S1x1x50_18_0_0 : ∀ a, (![18, 0, 0] : Fin 3 → Nat) a + S1x1x50.size a ≤ S25x1x50.size a
  inb_S4096x1266_S4096x50_0_916 : ∀ a, (![0, 916] : Fin 2 → Nat) a + S4096x50.size a ≤ S4096x1266.size a
  inb_S4096x1266_S4096x58_0_966 : ∀ a, (![0, 966] : Fin 2 → Nat) a + S4096x58.size a ≤ S4096x1266.size a
  h_S4096x58 : 0 < S4096x58.numel
  shapeCasts_S4096x58_S4096x58 : S4096x58.ShapeCasts S4096x58
  inb_S25x1266x50_S1x1024x50_19_0_0 : ∀ a, (![19, 0, 0] : Fin 3 → Nat) a + S1x1024x50.size a ≤ S25x1266x50.size a
  inb_S25x1x50_S1x1x50_19_0_0 : ∀ a, (![19, 0, 0] : Fin 3 → Nat) a + S1x1x50.size a ≤ S25x1x50.size a
  inb_S4096x1266_S4096x50_0_966 : ∀ a, (![0, 966] : Fin 2 → Nat) a + S4096x50.size a ≤ S4096x1266.size a
  inb_S4096x1266_S4096x8_0_1016 : ∀ a, (![0, 1016] : Fin 2 → Nat) a + S4096x8.size a ≤ S4096x1266.size a
  h_S4096x8 : 0 < S4096x8.numel
  shapeCasts_S4096x8_S4096x8 : S4096x8.ShapeCasts S4096x8
  inb_S25x1266x50_S1x1024x50_20_0_0 : ∀ a, (![20, 0, 0] : Fin 3 → Nat) a + S1x1024x50.size a ≤ S25x1266x50.size a
  inb_S25x1x50_S1x1x50_20_0_0 : ∀ a, (![20, 0, 0] : Fin 3 → Nat) a + S1x1x50.size a ≤ S25x1x50.size a
  inb_S4096x1266_S4096x50_0_1016 : ∀ a, (![0, 1016] : Fin 2 → Nat) a + S4096x50.size a ≤ S4096x1266.size a
  inb_S4096x1266_S4096x86_0_1066 : ∀ a, (![0, 1066] : Fin 2 → Nat) a + S4096x86.size a ≤ S4096x1266.size a
  h_S4096x86 : 0 < S4096x86.numel
  shapeCasts_S4096x86_S4096x86 : S4096x86.ShapeCasts S4096x86
  inb_S4096x1266_S4096x1152_0_0 : ∀ a, (![0, 0] : Fin 2 → Nat) a + S4096x1152.size a ≤ S4096x1266.size a
  h_S4096x1152 : 0 < S4096x1152.numel
  inb_S25x1266x50_S1x1152x50_21_0_0 : ∀ a, (![21, 0, 0] : Fin 3 → Nat) a + S1x1152x50.size a ≤ S25x1266x50.size a
  h_S1x1152x50 : 0 < S1x1152x50.numel
  shapeCasts_S1x1152x50_S1152x50 : S1x1152x50.ShapeCasts S1152x50
  inb_S25x1x50_S1x1x50_21_0_0 : ∀ a, (![21, 0, 0] : Fin 3 → Nat) a + S1x1x50.size a ≤ S25x1x50.size a
  inb_S4096x1266_S4096x50_0_1066 : ∀ a, (![0, 1066] : Fin 2 → Nat) a + S4096x50.size a ≤ S4096x1266.size a
  inb_S4096x1266_S4096x36_0_1116 : ∀ a, (![0, 1116] : Fin 2 → Nat) a + S4096x36.size a ≤ S4096x1266.size a
  h_S4096x36 : 0 < S4096x36.numel
  shapeCasts_S4096x36_S4096x36 : S4096x36.ShapeCasts S4096x36
  inb_S25x1266x50_S1x1152x50_22_0_0 : ∀ a, (![22, 0, 0] : Fin 3 → Nat) a + S1x1152x50.size a ≤ S25x1266x50.size a
  inb_S25x1x50_S1x1x50_22_0_0 : ∀ a, (![22, 0, 0] : Fin 3 → Nat) a + S1x1x50.size a ≤ S25x1x50.size a
  inb_S4096x1266_S4096x50_0_1116 : ∀ a, (![0, 1116] : Fin 2 → Nat) a + S4096x50.size a ≤ S4096x1266.size a
  inb_S4096x1266_S4096x100_0_1166 : ∀ a, (![0, 1166] : Fin 2 → Nat) a + S4096x100.size a ≤ S4096x1266.size a
  h_S4096x100 : 0 < S4096x100.numel
  shapeCasts_S4096x100_S4096x100 : S4096x100.ShapeCasts S4096x100
  inb_S4096x1266_S4096x1266_0_0 : ∀ a, (![0, 0] : Fin 2 → Nat) a + S4096x1266.size a ≤ S4096x1266.size a
  h_S4096x1266 : 0 < S4096x1266.numel
  inb_S25x1266x50_S1x1266x50_23_0_0 : ∀ a, (![23, 0, 0] : Fin 3 → Nat) a + S1x1266x50.size a ≤ S25x1266x50.size a
  h_S1x1266x50 : 0 < S1x1266x50.numel
  shapeCasts_S1x1266x50_S1266x50 : S1x1266x50.ShapeCasts S1266x50
  inb_S25x1x50_S1x1x50_23_0_0 : ∀ a, (![23, 0, 0] : Fin 3 → Nat) a + S1x1x50.size a ≤ S25x1x50.size a
  inb_S4096x1266_S4096x50_0_1166 : ∀ a, (![0, 1166] : Fin 2 → Nat) a + S4096x50.size a ≤ S4096x1266.size a
  inb_S4096x1266_S4096x50_0_1216 : ∀ a, (![0, 1216] : Fin 2 → Nat) a + S4096x50.size a ≤ S4096x1266.size a
  inb_S25x1266x50_S1x1266x50_24_0_0 : ∀ a, (![24, 0, 0] : Fin 3 → Nat) a + S1x1266x50.size a ≤ S25x1266x50.size a
  inb_S25x1x50_S1x1x50_24_0_0 : ∀ a, (![24, 0, 0] : Fin 3 → Nat) a + S1x1x50.size a ≤ S25x1x50.size a
  inb_S1266x1_S1266x1_0_0 : ∀ a, (![0, 0] : Fin 2 → Nat) a + S1266x1.size a ≤ S1266x1.size a
  h_S1266x1 : 0 < S1266x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x128_S128x50_S4096x50_1_0_0_1_n_n_wf : DotDims.WF S4096x128 S128x50 S4096x50 [1] [0] [0] [1] [] []
  dot_S4096x256_S256x50_S4096x50_1_0_0_1_n_n_wf : DotDims.WF S4096x256 S256x50 S4096x50 [1] [0] [0] [1] [] []
  dot_S4096x384_S384x50_S4096x50_1_0_0_1_n_n_wf : DotDims.WF S4096x384 S384x50 S4096x50 [1] [0] [0] [1] [] []
  dot_S4096x512_S512x50_S4096x50_1_0_0_1_n_n_wf : DotDims.WF S4096x512 S512x50 S4096x50 [1] [0] [0] [1] [] []
  dot_S4096x640_S640x50_S4096x50_1_0_0_1_n_n_wf : DotDims.WF S4096x640 S640x50 S4096x50 [1] [0] [0] [1] [] []
  dot_S4096x768_S768x50_S4096x50_1_0_0_1_n_n_wf : DotDims.WF S4096x768 S768x50 S4096x50 [1] [0] [0] [1] [] []
  dot_S4096x896_S896x50_S4096x50_1_0_0_1_n_n_wf : DotDims.WF S4096x896 S896x50 S4096x50 [1] [0] [0] [1] [] []
  dot_S4096x1024_S1024x50_S4096x50_1_0_0_1_n_n_wf : DotDims.WF S4096x1024 S1024x50 S4096x50 [1] [0] [0] [1] [] []
  dot_S4096x1152_S1152x50_S4096x50_1_0_0_1_n_n_wf : DotDims.WF S4096x1152 S1152x50 S4096x50 [1] [0] [0] [1] [] []
  dot_S4096x1266_S1266x50_S4096x50_1_0_0_1_n_n_wf : DotDims.WF S4096x1266 S1266x50 S4096x50 [1] [0] [0] [1] [] []
  dot_S4096x1266_S1266x1_S4096x1_1_0_0_1_n_n_wf : DotDims.WF S4096x1266 S1266x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S32768x16.size a
  hwx0_0 : ∀ i : grid0.Coords, EltTy.bits .f32 = 32 ∨ (Rect.block (s := S32768x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x1266x50.size a ≤ S25x1266x50.size a
  hwx0_1 : ∀ i : grid0.Coords, EltTy.bits .f32 = 32 ∨ (Rect.block (s := S25x1266x50) S25x1266x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x1x50.size a ≤ S25x1x50.size a
  hwx0_2 : ∀ i : grid0.Coords, EltTy.bits .f32 = 32 ∨ (Rect.block (s := S25x1x50) S25x1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1266x1.size a ≤ S1266x1.size a
  hwx0_3 : ∀ i : grid0.Coords, EltTy.bits .f32 = 32 ∨ (Rect.block (s := S1266x1) S1266x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S32768x1.size a
  hwx0_5 : ∀ i : grid0.Coords, EltTy.bits .f32 = 32 ∨ (Rect.block (s := S32768x1) S4096x1.size (cc0_transform_5 i) (hinb0_5 i)).WholeWords (EltTy.packing .f32)

variable [Facts₀]

def dot_S4096x128_S128x50_S4096x50_1_0_0_1_n_n : DotDims S4096x128 S128x50 S4096x50 where
  lhsContracting := [1]
  rhsContracting := [0]
  lhsNonContracting := [0]
  rhsNonContracting := [1]
  lhsBatch := []
  rhsBatch := []
  wf := dot_S4096x128_S128x50_S4096x50_1_0_0_1_n_n_wf
def dot_S4096x256_S256x50_S4096x50_1_0_0_1_n_n : DotDims S4096x256 S256x50 S4096x50 where
  lhsContracting := [1]
  rhsContracting := [0]
  lhsNonContracting := [0]
  rhsNonContracting := [1]
  lhsBatch := []
  rhsBatch := []
  wf := dot_S4096x256_S256x50_S4096x50_1_0_0_1_n_n_wf
def dot_S4096x384_S384x50_S4096x50_1_0_0_1_n_n : DotDims S4096x384 S384x50 S4096x50 where
  lhsContracting := [1]
  rhsContracting := [0]
  lhsNonContracting := [0]
  rhsNonContracting := [1]
  lhsBatch := []
  rhsBatch := []
  wf := dot_S4096x384_S384x50_S4096x50_1_0_0_1_n_n_wf
def dot_S4096x512_S512x50_S4096x50_1_0_0_1_n_n : DotDims S4096x512 S512x50 S4096x50 where
  lhsContracting := [1]
  rhsContracting := [0]
  lhsNonContracting := [0]
  rhsNonContracting := [1]
  lhsBatch := []
  rhsBatch := []
  wf := dot_S4096x512_S512x50_S4096x50_1_0_0_1_n_n_wf
def dot_S4096x640_S640x50_S4096x50_1_0_0_1_n_n : DotDims S4096x640 S640x50 S4096x50 where
  lhsContracting := [1]
  rhsContracting := [0]
  lhsNonContracting := [0]
  rhsNonContracting := [1]
  lhsBatch := []
  rhsBatch := []
  wf := dot_S4096x640_S640x50_S4096x50_1_0_0_1_n_n_wf
def dot_S4096x768_S768x50_S4096x50_1_0_0_1_n_n : DotDims S4096x768 S768x50 S4096x50 where
  lhsContracting := [1]
  rhsContracting := [0]
  lhsNonContracting := [0]
  rhsNonContracting := [1]
  lhsBatch := []
  rhsBatch := []
  wf := dot_S4096x768_S768x50_S4096x50_1_0_0_1_n_n_wf
def dot_S4096x896_S896x50_S4096x50_1_0_0_1_n_n : DotDims S4096x896 S896x50 S4096x50 where
  lhsContracting := [1]
  rhsContracting := [0]
  lhsNonContracting := [0]
  rhsNonContracting := [1]
  lhsBatch := []
  rhsBatch := []
  wf := dot_S4096x896_S896x50_S4096x50_1_0_0_1_n_n_wf
def dot_S4096x1024_S1024x50_S4096x50_1_0_0_1_n_n : DotDims S4096x1024 S1024x50 S4096x50 where
  lhsContracting := [1]
  rhsContracting := [0]
  lhsNonContracting := [0]
  rhsNonContracting := [1]
  lhsBatch := []
  rhsBatch := []
  wf := dot_S4096x1024_S1024x50_S4096x50_1_0_0_1_n_n_wf
def dot_S4096x1152_S1152x50_S4096x50_1_0_0_1_n_n : DotDims S4096x1152 S1152x50 S4096x50 where
  lhsContracting := [1]
  rhsContracting := [0]
  lhsNonContracting := [0]
  rhsNonContracting := [1]
  lhsBatch := []
  rhsBatch := []
  wf := dot_S4096x1152_S1152x50_S4096x50_1_0_0_1_n_n_wf
def dot_S4096x1266_S1266x50_S4096x50_1_0_0_1_n_n : DotDims S4096x1266 S1266x50 S4096x50 where
  lhsContracting := [1]
  rhsContracting := [0]
  lhsNonContracting := [0]
  rhsNonContracting := [1]
  lhsBatch := []
  rhsBatch := []
  wf := dot_S4096x1266_S1266x50_S4096x50_1_0_0_1_n_n_wf
def dot_S4096x1266_S1266x1_S4096x1_1_0_0_1_n_n : DotDims S4096x1266 S1266x1 S4096x1 where
  lhsContracting := [1]
  rhsContracting := [0]
  lhsNonContracting := [0]
  rhsNonContracting := [1]
  lhsBatch := []
  rhsBatch := []
  wf := dot_S4096x1266_S1266x1_S4096x1_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25x1266x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S25x1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1266x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x16 : Shape := ⟨2, ![32768, 16]⟩
abbrev S25x50x1266 : Shape := ⟨3, ![25, 50, 1266]⟩
abbrev S25x50 : Shape := ⟨2, ![25, 50]⟩
abbrev S1266x1 : Shape := ⟨2, ![1266, 1]⟩
abbrev S1 : Shape := ⟨1, ![1]⟩
abbrev S1x50x16 : Shape := ⟨3, ![1, 50, 16]⟩
abbrev S50x16 : Shape := ⟨2, ![50, 16]⟩
abbrev S16x50 : Shape := ⟨2, ![16, 50]⟩
abbrev S32768x50 : Shape := ⟨2, ![32768, 50]⟩
abbrev S1x50 : Shape := ⟨2, ![1, 50]⟩
abbrev S50 : Shape := ⟨1, ![50]⟩
abbrev S_ : Shape := ⟨0, ![]⟩
abbrev S32768x66 : Shape := ⟨2, ![32768, 66]⟩
abbrev S1x50x66 : Shape := ⟨3, ![1, 50, 66]⟩
abbrev S50x66 : Shape := ⟨2, ![50, 66]⟩
abbrev S66x50 : Shape := ⟨2, ![66, 50]⟩
abbrev S32768x116 : Shape := ⟨2, ![32768, 116]⟩
abbrev S1x50x116 : Shape := ⟨3, ![1, 50, 116]⟩
abbrev S50x116 : Shape := ⟨2, ![50, 116]⟩
abbrev S116x50 : Shape := ⟨2, ![116, 50]⟩
abbrev S32768x166 : Shape := ⟨2, ![32768, 166]⟩
abbrev S1x50x166 : Shape := ⟨3, ![1, 50, 166]⟩
abbrev S50x166 : Shape := ⟨2, ![50, 166]⟩
abbrev S166x50 : Shape := ⟨2, ![166, 50]⟩
abbrev S32768x216 : Shape := ⟨2, ![32768, 216]⟩
abbrev S1x50x216 : Shape := ⟨3, ![1, 50, 216]⟩
abbrev S50x216 : Shape := ⟨2, ![50, 216]⟩
abbrev S216x50 : Shape := ⟨2, ![216, 50]⟩
abbrev S32768x266 : Shape := ⟨2, ![32768, 266]⟩
abbrev S1x50x266 : Shape := ⟨3, ![1, 50, 266]⟩
abbrev S50x266 : Shape := ⟨2, ![50, 266]⟩
abbrev S266x50 : Shape := ⟨2, ![266, 50]⟩
abbrev S32768x316 : Shape := ⟨2, ![32768, 316]⟩
abbrev S1x50x316 : Shape := ⟨3, ![1, 50, 316]⟩
abbrev S50x316 : Shape := ⟨2, ![50, 316]⟩
abbrev S316x50 : Shape := ⟨2, ![316, 50]⟩
abbrev S32768x366 : Shape := ⟨2, ![32768, 366]⟩
abbrev S1x50x366 : Shape := ⟨3, ![1, 50, 366]⟩
abbrev S50x366 : Shape := ⟨2, ![50, 366]⟩
abbrev S366x50 : Shape := ⟨2, ![366, 50]⟩
abbrev S32768x416 : Shape := ⟨2, ![32768, 416]⟩
abbrev S1x50x416 : Shape := ⟨3, ![1, 50, 416]⟩
abbrev S50x416 : Shape := ⟨2, ![50, 416]⟩
abbrev S416x50 : Shape := ⟨2, ![416, 50]⟩
abbrev S32768x466 : Shape := ⟨2, ![32768, 466]⟩
abbrev S1x50x466 : Shape := ⟨3, ![1, 50, 466]⟩
abbrev S50x466 : Shape := ⟨2, ![50, 466]⟩
abbrev S466x50 : Shape := ⟨2, ![466, 50]⟩
abbrev S32768x516 : Shape := ⟨2, ![32768, 516]⟩
abbrev S1x50x516 : Shape := ⟨3, ![1, 50, 516]⟩
abbrev S50x516 : Shape := ⟨2, ![50, 516]⟩
abbrev S516x50 : Shape := ⟨2, ![516, 50]⟩
abbrev S32768x566 : Shape := ⟨2, ![32768, 566]⟩
abbrev S1x50x566 : Shape := ⟨3, ![1, 50, 566]⟩
abbrev S50x566 : Shape := ⟨2, ![50, 566]⟩
abbrev S566x50 : Shape := ⟨2, ![566, 50]⟩
abbrev S32768x616 : Shape := ⟨2, ![32768, 616]⟩
abbrev S1x50x616 : Shape := ⟨3, ![1, 50, 616]⟩
abbrev S50x616 : Shape := ⟨2, ![50, 616]⟩
abbrev S616x50 : Shape := ⟨2, ![616, 50]⟩
abbrev S32768x666 : Shape := ⟨2, ![32768, 666]⟩
abbrev S1x50x666 : Shape := ⟨3, ![1, 50, 666]⟩
abbrev S50x666 : Shape := ⟨2, ![50, 666]⟩
abbrev S666x50 : Shape := ⟨2, ![666, 50]⟩
abbrev S32768x716 : Shape := ⟨2, ![32768, 716]⟩
abbrev S1x50x716 : Shape := ⟨3, ![1, 50, 716]⟩
abbrev S50x716 : Shape := ⟨2, ![50, 716]⟩
abbrev S716x50 : Shape := ⟨2, ![716, 50]⟩
abbrev S32768x766 : Shape := ⟨2, ![32768, 766]⟩
abbrev S1x50x766 : Shape := ⟨3, ![1, 50, 766]⟩
abbrev S50x766 : Shape := ⟨2, ![50, 766]⟩
abbrev S766x50 : Shape := ⟨2, ![766, 50]⟩
abbrev S32768x816 : Shape := ⟨2, ![32768, 816]⟩
abbrev S1x50x816 : Shape := ⟨3, ![1, 50, 816]⟩
abbrev S50x816 : Shape := ⟨2, ![50, 816]⟩
abbrev S816x50 : Shape := ⟨2, ![816, 50]⟩
abbrev S32768x866 : Shape := ⟨2, ![32768, 866]⟩
abbrev S1x50x866 : Shape := ⟨3, ![1, 50, 866]⟩
abbrev S50x866 : Shape := ⟨2, ![50, 866]⟩
abbrev S866x50 : Shape := ⟨2, ![866, 50]⟩
abbrev S32768x916 : Shape := ⟨2, ![32768, 916]⟩
abbrev S1x50x916 : Shape := ⟨3, ![1, 50, 916]⟩
abbrev S50x916 : Shape := ⟨2, ![50, 916]⟩
abbrev S916x50 : Shape := ⟨2, ![916, 50]⟩
abbrev S32768x966 : Shape := ⟨2, ![32768, 966]⟩
abbrev S1x50x966 : Shape := ⟨3, ![1, 50, 966]⟩
abbrev S50x966 : Shape := ⟨2, ![50, 966]⟩
abbrev S966x50 : Shape := ⟨2, ![966, 50]⟩
abbrev S32768x1016 : Shape := ⟨2, ![32768, 1016]⟩
abbrev S1x50x1016 : Shape := ⟨3, ![1, 50, 1016]⟩
abbrev S50x1016 : Shape := ⟨2, ![50, 1016]⟩
abbrev S1016x50 : Shape := ⟨2, ![1016, 50]⟩
abbrev S32768x1066 : Shape := ⟨2, ![32768, 1066]⟩
abbrev S1x50x1066 : Shape := ⟨3, ![1, 50, 1066]⟩
abbrev S50x1066 : Shape := ⟨2, ![50, 1066]⟩
abbrev S1066x50 : Shape := ⟨2, ![1066, 50]⟩
abbrev S32768x1116 : Shape := ⟨2, ![32768, 1116]⟩
abbrev S1x50x1116 : Shape := ⟨3, ![1, 50, 1116]⟩
abbrev S50x1116 : Shape := ⟨2, ![50, 1116]⟩
abbrev S1116x50 : Shape := ⟨2, ![1116, 50]⟩
abbrev S32768x1166 : Shape := ⟨2, ![32768, 1166]⟩
abbrev S1x50x1166 : Shape := ⟨3, ![1, 50, 1166]⟩
abbrev S50x1166 : Shape := ⟨2, ![50, 1166]⟩
abbrev S1166x50 : Shape := ⟨2, ![1166, 50]⟩
abbrev S32768x1216 : Shape := ⟨2, ![32768, 1216]⟩
abbrev S1x50x1216 : Shape := ⟨3, ![1, 50, 1216]⟩
abbrev S50x1216 : Shape := ⟨2, ![50, 1216]⟩
abbrev S1216x50 : Shape := ⟨2, ![1216, 50]⟩
abbrev S32768x1266 : Shape := ⟨2, ![32768, 1266]⟩
abbrev S32768x1 : Shape := ⟨2, ![32768, 1]⟩
abbrev S1x1 : Shape := ⟨2, ![1, 1]⟩

abbrev nBuf : Space → Nat
  | .hbm => 459
  | .vmem => 0
  | .smem => 0
  | _ => 0

abbrev hbmTy0_0 (i : Nat) : BufTy := match i % 128 with
  | 0 => ⟨S32768x16, .f32⟩
  | 1 => ⟨S25x50x1266, .f32⟩
  | 2 => ⟨S25x50, .f32⟩
  | 3 => ⟨S1266x1, .f32⟩
  | 4 => ⟨S1, .f32⟩
  | 5 => ⟨S1x50x16, .f32⟩
  | 6 => ⟨S50x16, .f32⟩
  | 7 => ⟨S16x50, .f32⟩
  | 8 => ⟨S32768x50, .f32⟩
  | 9 => ⟨S1x50, .f32⟩
  | 10 => ⟨S50, .f32⟩
  | 11 => ⟨S1x50, .f32⟩
  | 12 => ⟨S32768x50, .f32⟩
  | 13 => ⟨S32768x50, .f32⟩
  | 14 => ⟨S_, .f32⟩
  | 15 => ⟨S_, .f32⟩
  | 16 => ⟨S32768x50, .f32⟩
  | 17 => ⟨S32768x50, .i1⟩
  | 18 => ⟨S_, .f32⟩
  | 19 => ⟨S32768x50, .f32⟩
  | 20 => ⟨S32768x50, .f32⟩
  | 21 => ⟨S32768x50, .f32⟩
  | 22 => ⟨S32768x66, .f32⟩
  | 23 => ⟨S1x50x66, .f32⟩
  | 24 => ⟨S50x66, .f32⟩
  | 25 => ⟨S66x50, .f32⟩
  | 26 => ⟨S32768x50, .f32⟩
  | 27 => ⟨S1x50, .f32⟩
  | 28 => ⟨S50, .f32⟩
  | 29 => ⟨S1x50, .f32⟩
  | 30 => ⟨S32768x50, .f32⟩
  | 31 => ⟨S32768x50, .f32⟩
  | 32 => ⟨S_, .f32⟩
  | 33 => ⟨S_, .f32⟩
  | 34 => ⟨S32768x50, .f32⟩
  | 35 => ⟨S32768x50, .i1⟩
  | 36 => ⟨S_, .f32⟩
  | 37 => ⟨S32768x50, .f32⟩
  | 38 => ⟨S32768x50, .f32⟩
  | 39 => ⟨S32768x50, .f32⟩
  | 40 => ⟨S32768x116, .f32⟩
  | 41 => ⟨S1x50x116, .f32⟩
  | 42 => ⟨S50x116, .f32⟩
  | 43 => ⟨S116x50, .f32⟩
  | 44 => ⟨S32768x50, .f32⟩
  | 45 => ⟨S1x50, .f32⟩
  | 46 => ⟨S50, .f32⟩
  | 47 => ⟨S1x50, .f32⟩
  | 48 => ⟨S32768x50, .f32⟩
  | 49 => ⟨S32768x50, .f32⟩
  | 50 => ⟨S_, .f32⟩
  | 51 => ⟨S_, .f32⟩
  | 52 => ⟨S32768x50, .f32⟩
  | 53 => ⟨S32768x50, .i1⟩
  | 54 => ⟨S_, .f32⟩
  | 55 => ⟨S32768x50, .f32⟩
  | 56 => ⟨S32768x50, .f32⟩
  | 57 => ⟨S32768x50, .f32⟩
  | 58 => ⟨S32768x166, .f32⟩
  | 59 => ⟨S1x50x166, .f32⟩
  | 60 => ⟨S50x166, .f32⟩
  | 61 => ⟨S166x50, .f32⟩
  | 62 => ⟨S32768x50, .f32⟩
  | 63 => ⟨S1x50, .f32⟩
  | 64 => ⟨S50, .f32⟩
  | 65 => ⟨S1x50, .f32⟩
  | 66 => ⟨S32768x50, .f32⟩
  | 67 => ⟨S32768x50, .f32⟩
  | 68 => ⟨S_, .f32⟩
  | 69 => ⟨S_, .f32⟩
  | 70 => ⟨S32768x50, .f32⟩
  | 71 => ⟨S32768x50, .i1⟩
  | 72 => ⟨S_, .f32⟩
  | 73 => ⟨S32768x50, .f32⟩
  | 74 => ⟨S32768x50, .f32⟩
  | 75 => ⟨S32768x50, .f32⟩
  | 76 => ⟨S32768x216, .f32⟩
  | 77 => ⟨S1x50x216, .f32⟩
  | 78 => ⟨S50x216, .f32⟩
  | 79 => ⟨S216x50, .f32⟩
  | 80 => ⟨S32768x50, .f32⟩
  | 81 => ⟨S1x50, .f32⟩
  | 82 => ⟨S50, .f32⟩
  | 83 => ⟨S1x50, .f32⟩
  | 84 => ⟨S32768x50, .f32⟩
  | 85 => ⟨S32768x50, .f32⟩
  | 86 => ⟨S_, .f32⟩
  | 87 => ⟨S_, .f32⟩
  | 88 => ⟨S32768x50, .f32⟩
  | 89 => ⟨S32768x50, .i1⟩
  | 90 => ⟨S_, .f32⟩
  | 91 => ⟨S32768x50, .f32⟩
  | 92 => ⟨S32768x50, .f32⟩
  | 93 => ⟨S32768x50, .f32⟩
  | 94 => ⟨S32768x266, .f32⟩
  | 95 => ⟨S1x50x266, .f32⟩
  | 96 => ⟨S50x266, .f32⟩
  | 97 => ⟨S266x50, .f32⟩
  | 98 => ⟨S32768x50, .f32⟩
  | 99 => ⟨S1x50, .f32⟩
  | 100 => ⟨S50, .f32⟩
  | 101 => ⟨S1x50, .f32⟩
  | 102 => ⟨S32768x50, .f32⟩
  | 103 => ⟨S32768x50, .f32⟩
  | 104 => ⟨S_, .f32⟩
  | 105 => ⟨S_, .f32⟩
  | 106 => ⟨S32768x50, .f32⟩
  | 107 => ⟨S32768x50, .i1⟩
  | 108 => ⟨S_, .f32⟩
  | 109 => ⟨S32768x50, .f32⟩
  | 110 => ⟨S32768x50, .f32⟩
  | 111 => ⟨S32768x50, .f32⟩
  | 112 => ⟨S32768x316, .f32⟩
  | 113 => ⟨S1x50x316, .f32⟩
  | 114 => ⟨S50x316, .f32⟩
  | 115 => ⟨S316x50, .f32⟩
  | 116 => ⟨S32768x50, .f32⟩
  | 117 => ⟨S1x50, .f32⟩
  | 118 => ⟨S50, .f32⟩
  | 119 => ⟨S1x50, .f32⟩
  | 120 => ⟨S32768x50, .f32⟩
  | 121 => ⟨S32768x50, .f32⟩
  | 122 => ⟨S_, .f32⟩
  | 123 => ⟨S_, .f32⟩
  | 124 => ⟨S32768x50, .f32⟩
  | 125 => ⟨S32768x50, .i1⟩
  | 126 => ⟨S_, .f32⟩
  | 127 => ⟨S32768x50, .f32⟩
  | _ => ⟨S32768x16, .f32⟩

abbrev hbmTy0_1 (i : Nat) : BufTy := match i % 128 with
  | 0 => ⟨S32768x50, .f32⟩
  | 1 => ⟨S32768x50, .f32⟩
  | 2 => ⟨S32768x366, .f32⟩
  | 3 => ⟨S1x50x366, .f32⟩
  | 4 => ⟨S50x366, .f32⟩
  | 5 => ⟨S366x50, .f32⟩
  | 6 => ⟨S32768x50, .f32⟩
  | 7 => ⟨S1x50, .f32⟩
  | 8 => ⟨S50, .f32⟩
  | 9 => ⟨S1x50, .f32⟩
  | 10 => ⟨S32768x50, .f32⟩
  | 11 => ⟨S32768x50, .f32⟩
  | 12 => ⟨S_, .f32⟩
  | 13 => ⟨S_, .f32⟩
  | 14 => ⟨S32768x50, .f32⟩
  | 15 => ⟨S32768x50, .i1⟩
  | 16 => ⟨S_, .f32⟩
  | 17 => ⟨S32768x50, .f32⟩
  | 18 => ⟨S32768x50, .f32⟩
  | 19 => ⟨S32768x50, .f32⟩
  | 20 => ⟨S32768x416, .f32⟩
  | 21 => ⟨S1x50x416, .f32⟩
  | 22 => ⟨S50x416, .f32⟩
  | 23 => ⟨S416x50, .f32⟩
  | 24 => ⟨S32768x50, .f32⟩
  | 25 => ⟨S1x50, .f32⟩
  | 26 => ⟨S50, .f32⟩
  | 27 => ⟨S1x50, .f32⟩
  | 28 => ⟨S32768x50, .f32⟩
  | 29 => ⟨S32768x50, .f32⟩
  | 30 => ⟨S_, .f32⟩
  | 31 => ⟨S_, .f32⟩
  | 32 => ⟨S32768x50, .f32⟩
  | 33 => ⟨S32768x50, .i1⟩
  | 34 => ⟨S_, .f32⟩
  | 35 => ⟨S32768x50, .f32⟩
  | 36 => ⟨S32768x50, .f32⟩
  | 37 => ⟨S32768x50, .f32⟩
  | 38 => ⟨S32768x466, .f32⟩
  | 39 => ⟨S1x50x466, .f32⟩
  | 40 => ⟨S50x466, .f32⟩
  | 41 => ⟨S466x50, .f32⟩
  | 42 => ⟨S32768x50, .f32⟩
  | 43 => ⟨S1x50, .f32⟩
  | 44 => ⟨S50, .f32⟩
  | 45 => ⟨S1x50, .f32⟩
  | 46 => ⟨S32768x50, .f32⟩
  | 47 => ⟨S32768x50, .f32⟩
  | 48 => ⟨S_, .f32⟩
  | 49 => ⟨S_, .f32⟩
  | 50 => ⟨S32768x50, .f32⟩
  | 51 => ⟨S32768x50, .i1⟩
  | 52 => ⟨S_, .f32⟩
  | 53 => ⟨S32768x50, .f32⟩
  | 54 => ⟨S32768x50, .f32⟩
  | 55 => ⟨S32768x50, .f32⟩
  | 56 => ⟨S32768x516, .f32⟩
  | 57 => ⟨S1x50x516, .f32⟩
  | 58 => ⟨S50x516, .f32⟩
  | 59 => ⟨S516x50, .f32⟩
  | 60 => ⟨S32768x50, .f32⟩
  | 61 => ⟨S1x50, .f32⟩
  | 62 => ⟨S50, .f32⟩
  | 63 => ⟨S1x50, .f32⟩
  | 64 => ⟨S32768x50, .f32⟩
  | 65 => ⟨S32768x50, .f32⟩
  | 66 => ⟨S_, .f32⟩
  | 67 => ⟨S_, .f32⟩
  | 68 => ⟨S32768x50, .f32⟩
  | 69 => ⟨S32768x50, .i1⟩
  | 70 => ⟨S_, .f32⟩
  | 71 => ⟨S32768x50, .f32⟩
  | 72 => ⟨S32768x50, .f32⟩
  | 73 => ⟨S32768x50, .f32⟩
  | 74 => ⟨S32768x566, .f32⟩
  | 75 => ⟨S1x50x566, .f32⟩
  | 76 => ⟨S50x566, .f32⟩
  | 77 => ⟨S566x50, .f32⟩
  | 78 => ⟨S32768x50, .f32⟩
  | 79 => ⟨S1x50, .f32⟩
  | 80 => ⟨S50, .f32⟩
  | 81 => ⟨S1x50, .f32⟩
  | 82 => ⟨S32768x50, .f32⟩
  | 83 => ⟨S32768x50, .f32⟩
  | 84 => ⟨S_, .f32⟩
  | 85 => ⟨S_, .f32⟩
  | 86 => ⟨S32768x50, .f32⟩
  | 87 => ⟨S32768x50, .i1⟩
  | 88 => ⟨S_, .f32⟩
  | 89 => ⟨S32768x50, .f32⟩
  | 90 => ⟨S32768x50, .f32⟩
  | 91 => ⟨S32768x50, .f32⟩
  | 92 => ⟨S32768x616, .f32⟩
  | 93 => ⟨S1x50x616, .f32⟩
  | 94 => ⟨S50x616, .f32⟩
  | 95 => ⟨S616x50, .f32⟩
  | 96 => ⟨S32768x50, .f32⟩
  | 97 => ⟨S1x50, .f32⟩
  | 98 => ⟨S50, .f32⟩
  | 99 => ⟨S1x50, .f32⟩
  | 100 => ⟨S32768x50, .f32⟩
  | 101 => ⟨S32768x50, .f32⟩
  | 102 => ⟨S_, .f32⟩
  | 103 => ⟨S_, .f32⟩
  | 104 => ⟨S32768x50, .f32⟩
  | 105 => ⟨S32768x50, .i1⟩
  | 106 => ⟨S_, .f32⟩
  | 107 => ⟨S32768x50, .f32⟩
  | 108 => ⟨S32768x50, .f32⟩
  | 109 => ⟨S32768x50, .f32⟩
  | 110 => ⟨S32768x666, .f32⟩
  | 111 => ⟨S1x50x666, .f32⟩
  | 112 => ⟨S50x666, .f32⟩
  | 113 => ⟨S666x50, .f32⟩
  | 114 => ⟨S32768x50, .f32⟩
  | 115 => ⟨S1x50, .f32⟩
  | 116 => ⟨S50, .f32⟩
  | 117 => ⟨S1x50, .f32⟩
  | 118 => ⟨S32768x50, .f32⟩
  | 119 => ⟨S32768x50, .f32⟩
  | 120 => ⟨S_, .f32⟩
  | 121 => ⟨S_, .f32⟩
  | 122 => ⟨S32768x50, .f32⟩
  | 123 => ⟨S32768x50, .i1⟩
  | 124 => ⟨S_, .f32⟩
  | 125 => ⟨S32768x50, .f32⟩
  | 126 => ⟨S32768x50, .f32⟩
  | 127 => ⟨S32768x50, .f32⟩
  | _ => ⟨S32768x16, .f32⟩

abbrev hbmTy0_2 (i : Nat) : BufTy := match i % 128 with
  | 0 => ⟨S32768x716, .f32⟩
  | 1 => ⟨S1x50x716, .f32⟩
  | 2 => ⟨S50x716, .f32⟩
  | 3 => ⟨S716x50, .f32⟩
  | 4 => ⟨S32768x50, .f32⟩
  | 5 => ⟨S1x50, .f32⟩
  | 6 => ⟨S50, .f32⟩
  | 7 => ⟨S1x50, .f32⟩
  | 8 => ⟨S32768x50, .f32⟩
  | 9 => ⟨S32768x50, .f32⟩
  | 10 => ⟨S_, .f32⟩
  | 11 => ⟨S_, .f32⟩
  | 12 => ⟨S32768x50, .f32⟩
  | 13 => ⟨S32768x50, .i1⟩
  | 14 => ⟨S_, .f32⟩
  | 15 => ⟨S32768x50, .f32⟩
  | 16 => ⟨S32768x50, .f32⟩
  | 17 => ⟨S32768x50, .f32⟩
  | 18 => ⟨S32768x766, .f32⟩
  | 19 => ⟨S1x50x766, .f32⟩
  | 20 => ⟨S50x766, .f32⟩
  | 21 => ⟨S766x50, .f32⟩
  | 22 => ⟨S32768x50, .f32⟩
  | 23 => ⟨S1x50, .f32⟩
  | 24 => ⟨S50, .f32⟩
  | 25 => ⟨S1x50, .f32⟩
  | 26 => ⟨S32768x50, .f32⟩
  | 27 => ⟨S32768x50, .f32⟩
  | 28 => ⟨S_, .f32⟩
  | 29 => ⟨S_, .f32⟩
  | 30 => ⟨S32768x50, .f32⟩
  | 31 => ⟨S32768x50, .i1⟩
  | 32 => ⟨S_, .f32⟩
  | 33 => ⟨S32768x50, .f32⟩
  | 34 => ⟨S32768x50, .f32⟩
  | 35 => ⟨S32768x50, .f32⟩
  | 36 => ⟨S32768x816, .f32⟩
  | 37 => ⟨S1x50x816, .f32⟩
  | 38 => ⟨S50x816, .f32⟩
  | 39 => ⟨S816x50, .f32⟩
  | 40 => ⟨S32768x50, .f32⟩
  | 41 => ⟨S1x50, .f32⟩
  | 42 => ⟨S50, .f32⟩
  | 43 => ⟨S1x50, .f32⟩
  | 44 => ⟨S32768x50, .f32⟩
  | 45 => ⟨S32768x50, .f32⟩
  | 46 => ⟨S_, .f32⟩
  | 47 => ⟨S_, .f32⟩
  | 48 => ⟨S32768x50, .f32⟩
  | 49 => ⟨S32768x50, .i1⟩
  | 50 => ⟨S_, .f32⟩
  | 51 => ⟨S32768x50, .f32⟩
  | 52 => ⟨S32768x50, .f32⟩
  | 53 => ⟨S32768x50, .f32⟩
  | 54 => ⟨S32768x866, .f32⟩
  | 55 => ⟨S1x50x866, .f32⟩
  | 56 => ⟨S50x866, .f32⟩
  | 57 => ⟨S866x50, .f32⟩
  | 58 => ⟨S32768x50, .f32⟩
  | 59 => ⟨S1x50, .f32⟩
  | 60 => ⟨S50, .f32⟩
  | 61 => ⟨S1x50, .f32⟩
  | 62 => ⟨S32768x50, .f32⟩
  | 63 => ⟨S32768x50, .f32⟩
  | 64 => ⟨S_, .f32⟩
  | 65 => ⟨S_, .f32⟩
  | 66 => ⟨S32768x50, .f32⟩
  | 67 => ⟨S32768x50, .i1⟩
  | 68 => ⟨S_, .f32⟩
  | 69 => ⟨S32768x50, .f32⟩
  | 70 => ⟨S32768x50, .f32⟩
  | 71 => ⟨S32768x50, .f32⟩
  | 72 => ⟨S32768x916, .f32⟩
  | 73 => ⟨S1x50x916, .f32⟩
  | 74 => ⟨S50x916, .f32⟩
  | 75 => ⟨S916x50, .f32⟩
  | 76 => ⟨S32768x50, .f32⟩
  | 77 => ⟨S1x50, .f32⟩
  | 78 => ⟨S50, .f32⟩
  | 79 => ⟨S1x50, .f32⟩
  | 80 => ⟨S32768x50, .f32⟩
  | 81 => ⟨S32768x50, .f32⟩
  | 82 => ⟨S_, .f32⟩
  | 83 => ⟨S_, .f32⟩
  | 84 => ⟨S32768x50, .f32⟩
  | 85 => ⟨S32768x50, .i1⟩
  | 86 => ⟨S_, .f32⟩
  | 87 => ⟨S32768x50, .f32⟩
  | 88 => ⟨S32768x50, .f32⟩
  | 89 => ⟨S32768x50, .f32⟩
  | 90 => ⟨S32768x966, .f32⟩
  | 91 => ⟨S1x50x966, .f32⟩
  | 92 => ⟨S50x966, .f32⟩
  | 93 => ⟨S966x50, .f32⟩
  | 94 => ⟨S32768x50, .f32⟩
  | 95 => ⟨S1x50, .f32⟩
  | 96 => ⟨S50, .f32⟩
  | 97 => ⟨S1x50, .f32⟩
  | 98 => ⟨S32768x50, .f32⟩
  | 99 => ⟨S32768x50, .f32⟩
  | 100 => ⟨S_, .f32⟩
  | 101 => ⟨S_, .f32⟩
  | 102 => ⟨S32768x50, .f32⟩
  | 103 => ⟨S32768x50, .i1⟩
  | 104 => ⟨S_, .f32⟩
  | 105 => ⟨S32768x50, .f32⟩
  | 106 => ⟨S32768x50, .f32⟩
  | 107 => ⟨S32768x50, .f32⟩
  | 108 => ⟨S32768x1016, .f32⟩
  | 109 => ⟨S1x50x1016, .f32⟩
  | 110 => ⟨S50x1016, .f32⟩
  | 111 => ⟨S1016x50, .f32⟩
  | 112 => ⟨S32768x50, .f32⟩
  | 113 => ⟨S1x50, .f32⟩
  | 114 => ⟨S50, .f32⟩
  | 115 => ⟨S1x50, .f32⟩
  | 116 => ⟨S32768x50, .f32⟩
  | 117 => ⟨S32768x50, .f32⟩
  | 118 => ⟨S_, .f32⟩
  | 119 => ⟨S_, .f32⟩
  | 120 => ⟨S32768x50, .f32⟩
  | 121 => ⟨S32768x50, .i1⟩
  | 122 => ⟨S_, .f32⟩
  | 123 => ⟨S32768x50, .f32⟩
  | 124 => ⟨S32768x50, .f32⟩
  | 125 => ⟨S32768x50, .f32⟩
  | 126 => ⟨S32768x1066, .f32⟩
  | 127 => ⟨S1x50x1066, .f32⟩
  | _ => ⟨S32768x16, .f32⟩

abbrev hbmTy0_3 (i : Nat) : BufTy := match i % 128 with
  | 0 => ⟨S50x1066, .f32⟩
  | 1 => ⟨S1066x50, .f32⟩
  | 2 => ⟨S32768x50, .f32⟩
  | 3 => ⟨S1x50, .f32⟩
  | 4 => ⟨S50, .f32⟩
  | 5 => ⟨S1x50, .f32⟩
  | 6 => ⟨S32768x50, .f32⟩
  | 7 => ⟨S32768x50, .f32⟩
  | 8 => ⟨S_, .f32⟩
  | 9 => ⟨S_, .f32⟩
  | 10 => ⟨S32768x50, .f32⟩
  | 11 => ⟨S32768x50, .i1⟩
  | 12 => ⟨S_, .f32⟩
  | 13 => ⟨S32768x50, .f32⟩
  | 14 => ⟨S32768x50, .f32⟩
  | 15 => ⟨S32768x50, .f32⟩
  | 16 => ⟨S32768x1116, .f32⟩
  | 17 => ⟨S1x50x1116, .f32⟩
  | 18 => ⟨S50x1116, .f32⟩
  | 19 => ⟨S1116x50, .f32⟩
  | 20 => ⟨S32768x50, .f32⟩
  | 21 => ⟨S1x50, .f32⟩
  | 22 => ⟨S50, .f32⟩
  | 23 => ⟨S1x50, .f32⟩
  | 24 => ⟨S32768x50, .f32⟩
  | 25 => ⟨S32768x50, .f32⟩
  | 26 => ⟨S_, .f32⟩
  | 27 => ⟨S_, .f32⟩
  | 28 => ⟨S32768x50, .f32⟩
  | 29 => ⟨S32768x50, .i1⟩
  | 30 => ⟨S_, .f32⟩
  | 31 => ⟨S32768x50, .f32⟩
  | 32 => ⟨S32768x50, .f32⟩
  | 33 => ⟨S32768x50, .f32⟩
  | 34 => ⟨S32768x1166, .f32⟩
  | 35 => ⟨S1x50x1166, .f32⟩
  | 36 => ⟨S50x1166, .f32⟩
  | 37 => ⟨S1166x50, .f32⟩
  | 38 => ⟨S32768x50, .f32⟩
  | 39 => ⟨S1x50, .f32⟩
  | 40 => ⟨S50, .f32⟩
  | 41 => ⟨S1x50, .f32⟩
  | 42 => ⟨S32768x50, .f32⟩
  | 43 => ⟨S32768x50, .f32⟩
  | 44 => ⟨S_, .f32⟩
  | 45 => ⟨S_, .f32⟩
  | 46 => ⟨S32768x50, .f32⟩
  | 47 => ⟨S32768x50, .i1⟩
  | 48 => ⟨S_, .f32⟩
  | 49 => ⟨S32768x50, .f32⟩
  | 50 => ⟨S32768x50, .f32⟩
  | 51 => ⟨S32768x50, .f32⟩
  | 52 => ⟨S32768x1216, .f32⟩
  | 53 => ⟨S1x50x1216, .f32⟩
  | 54 => ⟨S50x1216, .f32⟩
  | 55 => ⟨S1216x50, .f32⟩
  | 56 => ⟨S32768x50, .f32⟩
  | 57 => ⟨S1x50, .f32⟩
  | 58 => ⟨S50, .f32⟩
  | 59 => ⟨S1x50, .f32⟩
  | 60 => ⟨S32768x50, .f32⟩
  | 61 => ⟨S32768x50, .f32⟩
  | 62 => ⟨S_, .f32⟩
  | 63 => ⟨S_, .f32⟩
  | 64 => ⟨S32768x50, .f32⟩
  | 65 => ⟨S32768x50, .i1⟩
  | 66 => ⟨S_, .f32⟩
  | 67 => ⟨S32768x50, .f32⟩
  | 68 => ⟨S32768x50, .f32⟩
  | 69 => ⟨S32768x50, .f32⟩
  | 70 => ⟨S32768x1266, .f32⟩
  | 71 => ⟨S32768x1, .f32⟩
  | 72 => ⟨S1x1, .f32⟩
  | 73 => ⟨S32768x1, .f32⟩
  | 74 => ⟨S32768x1, .f32⟩
  | _ => ⟨S32768x16, .f32⟩

abbrev hbmTy (i : Nat) : BufTy := match i / 128 with
  | 0 => hbmTy0_0 i
  | 1 => hbmTy0_1 i
  | 2 => hbmTy0_2 i
  | 3 => hbmTy0_3 i
  | _ => ⟨S32768x16, .f32⟩

abbrev bufTy : (tb : Table) → Fin (tcTables nBuf tb) → BufTy
  | .hbm, ⟨i, _⟩ => hbmTy i
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_2 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_3 : Ref sig .tc := ⟨.hbm, 86, rfl⟩
abbrev main_call4_cst : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_4 : Ref sig .tc := ⟨.hbm, 104, rfl⟩
abbrev main_call5_cst : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_5 : Ref sig .tc := ⟨.hbm, 122, rfl⟩
abbrev main_call6_cst : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_6 : Ref sig .tc := ⟨.hbm, 140, rfl⟩
abbrev main_call7_cst : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_7 : Ref sig .tc := ⟨.hbm, 158, rfl⟩
abbrev main_call8_cst : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_cst_8 : Ref sig .tc := ⟨.hbm, 176, rfl⟩
abbrev main_call9_cst : Ref sig .tc := ⟨.hbm, 177, rfl⟩
abbrev main_call9_v0 : Ref sig .tc := ⟨.hbm, 178, rfl⟩
abbrev main_call9_v1 : Ref sig .tc := ⟨.hbm, 179, rfl⟩
abbrev main_call9_v2 : Ref sig .tc := ⟨.hbm, 180, rfl⟩
abbrev main_call9_v3 : Ref sig .tc := ⟨.hbm, 181, rfl⟩
abbrev main_call9_v4 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_9 : Ref sig .tc := ⟨.hbm, 194, rfl⟩
abbrev main_call10_cst : Ref sig .tc := ⟨.hbm, 195, rfl⟩
abbrev main_call10_v0 : Ref sig .tc := ⟨.hbm, 196, rfl⟩
abbrev main_call10_v1 : Ref sig .tc := ⟨.hbm, 197, rfl⟩
abbrev main_call10_v2 : Ref sig .tc := ⟨.hbm, 198, rfl⟩
abbrev main_call10_v3 : Ref sig .tc := ⟨.hbm, 199, rfl⟩
abbrev main_call10_v4 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_10 : Ref sig .tc := ⟨.hbm, 212, rfl⟩
abbrev main_call11_cst : Ref sig .tc := ⟨.hbm, 213, rfl⟩
abbrev main_call11_v0 : Ref sig .tc := ⟨.hbm, 214, rfl⟩
abbrev main_call11_v1 : Ref sig .tc := ⟨.hbm, 215, rfl⟩
abbrev main_call11_v2 : Ref sig .tc := ⟨.hbm, 216, rfl⟩
abbrev main_call11_v3 : Ref sig .tc := ⟨.hbm, 217, rfl⟩
abbrev main_call11_v4 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_cst_11 : Ref sig .tc := ⟨.hbm, 230, rfl⟩
abbrev main_call12_cst : Ref sig .tc := ⟨.hbm, 231, rfl⟩
abbrev main_call12_v0 : Ref sig .tc := ⟨.hbm, 232, rfl⟩
abbrev main_call12_v1 : Ref sig .tc := ⟨.hbm, 233, rfl⟩
abbrev main_call12_v2 : Ref sig .tc := ⟨.hbm, 234, rfl⟩
abbrev main_call12_v3 : Ref sig .tc := ⟨.hbm, 235, rfl⟩
abbrev main_call12_v4 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_cst_12 : Ref sig .tc := ⟨.hbm, 248, rfl⟩
abbrev main_call13_cst : Ref sig .tc := ⟨.hbm, 249, rfl⟩
abbrev main_call13_v0 : Ref sig .tc := ⟨.hbm, 250, rfl⟩
abbrev main_call13_v1 : Ref sig .tc := ⟨.hbm, 251, rfl⟩
abbrev main_call13_v2 : Ref sig .tc := ⟨.hbm, 252, rfl⟩
abbrev main_call13_v3 : Ref sig .tc := ⟨.hbm, 253, rfl⟩
abbrev main_call13_v4 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_cst_13 : Ref sig .tc := ⟨.hbm, 266, rfl⟩
abbrev main_call14_cst : Ref sig .tc := ⟨.hbm, 267, rfl⟩
abbrev main_call14_v0 : Ref sig .tc := ⟨.hbm, 268, rfl⟩
abbrev main_call14_v1 : Ref sig .tc := ⟨.hbm, 269, rfl⟩
abbrev main_call14_v2 : Ref sig .tc := ⟨.hbm, 270, rfl⟩
abbrev main_call14_v3 : Ref sig .tc := ⟨.hbm, 271, rfl⟩
abbrev main_call14_v4 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_cst_14 : Ref sig .tc := ⟨.hbm, 284, rfl⟩
abbrev main_call15_cst : Ref sig .tc := ⟨.hbm, 285, rfl⟩
abbrev main_call15_v0 : Ref sig .tc := ⟨.hbm, 286, rfl⟩
abbrev main_call15_v1 : Ref sig .tc := ⟨.hbm, 287, rfl⟩
abbrev main_call15_v2 : Ref sig .tc := ⟨.hbm, 288, rfl⟩
abbrev main_call15_v3 : Ref sig .tc := ⟨.hbm, 289, rfl⟩
abbrev main_call15_v4 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_cst_15 : Ref sig .tc := ⟨.hbm, 302, rfl⟩
abbrev main_call16_cst : Ref sig .tc := ⟨.hbm, 303, rfl⟩
abbrev main_call16_v0 : Ref sig .tc := ⟨.hbm, 304, rfl⟩
abbrev main_call16_v1 : Ref sig .tc := ⟨.hbm, 305, rfl⟩
abbrev main_call16_v2 : Ref sig .tc := ⟨.hbm, 306, rfl⟩
abbrev main_call16_v3 : Ref sig .tc := ⟨.hbm, 307, rfl⟩
abbrev main_call16_v4 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_v192 : Ref sig .tc := ⟨.hbm, 316, rfl⟩
abbrev main_v193 : Ref sig .tc := ⟨.hbm, 317, rfl⟩
abbrev main_v194 : Ref sig .tc := ⟨.hbm, 318, rfl⟩
abbrev main_v195 : Ref sig .tc := ⟨.hbm, 319, rfl⟩
abbrev main_cst_16 : Ref sig .tc := ⟨.hbm, 320, rfl⟩
abbrev main_call17_cst : Ref sig .tc := ⟨.hbm, 321, rfl⟩
abbrev main_call17_v0 : Ref sig .tc := ⟨.hbm, 322, rfl⟩
abbrev main_call17_v1 : Ref sig .tc := ⟨.hbm, 323, rfl⟩
abbrev main_call17_v2 : Ref sig .tc := ⟨.hbm, 324, rfl⟩
abbrev main_call17_v3 : Ref sig .tc := ⟨.hbm, 325, rfl⟩
abbrev main_call17_v4 : Ref sig .tc := ⟨.hbm, 326, rfl⟩
abbrev main_v196 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_cst_17 : Ref sig .tc := ⟨.hbm, 338, rfl⟩
abbrev main_call18_cst : Ref sig .tc := ⟨.hbm, 339, rfl⟩
abbrev main_call18_v0 : Ref sig .tc := ⟨.hbm, 340, rfl⟩
abbrev main_call18_v1 : Ref sig .tc := ⟨.hbm, 341, rfl⟩
abbrev main_call18_v2 : Ref sig .tc := ⟨.hbm, 342, rfl⟩
abbrev main_call18_v3 : Ref sig .tc := ⟨.hbm, 343, rfl⟩
abbrev main_call18_v4 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_cst_18 : Ref sig .tc := ⟨.hbm, 356, rfl⟩
abbrev main_call19_cst : Ref sig .tc := ⟨.hbm, 357, rfl⟩
abbrev main_call19_v0 : Ref sig .tc := ⟨.hbm, 358, rfl⟩
abbrev main_call19_v1 : Ref sig .tc := ⟨.hbm, 359, rfl⟩
abbrev main_call19_v2 : Ref sig .tc := ⟨.hbm, 360, rfl⟩
abbrev main_call19_v3 : Ref sig .tc := ⟨.hbm, 361, rfl⟩
abbrev main_call19_v4 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_cst_19 : Ref sig .tc := ⟨.hbm, 374, rfl⟩
abbrev main_call20_cst : Ref sig .tc := ⟨.hbm, 375, rfl⟩
abbrev main_call20_v0 : Ref sig .tc := ⟨.hbm, 376, rfl⟩
abbrev main_call20_v1 : Ref sig .tc := ⟨.hbm, 377, rfl⟩
abbrev main_call20_v2 : Ref sig .tc := ⟨.hbm, 378, rfl⟩
abbrev main_call20_v3 : Ref sig .tc := ⟨.hbm, 379, rfl⟩
abbrev main_call20_v4 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_cst_20 : Ref sig .tc := ⟨.hbm, 392, rfl⟩
abbrev main_call21_cst : Ref sig .tc := ⟨.hbm, 393, rfl⟩
abbrev main_call21_v0 : Ref sig .tc := ⟨.hbm, 394, rfl⟩
abbrev main_call21_v1 : Ref sig .tc := ⟨.hbm, 395, rfl⟩
abbrev main_call21_v2 : Ref sig .tc := ⟨.hbm, 396, rfl⟩
abbrev main_call21_v3 : Ref sig .tc := ⟨.hbm, 397, rfl⟩
abbrev main_call21_v4 : Ref sig .tc := ⟨.hbm, 398, rfl⟩
abbrev main_v240 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_v244 : Ref sig .tc := ⟨.hbm, 403, rfl⟩
abbrev main_v245 : Ref sig .tc := ⟨.hbm, 404, rfl⟩
abbrev main_v246 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_cst_21 : Ref sig .tc := ⟨.hbm, 410, rfl⟩
abbrev main_call22_cst : Ref sig .tc := ⟨.hbm, 411, rfl⟩
abbrev main_call22_v0 : Ref sig .tc := ⟨.hbm, 412, rfl⟩
abbrev main_call22_v1 : Ref sig .tc := ⟨.hbm, 413, rfl⟩
abbrev main_call22_v2 : Ref sig .tc := ⟨.hbm, 414, rfl⟩
abbrev main_call22_v3 : Ref sig .tc := ⟨.hbm, 415, rfl⟩
abbrev main_call22_v4 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_v255 : Ref sig .tc := ⟨.hbm, 421, rfl⟩
abbrev main_v256 : Ref sig .tc := ⟨.hbm, 422, rfl⟩
abbrev main_v257 : Ref sig .tc := ⟨.hbm, 423, rfl⟩
abbrev main_v258 : Ref sig .tc := ⟨.hbm, 424, rfl⟩
abbrev main_v259 : Ref sig .tc := ⟨.hbm, 425, rfl⟩
abbrev main_v260 : Ref sig .tc := ⟨.hbm, 426, rfl⟩
abbrev main_v261 : Ref sig .tc := ⟨.hbm, 427, rfl⟩
abbrev main_cst_22 : Ref sig .tc := ⟨.hbm, 428, rfl⟩
abbrev main_call23_cst : Ref sig .tc := ⟨.hbm, 429, rfl⟩
abbrev main_call23_v0 : Ref sig .tc := ⟨.hbm, 430, rfl⟩
abbrev main_call23_v1 : Ref sig .tc := ⟨.hbm, 431, rfl⟩
abbrev main_call23_v2 : Ref sig .tc := ⟨.hbm, 432, rfl⟩
abbrev main_call23_v3 : Ref sig .tc := ⟨.hbm, 433, rfl⟩
abbrev main_call23_v4 : Ref sig .tc := ⟨.hbm, 434, rfl⟩
abbrev main_v262 : Ref sig .tc := ⟨.hbm, 435, rfl⟩
abbrev main_v263 : Ref sig .tc := ⟨.hbm, 436, rfl⟩
abbrev main_v264 : Ref sig .tc := ⟨.hbm, 437, rfl⟩
abbrev main_v265 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_v269 : Ref sig .tc := ⟨.hbm, 442, rfl⟩
abbrev main_v270 : Ref sig .tc := ⟨.hbm, 443, rfl⟩
abbrev main_v271 : Ref sig .tc := ⟨.hbm, 444, rfl⟩
abbrev main_v272 : Ref sig .tc := ⟨.hbm, 445, rfl⟩
abbrev main_cst_23 : Ref sig .tc := ⟨.hbm, 446, rfl⟩
abbrev main_call24_cst : Ref sig .tc := ⟨.hbm, 447, rfl⟩
abbrev main_call24_v0 : Ref sig .tc := ⟨.hbm, 448, rfl⟩
abbrev main_call24_v1 : Ref sig .tc := ⟨.hbm, 449, rfl⟩
abbrev main_call24_v2 : Ref sig .tc := ⟨.hbm, 450, rfl⟩
abbrev main_call24_v3 : Ref sig .tc := ⟨.hbm, 451, rfl⟩
abbrev main_call24_v4 : Ref sig .tc := ⟨.hbm, 452, rfl⟩
abbrev main_v273 : Ref sig .tc := ⟨.hbm, 453, rfl⟩
abbrev main_v274 : Ref sig .tc := ⟨.hbm, 454, rfl⟩
abbrev main_v275 : Ref sig .tc := ⟨.hbm, 455, rfl⟩
abbrev main_v276 : Ref sig .tc := ⟨.hbm, 456, rfl⟩
abbrev main_v277 : Ref sig .tc := ⟨.hbm, 457, rfl⟩
abbrev main_v278 : Ref sig .tc := ⟨.hbm, 458, rfl⟩

abbrev nD : Nat := 1
abbrev τ : Topo := Topo.v7x

variable {F : FTy → Type} [FloatOps F]

class Facts₀ : Prop where
  slices_S25x50x1266_S1x50x16_0_0_0 : S25x50x1266.Slices ![0, 0, 0] S1x50x16
  shapeCasts_S1x50x16_S50x16 : S1x50x16.ShapeCasts S50x16
  transposes_S50x16_S16x50_1_0 : S50x16.Transposes [1, 0] S16x50
  slices_S25x50_S1x50_0_0 : S25x50.Slices ![0, 0] S1x50
  shapeCasts_S1x50_S50 : S1x50.ShapeCasts S50
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  bcast_S_S32768x50 : S_.BroadcastsInDim S32768x50 (![] : Fin 0 → Fin S32768x50.rank)
  concatenates_S32768x16_S32768x50_S32768x66_d1 : Shape.Concatenates [S32768x16, S32768x50] S32768x66 1
  slices_S25x50x1266_S1x50x66_1_0_0 : S25x50x1266.Slices ![1, 0, 0] S1x50x66
  shapeCasts_S1x50x66_S50x66 : S1x50x66.ShapeCasts S50x66
  transposes_S50x66_S66x50_1_0 : S50x66.Transposes [1, 0] S66x50
  slices_S25x50_S1x50_1_0 : S25x50.Slices ![1, 0] S1x50
  concatenates_S32768x66_S32768x50_S32768x116_d1 : Shape.Concatenates [S32768x66, S32768x50] S32768x116 1
  slices_S25x50x1266_S1x50x116_2_0_0 : S25x50x1266.Slices ![2, 0, 0] S1x50x116
  shapeCasts_S1x50x116_S50x116 : S1x50x116.ShapeCasts S50x116
  transposes_S50x116_S116x50_1_0 : S50x116.Transposes [1, 0] S116x50
  slices_S25x50_S1x50_2_0 : S25x50.Slices ![2, 0] S1x50
  concatenates_S32768x116_S32768x50_S32768x166_d1 : Shape.Concatenates [S32768x116, S32768x50] S32768x166 1
  slices_S25x50x1266_S1x50x166_3_0_0 : S25x50x1266.Slices ![3, 0, 0] S1x50x166
  shapeCasts_S1x50x166_S50x166 : S1x50x166.ShapeCasts S50x166
  transposes_S50x166_S166x50_1_0 : S50x166.Transposes [1, 0] S166x50
  slices_S25x50_S1x50_3_0 : S25x50.Slices ![3, 0] S1x50
  concatenates_S32768x166_S32768x50_S32768x216_d1 : Shape.Concatenates [S32768x166, S32768x50] S32768x216 1
  slices_S25x50x1266_S1x50x216_4_0_0 : S25x50x1266.Slices ![4, 0, 0] S1x50x216
  shapeCasts_S1x50x216_S50x216 : S1x50x216.ShapeCasts S50x216
  transposes_S50x216_S216x50_1_0 : S50x216.Transposes [1, 0] S216x50
  slices_S25x50_S1x50_4_0 : S25x50.Slices ![4, 0] S1x50
  concatenates_S32768x216_S32768x50_S32768x266_d1 : Shape.Concatenates [S32768x216, S32768x50] S32768x266 1
  slices_S25x50x1266_S1x50x266_5_0_0 : S25x50x1266.Slices ![5, 0, 0] S1x50x266
  shapeCasts_S1x50x266_S50x266 : S1x50x266.ShapeCasts S50x266
  transposes_S50x266_S266x50_1_0 : S50x266.Transposes [1, 0] S266x50
  slices_S25x50_S1x50_5_0 : S25x50.Slices ![5, 0] S1x50
  concatenates_S32768x266_S32768x50_S32768x316_d1 : Shape.Concatenates [S32768x266, S32768x50] S32768x316 1
  slices_S25x50x1266_S1x50x316_6_0_0 : S25x50x1266.Slices ![6, 0, 0] S1x50x316
  shapeCasts_S1x50x316_S50x316 : S1x50x316.ShapeCasts S50x316
  transposes_S50x316_S316x50_1_0 : S50x316.Transposes [1, 0] S316x50
  slices_S25x50_S1x50_6_0 : S25x50.Slices ![6, 0] S1x50
  concatenates_S32768x316_S32768x50_S32768x366_d1 : Shape.Concatenates [S32768x316, S32768x50] S32768x366 1
  slices_S25x50x1266_S1x50x366_7_0_0 : S25x50x1266.Slices ![7, 0, 0] S1x50x366
  shapeCasts_S1x50x366_S50x366 : S1x50x366.ShapeCasts S50x366
  transposes_S50x366_S366x50_1_0 : S50x366.Transposes [1, 0] S366x50
  slices_S25x50_S1x50_7_0 : S25x50.Slices ![7, 0] S1x50
  concatenates_S32768x366_S32768x50_S32768x416_d1 : Shape.Concatenates [S32768x366, S32768x50] S32768x416 1
  slices_S25x50x1266_S1x50x416_8_0_0 : S25x50x1266.Slices ![8, 0, 0] S1x50x416
  shapeCasts_S1x50x416_S50x416 : S1x50x416.ShapeCasts S50x416
  transposes_S50x416_S416x50_1_0 : S50x416.Transposes [1, 0] S416x50
  slices_S25x50_S1x50_8_0 : S25x50.Slices ![8, 0] S1x50
  concatenates_S32768x416_S32768x50_S32768x466_d1 : Shape.Concatenates [S32768x416, S32768x50] S32768x466 1
  slices_S25x50x1266_S1x50x466_9_0_0 : S25x50x1266.Slices ![9, 0, 0] S1x50x466
  shapeCasts_S1x50x466_S50x466 : S1x50x466.ShapeCasts S50x466
  transposes_S50x466_S466x50_1_0 : S50x466.Transposes [1, 0] S466x50
  slices_S25x50_S1x50_9_0 : S25x50.Slices ![9, 0] S1x50
  concatenates_S32768x466_S32768x50_S32768x516_d1 : Shape.Concatenates [S32768x466, S32768x50] S32768x516 1
  slices_S25x50x1266_S1x50x516_10_0_0 : S25x50x1266.Slices ![10, 0, 0] S1x50x516
  shapeCasts_S1x50x516_S50x516 : S1x50x516.ShapeCasts S50x516
  transposes_S50x516_S516x50_1_0 : S50x516.Transposes [1, 0] S516x50
  slices_S25x50_S1x50_10_0 : S25x50.Slices ![10, 0] S1x50
  concatenates_S32768x516_S32768x50_S32768x566_d1 : Shape.Concatenates [S32768x516, S32768x50] S32768x566 1
  slices_S25x50x1266_S1x50x566_11_0_0 : S25x50x1266.Slices ![11, 0, 0] S1x50x566
  shapeCasts_S1x50x566_S50x566 : S1x50x566.ShapeCasts S50x566
  transposes_S50x566_S566x50_1_0 : S50x566.Transposes [1, 0] S566x50
  slices_S25x50_S1x50_11_0 : S25x50.Slices ![11, 0] S1x50
  concatenates_S32768x566_S32768x50_S32768x616_d1 : Shape.Concatenates [S32768x566, S32768x50] S32768x616 1
  slices_S25x50x1266_S1x50x616_12_0_0 : S25x50x1266.Slices ![12, 0, 0] S1x50x616
  shapeCasts_S1x50x616_S50x616 : S1x50x616.ShapeCasts S50x616
  transposes_S50x616_S616x50_1_0 : S50x616.Transposes [1, 0] S616x50
  slices_S25x50_S1x50_12_0 : S25x50.Slices ![12, 0] S1x50
  concatenates_S32768x616_S32768x50_S32768x666_d1 : Shape.Concatenates [S32768x616, S32768x50] S32768x666 1
  slices_S25x50x1266_S1x50x666_13_0_0 : S25x50x1266.Slices ![13, 0, 0] S1x50x666
  shapeCasts_S1x50x666_S50x666 : S1x50x666.ShapeCasts S50x666
  transposes_S50x666_S666x50_1_0 : S50x666.Transposes [1, 0] S666x50
  slices_S25x50_S1x50_13_0 : S25x50.Slices ![13, 0] S1x50
  concatenates_S32768x666_S32768x50_S32768x716_d1 : Shape.Concatenates [S32768x666, S32768x50] S32768x716 1
  slices_S25x50x1266_S1x50x716_14_0_0 : S25x50x1266.Slices ![14, 0, 0] S1x50x716
  shapeCasts_S1x50x716_S50x716 : S1x50x716.ShapeCasts S50x716
  transposes_S50x716_S716x50_1_0 : S50x716.Transposes [1, 0] S716x50
  slices_S25x50_S1x50_14_0 : S25x50.Slices ![14, 0] S1x50
  concatenates_S32768x716_S32768x50_S32768x766_d1 : Shape.Concatenates [S32768x716, S32768x50] S32768x766 1
  slices_S25x50x1266_S1x50x766_15_0_0 : S25x50x1266.Slices ![15, 0, 0] S1x50x766
  shapeCasts_S1x50x766_S50x766 : S1x50x766.ShapeCasts S50x766
  transposes_S50x766_S766x50_1_0 : S50x766.Transposes [1, 0] S766x50
  slices_S25x50_S1x50_15_0 : S25x50.Slices ![15, 0] S1x50
  concatenates_S32768x766_S32768x50_S32768x816_d1 : Shape.Concatenates [S32768x766, S32768x50] S32768x816 1
  slices_S25x50x1266_S1x50x816_16_0_0 : S25x50x1266.Slices ![16, 0, 0] S1x50x816
  shapeCasts_S1x50x816_S50x816 : S1x50x816.ShapeCasts S50x816
  transposes_S50x816_S816x50_1_0 : S50x816.Transposes [1, 0] S816x50
  slices_S25x50_S1x50_16_0 : S25x50.Slices ![16, 0] S1x50
  concatenates_S32768x816_S32768x50_S32768x866_d1 : Shape.Concatenates [S32768x816, S32768x50] S32768x866 1
  slices_S25x50x1266_S1x50x866_17_0_0 : S25x50x1266.Slices ![17, 0, 0] S1x50x866
  shapeCasts_S1x50x866_S50x866 : S1x50x866.ShapeCasts S50x866
  transposes_S50x866_S866x50_1_0 : S50x866.Transposes [1, 0] S866x50
  slices_S25x50_S1x50_17_0 : S25x50.Slices ![17, 0] S1x50
  concatenates_S32768x866_S32768x50_S32768x916_d1 : Shape.Concatenates [S32768x866, S32768x50] S32768x916 1
  slices_S25x50x1266_S1x50x916_18_0_0 : S25x50x1266.Slices ![18, 0, 0] S1x50x916
  shapeCasts_S1x50x916_S50x916 : S1x50x916.ShapeCasts S50x916
  transposes_S50x916_S916x50_1_0 : S50x916.Transposes [1, 0] S916x50
  slices_S25x50_S1x50_18_0 : S25x50.Slices ![18, 0] S1x50
  concatenates_S32768x916_S32768x50_S32768x966_d1 : Shape.Concatenates [S32768x916, S32768x50] S32768x966 1
  slices_S25x50x1266_S1x50x966_19_0_0 : S25x50x1266.Slices ![19, 0, 0] S1x50x966
  shapeCasts_S1x50x966_S50x966 : S1x50x966.ShapeCasts S50x966
  transposes_S50x966_S966x50_1_0 : S50x966.Transposes [1, 0] S966x50
  slices_S25x50_S1x50_19_0 : S25x50.Slices ![19, 0] S1x50
  concatenates_S32768x966_S32768x50_S32768x1016_d1 : Shape.Concatenates [S32768x966, S32768x50] S32768x1016 1
  slices_S25x50x1266_S1x50x1016_20_0_0 : S25x50x1266.Slices ![20, 0, 0] S1x50x1016
  shapeCasts_S1x50x1016_S50x1016 : S1x50x1016.ShapeCasts S50x1016
  transposes_S50x1016_S1016x50_1_0 : S50x1016.Transposes [1, 0] S1016x50
  slices_S25x50_S1x50_20_0 : S25x50.Slices ![20, 0] S1x50
  concatenates_S32768x1016_S32768x50_S32768x1066_d1 : Shape.Concatenates [S32768x1016, S32768x50] S32768x1066 1
  slices_S25x50x1266_S1x50x1066_21_0_0 : S25x50x1266.Slices ![21, 0, 0] S1x50x1066
  shapeCasts_S1x50x1066_S50x1066 : S1x50x1066.ShapeCasts S50x1066
  transposes_S50x1066_S1066x50_1_0 : S50x1066.Transposes [1, 0] S1066x50
  slices_S25x50_S1x50_21_0 : S25x50.Slices ![21, 0] S1x50
  concatenates_S32768x1066_S32768x50_S32768x1116_d1 : Shape.Concatenates [S32768x1066, S32768x50] S32768x1116 1
  slices_S25x50x1266_S1x50x1116_22_0_0 : S25x50x1266.Slices ![22, 0, 0] S1x50x1116
  shapeCasts_S1x50x1116_S50x1116 : S1x50x1116.ShapeCasts S50x1116
  transposes_S50x1116_S1116x50_1_0 : S50x1116.Transposes [1, 0] S1116x50
  slices_S25x50_S1x50_22_0 : S25x50.Slices ![22, 0] S1x50
  concatenates_S32768x1116_S32768x50_S32768x1166_d1 : Shape.Concatenates [S32768x1116, S32768x50] S32768x1166 1
  slices_S25x50x1266_S1x50x1166_23_0_0 : S25x50x1266.Slices ![23, 0, 0] S1x50x1166
  shapeCasts_S1x50x1166_S50x1166 : S1x50x1166.ShapeCasts S50x1166
  transposes_S50x1166_S1166x50_1_0 : S50x1166.Transposes [1, 0] S1166x50
  slices_S25x50_S1x50_23_0 : S25x50.Slices ![23, 0] S1x50
  concatenates_S32768x1166_S32768x50_S32768x1216_d1 : Shape.Concatenates [S32768x1166, S32768x50] S32768x1216 1
  slices_S25x50x1266_S1x50x1216_24_0_0 : S25x50x1266.Slices ![24, 0, 0] S1x50x1216
  shapeCasts_S1x50x1216_S50x1216 : S1x50x1216.ShapeCasts S50x1216
  transposes_S50x1216_S1216x50_1_0 : S50x1216.Transposes [1, 0] S1216x50
  slices_S25x50_S1x50_24_0 : S25x50.Slices ![24, 0] S1x50
  concatenates_S32768x1216_S32768x50_S32768x1266_d1 : Shape.Concatenates [S32768x1216, S32768x50] S32768x1266 1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x16_S16x50_S32768x50_1_0_0_1_n_n_wf : DotDims.WF S32768x16 S16x50 S32768x50 [1] [0] [0] [1] [] []
  dot_S32768x66_S66x50_S32768x50_1_0_0_1_n_n_wf : DotDims.WF S32768x66 S66x50 S32768x50 [1] [0] [0] [1] [] []
  dot_S32768x116_S116x50_S32768x50_1_0_0_1_n_n_wf : DotDims.WF S32768x116 S116x50 S32768x50 [1] [0] [0] [1] [] []
  dot_S32768x166_S166x50_S32768x50_1_0_0_1_n_n_wf : DotDims.WF S32768x166 S166x50 S32768x50 [1] [0] [0] [1] [] []
  dot_S32768x216_S216x50_S32768x50_1_0_0_1_n_n_wf : DotDims.WF S32768x216 S216x50 S32768x50 [1] [0] [0] [1] [] []
  dot_S32768x266_S266x50_S32768x50_1_0_0_1_n_n_wf : DotDims.WF S32768x266 S266x50 S32768x50 [1] [0] [0] [1] [] []
  dot_S32768x316_S316x50_S32768x50_1_0_0_1_n_n_wf : DotDims.WF S32768x316 S316x50 S32768x50 [1] [0] [0] [1] [] []
  dot_S32768x366_S366x50_S32768x50_1_0_0_1_n_n_wf : DotDims.WF S32768x366 S366x50 S32768x50 [1] [0] [0] [1] [] []
  dot_S32768x416_S416x50_S32768x50_1_0_0_1_n_n_wf : DotDims.WF S32768x416 S416x50 S32768x50 [1] [0] [0] [1] [] []
  dot_S32768x466_S466x50_S32768x50_1_0_0_1_n_n_wf : DotDims.WF S32768x466 S466x50 S32768x50 [1] [0] [0] [1] [] []
  dot_S32768x516_S516x50_S32768x50_1_0_0_1_n_n_wf : DotDims.WF S32768x516 S516x50 S32768x50 [1] [0] [0] [1] [] []
  dot_S32768x566_S566x50_S32768x50_1_0_0_1_n_n_wf : DotDims.WF S32768x566 S566x50 S32768x50 [1] [0] [0] [1] [] []
  dot_S32768x616_S616x50_S32768x50_1_0_0_1_n_n_wf : DotDims.WF S32768x616 S616x50 S32768x50 [1] [0] [0] [1] [] []
  dot_S32768x666_S666x50_S32768x50_1_0_0_1_n_n_wf : DotDims.WF S32768x666 S666x50 S32768x50 [1] [0] [0] [1] [] []
  dot_S32768x716_S716x50_S32768x50_1_0_0_1_n_n_wf : DotDims.WF S32768x716 S716x50 S32768x50 [1] [0] [0] [1] [] []
  dot_S32768x766_S766x50_S32768x50_1_0_0_1_n_n_wf : DotDims.WF S32768x766 S766x50 S32768x50 [1] [0] [0] [1] [] []
  dot_S32768x816_S816x50_S32768x50_1_0_0_1_n_n_wf : DotDims.WF S32768x816 S816x50 S32768x50 [1] [0] [0] [1] [] []
  dot_S32768x866_S866x50_S32768x50_1_0_0_1_n_n_wf : DotDims.WF S32768x866 S866x50 S32768x50 [1] [0] [0] [1] [] []
  dot_S32768x916_S916x50_S32768x50_1_0_0_1_n_n_wf : DotDims.WF S32768x916 S916x50 S32768x50 [1] [0] [0] [1] [] []
  dot_S32768x966_S966x50_S32768x50_1_0_0_1_n_n_wf : DotDims.WF S32768x966 S966x50 S32768x50 [1] [0] [0] [1] [] []
  dot_S32768x1016_S1016x50_S32768x50_1_0_0_1_n_n_wf : DotDims.WF S32768x1016 S1016x50 S32768x50 [1] [0] [0] [1] [] []
  dot_S32768x1066_S1066x50_S32768x50_1_0_0_1_n_n_wf : DotDims.WF S32768x1066 S1066x50 S32768x50 [1] [0] [0] [1] [] []
  dot_S32768x1116_S1116x50_S32768x50_1_0_0_1_n_n_wf : DotDims.WF S32768x1116 S1116x50 S32768x50 [1] [0] [0] [1] [] []
  dot_S32768x1166_S1166x50_S32768x50_1_0_0_1_n_n_wf : DotDims.WF S32768x1166 S1166x50 S32768x50 [1] [0] [0] [1] [] []
  dot_S32768x1216_S1216x50_S32768x50_1_0_0_1_n_n_wf : DotDims.WF S32768x1216 S1216x50 S32768x50 [1] [0] [0] [1] [] []
  dot_S32768x1266_S1266x1_S32768x1_1_0_0_1_n_n_wf : DotDims.WF S32768x1266 S1266x1 S32768x1 [1] [0] [0] [1] [] []

variable [Facts₀]

def dot_S32768x16_S16x50_S32768x50_1_0_0_1_n_n : DotDims S32768x16 S16x50 S32768x50 where
  lhsContracting := [1]
  rhsContracting := [0]
  lhsNonContracting := [0]
  rhsNonContracting := [1]
  lhsBatch := []
  rhsBatch := []
  wf := dot_S32768x16_S16x50_S32768x50_1_0_0_1_n_n_wf
def dot_S32768x66_S66x50_S32768x50_1_0_0_1_n_n : DotDims S32768x66 S66x50 S32768x50 where
  lhsContracting := [1]
  rhsContracting := [0]
  lhsNonContracting := [0]
  rhsNonContracting := [1]
  lhsBatch := []
  rhsBatch := []
  wf := dot_S32768x66_S66x50_S32768x50_1_0_0_1_n_n_wf
def dot_S32768x116_S116x50_S32768x50_1_0_0_1_n_n : DotDims S32768x116 S116x50 S32768x50 where
  lhsContracting := [1]
  rhsContracting := [0]
  lhsNonContracting := [0]
  rhsNonContracting := [1]
  lhsBatch := []
  rhsBatch := []
  wf := dot_S32768x116_S116x50_S32768x50_1_0_0_1_n_n_wf
def dot_S32768x166_S166x50_S32768x50_1_0_0_1_n_n : DotDims S32768x166 S166x50 S32768x50 where
  lhsContracting := [1]
  rhsContracting := [0]
  lhsNonContracting := [0]
  rhsNonContracting := [1]
  lhsBatch := []
  rhsBatch := []
  wf := dot_S32768x166_S166x50_S32768x50_1_0_0_1_n_n_wf
def dot_S32768x216_S216x50_S32768x50_1_0_0_1_n_n : DotDims S32768x216 S216x50 S32768x50 where
  lhsContracting := [1]
  rhsContracting := [0]
  lhsNonContracting := [0]
  rhsNonContracting := [1]
  lhsBatch := []
  rhsBatch := []
  wf := dot_S32768x216_S216x50_S32768x50_1_0_0_1_n_n_wf
def dot_S32768x266_S266x50_S32768x50_1_0_0_1_n_n : DotDims S32768x266 S266x50 S32768x50 where
  lhsContracting := [1]
  rhsContracting := [0]
  lhsNonContracting := [0]
  rhsNonContracting := [1]
  lhsBatch := []
  rhsBatch := []
  wf := dot_S32768x266_S266x50_S32768x50_1_0_0_1_n_n_wf
def dot_S32768x316_S316x50_S32768x50_1_0_0_1_n_n : DotDims S32768x316 S316x50 S32768x50 where
  lhsContracting := [1]
  rhsContracting := [0]
  lhsNonContracting := [0]
  rhsNonContracting := [1]
  lhsBatch := []
  rhsBatch := []
  wf := dot_S32768x316_S316x50_S32768x50_1_0_0_1_n_n_wf
def dot_S32768x366_S366x50_S32768x50_1_0_0_1_n_n : DotDims S32768x366 S366x50 S32768x50 where
  lhsContracting := [1]
  rhsContracting := [0]
  lhsNonContracting := [0]
  rhsNonContracting := [1]
  lhsBatch := []
  rhsBatch := []
  wf := dot_S32768x366_S366x50_S32768x50_1_0_0_1_n_n_wf
def dot_S32768x416_S416x50_S32768x50_1_0_0_1_n_n : DotDims S32768x416 S416x50 S32768x50 where
  lhsContracting := [1]
  rhsContracting := [0]
  lhsNonContracting := [0]
  rhsNonContracting := [1]
  lhsBatch := []
  rhsBatch := []
  wf := dot_S32768x416_S416x50_S32768x50_1_0_0_1_n_n_wf
def dot_S32768x466_S466x50_S32768x50_1_0_0_1_n_n : DotDims S32768x466 S466x50 S32768x50 where
  lhsContracting := [1]
  rhsContracting := [0]
  lhsNonContracting := [0]
  rhsNonContracting := [1]
  lhsBatch := []
  rhsBatch := []
  wf := dot_S32768x466_S466x50_S32768x50_1_0_0_1_n_n_wf
def dot_S32768x516_S516x50_S32768x50_1_0_0_1_n_n : DotDims S32768x516 S516x50 S32768x50 where
  lhsContracting := [1]
  rhsContracting := [0]
  lhsNonContracting := [0]
  rhsNonContracting := [1]
  lhsBatch := []
  rhsBatch := []
  wf := dot_S32768x516_S516x50_S32768x50_1_0_0_1_n_n_wf
def dot_S32768x566_S566x50_S32768x50_1_0_0_1_n_n : DotDims S32768x566 S566x50 S32768x50 where
  lhsContracting := [1]
  rhsContracting := [0]
  lhsNonContracting := [0]
  rhsNonContracting := [1]
  lhsBatch := []
  rhsBatch := []
  wf := dot_S32768x566_S566x50_S32768x50_1_0_0_1_n_n_wf
def dot_S32768x616_S616x50_S32768x50_1_0_0_1_n_n : DotDims S32768x616 S616x50 S32768x50 where
  lhsContracting := [1]
  rhsContracting := [0]
  lhsNonContracting := [0]
  rhsNonContracting := [1]
  lhsBatch := []
  rhsBatch := []
  wf := dot_S32768x616_S616x50_S32768x50_1_0_0_1_n_n_wf
def dot_S32768x666_S666x50_S32768x50_1_0_0_1_n_n : DotDims S32768x666 S666x50 S32768x50 where
  lhsContracting := [1]
  rhsContracting := [0]
  lhsNonContracting := [0]
  rhsNonContracting := [1]
  lhsBatch := []
  rhsBatch := []
  wf := dot_S32768x666_S666x50_S32768x50_1_0_0_1_n_n_wf
def dot_S32768x716_S716x50_S32768x50_1_0_0_1_n_n : DotDims S32768x716 S716x50 S32768x50 where
  lhsContracting := [1]
  rhsContracting := [0]
  lhsNonContracting := [0]
  rhsNonContracting := [1]
  lhsBatch := []
  rhsBatch := []
  wf := dot_S32768x716_S716x50_S32768x50_1_0_0_1_n_n_wf
def dot_S32768x766_S766x50_S32768x50_1_0_0_1_n_n : DotDims S32768x766 S766x50 S32768x50 where
  lhsContracting := [1]
  rhsContracting := [0]
  lhsNonContracting := [0]
  rhsNonContracting := [1]
  lhsBatch := []
  rhsBatch := []
  wf := dot_S32768x766_S766x50_S32768x50_1_0_0_1_n_n_wf
def dot_S32768x816_S816x50_S32768x50_1_0_0_1_n_n : DotDims S32768x816 S816x50 S32768x50 where
  lhsContracting := [1]
  rhsContracting := [0]
  lhsNonContracting := [0]
  rhsNonContracting := [1]
  lhsBatch := []
  rhsBatch := []
  wf := dot_S32768x816_S816x50_S32768x50_1_0_0_1_n_n_wf
def dot_S32768x866_S866x50_S32768x50_1_0_0_1_n_n : DotDims S32768x866 S866x50 S32768x50 where
  lhsContracting := [1]
  rhsContracting := [0]
  lhsNonContracting := [0]
  rhsNonContracting := [1]
  lhsBatch := []
  rhsBatch := []
  wf := dot_S32768x866_S866x50_S32768x50_1_0_0_1_n_n_wf
def dot_S32768x916_S916x50_S32768x50_1_0_0_1_n_n : DotDims S32768x916 S916x50 S32768x50 where
  lhsContracting := [1]
  rhsContracting := [0]
  lhsNonContracting := [0]
  rhsNonContracting := [1]
  lhsBatch := []
  rhsBatch := []
  wf := dot_S32768x916_S916x50_S32768x50_1_0_0_1_n_n_wf
def dot_S32768x966_S966x50_S32768x50_1_0_0_1_n_n : DotDims S32768x966 S966x50 S32768x50 where
  lhsContracting := [1]
  rhsContracting := [0]
  lhsNonContracting := [0]
  rhsNonContracting := [1]
  lhsBatch := []
  rhsBatch := []
  wf := dot_S32768x966_S966x50_S32768x50_1_0_0_1_n_n_wf
def dot_S32768x1016_S1016x50_S32768x50_1_0_0_1_n_n : DotDims S32768x1016 S1016x50 S32768x50 where
  lhsContracting := [1]
  rhsContracting := [0]
  lhsNonContracting := [0]
  rhsNonContracting := [1]
  lhsBatch := []
  rhsBatch := []
  wf := dot_S32768x1016_S1016x50_S32768x50_1_0_0_1_n_n_wf
def dot_S32768x1066_S1066x50_S32768x50_1_0_0_1_n_n : DotDims S32768x1066 S1066x50 S32768x50 where
  lhsContracting := [1]
  rhsContracting := [0]
  lhsNonContracting := [0]
  rhsNonContracting := [1]
  lhsBatch := []
  rhsBatch := []
  wf := dot_S32768x1066_S1066x50_S32768x50_1_0_0_1_n_n_wf
def dot_S32768x1116_S1116x50_S32768x50_1_0_0_1_n_n : DotDims S32768x1116 S1116x50 S32768x50 where
  lhsContracting := [1]
  rhsContracting := [0]
  lhsNonContracting := [0]
  rhsNonContracting := [1]
  lhsBatch := []
  rhsBatch := []
  wf := dot_S32768x1116_S1116x50_S32768x50_1_0_0_1_n_n_wf
def dot_S32768x1166_S1166x50_S32768x50_1_0_0_1_n_n : DotDims S32768x1166 S1166x50 S32768x50 where
  lhsContracting := [1]
  rhsContracting := [0]
  lhsNonContracting := [0]
  rhsNonContracting := [1]
  lhsBatch := []
  rhsBatch := []
  wf := dot_S32768x1166_S1166x50_S32768x50_1_0_0_1_n_n_wf
def dot_S32768x1216_S1216x50_S32768x50_1_0_0_1_n_n : DotDims S32768x1216 S1216x50 S32768x50 where
  lhsContracting := [1]
  rhsContracting := [0]
  lhsNonContracting := [0]
  rhsNonContracting := [1]
  lhsBatch := []
  rhsBatch := []
  wf := dot_S32768x1216_S1216x50_S32768x50_1_0_0_1_n_n_wf
def dot_S32768x1266_S1266x1_S32768x1_1_0_0_1_n_n : DotDims S32768x1266 S1266x1 S32768x1 where
  lhsContracting := [1]
  rhsContracting := [0]
  lhsNonContracting := [0]
  rhsNonContracting := [1]
  lhsBatch := []
  rhsBatch := []
  wf := dot_S32768x1266_S1266x1_S32768x1_1_0_0_1_n_n_wf

class Facts : Prop extends Facts₀ where

variable [Facts]
-- ==== Proof.Spec.lean ====
/-
  The mathematics both programs compute, stated once, away from either program's text.

  A densely connected multilayer perceptron on one batch row.  The row starts as the 16 input
  features; layer `n` (of 25) reads ALL the `16 + 50 n` features present so far, forms 50 new ones
  — an affine map of them followed by a leaky rectifier — and appends these to the row.  After the
  25 layers the row has `16 + 25 · 50 = 1266` features, and the result is one more affine map of
  them to a single number.

  Columns are natural numbers here (a function of the column, junk beyond the row's present width), so
  that the recurrence over the layers is one definition rather than a family over 25 array shapes.
  The one law that is needed to join a contraction over a zero-padded row to the contraction over
  the row itself — a sum whose terms from some column on are products with a zero factor is the sum
  up to that column — holds on the extended reals with no finiteness, because `0 * x = 0` there
  for every `x`, the infinities included.
-/
import Idealize.ShloMosaic.PureOps.Ideal
import Idealize.ShloMosaic.Lib.ValueIdx

noncomputable section

namespace Cert.GrowingMlp

open Idealize.ShloMosaic Idealize.ShloMosaic.ValueIdx

/-- The number of features a row holds before layer `n`. -/
def width (n : ℕ) : ℕ := 16 + 50 * n

theorem width_succ (n : ℕ) : width (n + 1) = width n + 50 := by unfold width; ring

/-- The leaky rectifier's zero threshold and its slope on the negative side, as the extended reals
    their bit patterns denote (the same two patterns occur in both programs, so neither is ever evaluated). -/
def zeroLevel : EReal := Ideal.ofBits .f32 0x00000000#32
def slope : EReal := Ideal.ofBits .f32 0x3C23D70A#32

/-- The leaky rectifier: `a` where `a ≥ 0`, else `slope · a`. -/
def lrelu (a : EReal) : EReal :=
  Scalar.select (FloatOps.cmpf (F := Ideal) (φ := .f32) .oge a zeroLevel) a (slope * a)

section Row

variable (s : ℕ → EReal) (W : ℕ → ℕ → ℕ → EReal) (b : ℕ → ℕ → EReal)

/-- The row after `n` layers, as a function of the column: below `width n` the features present
    before layer `n` are kept; the next 50 columns are layer `n`'s new features, feature `j` being the
    rectified `∑ k' < width n, row k' · W n j k' + b n j`. (`s` is the input row, `W n j k'` layer `n`'s weight
    from feature `k'` to new feature `j`, `b n j` its bias.) Beyond `width (n + 1)` the value is not used. -/
def feat : ℕ → ℕ → EReal
  | 0, k => s k
  | n + 1, k =>
    if k < width n then feat n k
    else lrelu ((∑ k' ∈ Finset.range (width n), feat n k' * W n (k - width n) k') + b n (k - width n))

theorem feat_zero (k : ℕ) : feat s W b 0 k = s k := rfl

theorem feat_succ_lt {n k : ℕ} (h : k < width n) : feat s W b (n + 1) k = feat s W b n k := by
  rw [feat, if_pos h]

theorem feat_succ_ge {n k : ℕ} (h : width n ≤ k) :
    feat s W b (n + 1) k
      = lrelu ((∑ k' ∈ Finset.range (width n), feat s W b n k' * W n (k - width n) k') + b n (k - width n)) := by
  rw [feat, if_neg (Nat.not_lt.mpr h)]

/-- Layer `n`'s new feature `j`. -/
theorem feat_new (n j : ℕ) :
    feat s W b (n + 1) (width n + j)
      = lrelu ((∑ k' ∈ Finset.range (width n), feat s W b n k' * W n j k') + b n j) := by
  rw [feat_succ_ge s W b (Nat.le_add_right _ _), Nat.add_sub_cancel_left]

/-- A feature, once formed, is kept by every later layer. -/
theorem feat_mono {n k : ℕ} (h : k < width n) (d : ℕ) : feat s W b (n + d) k = feat s W b n k := by
  induction d with
  | zero => rfl
  | succ d ih =>
    rw [← Nat.add_assoc, feat_succ_lt s W b (lt_of_lt_of_le h (by unfold width; omega)), ih]

/-- The whole network on one row: the final affine map of the 1266 features (`wo` its weights, `bo` its bias). -/
def rowResult (wo : ℕ → EReal) (bo : EReal) : EReal :=
  (∑ k ∈ Finset.range 1266, feat s W b 25 k * wo k) + bo

end Row

/-- ZERO PADDING DROPS OUT of a contraction: if the row `X` is zero from column `w` on (up to `kw`), its
    contraction with any `Y` over `kw` columns is the contraction over the first `w`. No finiteness: `0 * y = 0`
    for every extended real `y`. -/
theorem sum_range_padded (X Y : ℕ → EReal) {w kw : ℕ} (hw : w ≤ kw) (hz : ∀ k, w ≤ k → k < kw → X k = 0) :
    ∑ k ∈ Finset.range kw, X k * Y k = ∑ k ∈ Finset.range w, X k * Y k := by
  obtain ⟨d, rfl⟩ := Nat.exists_eq_add_of_le hw
  rw [Finset.sum_range_add]
  have : ∑ x ∈ Finset.range d, X (w + x) * Y (w + x) = 0 :=
    Finset.sum_eq_zero fun x hx => by
      rw [hz (w + x) (Nat.le_add_right _ _) (by have := Finset.mem_range.mp hx; omega), zero_mul]
  rw [this, add_zero]

/-- A contraction over `Fin n` is the contraction over the first `n` naturals. -/
theorem sum_fin_eq_range (n : ℕ) (f : ℕ → EReal) : ∑ k : Fin n, f k.val = ∑ k ∈ Finset.range n, f k :=
  Fin.sum_univ_eq_sum_range f n

/-! ## The argument arrays as functions of natural-number coordinates -/

/-- Row `r` of a matrix, as a function of the column (zero beyond the last column). -/
def rowOf {R C : ℕ} (A : FVec Ideal ⟨2, ![R, C]⟩ .f32) (r : Fin R) (k : ℕ) : EReal :=
  if h : k < C then A (ix2 r ⟨k, h⟩) else 0

/-- The weight stack `[layer, new feature, feature]` as a function of three naturals. -/
def weightOf {N J K : ℕ} (Ws : FVec Ideal ⟨3, ![N, J, K]⟩ .f32) (n j k : ℕ) : EReal :=
  if h : n < N ∧ j < J ∧ k < K then Ws (ix3 ⟨n, h.1⟩ ⟨j, h.2.1⟩ ⟨k, h.2.2⟩) else 0

/-- The bias stack `[layer, new feature]` as a function of two naturals. -/
def biasOf {N J : ℕ} (bs : FVec Ideal ⟨2, ![N, J]⟩ .f32) (n j : ℕ) : EReal :=
  if h : n < N ∧ j < J then bs (ix2 ⟨n, h.1⟩ ⟨j, h.2⟩) else 0

/-- The final map's weight column `[feature, 1]` as a function of the feature. -/
def outWeightOf {K : ℕ} (Wout : FVec Ideal ⟨2, ![K, 1]⟩ .f32) (k : ℕ) : EReal :=
  if h : k < K then Wout (ix2 ⟨k, h⟩ (0 : Fin 1)) else 0

theorem rowOf_lt {R C : ℕ} (A : FVec Ideal ⟨2, ![R, C]⟩ .f32) (r : Fin R) {k : ℕ} (h : k < C) :
    rowOf A r k = A (ix2 r ⟨k, h⟩) := dif_pos h

theorem weightOf_lt {N J K : ℕ} (Ws : FVec Ideal ⟨3, ![N, J, K]⟩ .f32) {n j k : ℕ} (hn : n < N) (hj : j < J) (hk : k < K) :
    weightOf Ws n j k = Ws (ix3 ⟨n, hn⟩ ⟨j, hj⟩ ⟨k, hk⟩) := dif_pos ⟨hn, hj, hk⟩

theorem biasOf_lt {N J : ℕ} (bs : FVec Ideal ⟨2, ![N, J]⟩ .f32) {n j : ℕ} (hn : n < N) (hj : j < J) :
    biasOf bs n j = bs (ix2 ⟨n, hn⟩ ⟨j, hj⟩) := dif_pos ⟨hn, hj⟩

theorem outWeightOf_lt {K : ℕ} (Wout : FVec Ideal ⟨2, ![K, 1]⟩ .f32) {k : ℕ} (h : k < K) :
    outWeightOf Wout k = Wout (ix2 ⟨k, h⟩ (0 : Fin 1)) := dif_pos h

/-- THE RESULT ARRAY both programs end with, as one function of the five argument arrays: entry `(r, 0)` is the
    network's value on row `r` of `state`. -/
def result (state : FVec Ideal ⟨2, ![32768, 16]⟩ .f32) (Ws : FVec Ideal ⟨3, ![25, 50, 1266]⟩ .f32)
    (bs : FVec Ideal ⟨2, ![25, 50]⟩ .f32) (Wout : FVec Ideal ⟨2, ![1266, 1]⟩ .f32) (bout : FVec Ideal ⟨1, ![1]⟩ .f32) :
    FVec Ideal ⟨2, ![32768, 1]⟩ .f32 := fun i =>
  rowResult (rowOf state (i 0)) (weightOf Ws) (biasOf bs) (outWeightOf Wout) (bout (ix1 (0 : Fin 1)))

end Cert.GrowingMlp

end
-- ==== Proof.KernelBlocks.lean ====
/-
  What each of the kernel's input blocks holds, read at coordinates, in terms of the arrays the program was launched with.

  The kernel runs on a grid of eight points; point `t` works on rows `4096 t … 4096 t + 4095` of the batch.  Its six
  windows: the state (block row `t`), the weight stack, the bias stack, the output weights and the output bias (the whole
  array at every point: block 0 on every axis), and the output column (block row `t`).  Three of the arrays the
  windows stage are not the launch's arguments themselves but what the host makes of them before the region: the weight
  stack with its last two axes exchanged (so that the body contracts over a leading axis), the bias stack with a unit
  axis put in the middle, and the one-element output bias as a one-by-one matrix.  Read at an index, a transposed array is
  the original at the index with the two coordinates exchanged, and a reshaped array is the original at the index with
  the same row-major position.

  The last four lemmas restate the block reads in the form the specification takes its arguments in (functions of
  natural-number coordinates, zero outside the array), so that the body's value on the blocks becomes the specification's
  value on the launch's arrays by rewriting.
-/
import proofs.«119617_j10823317586373_2_alg».proof.Proof.Gen.KernelIdeal.Value
import proofs.«119617_j10823317586373_2_alg».proof.Proof.Spec
import Idealize.ShloMosaic.Lib.Pipeline.Value
import Idealize.ShloMosaic.Lib.ValueIdx
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.GrowingMlp
open Idealize.ShloMosaic.Pipeline (Dat)

variable (m : (ℓ : Loc nD τ sig) → Buf (Elt Ideal) ℓ) (ρ : Dev nD → PrngReg)

/-- The printed index maps, decided once over the eight grid points: the state's window and the output's window both
    sit at block row `t` (and block column 0); the four weight windows sit at block 0 on every axis, at every point. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The three arrays the host prepares before the region -/

/-- The weight stack as the region finds it: the launch's stack with its last two axes exchanged. -/
theorem V_weights (c : Dev nD) :
    (V m c main_v0 : S25x1266x50.Idx → EReal)
      = transpose S25x1266x50 [0, 2, 1] (m ((c : Thread nD τ).loc main_arg1)) transposes_S25x50x1266_S25x1266x50_0_2_1 := by
  dsimp only [Gen.V, Gen.hostOps0]; after_results

/-- The bias stack as the region finds it: the launch's stack with a unit axis put in the middle. -/
theorem V_biases (c : Dev nD) :
    (V m c main_v1 : S25x1x50.Idx → EReal)
      = shapeCast S25x1x50 (m ((c : Thread nD τ).loc main_arg2)) shapeCasts_S25x50_S25x1x50 := by
  dsimp only [Gen.V, Gen.hostOps0]; after_results; rfl

/-- The output bias as the region finds it: the launch's one-element vector as a one-by-one matrix. -/
theorem V_outBias (c : Dev nD) :
    (V m c main_v2 : S1x1.Idx → EReal)
      = shapeCast S1x1 (m ((c : Thread nD τ).loc main_arg4)) shapeCasts_S1_S1x1 := by
  dsimp only [Gen.V, Gen.hostOps0]; after_results; rfl

/-! ## What each window's block holds, read at coordinates -/

/-- Row `p` of the state block at point `t` is row `4096 t + p` of the launch's state. -/
theorem state_block (c : Dev nD) (t : Fin cfg0.N) (p : Fin 4096) (k : Fin 16) (hr : t.val * 4096 + p.val < 32768) :
    iblk m c 0 t (ix2 p k) = m ((c : Thread nD τ).loc main_arg0) (ix2 ⟨t.val * 4096 + p.val, hr⟩ k) := by
  show V m c main_arg0 (((cfg0.win 0).blk t).view.emb (ix2 p k)) = _
  rw [V_main_arg0]
  refine congrArg _ ?_
  obtain ⟨e0, e1, -⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 16 + 1 * k.val = k.val; omega

/-- The weight block (the whole transposed stack, at every point) at `(layer, feature, new feature)` is the launch's
    stack at `(layer, new feature, feature)`. -/
theorem weight_block (c : Dev nD) (t : Fin cfg0.N) (n : Fin 25) (k : Fin 1266) (j : Fin 50) :
    iblk m c 1 t (ix3 n k j) = m ((c : Thread nD τ).loc main_arg1) (ix3 n j k) := by
  show V m c main_v0 (((cfg0.win 1).blk t).view.emb (ix3 n k j)) = _
  have he : ((cfg0.win 1).blk t).view.emb (ix3 n k j) = ix3 n k j := by
    obtain ⟨-, -, e2, e3, e4, -⟩ := idx_facts t
    funext a; apply Fin.ext
    match a with
    | ⟨0, _⟩ => show win0_1.index t (0 : Fin 3) * 25 + 1 * n.val = n.val; omega
    | ⟨1, _⟩ => show win0_1.index t (1 : Fin 3) * 1266 + 1 * k.val = k.val; omega
    | ⟨2, _⟩ => show win0_1.index t (2 : Fin 3) * 50 + 1 * j.val = j.val; omega
  rw [he, V_weights]
  exact transpose_apply [0, 2, 1] _ _ (ix3 n k j) (ix3 n j k)
    (fun b => by match b with | ⟨0, _⟩ => rfl | ⟨1, _⟩ => rfl | ⟨2, _⟩ => rfl)

/-- The bias block (the whole stack with its unit middle axis) at `(layer, 0, new feature)` is the launch's stack at
    `(layer, new feature)`: the two indices have the same row-major position. -/
theorem bias_block (c : Dev nD) (t : Fin cfg0.N) (n : Fin 25) (j : Fin 50) :
    iblk m c 2 t (ix3 n (0 : Fin 1) j) = m ((c : Thread nD τ).loc main_arg2) (ix2 n j) := by
  show V m c main_v1 (((cfg0.win 2).blk t).view.emb (ix3 n (0 : Fin 1) j)) = _
  have he : ((cfg0.win 2).blk t).view.emb (ix3 n (0 : Fin 1) j) = ix3 n (0 : Fin 1) j := by
    obtain ⟨-, -, -, -, -, e5, e6, e7, -⟩ := idx_facts t
    funext a; apply Fin.ext
    match a with
    | ⟨0, _⟩ => show win0_2.index t (0 : Fin 3) * 25 + 1 * n.val = n.val; omega
    | ⟨1, _⟩ => show win0_2.index t (1 : Fin 3) * 1 + 1 * 0 = 0; omega
    | ⟨2, _⟩ => show win0_2.index t (2 : Fin 3) * 50 + 1 * j.val = j.val; omega
  rw [he, V_biases]
  refine shapeCast_apply _ _ (ix3 n (0 : Fin 1) j) (ix2 n j) ?_
  rw [Shape.rowMajor_val_two, Shape.rowMajor_val_three]
  show n.val * 50 + j.val = (n.val * 1 + 0) * 50 + j.val
  omega

/-- The output-weight block is the launch's column, at every point. -/
theorem outWeight_block (c : Dev nD) (t : Fin cfg0.N) (k : Fin 1266) :
    iblk m c 3 t (ix2 k (0 : Fin 1)) = m ((c : Thread nD τ).loc main_arg3) (ix2 k (0 : Fin 1)) := by
  show V m c main_arg3 (((cfg0.win 3).blk t).view.emb (ix2 k (0 : Fin 1))) = _
  rw [V_main_arg3]
  refine congrArg _ ?_
  obtain ⟨-, -, -, -, -, -, -, -, e8, e9, -⟩ := idx_facts t
  funext a; apply Fin.ext
  match a with
  | ⟨0, _⟩ => show win0_3.index t (0 : Fin 2) * 1266 + 1 * k.val = k.val; omega
  | ⟨1, _⟩ => show win0_3.index t (1 : Fin 2) * 1 + 1 * 0 = 0; omega

/-- The output-bias block's one entry is the launch's one-element vector's. -/
theorem outBias_block (c : Dev nD) (t : Fin cfg0.N) :
    iblk m c 4 t (ix2 (0 : Fin 1) (0 : Fin 1)) = m ((c : Thread nD τ).loc main_arg4) (ix1 (0 : Fin 1)) := by
  show V m c main_v2 (((cfg0.win 4).blk t).view.emb (ix2 (0 : Fin 1) (0 : Fin 1))) = _
  have he : ((cfg0.win 4).blk t).view.emb (ix2 (0 : Fin 1) (0 : Fin 1)) = ix2 (0 : Fin 1) (0 : Fin 1) := by
    obtain ⟨-, -, -, -, -, -, -, -, -, -, e10, e11, -⟩ := idx_facts t
    funext a; apply Fin.ext
    match a with
    | ⟨0, _⟩ => show win0_4.index t (0 : Fin 2) * 1 + 1 * 0 = 0; omega
    | ⟨1, _⟩ => show win0_4.index t (1 : Fin 2) * 1 + 1 * 0 = 0; omega
  rw [he, V_outBias]
  refine shapeCast_apply _ _ (ix2 (0 : Fin 1) (0 : Fin 1)) (ix1 (0 : Fin 1)) ?_
  rw [Shape.rowMajor_val_one, Shape.rowMajor_val_two]
  rfl

/-! ## The same, as the specification's functions of natural-number coordinates -/

theorem row_eq (c : Dev nD) (t : Fin cfg0.N) (p : Fin 4096) (hr : t.val * 4096 + p.val < 32768) :
    rowOf (R := 4096) (C := 16) (iblk m c 0 t) p = rowOf (m ((c : Thread nD τ).loc main_arg0)) ⟨t.val * 4096 + p.val, hr⟩ := by
  funext k
  by_cases hk : k < 16
  · rw [rowOf_lt _ _ hk, rowOf_lt _ _ hk]; exact state_block m c t p ⟨k, hk⟩ hr
  · unfold rowOf; rw [dif_neg hk, dif_neg hk]

theorem weights_eq (c : Dev nD) (t : Fin cfg0.N) :
    (fun n j k => weightOf (N := 25) (J := 1266) (K := 50) (iblk m c 1 t) n k j) = weightOf (m ((c : Thread nD τ).loc main_arg1)) := by
  funext n j k
  by_cases h : n < 25 ∧ j < 50 ∧ k < 1266
  · rw [weightOf_lt _ h.1 h.2.2 h.2.1, weightOf_lt _ h.1 h.2.1 h.2.2]; exact weight_block m c t ⟨n, h.1⟩ ⟨k, h.2.2⟩ ⟨j, h.2.1⟩
  · unfold weightOf; rw [dif_neg (fun h' => h ⟨h'.1, h'.2.2, h'.2.1⟩), dif_neg h]

theorem biases_eq (c : Dev nD) (t : Fin cfg0.N) :
    (fun n j => weightOf (N := 25) (J := 1) (K := 50) (iblk m c 2 t) n 0 j) = biasOf (m ((c : Thread nD τ).loc main_arg2)) := by
  funext n j
  by_cases h : n < 25 ∧ j < 50
  · rw [weightOf_lt _ h.1 (Nat.zero_lt_one) h.2, biasOf_lt _ h.1 h.2]; exact bias_block m c t ⟨n, h.1⟩ ⟨j, h.2⟩
  · unfold weightOf biasOf; rw [dif_neg (fun h' => h ⟨h'.1, h'.2.2⟩), dif_neg h]

theorem outWeights_eq (c : Dev nD) (t : Fin cfg0.N) :
    outWeightOf (K := 1266) (iblk m c 3 t) = outWeightOf (m ((c : Thread nD τ).loc main_arg3)) := by
  funext k
  by_cases hk : k < 1266
  · rw [outWeightOf_lt _ hk, outWeightOf_lt _ hk]; exact outWeight_block m c t ⟨k, hk⟩
  · unfold outWeightOf; rw [dif_neg hk, dif_neg hk]

end Cert.KernelIdeal.ArrayValue

end
-- ==== Proof.KernelBodyLib.lean ====
/-
  Generic facts for reading a row of the densely connected network off a scratch buffer that is
  filled column block by column block.

  * a plain matrix product into a zero accumulator, read at an index, is the sum over the contracted
    coordinate;
  * one layer's expression (product with the weight block, bias row added, leaky rectifier) read at
    (row, new feature) is the rectified affine form of that row;
  * a list of column-block stores, read newest first at (row, column): the newest block that holds
    the column gives the value, a block that does not hold it is skipped;
  * THE INVARIANT (RowInv): the stores so far, read at row p and column k below the padded width,
    give feature k of the row after n layers where k is below the row's present width, and zero on the
    padding; one layer's two stores (its 50 new columns, then the zero fill up to the next padded
    width) carry the invariant from n to n + 1;
  * under the invariant a contraction of the padded row with a weight block is the contraction of the
    row itself (zero padding drops out), which is the next layer's new feature.
-/
import Idealize.ShloMosaic.PureOps.Ideal.Laws
import Idealize.ShloMosaic.Lib.ValueIdx
import Idealize.ShloMosaic.Lib.ValueLayout
import Idealize.ShloMosaic.Lib.Pipeline.FrameBody
import Idealize.ShloMosaic.Lib.Pipeline.Value
import Idealize.ShloMosaic.Lib.WholeRead
import proofs.«119617_j10823317586373_2_alg».proof.Proof.Spec

noncomputable section

namespace Cert.KernelIdeal.BodyValue

open Idealize.ShloMosaic Idealize.ShloMosaic.ValueIdx Cert.GrowingMlp

/-! ## A plain product into a zero accumulator, at an index -/

/-- The product of an M×K by a K×N matrix into a zero accumulator, read at (a, b), is
    the sum over c of A(a,c) · B(c,b). -/
theorem matmul_plain_zero_apply {M K N : ℕ} (D : DotDims ⟨2, ![M, K]⟩ ⟨2, ![K, N]⟩ ⟨2, ![M, N]⟩)
    (hD : D = DotDims.plain M K N) (prec : Option ContractPrecision)
    (A : FVec Ideal ⟨2, ![M, K]⟩ .f32) (B : FVec Ideal ⟨2, ![K, N]⟩ .f32) (a : Fin M) (b : Fin N) :
    FloatOps.matmul D prec A B (constant (F := Ideal) ⟨2, ![M, N]⟩ .f32 0x00000000#32) (ix2 a b)
      = ∑ c : Fin K, A (ix2 a c) * B (ix2 c b) := by
  subst hD
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## One layer's expression at (row, new feature) -/

/-- The affine part of a layer on 4096 rows: the loaded columns times the weight block (its leading
    unit axis dropped), plus the bias row broadcast down the rows. -/
@[reducible] def preAct {K : ℕ} (D : DotDims ⟨2, ![4096, K]⟩ ⟨2, ![K, 50]⟩ ⟨2, ![4096, 50]⟩)
    (sc1 : (⟨3, ![1, K, 50]⟩ : Shape).ShapeCasts ⟨2, ![K, 50]⟩)
    (sc2 : (⟨3, ![1, 1, 50]⟩ : Shape).ShapeCasts ⟨2, ![1, 50]⟩)
    (bc : (⟨2, ![1, 50]⟩ : Shape).Broadcasts ⟨2, ![4096, 50]⟩)
    (ld : FVec Ideal ⟨2, ![4096, K]⟩ .f32) (wb : FVec Ideal ⟨3, ![1, K, 50]⟩ .f32)
    (bs : FVec Ideal ⟨3, ![1, 1, 50]⟩ .f32) : FVec Ideal ⟨2, ![4096, 50]⟩ .f32 :=
  addf (matmul D (some .fp32) ld (shapeCast ⟨2, ![K, 50]⟩ wb sc1) (constant ⟨2, ![4096, 50]⟩ .f32 0x00000000#32))
    (broadcastTo ⟨2, ![4096, 50]⟩ (shapeCast ⟨2, ![1, 50]⟩ bs sc2) bc)

/-- The leaky rectifier applied entry by entry, as the kernel writes it: compare with the zero word,
    keep the entry or take the slope word times it. -/
@[reducible] def rectify (x : FVec Ideal ⟨2, ![4096, 50]⟩ .f32) : FVec Ideal ⟨2, ![4096, 50]⟩ .f32 :=
  select (cmpf .oge x (broadcast ⟨2, ![4096, 50]⟩ (Scalar.ofBits .f32 0x00000000#32))) x
    (mulf (broadcast ⟨2, ![4096, 50]⟩ (Scalar.ofBits .f32 0x3C23D70A#32)) x)

/-- The rectified affine form of one row: feature j of the layer on row p of the loaded columns. -/
def layerAt {K : ℕ} (ld : FVec Ideal ⟨2, ![4096, K]⟩ .f32) (wb : FVec Ideal ⟨3, ![1, K, 50]⟩ .f32)
    (bs : FVec Ideal ⟨3, ![1, 1, 50]⟩ .f32) (p : Fin 4096) (j : Fin 50) : EReal :=
  lrelu ((∑ k : Fin K, ld (ix2 p k) * wb (ix3 (0 : Fin 1) k j)) + bs (ix3 (0 : Fin 1) (0 : Fin 1) j))

theorem preAct_apply {K : ℕ} (D : DotDims ⟨2, ![4096, K]⟩ ⟨2, ![K, 50]⟩ ⟨2, ![4096, 50]⟩)
    (hD : D = DotDims.plain 4096 K 50)
    (sc1 : (⟨3, ![1, K, 50]⟩ : Shape).ShapeCasts ⟨2, ![K, 50]⟩)
    (sc2 : (⟨3, ![1, 1, 50]⟩ : Shape).ShapeCasts ⟨2, ![1, 50]⟩)
    (bc : (⟨2, ![1, 50]⟩ : Shape).Broadcasts ⟨2, ![4096, 50]⟩)
    (ld : FVec Ideal ⟨2, ![4096, K]⟩ .f32) (wb : FVec Ideal ⟨3, ![1, K, 50]⟩ .f32)
    (bs : FVec Ideal ⟨3, ![1, 1, 50]⟩ .f32) (p : Fin 4096) (j : Fin 50) :
    preAct D sc1 sc2 bc ld wb bs (ix2 p j)
      = (∑ k : Fin K, ld (ix2 p k) * wb (ix3 (0 : Fin 1) k j)) + bs (ix3 (0 : Fin 1) (0 : Fin 1) j) := by
  show FloatOps.matmul D (some .fp32) ld (shapeCast ⟨2, ![K, 50]⟩ wb sc1)
        (constant (F := Ideal) ⟨2, ![4096, 50]⟩ .f32 0x00000000#32) (ix2 p j)
      + broadcastTo ⟨2, ![4096, 50]⟩ (shapeCast ⟨2, ![1, 50]⟩ bs sc2) bc (ix2 p j) = _
  refine congrArg₂ (· + ·) ?_ ?_
  · refine (matmul_plain_zero_apply D hD _ ld _ p j).trans ?_
    exact Finset.sum_congr rfl fun k _ => congrArg (ld (ix2 p k) * ·) (shapeCast_1ab_ab_apply wb sc1 k j)
  · exact (broadcastTo_1b_ab_apply _ bc p j).trans (shapeCast_1ab_ab_apply bs sc2 (0 : Fin 1) j)

theorem rectify_apply (x : FVec Ideal ⟨2, ![4096, 50]⟩ .f32) (i : (⟨2, ![4096, 50]⟩ : Shape).Idx) :
    rectify x i = lrelu (x i) := rfl

/-- THE LAYER'S STORED VALUE at (row p, new feature j). -/
theorem layer_expr_apply {K : ℕ} (D : DotDims ⟨2, ![4096, K]⟩ ⟨2, ![K, 50]⟩ ⟨2, ![4096, 50]⟩)
    (hD : D = DotDims.plain 4096 K 50)
    (sc1 : (⟨3, ![1, K, 50]⟩ : Shape).ShapeCasts ⟨2, ![K, 50]⟩)
    (sc2 : (⟨3, ![1, 1, 50]⟩ : Shape).ShapeCasts ⟨2, ![1, 50]⟩)
    (bc : (⟨2, ![1, 50]⟩ : Shape).Broadcasts ⟨2, ![4096, 50]⟩)
    (sc3 : (⟨2, ![4096, 50]⟩ : Shape).ShapeCasts ⟨2, ![4096, 50]⟩)
    (ld : FVec Ideal ⟨2, ![4096, K]⟩ .f32) (wb : FVec Ideal ⟨3, ![1, K, 50]⟩ .f32)
    (bs : FVec Ideal ⟨3, ![1, 1, 50]⟩ .f32) (p : Fin 4096) (j : Fin 50) :
    shapeCast ⟨2, ![4096, 50]⟩ (rectify (preAct D sc1 sc2 bc ld wb bs)) sc3 (ix2 p j) = layerAt ld wb bs p j := by
  rw [shapeCast_self]
  exact (rectify_apply _ _).trans (congrArg lrelu (preAct_apply D hD sc1 sc2 bc ld wb bs p j))

/-! ## Column-block stores read newest first -/

section Cols

variable {C : ℕ}

/-- The index (row p, column k) of a 4096-row buffer is the image of (p, j) in the column block
    that starts at column w when k = w + j. -/
theorem ix2_eq_emb_cols (w z : ℕ)
    (inb : ∀ a, (![0, w] : Fin 2 → ℕ) a + (![4096, z] : Fin 2 → ℕ) a ≤ (⟨2, ![4096, C]⟩ : Shape).size a)
    (p : Fin 4096) (k : Fin C) (j : Fin z) (hk : k.val = w + j.val) :
    (ix2 p k : (⟨2, ![4096, C]⟩ : Shape).Idx)
      = (Rect.unit (s := ⟨2, ![4096, C]⟩) ![0, w] ![4096, z] inb).emb (ix2 p j) := by
  funext a; apply Fin.ext
  match a with
  | ⟨0, _⟩ =>
    show p.val = 0 + 1 * p.val
    omega
  | ⟨1, _⟩ =>
    show k.val = w + 1 * j.val
    omega

/-- A column block that holds the column gives its payload there. -/
theorem canon_cons_cols_hit (w z : ℕ)
    (inb : ∀ a, (![0, w] : Fin 2 → ℕ) a + (![4096, z] : Fin 2 → ℕ) a ≤ (⟨2, ![4096, C]⟩ : Shape).size a)
    (P : (⟨2, ![4096, z]⟩ : Shape).Idx → EReal) (L : List (View.Piece (Elt Ideal) ⟨2, ![4096, C]⟩ .f32))
    (p : Fin 4096) (k : Fin C) (j : Fin z) (hk : k.val = w + j.val) :
    View.canon ((⟨Rect.unit ![0, w] ![4096, z] inb, P⟩ : View.Piece (Elt Ideal) ⟨2, ![4096, C]⟩ .f32) :: L) (ix2 p k)
      = P (ix2 p j) := by
  have h := View.canon_cons_emb (Val := Elt Ideal) (Rect.unit (s := ⟨2, ![4096, C]⟩) ![0, w] ![4096, z] inb) P L (ix2 p j)
  exact (congrArg (View.canon _) (ix2_eq_emb_cols w z inb p k j hk)).trans h

/-- A column block that does not hold the column is skipped. -/
theorem canon_cons_cols_miss (w z : ℕ)
    (inb : ∀ a, (![0, w] : Fin 2 → ℕ) a + (![4096, z] : Fin 2 → ℕ) a ≤ (⟨2, ![4096, C]⟩ : Shape).size a)
    (P : (⟨2, ![4096, z]⟩ : Shape).Idx → EReal) (L : List (View.Piece (Elt Ideal) ⟨2, ![4096, C]⟩ .f32))
    (p : Fin 4096) (k : Fin C) (hk : k.val < w ∨ w + z ≤ k.val) :
    View.canon ((⟨Rect.unit ![0, w] ![4096, z] inb, P⟩ : View.Piece (Elt Ideal) ⟨2, ![4096, C]⟩ .f32) :: L) (ix2 p k)
      = View.canon L (ix2 p k) := by
  refine View.canon_cons_of_not_mem _ L ?_
  show ¬ (ix2 p k : (⟨2, ![4096, C]⟩ : Shape).Idx) ∈ (Rect.unit (s := ⟨2, ![4096, C]⟩) ![0, w] ![4096, z] inb).set
  rw [Rect.mem_set_unit]
  intro h
  have h1 := h (1 : Fin 2)
  have e1 : ((ix2 p k : (⟨2, ![4096, C]⟩ : Shape).Idx) (1 : Fin 2) : ℕ) = k.val := rfl
  have e2 : (![0, w] : Fin 2 → ℕ) (1 : Fin 2) = w := rfl
  have e3 : (![4096, z] : Fin 2 → ℕ) (1 : Fin 2) = z := rfl
  rw [e1, e2, e3] at h1
  omega

end Cols

/-! ## The invariant along the stores -/

section Inv

variable (s : ℕ → EReal) (W : ℕ → ℕ → ℕ → EReal) (b : ℕ → ℕ → EReal)

/-- The row after n layers, zero from its present width on. -/
def padRow (n k : ℕ) : EReal := if k < width n then feat s W b n k else 0

theorem padRow_lt {n k : ℕ} (h : k < width n) : padRow s W b n k = feat s W b n k := if_pos h
theorem padRow_ge {n k : ℕ} (h : width n ≤ k) : padRow s W b n k = 0 := if_neg (Nat.not_lt.mpr h)

/-- THE INVARIANT: the stores L, read at row p and any column k below the padded width kw, give the
    row after n layers padded with zeros. -/
def RowInv (n kw : ℕ) (p : Fin 4096) (L : List (View.Piece (Elt Ideal) ⟨2, ![4096, 1266]⟩ .f32)) : Prop :=
  ∀ k : Fin 1266, k.val < kw → View.canon L (ix2 p k) = padRow s W b n k.val

/-- ONE LAYER'S TWO STORES carry the invariant: the 50 new columns at [w, w+50), w the row's width,
    hold the next layer's new features; the zero fill at [w+50, w+50+z) reaches the next padded width. -/
theorem RowInv.step {n kw kw' : ℕ} {p : Fin 4096} {L : List (View.Piece (Elt Ideal) ⟨2, ![4096, 1266]⟩ .f32)}
    (h : RowInv s W b n kw p L) (w : ℕ) (hw : w = width n) (hkw : w ≤ kw)
    (inbN : ∀ a, (![0, w] : Fin 2 → ℕ) a + (![4096, 50] : Fin 2 → ℕ) a ≤ (⟨2, ![4096, 1266]⟩ : Shape).size a)
    (P : (⟨2, ![4096, 50]⟩ : Shape).Idx → EReal)
    (hP : ∀ j : Fin 50, P (ix2 p j) = feat s W b (n + 1) (w + j.val))
    (w' z : ℕ) (hw' : w' = w + 50)
    (inbZ : ∀ a, (![0, w'] : Fin 2 → ℕ) a + (![4096, z] : Fin 2 → ℕ) a ≤ (⟨2, ![4096, 1266]⟩ : Shape).size a)
    (Z : (⟨2, ![4096, z]⟩ : Shape).Idx → EReal) (hZ : ∀ j : Fin z, Z (ix2 p j) = 0)
    (hkw' : kw' ≤ w' + z) :
    RowInv s W b (n + 1) kw' p
      ((⟨Rect.unit ![0, w'] ![4096, z] inbZ, Z⟩ : View.Piece (Elt Ideal) ⟨2, ![4096, 1266]⟩ .f32)
        :: (⟨Rect.unit ![0, w] ![4096, 50] inbN, P⟩ : View.Piece (Elt Ideal) ⟨2, ![4096, 1266]⟩ .f32) :: L) := by
  intro k hk
  subst hw hw'
  have hws : width (n + 1) = width n + 50 := width_succ n
  by_cases h1 : width n + 50 ≤ k.val
  · -- on the new zero fill
    rw [canon_cons_cols_hit (width n + 50) z inbZ Z _ p k ⟨k.val - (width n + 50), by omega⟩ (by show k.val = _ + (k.val - _); omega),
      hZ, padRow_ge s W b (by omega)]
  · rw [canon_cons_cols_miss (width n + 50) z inbZ Z _ p k (Or.inl (by omega))]
    by_cases h2 : width n ≤ k.val
    · -- on the 50 new columns
      rw [canon_cons_cols_hit (width n) 50 inbN P _ p k ⟨k.val - width n, by omega⟩ (by show k.val = _ + (k.val - _); omega),
        hP, padRow_lt s W b (by omega)]
      exact congrArg (feat s W b (n + 1)) (by show width n + (k.val - width n) = k.val; omega)
    · -- an older column
      rw [canon_cons_cols_miss (width n) 50 inbN P _ p k (Or.inl (by omega)), h k (by omega),
        padRow_lt s W b (by omega), padRow_lt s W b (by omega), feat_succ_lt s W b (by omega)]

/-- The last layer has no zero fill after it. -/
theorem RowInv.step_last {n kw kw' : ℕ} {p : Fin 4096} {L : List (View.Piece (Elt Ideal) ⟨2, ![4096, 1266]⟩ .f32)}
    (h : RowInv s W b n kw p L) (w : ℕ) (hw : w = width n) (hkw : w ≤ kw)
    (inbN : ∀ a, (![0, w] : Fin 2 → ℕ) a + (![4096, 50] : Fin 2 → ℕ) a ≤ (⟨2, ![4096, 1266]⟩ : Shape).size a)
    (P : (⟨2, ![4096, 50]⟩ : Shape).Idx → EReal)
    (hP : ∀ j : Fin 50, P (ix2 p j) = feat s W b (n + 1) (w + j.val))
    (hkw' : kw' ≤ w + 50) :
    RowInv s W b (n + 1) kw' p
      ((⟨Rect.unit ![0, w] ![4096, 50] inbN, P⟩ : View.Piece (Elt Ideal) ⟨2, ![4096, 1266]⟩ .f32) :: L) := by
  intro k hk
  subst hw
  have hws : width (n + 1) = width n + 50 := width_succ n
  by_cases h2 : width n ≤ k.val
  · rw [canon_cons_cols_hit (width n) 50 inbN P _ p k ⟨k.val - width n, by omega⟩ (by show k.val = _ + (k.val - _); omega),
      hP, padRow_lt s W b (by omega)]
    exact congrArg (feat s W b (n + 1)) (by show width n + (k.val - width n) = k.val; omega)
  · rw [canon_cons_cols_miss (width n) 50 inbN P _ p k (Or.inl (by omega)), h k (by omega),
      padRow_lt s W b (by omega), padRow_lt s W b (by omega), feat_succ_lt s W b (by omega)]

/-- THE START: the copied state block under the first zero fill. -/
theorem RowInv.start {kw : ℕ} {p : Fin 4096}
    (inb0 : ∀ a, (![0, 0] : Fin 2 → ℕ) a + (![4096, 16] : Fin 2 → ℕ) a ≤ (⟨2, ![4096, 1266]⟩ : Shape).size a)
    (X : (⟨2, ![4096, 16]⟩ : Shape).Idx → EReal) (hX : ∀ j : Fin 16, X (ix2 p j) = s j.val)
    (z : ℕ)
    (inbZ : ∀ a, (![0, 16] : Fin 2 → ℕ) a + (![4096, z] : Fin 2 → ℕ) a ≤ (⟨2, ![4096, 1266]⟩ : Shape).size a)
    (Z : (⟨2, ![4096, z]⟩ : Shape).Idx → EReal) (hZ : ∀ j : Fin z, Z (ix2 p j) = 0)
    (hkw : kw ≤ 16 + z) :
    RowInv s W b 0 kw p
      [(⟨Rect.unit ![0, 16] ![4096, z] inbZ, Z⟩ : View.Piece (Elt Ideal) ⟨2, ![4096, 1266]⟩ .f32),
        (⟨Rect.unit ![0, 0] ![4096, 16] inb0, X⟩ : View.Piece (Elt Ideal) ⟨2, ![4096, 1266]⟩ .f32)] := by
  intro k hk
  have hw0 : width 0 = 16 := rfl
  by_cases h1 : 16 ≤ k.val
  · rw [canon_cons_cols_hit 16 z inbZ Z _ p k ⟨k.val - 16, by omega⟩ (by show k.val = 16 + (k.val - 16); omega),
      hZ, padRow_ge s W b (by omega)]
  · rw [canon_cons_cols_miss 16 z inbZ Z _ p k (Or.inl (by omega)),
      canon_cons_cols_hit 0 16 inb0 X _ p k ⟨k.val, by omega⟩ (by show k.val = 0 + k.val; omega),
      hX, padRow_lt s W b (by omega)]
    rfl

/-- UNDER THE INVARIANT THE PADDING DROPS OUT of the layer's contraction: the rectified affine form of
    the padded row, with layer n's weights and bias, is the row's next new feature. -/
theorem layerAt_eq_feat {K : ℕ} (n : ℕ) (hK : width n ≤ K)
    (ld : FVec Ideal ⟨2, ![4096, K]⟩ .f32) (wb : FVec Ideal ⟨3, ![1, K, 50]⟩ .f32)
    (bs : FVec Ideal ⟨3, ![1, 1, 50]⟩ .f32) (p : Fin 4096) (j : Fin 50)
    (hld : ∀ k : Fin K, ld (ix2 p k) = padRow s W b n k.val)
    (hwb : ∀ k : Fin K, wb (ix3 (0 : Fin 1) k j) = W n j.val k.val)
    (hbs : bs (ix3 (0 : Fin 1) (0 : Fin 1) j) = b n j.val) :
    layerAt ld wb bs p j = feat s W b (n + 1) (width n + j.val) := by
  unfold layerAt
  rw [feat_new, hbs]
  refine congrArg (fun t => lrelu (t + b n j.val)) ?_
  have e1 : ∑ k : Fin K, ld (ix2 p k) * wb (ix3 (0 : Fin 1) k j)
      = ∑ k : Fin K, (fun k' : ℕ => padRow s W b n k' * W n j.val k') k.val :=
    Finset.sum_congr rfl fun k _ => by rw [hld k, hwb k]
  rw [e1, sum_fin_eq_range K (fun k' : ℕ => padRow s W b n k' * W n j.val k'),
    sum_range_padded (padRow s W b n) (W n j.val) hK (fun k h1 _ => padRow_ge s W b h1)]
  exact Finset.sum_congr rfl fun k hk => by rw [padRow_lt s W b (Finset.mem_range.mp hk)]

end Inv

/-! ## Loads -/

/-- A load of the first K columns after the stores L, at (p, k), is the stores read at (p, k). -/
theorem readCov_cols_apply {sig : RefSig} {κ : Kind} {sp : Space} {K : ℕ}
    (v : View sig κ sp ⟨2, ![4096, 1266]⟩ .f32) (L : List (View.Piece (Elt Ideal) ⟨2, ![4096, 1266]⟩ .f32))
    (inb : ∀ a, (![0, 0] : Fin 2 → ℕ) a + (![4096, K] : Fin 2 → ℕ) a ≤ (⟨2, ![4096, 1266]⟩ : Shape).size a)
    (p : Fin 4096) (k : Fin K) :
    v.readCov L (Rect.unit (s := ⟨2, ![4096, 1266]⟩) ![0, 0] ![4096, K] inb).toLoadRect (ix2 p k)
      = View.canon L (ix2 p ⟨k.val, lt_of_lt_of_le k.isLt (by have := inb 1; simpa using this)⟩) := by
  rw [View.readCov_eq_canon']
  refine congrArg (View.canon L) ?_
  funext a; apply Fin.ext
  match a with
  | ⟨0, _⟩ =>
    show 0 + 1 * p.val = p.val
    omega
  | ⟨1, _⟩ =>
    show 0 + 1 * k.val = k.val
    omega

/-- So under the invariant the load holds the padded row. -/
theorem load_of_inv (s : ℕ → EReal) (W : ℕ → ℕ → ℕ → EReal) (b : ℕ → ℕ → EReal)
    {sig : RefSig} {κ : Kind} {sp : Space} {K n : ℕ}
    (v : View sig κ sp ⟨2, ![4096, 1266]⟩ .f32) {L : List (View.Piece (Elt Ideal) ⟨2, ![4096, 1266]⟩ .f32)}
    {p : Fin 4096} (h : RowInv s W b n K p L)
    (inb : ∀ a, (![0, 0] : Fin 2 → ℕ) a + (![4096, K] : Fin 2 → ℕ) a ≤ (⟨2, ![4096, 1266]⟩ : Shape).size a)
    (k : Fin K) :
    v.readCov L (Rect.unit (s := ⟨2, ![4096, 1266]⟩) ![0, 0] ![4096, K] inb).toLoadRect (ix2 p k)
      = padRow s W b n k.val := by
  rw [readCov_cols_apply v L inb p k]
  exact h _ k.isLt

/-- A load of the block [n, n+1) × [0, K) × [0, B) of a whole three-axis argument held at the contents
    that read x, at (0, k, j), is x at (n, k, j). -/
theorem readAt_block3 {sig : RefSig} {N A B K : ℕ} (arg : Memref sig .tc .vmem ⟨3, ![N, A, B]⟩ .f32)
    (harg : arg.IsWhole) (x : Vec Ideal ⟨3, ![N, A, B]⟩ .f32) (n : ℕ)
    (inb : ∀ a, (![n, 0, 0] : Fin 3 → ℕ) a + (![1, K, B] : Fin 3 → ℕ) a ≤ (⟨3, ![N, A, B]⟩ : Shape).size a)
    (k : Fin K) (j : Fin B) :
    View.readAt (Elt Ideal) arg.view (Rect.unit (s := ⟨3, ![N, A, B]⟩) ![n, 0, 0] ![1, K, B] inb).toLoadRect
        (harg.unread x) (ix3 (0 : Fin 1) k j)
      = weightOf x n k.val j.val := by
  have hn : n < N := by have := inb 0; simp at this; omega
  have hk : k.val < A := by have := inb 1; simp at this; omega
  rw [harg.readAt_unread, weightOf_lt x hn hk j.isLt]
  refine congrArg x ?_
  funext a; apply Fin.ext
  match a with
  | ⟨0, _⟩ =>
    show n + 1 * 0 = n
    omega
  | ⟨1, _⟩ =>
    show 0 + 1 * k.val = k.val
    omega
  | ⟨2, _⟩ =>
    show 0 + 1 * j.val = j.val
    omega

/-- A load of a whole two-axis argument held at the contents that read x, at (r, c), is x there. -/
theorem readAt_whole2 {sig : RefSig} {R Cc : ℕ} (arg : Memref sig .tc .vmem ⟨2, ![R, Cc]⟩ .f32)
    (harg : arg.IsWhole) (x : Vec Ideal ⟨2, ![R, Cc]⟩ .f32)
    (inb : ∀ a, (![0, 0] : Fin 2 → ℕ) a + (![R, Cc] : Fin 2 → ℕ) a ≤ (⟨2, ![R, Cc]⟩ : Shape).size a)
    (r : Fin R) (c : Fin Cc) :
    View.readAt (Elt Ideal) arg.view (Rect.unit (s := ⟨2, ![R, Cc]⟩) ![0, 0] ![R, Cc] inb).toLoadRect
        (harg.unread x) (ix2 r c)
      = x (ix2 r c) := by
  rw [harg.readAt_unread]
  refine congrArg x ?_
  funext a; apply Fin.ext
  match a with
  | ⟨0, _⟩ =>
    show 0 + 1 * r.val = r.val
    omega
  | ⟨1, _⟩ =>
    show 0 + 1 * c.val = c.val
    omega

/-! ## The zero fill, the copied block, the final affine map -/

/-- A block filled with the zero word holds zero. -/
theorem zero_fill_apply {z : ℕ} (sc : (⟨2, ![4096, z]⟩ : Shape).ShapeCasts ⟨2, ![4096, z]⟩)
    (i : (⟨2, ![4096, z]⟩ : Shape).Idx) :
    shapeCast ⟨2, ![4096, z]⟩ (broadcast ⟨2, ![4096, z]⟩ (Scalar.ofBits (F := Ideal) .f32 0x00000000#32)) sc i = 0 := by
  rw [shapeCast_self]
  exact Ideal.ofBits_zero_f32

/-- The final affine map at row p: the loaded row contracted with the weight column, plus the bias. -/
theorem final_expr_apply (D : DotDims ⟨2, ![4096, 1266]⟩ ⟨2, ![1266, 1]⟩ ⟨2, ![4096, 1]⟩)
    (hD : D = DotDims.plain 4096 1266 1)
    (sc : (⟨2, ![1, 1]⟩ : Shape).ShapeCasts ⟨2, ![1, 1]⟩)
    (bc : (⟨2, ![1, 1]⟩ : Shape).Broadcasts ⟨2, ![4096, 1]⟩)
    (ld : FVec Ideal ⟨2, ![4096, 1266]⟩ .f32) (wo : FVec Ideal ⟨2, ![1266, 1]⟩ .f32)
    (bo : FVec Ideal ⟨2, ![1, 1]⟩ .f32) (p : Fin 4096) :
    addf (matmul D (some .fp32) ld wo (constant ⟨2, ![4096, 1]⟩ .f32 0x00000000#32))
        (broadcastTo ⟨2, ![4096, 1]⟩ (shapeCast ⟨2, ![1, 1]⟩ bo sc) bc) (ix2 p (0 : Fin 1))
      = (∑ k : Fin 1266, ld (ix2 p k) * wo (ix2 k (0 : Fin 1))) + bo (ix2 (0 : Fin 1) (0 : Fin 1)) := by
  show FloatOps.matmul D (some .fp32) ld wo (constant (F := Ideal) ⟨2, ![4096, 1]⟩ .f32 0x00000000#32) (ix2 p (0 : Fin 1))
      + broadcastTo ⟨2, ![4096, 1]⟩ (shapeCast ⟨2, ![1, 1]⟩ bo sc) bc (ix2 p (0 : Fin 1)) = _
  refine congrArg₂ (· + ·) (matmul_plain_zero_apply D hD _ ld wo p (0 : Fin 1)) ?_
  refine (broadcastTo_1b_ab_apply _ bc p (0 : Fin 1)).trans ?_
  rw [shapeCast_self]

/-- The whole network's value on a row from the final contraction over the 1266 features. -/
theorem rowResult_of_final (s : ℕ → EReal) (W : ℕ → ℕ → ℕ → EReal) (b : ℕ → ℕ → EReal) (wo : ℕ → EReal) (bo : EReal)
    (ld : Fin 1266 → EReal) (wv : Fin 1266 → EReal)
    (hld : ∀ k : Fin 1266, ld k = feat s W b 25 k.val) (hwv : ∀ k : Fin 1266, wv k = wo k.val) :
    (∑ k : Fin 1266, ld k * wv k) + bo = rowResult s W b wo bo := by
  unfold rowResult
  refine congrArg (· + bo) ?_
  have e1 : ∑ k : Fin 1266, ld k * wv k = ∑ k : Fin 1266, (fun k' : ℕ => feat s W b 25 k' * wo k') k.val :=
    Finset.sum_congr rfl fun k _ => by rw [hld k, hwv k]
  rw [e1, sum_fin_eq_range 1266 (fun k' : ℕ => feat s W b 25 k' * wo k')]

end Cert.KernelIdeal.BodyValue

end
-- ==== Proof.KernelBodyPay.lean ====
/-
  Each layer's stored value, as the kernel's arithmetic writes it, read at (row p, new feature j): the
  rectified affine form of row p of the loaded columns (layerAt); each zero fill read at an index: zero;
  the copied state block: the block itself; the final contraction at row p: the affine form of the row.
  One instance per layer of the generic statements, the layer's padded width the only parameter.
-/
import proofs.«119617_j10823317586373_2_alg».proof.Proof.Gen.KernelIdeal.Skeleton
import proofs.«119617_j10823317586373_2_alg».proof.Proof.KernelBodyLib

set_option maxRecDepth 16384

noncomputable section

namespace Cert.KernelIdeal.BodyValue

open Cert.KernelIdeal Cert.KernelIdeal.Gen Idealize.ShloMosaic Idealize.ShloMosaic.ValueIdx Cert.GrowingMlp

/-- Layer 0 (padded width 128). -/
theorem payL0_apply (ld : Vec Ideal S4096x128 .f32) (wb : Vec Ideal S1x128x50 .f32) (bs : Vec Ideal S1x1x50 .f32)
    (p : Fin 4096) (j : Fin 50) :
    k0_pay4 (F := Ideal) ld wb bs (ix2 p j) = layerAt ld wb bs p j :=
  layer_expr_apply dot_S4096x128_S128x50_S4096x50_1_0_0_1_n_n rfl shapeCasts_S1x128x50_S128x50 shapeCasts_S1x1x50_S1x50
    broadcasts_S1x50_S4096x50 shapeCasts_S4096x50_S4096x50 ld wb bs p j

/-- Layer 1 (padded width 128). -/
theorem payL1_apply (ld : Vec Ideal S4096x128 .f32) (wb : Vec Ideal S1x128x50 .f32) (bs : Vec Ideal S1x1x50 .f32)
    (p : Fin 4096) (j : Fin 50) :
    k0_pay6 (F := Ideal) ld wb bs (ix2 p j) = layerAt ld wb bs p j :=
  layer_expr_apply dot_S4096x128_S128x50_S4096x50_1_0_0_1_n_n rfl shapeCasts_S1x128x50_S128x50 shapeCasts_S1x1x50_S1x50
    broadcasts_S1x50_S4096x50 shapeCasts_S4096x50_S4096x50 ld wb bs p j

/-- Layer 2 (padded width 128). -/
theorem payL2_apply (ld : Vec Ideal S4096x128 .f32) (wb : Vec Ideal S1x128x50 .f32) (bs : Vec Ideal S1x1x50 .f32)
    (p : Fin 4096) (j : Fin 50) :
    k0_pay9 (F := Ideal) (k0_pay8 ld wb bs) (ix2 p j) = layerAt ld wb bs p j :=
  layer_expr_apply dot_S4096x128_S128x50_S4096x50_1_0_0_1_n_n rfl shapeCasts_S1x128x50_S128x50 shapeCasts_S1x1x50_S1x50
    broadcasts_S1x50_S4096x50 shapeCasts_S4096x50_S4096x50 ld wb bs p j

/-- Layer 3 (padded width 256). -/
theorem payL3_apply (ld : Vec Ideal S4096x256 .f32) (wb : Vec Ideal S1x256x50 .f32) (bs : Vec Ideal S1x1x50 .f32)
    (p : Fin 4096) (j : Fin 50) :
    k0_pay11 (F := Ideal) ld wb bs (ix2 p j) = layerAt ld wb bs p j :=
  layer_expr_apply dot_S4096x256_S256x50_S4096x50_1_0_0_1_n_n rfl shapeCasts_S1x256x50_S256x50 shapeCasts_S1x1x50_S1x50
    broadcasts_S1x50_S4096x50 shapeCasts_S4096x50_S4096x50 ld wb bs p j

/-- Layer 4 (padded width 256). -/
theorem payL4_apply (ld : Vec Ideal S4096x256 .f32) (wb : Vec Ideal S1x256x50 .f32) (bs : Vec Ideal S1x1x50 .f32)
    (p : Fin 4096) (j : Fin 50) :
    k0_pay14 (F := Ideal) (k0_pay13 ld wb) bs (ix2 p j) = layerAt ld wb bs p j :=
  layer_expr_apply dot_S4096x256_S256x50_S4096x50_1_0_0_1_n_n rfl shapeCasts_S1x256x50_S256x50 shapeCasts_S1x1x50_S1x50
    broadcasts_S1x50_S4096x50 shapeCasts_S4096x50_S4096x50 ld wb bs p j

/-- Layer 5 (padded width 384). -/
theorem payL5_apply (ld : Vec Ideal S4096x384 .f32) (wb : Vec Ideal S1x384x50 .f32) (bs : Vec Ideal S1x1x50 .f32)
    (p : Fin 4096) (j : Fin 50) :
    k0_pay16 (F := Ideal) ld wb bs (ix2 p j) = layerAt ld wb bs p j :=
  layer_expr_apply dot_S4096x384_S384x50_S4096x50_1_0_0_1_n_n rfl shapeCasts_S1x384x50_S384x50 shapeCasts_S1x1x50_S1x50
    broadcasts_S1x50_S4096x50 shapeCasts_S4096x50_S4096x50 ld wb bs p j

/-- Layer 6 (padded width 384). -/
theorem payL6_apply (ld : Vec Ideal S4096x384 .f32) (wb : Vec Ideal S1x384x50 .f32) (bs : Vec Ideal S1x1x50 .f32)
    (p : Fin 4096) (j : Fin 50) :
    k0_pay19 (F := Ideal) ld wb bs (ix2 p j) = layerAt ld wb bs p j :=
  layer_expr_apply dot_S4096x384_S384x50_S4096x50_1_0_0_1_n_n rfl shapeCasts_S1x384x50_S384x50 shapeCasts_S1x1x50_S1x50
    broadcasts_S1x50_S4096x50 shapeCasts_S4096x50_S4096x50 ld wb bs p j

/-- Layer 7 (padded width 384). -/
theorem payL7_apply (ld : Vec Ideal S4096x384 .f32) (wb : Vec Ideal S1x384x50 .f32) (bs : Vec Ideal S1x1x50 .f32)
    (p : Fin 4096) (j : Fin 50) :
    k0_pay23 (F := Ideal) (k0_pay21 ld wb) (k0_pay22 bs) (ix2 p j) = layerAt ld wb bs p j :=
  layer_expr_apply dot_S4096x384_S384x50_S4096x50_1_0_0_1_n_n rfl shapeCasts_S1x384x50_S384x50 shapeCasts_S1x1x50_S1x50
    broadcasts_S1x50_S4096x50 shapeCasts_S4096x50_S4096x50 ld wb bs p j

/-- Layer 8 (padded width 512). -/
theorem payL8_apply (ld : Vec Ideal S4096x512 .f32) (wb : Vec Ideal S1x512x50 .f32) (bs : Vec Ideal S1x1x50 .f32)
    (p : Fin 4096) (j : Fin 50) :
    k0_pay25 (F := Ideal) ld wb bs (ix2 p j) = layerAt ld wb bs p j :=
  layer_expr_apply dot_S4096x512_S512x50_S4096x50_1_0_0_1_n_n rfl shapeCasts_S1x512x50_S512x50 shapeCasts_S1x1x50_S1x50
    broadcasts_S1x50_S4096x50 shapeCasts_S4096x50_S4096x50 ld wb bs p j

/-- Layer 9 (padded width 512). -/
theorem payL9_apply (ld : Vec Ideal S4096x512 .f32) (wb : Vec Ideal S1x512x50 .f32) (bs : Vec Ideal S1x1x50 .f32)
    (p : Fin 4096) (j : Fin 50) :
    k0_pay27 (F := Ideal) ld wb bs (ix2 p j) = layerAt ld wb bs p j :=
  layer_expr_apply dot_S4096x512_S512x50_S4096x50_1_0_0_1_n_n rfl shapeCasts_S1x512x50_S512x50 shapeCasts_S1x1x50_S1x50
    broadcasts_S1x50_S4096x50 shapeCasts_S4096x50_S4096x50 ld wb bs p j

/-- Layer 10 (padded width 640). -/
theorem payL10_apply (ld : Vec Ideal S4096x640 .f32) (wb : Vec Ideal S1x640x50 .f32) (bs : Vec Ideal S1x1x50 .f32)
    (p : Fin 4096) (j : Fin 50) :
    k0_pay32 (F := Ideal) (k0_pay29 ld wb bs) (k0_pay30 ld wb bs) k0_pay31 (ix2 p j) = layerAt ld wb bs p j :=
  layer_expr_apply dot_S4096x640_S640x50_S4096x50_1_0_0_1_n_n rfl shapeCasts_S1x640x50_S640x50 shapeCasts_S1x1x50_S1x50
    broadcasts_S1x50_S4096x50 shapeCasts_S4096x50_S4096x50 ld wb bs p j

/-- Layer 11 (padded width 640). -/
theorem payL11_apply (ld : Vec Ideal S4096x640 .f32) (wb : Vec Ideal S1x640x50 .f32) (bs : Vec Ideal S1x1x50 .f32)
    (p : Fin 4096) (j : Fin 50) :
    k0_pay34 (F := Ideal) ld wb bs (ix2 p j) = layerAt ld wb bs p j :=
  layer_expr_apply dot_S4096x640_S640x50_S4096x50_1_0_0_1_n_n rfl shapeCasts_S1x640x50_S640x50 shapeCasts_S1x1x50_S1x50
    broadcasts_S1x50_S4096x50 shapeCasts_S4096x50_S4096x50 ld wb bs p j

/-- Layer 12 (padded width 640). -/
theorem payL12_apply (ld : Vec Ideal S4096x640 .f32) (wb : Vec Ideal S1x640x50 .f32) (bs : Vec Ideal S1x1x50 .f32)
    (p : Fin 4096) (j : Fin 50) :
    k0_pay36 (F := Ideal) ld wb bs (ix2 p j) = layerAt ld wb bs p j :=
  layer_expr_apply dot_S4096x640_S640x50_S4096x50_1_0_0_1_n_n rfl shapeCasts_S1x640x50_S640x50 shapeCasts_S1x1x50_S1x50
    broadcasts_S1x50_S4096x50 shapeCasts_S4096x50_S4096x50 ld wb bs p j

/-- Layer 13 (padded width 768). -/
theorem payL13_apply (ld : Vec Ideal S4096x768 .f32) (wb : Vec Ideal S1x768x50 .f32) (bs : Vec Ideal S1x1x50 .f32)
    (p : Fin 4096) (j : Fin 50) :
    k0_pay39 (F := Ideal) (k0_pay38 ld wb bs) (ix2 p j) = layerAt ld wb bs p j :=
  layer_expr_apply dot_S4096x768_S768x50_S4096x50_1_0_0_1_n_n rfl shapeCasts_S1x768x50_S768x50 shapeCasts_S1x1x50_S1x50
    broadcasts_S1x50_S4096x50 shapeCasts_S4096x50_S4096x50 ld wb bs p j

/-- Layer 14 (padded width 768). -/
theorem payL14_apply (ld : Vec Ideal S4096x768 .f32) (wb : Vec Ideal S1x768x50 .f32) (bs : Vec Ideal S1x1x50 .f32)
    (p : Fin 4096) (j : Fin 50) :
    k0_pay41 (F := Ideal) ld wb bs (ix2 p j) = layerAt ld wb bs p j :=
  layer_expr_apply dot_S4096x768_S768x50_S4096x50_1_0_0_1_n_n rfl shapeCasts_S1x768x50_S768x50 shapeCasts_S1x1x50_S1x50
    broadcasts_S1x50_S4096x50 shapeCasts_S4096x50_S4096x50 ld wb bs p j

/-- Layer 15 (padded width 768). -/
theorem payL15_apply (ld : Vec Ideal S4096x768 .f32) (wb : Vec Ideal S1x768x50 .f32) (bs : Vec Ideal S1x1x50 .f32)
    (p : Fin 4096) (j : Fin 50) :
    k0_pay44 (F := Ideal) (k0_pay43 ld wb) bs (ix2 p j) = layerAt ld wb bs p j :=
  layer_expr_apply dot_S4096x768_S768x50_S4096x50_1_0_0_1_n_n rfl shapeCasts_S1x768x50_S768x50 shapeCasts_S1x1x50_S1x50
    broadcasts_S1x50_S4096x50 shapeCasts_S4096x50_S4096x50 ld wb bs p j

/-- Layer 16 (padded width 896). -/
theorem payL16_apply (ld : Vec Ideal S4096x896 .f32) (wb : Vec Ideal S1x896x50 .f32) (bs : Vec Ideal S1x1x50 .f32)
    (p : Fin 4096) (j : Fin 50) :
    k0_pay46 (F := Ideal) ld wb bs (ix2 p j) = layerAt ld wb bs p j :=
  layer_expr_apply dot_S4096x896_S896x50_S4096x50_1_0_0_1_n_n rfl shapeCasts_S1x896x50_S896x50 shapeCasts_S1x1x50_S1x50
    broadcasts_S1x50_S4096x50 shapeCasts_S4096x50_S4096x50 ld wb bs p j

/-- Layer 17 (padded width 896). -/
theorem payL17_apply (ld : Vec Ideal S4096x896 .f32) (wb : Vec Ideal S1x896x50 .f32) (bs : Vec Ideal S1x1x50 .f32)
    (p : Fin 4096) (j : Fin 50) :
    k0_pay49 (F := Ideal) ld wb bs (ix2 p j) = layerAt ld wb bs p j :=
  layer_expr_apply dot_S4096x896_S896x50_S4096x50_1_0_0_1_n_n rfl shapeCasts_S1x896x50_S896x50 shapeCasts_S1x1x50_S1x50
    broadcasts_S1x50_S4096x50 shapeCasts_S4096x50_S4096x50 ld wb bs p j

/-- Layer 18 (padded width 1024). -/
theorem payL18_apply (ld : Vec Ideal S4096x1024 .f32) (wb : Vec Ideal S1x1024x50 .f32) (bs : Vec Ideal S1x1x50 .f32)
    (p : Fin 4096) (j : Fin 50) :
    k0_pay52 (F := Ideal) (k0_pay51 ld wb bs) (Scalar.ofBits .f32 0x3C23D70A#32) (ix2 p j) = layerAt ld wb bs p j :=
  layer_expr_apply dot_S4096x1024_S1024x50_S4096x50_1_0_0_1_n_n rfl shapeCasts_S1x1024x50_S1024x50 shapeCasts_S1x1x50_S1x50
    broadcasts_S1x50_S4096x50 shapeCasts_S4096x50_S4096x50 ld wb bs p j

/-- Layer 19 (padded width 1024). -/
theorem payL19_apply (ld : Vec Ideal S4096x1024 .f32) (wb : Vec Ideal S1x1024x50 .f32) (bs : Vec Ideal S1x1x50 .f32)
    (p : Fin 4096) (j : Fin 50) :
    k0_pay54 (F := Ideal) ld wb bs (ix2 p j) = layerAt ld wb bs p j :=
  layer_expr_apply dot_S4096x1024_S1024x50_S4096x50_1_0_0_1_n_n rfl shapeCasts_S1x1024x50_S1024x50 shapeCasts_S1x1x50_S1x50
    broadcasts_S1x50_S4096x50 shapeCasts_S4096x50_S4096x50 ld wb bs p j

/-- Layer 20 (padded width 1024). -/
theorem payL20_apply (ld : Vec Ideal S4096x1024 .f32) (wb : Vec Ideal S1x1024x50 .f32) (bs : Vec Ideal S1x1x50 .f32)
    (p : Fin 4096) (j : Fin 50) :
    k0_pay56 (F := Ideal) ld wb bs (ix2 p j) = layerAt ld wb bs p j :=
  layer_expr_apply dot_S4096x1024_S1024x50_S4096x50_1_0_0_1_n_n rfl shapeCasts_S1x1024x50_S1024x50 shapeCasts_S1x1x50_S1x50
    broadcasts_S1x50_S4096x50 shapeCasts_S4096x50_S4096x50 ld wb bs p j

/-- Layer 21 (padded width 1152). -/
theorem payL21_apply (ld : Vec Ideal S4096x1152 .f32) (wb : Vec Ideal S1x1152x50 .f32) (bs : Vec Ideal S1x1x50 .f32)
    (p : Fin 4096) (j : Fin 50) :
    k0_pay59 (F := Ideal) (k0_pay58 ld wb bs) (ix2 p j) = layerAt ld wb bs p j :=
  layer_expr_apply dot_S4096x1152_S1152x50_S4096x50_1_0_0_1_n_n rfl shapeCasts_S1x1152x50_S1152x50 shapeCasts_S1x1x50_S1x50
    broadcasts_S1x50_S4096x50 shapeCasts_S4096x50_S4096x50 ld wb bs p j

/-- Layer 22 (padded width 1152). -/
theorem payL22_apply (ld : Vec Ideal S4096x1152 .f32) (wb : Vec Ideal S1x1152x50 .f32) (bs : Vec Ideal S1x1x50 .f32)
    (p : Fin 4096) (j : Fin 50) :
    k0_pay61 (F := Ideal) ld wb bs (ix2 p j) = layerAt ld wb bs p j :=
  layer_expr_apply dot_S4096x1152_S1152x50_S4096x50_1_0_0_1_n_n rfl shapeCasts_S1x1152x50_S1152x50 shapeCasts_S1x1x50_S1x50
    broadcasts_S1x50_S4096x50 shapeCasts_S4096x50_S4096x50 ld wb bs p j

/-- Layer 23 (padded width 1266). -/
theorem payL23_apply (ld : Vec Ideal S4096x1266 .f32) (wb : Vec Ideal S1x1266x50 .f32) (bs : Vec Ideal S1x1x50 .f32)
    (p : Fin 4096) (j : Fin 50) :
    k0_pay64 (F := Ideal) ld (k0_pay63 wb) bs (ix2 p j) = layerAt ld wb bs p j :=
  layer_expr_apply dot_S4096x1266_S1266x50_S4096x50_1_0_0_1_n_n rfl shapeCasts_S1x1266x50_S1266x50 shapeCasts_S1x1x50_S1x50
    broadcasts_S1x50_S4096x50 shapeCasts_S4096x50_S4096x50 ld wb bs p j

/-- Layer 24 (padded width 1266). -/
theorem payL24_apply (ld : Vec Ideal S4096x1266 .f32) (wb : Vec Ideal S1x1266x50 .f32) (bs : Vec Ideal S1x1x50 .f32)
    (p : Fin 4096) (j : Fin 50) :
    k0_pay66 (F := Ideal) ld wb bs (ix2 p j) = layerAt ld wb bs p j :=
  layer_expr_apply dot_S4096x1266_S1266x50_S4096x50_1_0_0_1_n_n rfl shapeCasts_S1x1266x50_S1266x50 shapeCasts_S1x1x50_S1x50
    broadcasts_S1x50_S4096x50 shapeCasts_S4096x50_S4096x50 ld wb bs p j

/-- The first zero fill, of columns 16 to 128. -/
theorem fillStart_apply (i : S4096x112.Idx) : k0_pay3 (F := Ideal) i = 0 :=
  zero_fill_apply shapeCasts_S4096x112_S4096x112 i

/-- The zero fill after layer 0: columns 66 to 128. -/
theorem fill0_apply (i : S4096x62.Idx) : (k0_pay5 : FVec Ideal S4096x62 .f32) i = 0 :=
  zero_fill_apply shapeCasts_S4096x62_S4096x62 i

/-- The zero fill after layer 1: columns 116 to 128. -/
theorem fill1_apply (i : S4096x12.Idx) : (k0_pay7 : FVec Ideal S4096x12 .f32) i = 0 :=
  zero_fill_apply shapeCasts_S4096x12_S4096x12 i

/-- The zero fill after layer 2: columns 166 to 256. -/
theorem fill2_apply (i : S4096x90.Idx) : (k0_pay10 : FVec Ideal S4096x90 .f32) i = 0 :=
  zero_fill_apply shapeCasts_S4096x90_S4096x90 i

/-- The zero fill after layer 3: columns 216 to 256. -/
theorem fill3_apply (i : S4096x40.Idx) : (k0_pay12 : FVec Ideal S4096x40 .f32) i = 0 :=
  zero_fill_apply shapeCasts_S4096x40_S4096x40 i

/-- The zero fill after layer 4: columns 266 to 384. -/
theorem fill4_apply (i : S4096x118.Idx) : (k0_pay15 : FVec Ideal S4096x118 .f32) i = 0 :=
  zero_fill_apply shapeCasts_S4096x118_S4096x118 i

/-- The zero fill after layer 5: columns 316 to 384. -/
theorem fill5_apply (i : S4096x68.Idx) : (k0_pay18 k0_pay17 : FVec Ideal S4096x68 .f32) i = 0 :=
  zero_fill_apply shapeCasts_S4096x68_S4096x68 i

/-- The zero fill after layer 6: columns 366 to 384. -/
theorem fill6_apply (i : S4096x18.Idx) : (k0_pay20 : FVec Ideal S4096x18 .f32) i = 0 :=
  zero_fill_apply shapeCasts_S4096x18_S4096x18 i

/-- The zero fill after layer 7: columns 416 to 512. -/
theorem fill7_apply (i : S4096x96.Idx) : (k0_pay24 : FVec Ideal S4096x96 .f32) i = 0 :=
  zero_fill_apply shapeCasts_S4096x96_S4096x96 i

/-- The zero fill after layer 8: columns 466 to 512. -/
theorem fill8_apply (i : S4096x46.Idx) : (k0_pay26 : FVec Ideal S4096x46 .f32) i = 0 :=
  zero_fill_apply shapeCasts_S4096x46_S4096x46 i

/-- The zero fill after layer 9: columns 516 to 640. -/
theorem fill9_apply (i : S4096x124.Idx) : (k0_pay28 : FVec Ideal S4096x124 .f32) i = 0 :=
  zero_fill_apply shapeCasts_S4096x124_S4096x124 i

/-- The zero fill after layer 10: columns 566 to 640. -/
theorem fill10_apply (i : S4096x74.Idx) : (k0_pay33 : FVec Ideal S4096x74 .f32) i = 0 :=
  zero_fill_apply shapeCasts_S4096x74_S4096x74 i

/-- The zero fill after layer 11: columns 616 to 640. -/
theorem fill11_apply (i : S4096x24.Idx) : (k0_pay35 : FVec Ideal S4096x24 .f32) i = 0 :=
  zero_fill_apply shapeCasts_S4096x24_S4096x24 i

/-- The zero fill after layer 12: columns 666 to 768. -/
theorem fill12_apply (i : S4096x102.Idx) : (k0_pay37 : FVec Ideal S4096x102 .f32) i = 0 :=
  zero_fill_apply shapeCasts_S4096x102_S4096x102 i

/-- The zero fill after layer 13: columns 716 to 768. -/
theorem fill13_apply (i : S4096x52.Idx) : (k0_pay40 : FVec Ideal S4096x52 .f32) i = 0 :=
  zero_fill_apply shapeCasts_S4096x52_S4096x52 i

/-- The zero fill after layer 14: columns 766 to 768. -/
theorem fill14_apply (i : S4096x2.Idx) : (k0_pay42 : FVec Ideal S4096x2 .f32) i = 0 :=
  zero_fill_apply shapeCasts_S4096x2_S4096x2 i

/-- The zero fill after layer 15: columns 816 to 896. -/
theorem fill15_apply (i : S4096x80.Idx) : (k0_pay45 : FVec Ideal S4096x80 .f32) i = 0 :=
  zero_fill_apply shapeCasts_S4096x80_S4096x80 i

/-- The zero fill after layer 16: columns 866 to 896. -/
theorem fill16_apply (i : S4096x30.Idx) : (k0_pay48 k0_pay47 : FVec Ideal S4096x30 .f32) i = 0 :=
  zero_fill_apply shapeCasts_S4096x30_S4096x30 i

/-- The zero fill after layer 17: columns 916 to 1024. -/
theorem fill17_apply (i : S4096x108.Idx) : (k0_pay50 : FVec Ideal S4096x108 .f32) i = 0 :=
  zero_fill_apply shapeCasts_S4096x108_S4096x108 i

/-- The zero fill after layer 18: columns 966 to 1024. -/
theorem fill18_apply (i : S4096x58.Idx) : (k0_pay53 : FVec Ideal S4096x58 .f32) i = 0 :=
  zero_fill_apply shapeCasts_S4096x58_S4096x58 i

/-- The zero fill after layer 19: columns 1016 to 1024. -/
theorem fill19_apply (i : S4096x8.Idx) : (k0_pay55 : FVec Ideal S4096x8 .f32) i = 0 :=
  zero_fill_apply shapeCasts_S4096x8_S4096x8 i

/-- The zero fill after layer 20: columns 1066 to 1152. -/
theorem fill20_apply (i : S4096x86.Idx) : (k0_pay57 : FVec Ideal S4096x86 .f32) i = 0 :=
  zero_fill_apply shapeCasts_S4096x86_S4096x86 i

/-- The zero fill after layer 21: columns 1116 to 1152. -/
theorem fill21_apply (i : S4096x36.Idx) : (k0_pay60 : FVec Ideal S4096x36 .f32) i = 0 :=
  zero_fill_apply shapeCasts_S4096x36_S4096x36 i

/-- The zero fill after layer 22: columns 1166 to 1266. -/
theorem fill22_apply (i : S4096x100.Idx) : (k0_pay62 : FVec Ideal S4096x100 .f32) i = 0 :=
  zero_fill_apply shapeCasts_S4096x100_S4096x100 i

/-- The zero fill after layer 23: columns 1216 to 1266. -/
theorem fill23_apply (i : S4096x50.Idx) : (k0_pay65 : FVec Ideal S4096x50 .f32) i = 0 :=
  zero_fill_apply shapeCasts_S4096x50_S4096x50 i

/-- The copied state block. -/
theorem copy_apply (v0 : Vec Ideal S4096x16 .f32) (i : S4096x16.Idx) : k0_pay2 (F := Ideal) v0 i = v0 i :=
  congrFun (shapeCast_self v0 shapeCasts_S4096x16_S4096x16) i

/-- The final contraction at row p. -/
theorem final_apply (ld : Vec Ideal S4096x1266 .f32) (wo : Vec Ideal S1266x1 .f32) (bo : Vec Ideal S1x1 .f32) (p : Fin 4096) :
    k0_pay1 (F := Ideal) ld wo bo (ix2 p (0 : Fin 1))
      = (∑ k : Fin 1266, ld (ix2 p k) * wo (ix2 k (0 : Fin 1))) + bo (ix2 (0 : Fin 1) (0 : Fin 1)) :=
  final_expr_apply dot_S4096x1266_S1266x1_S4096x1_1_0_0_1_n_n rfl shapeCasts_S1x1_S1x1 broadcasts_S1x1_S4096x1 ld wo bo p

end Cert.KernelIdeal.BodyValue

end
-- ==== Proof.KernelBodyChain.lean ====
/-
  THE INVARIANT ALONG THE BODY'S STORES. Row p of the scratch buffer after the stores that precede layer n's
  load, read at any column below layer n's padded width, is the row after n layers padded with zeros
  (RowInv). It holds at the start (the copied state block under the first zero fill) and each layer's two
  stores carry it on: the layer's load sees the padded row, so the padding drops out of the contraction and
  the 50 stored columns are the layer's new features; the zero fill that follows reaches the next padded
  width. After the last layer every one of the 1266 columns holds its feature.
-/
import proofs.«119617_j10823317586373_2_alg».proof.Proof.Gen.KernelIdeal.Frame
import proofs.«119617_j10823317586373_2_alg».proof.Proof.KernelBodyPay

set_option maxRecDepth 16384

noncomputable section

namespace Cert.KernelIdeal.BodyValue

open Cert.KernelIdeal Cert.KernelIdeal.Gen Idealize.ShloMosaic Idealize.ShloMosaic.ValueIdx Cert.GrowingMlp

variable (c : Dev nD) (arg1 : Memref sig .tc .vmem S4096x16 .f32) (harg1 : arg1.IsWhole)
  (arg2 : Memref sig .tc .vmem S25x1266x50 .f32) (harg2 : arg2.IsWhole)
  (arg3 : Memref sig .tc .vmem S25x1x50 .f32) (harg3 : arg3.IsWhole)
  (arg7 : Memref sig .tc .vmem S4096x1266 .f32)
  (x0 : Vec Ideal S4096x16 .f32) (x1 : Vec Ideal S25x1266x50 .f32) (x2 : Vec Ideal S25x1x50 .f32) (p : Fin 4096)

local notation "sS" => rowOf x0 p
local notation "wW" => (fun n j k => weightOf x1 n k j)
local notation "bB" => (fun n j => weightOf x2 n 0 j)

/-- The start: the state block copied into columns 0 to 16, zeros in columns 16 to 128. -/
theorem inv0 : RowInv sS wW bB 0 128 p (kernelRun0_A.sl.HS0_2 (F := Ideal) c arg1 harg1 x0) :=
  RowInv.start (kw := 128) sS wW bB inb_S4096x1266_S4096x16_0_0 _
    (fun j => (copy_apply _ (ix2 p j)).trans
      ((readAt_whole2 arg1 harg1 x0 inb_S4096x16_S4096x16_0_0 p j).trans (rowOf_lt x0 p j.isLt).symm))
    112 inb_S4096x1266_S4096x112_0_16 (k0_pay3 (F := Ideal)) (fun j => fillStart_apply (ix2 p j)) (by decide)

/-- Layer 0: width 16, padded width 128; new columns 16 to 66, zeros up to 128. -/
theorem step0 (h : RowInv sS wW bB 0 128 p (kernelRun0_A.sl.HS0_2 (F := Ideal) c arg1 harg1 x0)) :
    RowInv sS wW bB 1 128 p (kernelRun0_A.sl.HS0_4 (F := Ideal) c arg1 harg1 arg2 harg2 arg3 harg3 arg7 x0 x1 x2) :=
  RowInv.step (kw' := 128) sS wW bB h 16 rfl (by decide) inb_S4096x1266_S4096x50_0_16 _
    (fun j => (payL0_apply _ _ _ p j).trans (layerAt_eq_feat sS wW bB 0 (by decide) _ _ _ p j
      (fun k => load_of_inv sS wW bB arg7.view h inb_S4096x1266_S4096x128_0_0 k)
      (fun k => readAt_block3 arg2 harg2 x1 0 inb_S25x1266x50_S1x128x50_0_0_0 k j)
      (readAt_block3 arg3 harg3 x2 0 inb_S25x1x50_S1x1x50_0_0_0 (0 : Fin 1) j)))
    66 62 rfl inb_S4096x1266_S4096x62_0_66 (k0_pay5 : FVec Ideal S4096x62 .f32) (fun j => fill0_apply (ix2 p j)) (by decide)

/-- Layer 1: width 66, padded width 128; new columns 66 to 116, zeros up to 128. -/
theorem step1 (h : RowInv sS wW bB 1 128 p (kernelRun0_A.sl.HS0_4 (F := Ideal) c arg1 harg1 arg2 harg2 arg3 harg3 arg7 x0 x1 x2)) :
    RowInv sS wW bB 2 128 p (kernelRun0_A.sl.HS0_6 (F := Ideal) c arg1 harg1 arg2 harg2 arg3 harg3 arg7 x0 x1 x2) :=
  RowInv.step (kw' := 128) sS wW bB h 66 rfl (by decide) inb_S4096x1266_S4096x50_0_66 _
    (fun j => (payL1_apply _ _ _ p j).trans (layerAt_eq_feat sS wW bB 1 (by decide) _ _ _ p j
      (fun k => load_of_inv sS wW bB arg7.view h inb_S4096x1266_S4096x128_0_0 k)
      (fun k => readAt_block3 arg2 harg2 x1 1 inb_S25x1266x50_S1x128x50_1_0_0 k j)
      (readAt_block3 arg3 harg3 x2 1 inb_S25x1x50_S1x1x50_1_0_0 (0 : Fin 1) j)))
    116 12 rfl inb_S4096x1266_S4096x12_0_116 (k0_pay7 : FVec Ideal S4096x12 .f32) (fun j => fill1_apply (ix2 p j)) (by decide)

/-- Layer 2: width 116, padded width 128; new columns 116 to 166, zeros up to 256. -/
theorem step2 (h : RowInv sS wW bB 2 128 p (kernelRun0_A.sl.HS0_6 (F := Ideal) c arg1 harg1 arg2 harg2 arg3 harg3 arg7 x0 x1 x2)) :
    RowInv sS wW bB 3 256 p (kernelRun0_A.sl.HS0_8 (F := Ideal) c arg1 harg1 arg2 harg2 arg3 harg3 arg7 x0 x1 x2) :=
  RowInv.step (kw' := 256) sS wW bB h 116 rfl (by decide) inb_S4096x1266_S4096x50_0_116 _
    (fun j => (payL2_apply _ _ _ p j).trans (layerAt_eq_feat sS wW bB 2 (by decide) _ _ _ p j
      (fun k => load_of_inv sS wW bB arg7.view h inb_S4096x1266_S4096x128_0_0 k)
      (fun k => readAt_block3 arg2 harg2 x1 2 inb_S25x1266x50_S1x128x50_2_0_0 k j)
      (readAt_block3 arg3 harg3 x2 2 inb_S25x1x50_S1x1x50_2_0_0 (0 : Fin 1) j)))
    166 90 rfl inb_S4096x1266_S4096x90_0_166 (k0_pay10 : FVec Ideal S4096x90 .f32) (fun j => fill2_apply (ix2 p j)) (by decide)

/-- Layer 3: width 166, padded width 256; new columns 166 to 216, zeros up to 256. -/
theorem step3 (h : RowInv sS wW bB 3 256 p (kernelRun0_A.sl.HS0_8 (F := Ideal) c arg1 harg1 arg2 harg2 arg3 harg3 arg7 x0 x1 x2)) :
    RowInv sS wW bB 4 256 p (kernelRun0_A.sl.HS0_10 (F := Ideal) c arg1 harg1 arg2 harg2 arg3 harg3 arg7 x0 x1 x2) :=
  RowInv.step (kw' := 256) sS wW bB h 166 rfl (by decide) inb_S4096x1266_S4096x50_0_166 _
    (fun j => (payL3_apply _ _ _ p j).trans (layerAt_eq_feat sS wW bB 3 (by decide) _ _ _ p j
      (fun k => load_of_inv sS wW bB arg7.view h inb_S4096x1266_S4096x256_0_0 k)
      (fun k => readAt_block3 arg2 harg2 x1 3 inb_S25x1266x50_S1x256x50_3_0_0 k j)
      (readAt_block3 arg3 harg3 x2 3 inb_S25x1x50_S1x1x50_3_0_0 (0 : Fin 1) j)))
    216 40 rfl inb_S4096x1266_S4096x40_0_216 (k0_pay12 : FVec Ideal S4096x40 .f32) (fun j => fill3_apply (ix2 p j)) (by decide)

/-- Layer 4: width 216, padded width 256; new columns 216 to 266, zeros up to 384. -/
theorem step4 (h : RowInv sS wW bB 4 256 p (kernelRun0_A.sl.HS0_10 (F := Ideal) c arg1 harg1 arg2 harg2 arg3 harg3 arg7 x0 x1 x2)) :
    RowInv sS wW bB 5 384 p (kernelRun0_A.sl.HS0_12 (F := Ideal) c arg1 harg1 arg2 harg2 arg3 harg3 arg7 x0 x1 x2) :=
  RowInv.step (kw' := 384) sS wW bB h 216 rfl (by decide) inb_S4096x1266_S4096x50_0_216 _
    (fun j => (payL4_apply _ _ _ p j).trans (layerAt_eq_feat sS wW bB 4 (by decide) _ _ _ p j
      (fun k => load_of_inv sS wW bB arg7.view h inb_S4096x1266_S4096x256_0_0 k)
      (fun k => readAt_block3 arg2 harg2 x1 4 inb_S25x1266x50_S1x256x50_4_0_0 k j)
      (readAt_block3 arg3 harg3 x2 4 inb_S25x1x50_S1x1x50_4_0_0 (0 : Fin 1) j)))
    266 118 rfl inb_S4096x1266_S4096x118_0_266 (k0_pay15 : FVec Ideal S4096x118 .f32) (fun j => fill4_apply (ix2 p j)) (by decide)

/-- Layer 5: width 266, padded width 384; new columns 266 to 316, zeros up to 384. -/
theorem step5 (h : RowInv sS wW bB 5 384 p (kernelRun0_A.sl.HS0_12 (F := Ideal) c arg1 harg1 arg2 harg2 arg3 harg3 arg7 x0 x1 x2)) :
    RowInv sS wW bB 6 384 p (kernelRun0_A.sl.HS0_14 (F := Ideal) c arg1 harg1 arg2 harg2 arg3 harg3 arg7 x0 x1 x2) :=
  RowInv.step (kw' := 384) sS wW bB h 266 rfl (by decide) inb_S4096x1266_S4096x50_0_266 _
    (fun j => (payL5_apply _ _ _ p j).trans (layerAt_eq_feat sS wW bB 5 (by decide) _ _ _ p j
      (fun k => load_of_inv sS wW bB arg7.view h inb_S4096x1266_S4096x384_0_0 k)
      (fun k => readAt_block3 arg2 harg2 x1 5 inb_S25x1266x50_S1x384x50_5_0_0 k j)
      (readAt_block3 arg3 harg3 x2 5 inb_S25x1x50_S1x1x50_5_0_0 (0 : Fin 1) j)))
    316 68 rfl inb_S4096x1266_S4096x68_0_316 (k0_pay18 k0_pay17 : FVec Ideal S4096x68 .f32) (fun j => fill5_apply (ix2 p j)) (by decide)

/-- Layer 6: width 316, padded width 384; new columns 316 to 366, zeros up to 384. -/
theorem step6 (h : RowInv sS wW bB 6 384 p (kernelRun0_A.sl.HS0_14 (F := Ideal) c arg1 harg1 arg2 harg2 arg3 harg3 arg7 x0 x1 x2)) :
    RowInv sS wW bB 7 384 p (kernelRun0_A.sl.HS0_16 (F := Ideal) c arg1 harg1 arg2 harg2 arg3 harg3 arg7 x0 x1 x2) :=
  RowInv.step (kw' := 384) sS wW bB h 316 rfl (by decide) inb_S4096x1266_S4096x50_0_316 _
    (fun j => (payL6_apply _ _ _ p j).trans (layerAt_eq_feat sS wW bB 6 (by decide) _ _ _ p j
      (fun k => load_of_inv sS wW bB arg7.view h inb_S4096x1266_S4096x384_0_0 k)
      (fun k => readAt_block3 arg2 harg2 x1 6 inb_S25x1266x50_S1x384x50_6_0_0 k j)
      (readAt_block3 arg3 harg3 x2 6 inb_S25x1x50_S1x1x50_6_0_0 (0 : Fin 1) j)))
    366 18 rfl inb_S4096x1266_S4096x18_0_366 (k0_pay20 : FVec Ideal S4096x18 .f32) (fun j => fill6_apply (ix2 p j)) (by decide)

/-- Layer 7: width 366, padded width 384; new columns 366 to 416, zeros up to 512. -/
theorem step7 (h : RowInv sS wW bB 7 384 p (kernelRun0_A.sl.HS0_16 (F := Ideal) c arg1 harg1 arg2 harg2 arg3 harg3 arg7 x0 x1 x2)) :
    RowInv sS wW bB 8 512 p (kernelRun0_A.sl.HS0_18 (F := Ideal) c arg1 harg1 arg2 harg2 arg3 harg3 arg7 x0 x1 x2) :=
  RowInv.step (kw' := 512) sS wW bB h 366 rfl (by decide) inb_S4096x1266_S4096x50_0_366 _
    (fun j => (payL7_apply _ _ _ p j).trans (layerAt_eq_feat sS wW bB 7 (by decide) _ _ _ p j
      (fun k => load_of_inv sS wW bB arg7.view h inb_S4096x1266_S4096x384_0_0 k)
      (fun k => readAt_block3 arg2 harg2 x1 7 inb_S25x1266x50_S1x384x50_7_0_0 k j)
      (readAt_block3 arg3 harg3 x2 7 inb_S25x1x50_S1x1x50_7_0_0 (0 : Fin 1) j)))
    416 96 rfl inb_S4096x1266_S4096x96_0_416 (k0_pay24 : FVec Ideal S4096x96 .f32) (fun j => fill7_apply (ix2 p j)) (by decide)

/-- Layer 8: width 416, padded width 512; new columns 416 to 466, zeros up to 512. -/
theorem step8 (h : RowInv sS wW bB 8 512 p (kernelRun0_A.sl.HS0_18 (F := Ideal) c arg1 harg1 arg2 harg2 arg3 harg3 arg7 x0 x1 x2)) :
    RowInv sS wW bB 9 512 p (kernelRun0_A.sl.HS0_20 (F := Ideal) c arg1 harg1 arg2 harg2 arg3 harg3 arg7 x0 x1 x2) :=
  RowInv.step (kw' := 512) sS wW bB h 416 rfl (by decide) inb_S4096x1266_S4096x50_0_416 _
    (fun j => (payL8_apply _ _ _ p j).trans (layerAt_eq_feat sS wW bB 8 (by decide) _ _ _ p j
      (fun k => load_of_inv sS wW bB arg7.view h inb_S4096x1266_S4096x512_0_0 k)
      (fun k => readAt_block3 arg2 harg2 x1 8 inb_S25x1266x50_S1x512x50_8_0_0 k j)
      (readAt_block3 arg3 harg3 x2 8 inb_S25x1x50_S1x1x50_8_0_0 (0 : Fin 1) j)))
    466 46 rfl inb_S4096x1266_S4096x46_0_466 (k0_pay26 : FVec Ideal S4096x46 .f32) (fun j => fill8_apply (ix2 p j)) (by decide)

/-- Layer 9: width 466, padded width 512; new columns 466 to 516, zeros up to 640. -/
theorem step9 (h : RowInv sS wW bB 9 512 p (kernelRun0_A.sl.HS0_20 (F := Ideal) c arg1 harg1 arg2 harg2 arg3 harg3 arg7 x0 x1 x2)) :
    RowInv sS wW bB 10 640 p (kernelRun0_A.sl.HS0_22 (F := Ideal) c arg1 harg1 arg2 harg2 arg3 harg3 arg7 x0 x1 x2) :=
  RowInv.step (kw' := 640) sS wW bB h 466 rfl (by decide) inb_S4096x1266_S4096x50_0_466 _
    (fun j => (payL9_apply _ _ _ p j).trans (layerAt_eq_feat sS wW bB 9 (by decide) _ _ _ p j
      (fun k => load_of_inv sS wW bB arg7.view h inb_S4096x1266_S4096x512_0_0 k)
      (fun k => readAt_block3 arg2 harg2 x1 9 inb_S25x1266x50_S1x512x50_9_0_0 k j)
      (readAt_block3 arg3 harg3 x2 9 inb_S25x1x50_S1x1x50_9_0_0 (0 : Fin 1) j)))
    516 124 rfl inb_S4096x1266_S4096x124_0_516 (k0_pay28 : FVec Ideal S4096x124 .f32) (fun j => fill9_apply (ix2 p j)) (by decide)

/-- Layer 10: width 516, padded width 640; new columns 516 to 566, zeros up to 640. -/
theorem step10 (h : RowInv sS wW bB 10 640 p (kernelRun0_A.sl.HS0_22 (F := Ideal) c arg1 harg1 arg2 harg2 arg3 harg3 arg7 x0 x1 x2)) :
    RowInv sS wW bB 11 640 p (kernelRun0_A.sl.HS0_24 (F := Ideal) c arg1 harg1 arg2 harg2 arg3 harg3 arg7 x0 x1 x2) :=
  RowInv.step (kw' := 640) sS wW bB h 516 rfl (by decide) inb_S4096x1266_S4096x50_0_516 _
    (fun j => (payL10_apply _ _ _ p j).trans (layerAt_eq_feat sS wW bB 10 (by decide) _ _ _ p j
      (fun k => load_of_inv sS wW bB arg7.view h inb_S4096x1266_S4096x640_0_0 k)
      (fun k => readAt_block3 arg2 harg2 x1 10 inb_S25x1266x50_S1x640x50_10_0_0 k j)
      (readAt_block3 arg3 harg3 x2 10 inb_S25x1x50_S1x1x50_10_0_0 (0 : Fin 1) j)))
    566 74 rfl inb_S4096x1266_S4096x74_0_566 (k0_pay33 : FVec Ideal S4096x74 .f32) (fun j => fill10_apply (ix2 p j)) (by decide)

/-- Layer 11: width 566, padded width 640; new columns 566 to 616, zeros up to 640. -/
theorem step11 (h : RowInv sS wW bB 11 640 p (kernelRun0_A.sl.HS0_24 (F := Ideal) c arg1 harg1 arg2 harg2 arg3 harg3 arg7 x0 x1 x2)) :
    RowInv sS wW bB 12 640 p (kernelRun0_A.sl.HS0_26 (F := Ideal) c arg1 harg1 arg2 harg2 arg3 harg3 arg7 x0 x1 x2) :=
  RowInv.step (kw' := 640) sS wW bB h 566 rfl (by decide) inb_S4096x1266_S4096x50_0_566 _
    (fun j => (payL11_apply _ _ _ p j).trans (layerAt_eq_feat sS wW bB 11 (by decide) _ _ _ p j
      (fun k => load_of_inv sS wW bB arg7.view h inb_S4096x1266_S4096x640_0_0 k)
      (fun k => readAt_block3 arg2 harg2 x1 11 inb_S25x1266x50_S1x640x50_11_0_0 k j)
      (readAt_block3 arg3 harg3 x2 11 inb_S25x1x50_S1x1x50_11_0_0 (0 : Fin 1) j)))
    616 24 rfl inb_S4096x1266_S4096x24_0_616 (k0_pay35 : FVec Ideal S4096x24 .f32) (fun j => fill11_apply (ix2 p j)) (by decide)

/-- Layer 12: width 616, padded width 640; new columns 616 to 666, zeros up to 768. -/
theorem step12 (h : RowInv sS wW bB 12 640 p (kernelRun0_A.sl.HS0_26 (F := Ideal) c arg1 harg1 arg2 harg2 arg3 harg3 arg7 x0 x1 x2)) :
    RowInv sS wW bB 13 768 p (kernelRun0_A.sl.HS0_28 (F := Ideal) c arg1 harg1 arg2 harg2 arg3 harg3 arg7 x0 x1 x2) :=
  RowInv.step (kw' := 768) sS wW bB h 616 rfl (by decide) inb_S4096x1266_S4096x50_0_616 _
    (fun j => (payL12_apply _ _ _ p j).trans (layerAt_eq_feat sS wW bB 12 (by decide) _ _ _ p j
      (fun k => load_of_inv sS wW bB arg7.view h inb_S4096x1266_S4096x640_0_0 k)
      (fun k => readAt_block3 arg2 harg2 x1 12 inb_S25x1266x50_S1x640x50_12_0_0 k j)
      (readAt_block3 arg3 harg3 x2 12 inb_S25x1x50_S1x1x50_12_0_0 (0 : Fin 1) j)))
    666 102 rfl inb_S4096x1266_S4096x102_0_666 (k0_pay37 : FVec Ideal S4096x102 .f32) (fun j => fill12_apply (ix2 p j)) (by decide)

/-- Layer 13: width 666, padded width 768; new columns 666 to 716, zeros up to 768. -/
theorem step13 (h : RowInv sS wW bB 13 768 p (kernelRun0_A.sl.HS0_28 (F := Ideal) c arg1 harg1 arg2 harg2 arg3 harg3 arg7 x0 x1 x2)) :
    RowInv sS wW bB 14 768 p (kernelRun0_A.sl.HS0_30 (F := Ideal) c arg1 harg1 arg2 harg2 arg3 harg3 arg7 x0 x1 x2) :=
  RowInv.step (kw' := 768) sS wW bB h 666 rfl (by decide) inb_S4096x1266_S4096x50_0_666 _
    (fun j => (payL13_apply _ _ _ p j).trans (layerAt_eq_feat sS wW bB 13 (by decide) _ _ _ p j
      (fun k => load_of_inv sS wW bB arg7.view h inb_S4096x1266_S4096x768_0_0 k)
      (fun k => readAt_block3 arg2 harg2 x1 13 inb_S25x1266x50_S1x768x50_13_0_0 k j)
      (readAt_block3 arg3 harg3 x2 13 inb_S25x1x50_S1x1x50_13_0_0 (0 : Fin 1) j)))
    716 52 rfl inb_S4096x1266_S4096x52_0_716 (k0_pay40 : FVec Ideal S4096x52 .f32) (fun j => fill13_apply (ix2 p j)) (by decide)

/-- Layer 14: width 716, padded width 768; new columns 716 to 766, zeros up to 768. -/
theorem step14 (h : RowInv sS wW bB 14 768 p (kernelRun0_A.sl.HS0_30 (F := Ideal) c arg1 harg1 arg2 harg2 arg3 harg3 arg7 x0 x1 x2)) :
    RowInv sS wW bB 15 768 p (kernelRun0_A.sl.HS0_32 (F := Ideal) c arg1 harg1 arg2 harg2 arg3 harg3 arg7 x0 x1 x2) :=
  RowInv.step (kw' := 768) sS wW bB h 716 rfl (by decide) inb_S4096x1266_S4096x50_0_716 _
    (fun j => (payL14_apply _ _ _ p j).trans (layerAt_eq_feat sS wW bB 14 (by decide) _ _ _ p j
      (fun k => load_of_inv sS wW bB arg7.view h inb_S4096x1266_S4096x768_0_0 k)
      (fun k => readAt_block3 arg2 harg2 x1 14 inb_S25x1266x50_S1x768x50_14_0_0 k j)
      (readAt_block3 arg3 harg3 x2 14 inb_S25x1x50_S1x1x50_14_0_0 (0 : Fin 1) j)))
    766 2 rfl inb_S4096x1266_S4096x2_0_766 (k0_pay42 : FVec Ideal S4096x2 .f32) (fun j => fill14_apply (ix2 p j)) (by decide)

/-- Layer 15: width 766, padded width 768; new columns 766 to 816, zeros up to 896. -/
theorem step15 (h : RowInv sS wW bB 15 768 p (kernelRun0_A.sl.HS0_32 (F := Ideal) c arg1 harg1 arg2 harg2 arg3 harg3 arg7 x0 x1 x2)) :
    RowInv sS wW bB 16 896 p (kernelRun0_A.sl.HS0_34 (F := Ideal) c arg1 harg1 arg2 harg2 arg3 harg3 arg7 x0 x1 x2) :=
  RowInv.step (kw' := 896) sS wW bB h 766 rfl (by decide) inb_S4096x1266_S4096x50_0_766 _
    (fun j => (payL15_apply _ _ _ p j).trans (layerAt_eq_feat sS wW bB 15 (by decide) _ _ _ p j
      (fun k => load_of_inv sS wW bB arg7.view h inb_S4096x1266_S4096x768_0_0 k)
      (fun k => readAt_block3 arg2 harg2 x1 15 inb_S25x1266x50_S1x768x50_15_0_0 k j)
      (readAt_block3 arg3 harg3 x2 15 inb_S25x1x50_S1x1x50_15_0_0 (0 : Fin 1) j)))
    816 80 rfl inb_S4096x1266_S4096x80_0_816 (k0_pay45 : FVec Ideal S4096x80 .f32) (fun j => fill15_apply (ix2 p j)) (by decide)

/-- Layer 16: width 816, padded width 896; new columns 816 to 866, zeros up to 896. -/
theorem step16 (h : RowInv sS wW bB 16 896 p (kernelRun0_A.sl.HS0_34 (F := Ideal) c arg1 harg1 arg2 harg2 arg3 harg3 arg7 x0 x1 x2)) :
    RowInv sS wW bB 17 896 p (kernelRun0_A.sl.HS0_36 (F := Ideal) c arg1 harg1 arg2 harg2 arg3 harg3 arg7 x0 x1 x2) :=
  RowInv.step (kw' := 896) sS wW bB h 816 rfl (by decide) inb_S4096x1266_S4096x50_0_816 _
    (fun j => (payL16_apply _ _ _ p j).trans (layerAt_eq_feat sS wW bB 16 (by decide) _ _ _ p j
      (fun k => load_of_inv sS wW bB arg7.view h inb_S4096x1266_S4096x896_0_0 k)
      (fun k => readAt_block3 arg2 harg2 x1 16 inb_S25x1266x50_S1x896x50_16_0_0 k j)
      (readAt_block3 arg3 harg3 x2 16 inb_S25x1x50_S1x1x50_16_0_0 (0 : Fin 1) j)))
    866 30 rfl inb_S4096x1266_S4096x30_0_866 (k0_pay48 k0_pay47 : FVec Ideal S4096x30 .f32) (fun j => fill16_apply (ix2 p j)) (by decide)

/-- Layer 17: width 866, padded width 896; new columns 866 to 916, zeros up to 1024. -/
theorem step17 (h : RowInv sS wW bB 17 896 p (kernelRun0_A.sl.HS0_36 (F := Ideal) c arg1 harg1 arg2 harg2 arg3 harg3 arg7 x0 x1 x2)) :
    RowInv sS wW bB 18 1024 p (kernelRun0_A.sl.HS0_38 (F := Ideal) c arg1 harg1 arg2 harg2 arg3 harg3 arg7 x0 x1 x2) :=
  RowInv.step (kw' := 1024) sS wW bB h 866 rfl (by decide) inb_S4096x1266_S4096x50_0_866 _
    (fun j => (payL17_apply _ _ _ p j).trans (layerAt_eq_feat sS wW bB 17 (by decide) _ _ _ p j
      (fun k => load_of_inv sS wW bB arg7.view h inb_S4096x1266_S4096x896_0_0 k)
      (fun k => readAt_block3 arg2 harg2 x1 17 inb_S25x1266x50_S1x896x50_17_0_0 k j)
      (readAt_block3 arg3 harg3 x2 17 inb_S25x1x50_S1x1x50_17_0_0 (0 : Fin 1) j)))
    916 108 rfl inb_S4096x1266_S4096x108_0_916 (k0_pay50 : FVec Ideal S4096x108 .f32) (fun j => fill17_apply (ix2 p j)) (by decide)

/-- Layer 18: width 916, padded width 1024; new columns 916 to 966, zeros up to 1024. -/
theorem step18 (h : RowInv sS wW bB 18 1024 p (kernelRun0_A.sl.HS0_38 (F := Ideal) c arg1 harg1 arg2 harg2 arg3 harg3 arg7 x0 x1 x2)) :
    RowInv sS wW bB 19 1024 p (kernelRun0_A.sl.HS0_40 (F := Ideal) c arg1 harg1 arg2 harg2 arg3 harg3 arg7 x0 x1 x2) :=
  RowInv.step (kw' := 1024) sS wW bB h 916 rfl (by decide) inb_S4096x1266_S4096x50_0_916 _
    (fun j => (payL18_apply _ _ _ p j).trans (layerAt_eq_feat sS wW bB 18 (by decide) _ _ _ p j
      (fun k => load_of_inv sS wW bB arg7.view h inb_S4096x1266_S4096x1024_0_0 k)
      (fun k => readAt_block3 arg2 harg2 x1 18 inb_S25x1266x50_S1x1024x50_18_0_0 k j)
      (readAt_block3 arg3 harg3 x2 18 inb_S25x1x50_S1x1x50_18_0_0 (0 : Fin 1) j)))
    966 58 rfl inb_S4096x1266_S4096x58_0_966 (k0_pay53 : FVec Ideal S4096x58 .f32) (fun j => fill18_apply (ix2 p j)) (by decide)

/-- Layer 19: width 966, padded width 1024; new columns 966 to 1016, zeros up to 1024. -/
theorem step19 (h : RowInv sS wW bB 19 1024 p (kernelRun0_A.sl.HS0_40 (F := Ideal) c arg1 harg1 arg2 harg2 arg3 harg3 arg7 x0 x1 x2)) :
    RowInv sS wW bB 20 1024 p (kernelRun0_A.sl.HS0_42 (F := Ideal) c arg1 harg1 arg2 harg2 arg3 harg3 arg7 x0 x1 x2) :=
  RowInv.step (kw' := 1024) sS wW bB h 966 rfl (by decide) inb_S4096x1266_S4096x50_0_966 _
    (fun j => (payL19_apply _ _ _ p j).trans (layerAt_eq_feat sS wW bB 19 (by decide) _ _ _ p j
      (fun k => load_of_inv sS wW bB arg7.view h inb_S4096x1266_S4096x1024_0_0 k)
      (fun k => readAt_block3 arg2 harg2 x1 19 inb_S25x1266x50_S1x1024x50_19_0_0 k j)
      (readAt_block3 arg3 harg3 x2 19 inb_S25x1x50_S1x1x50_19_0_0 (0 : Fin 1) j)))
    1016 8 rfl inb_S4096x1266_S4096x8_0_1016 (k0_pay55 : FVec Ideal S4096x8 .f32) (fun j => fill19_apply (ix2 p j)) (by decide)

/-- Layer 20: width 1016, padded width 1024; new columns 1016 to 1066, zeros up to 1152. -/
theorem step20 (h : RowInv sS wW bB 20 1024 p (kernelRun0_A.sl.HS0_42 (F := Ideal) c arg1 harg1 arg2 harg2 arg3 harg3 arg7 x0 x1 x2)) :
    RowInv sS wW bB 21 1152 p (kernelRun0_A.sl.HS0_44 (F := Ideal) c arg1 harg1 arg2 harg2 arg3 harg3 arg7 x0 x1 x2) :=
  RowInv.step (kw' := 1152) sS wW bB h 1016 rfl (by decide) inb_S4096x1266_S4096x50_0_1016 _
    (fun j => (payL20_apply _ _ _ p j).trans (layerAt_eq_feat sS wW bB 20 (by decide) _ _ _ p j
      (fun k => load_of_inv sS wW bB arg7.view h inb_S4096x1266_S4096x1024_0_0 k)
      (fun k => readAt_block3 arg2 harg2 x1 20 inb_S25x1266x50_S1x1024x50_20_0_0 k j)
      (readAt_block3 arg3 harg3 x2 20 inb_S25x1x50_S1x1x50_20_0_0 (0 : Fin 1) j)))
    1066 86 rfl inb_S4096x1266_S4096x86_0_1066 (k0_pay57 : FVec Ideal S4096x86 .f32) (fun j => fill20_apply (ix2 p j)) (by decide)

/-- Layer 21: width 1066, padded width 1152; new columns 1066 to 1116, zeros up to 1152. -/
theorem step21 (h : RowInv sS wW bB 21 1152 p (kernelRun0_A.sl.HS0_44 (F := Ideal) c arg1 harg1 arg2 harg2 arg3 harg3 arg7 x0 x1 x2)) :
    RowInv sS wW bB 22 1152 p (kernelRun0_A.sl.HS0_46 (F := Ideal) c arg1 harg1 arg2 harg2 arg3 harg3 arg7 x0 x1 x2) :=
  RowInv.step (kw' := 1152) sS wW bB h 1066 rfl (by decide) inb_S4096x1266_S4096x50_0_1066 _
    (fun j => (payL21_apply _ _ _ p j).trans (layerAt_eq_feat sS wW bB 21 (by decide) _ _ _ p j
      (fun k => load_of_inv sS wW bB arg7.view h inb_S4096x1266_S4096x1152_0_0 k)
      (fun k => readAt_block3 arg2 harg2 x1 21 inb_S25x1266x50_S1x1152x50_21_0_0 k j)
      (readAt_block3 arg3 harg3 x2 21 inb_S25x1x50_S1x1x50_21_0_0 (0 : Fin 1) j)))
    1116 36 rfl inb_S4096x1266_S4096x36_0_1116 (k0_pay60 : FVec Ideal S4096x36 .f32) (fun j => fill21_apply (ix2 p j)) (by decide)

/-- Layer 22: width 1116, padded width 1152; new columns 1116 to 1166, zeros up to 1266. -/
theorem step22 (h : RowInv sS wW bB 22 1152 p (kernelRun0_A.sl.HS0_46 (F := Ideal) c arg1 harg1 arg2 harg2 arg3 harg3 arg7 x0 x1 x2)) :
    RowInv sS wW bB 23 1266 p (kernelRun0_A.sl.HS0_48 (F := Ideal) c arg1 harg1 arg2 harg2 arg3 harg3 arg7 x0 x1 x2) :=
  RowInv.step (kw' := 1266) sS wW bB h 1116 rfl (by decide) inb_S4096x1266_S4096x50_0_1116 _
    (fun j => (payL22_apply _ _ _ p j).trans (layerAt_eq_feat sS wW bB 22 (by decide) _ _ _ p j
      (fun k => load_of_inv sS wW bB arg7.view h inb_S4096x1266_S4096x1152_0_0 k)
      (fun k => readAt_block3 arg2 harg2 x1 22 inb_S25x1266x50_S1x1152x50_22_0_0 k j)
      (readAt_block3 arg3 harg3 x2 22 inb_S25x1x50_S1x1x50_22_0_0 (0 : Fin 1) j)))
    1166 100 rfl inb_S4096x1266_S4096x100_0_1166 (k0_pay62 : FVec Ideal S4096x100 .f32) (fun j => fill22_apply (ix2 p j)) (by decide)

/-- Layer 23: width 1166, padded width 1266; new columns 1166 to 1216, zeros up to 1266. -/
theorem step23 (h : RowInv sS wW bB 23 1266 p (kernelRun0_A.sl.HS0_48 (F := Ideal) c arg1 harg1 arg2 harg2 arg3 harg3 arg7 x0 x1 x2)) :
    RowInv sS wW bB 24 1266 p (kernelRun0_A.sl.HS0_50 (F := Ideal) c arg1 harg1 arg2 harg2 arg3 harg3 arg7 x0 x1 x2) :=
  RowInv.step (kw' := 1266) sS wW bB h 1166 rfl (by decide) inb_S4096x1266_S4096x50_0_1166 _
    (fun j => (payL23_apply _ _ _ p j).trans (layerAt_eq_feat sS wW bB 23 (by decide) _ _ _ p j
      (fun k => load_of_inv sS wW bB arg7.view h inb_S4096x1266_S4096x1266_0_0 k)
      (fun k => readAt_block3 arg2 harg2 x1 23 inb_S25x1266x50_S1x1266x50_23_0_0 k j)
      (readAt_block3 arg3 harg3 x2 23 inb_S25x1x50_S1x1x50_23_0_0 (0 : Fin 1) j)))
    1216 50 rfl inb_S4096x1266_S4096x50_0_1216 (k0_pay65 : FVec Ideal S4096x50 .f32) (fun j => fill23_apply (ix2 p j)) (by decide)

/-- Layer 24: width 1216, padded width 1266; new columns 1216 to 1266, the last. -/
theorem step24 (h : RowInv sS wW bB 24 1266 p (kernelRun0_A.sl.HS0_50 (F := Ideal) c arg1 harg1 arg2 harg2 arg3 harg3 arg7 x0 x1 x2)) :
    RowInv sS wW bB 25 1266 p (kernelRun0_A.sl.HS0_51 (F := Ideal) c arg1 harg1 arg2 harg2 arg3 harg3 arg7 x0 x1 x2) :=
  RowInv.step_last (kw' := 1266) sS wW bB h 1216 rfl (by decide) inb_S4096x1266_S4096x50_0_1216 _
    (fun j => (payL24_apply _ _ _ p j).trans (layerAt_eq_feat sS wW bB 24 (by decide) _ _ _ p j
      (fun k => load_of_inv sS wW bB arg7.view h inb_S4096x1266_S4096x1266_0_0 k)
      (fun k => readAt_block3 arg2 harg2 x1 24 inb_S25x1266x50_S1x1266x50_24_0_0 k j)
      (readAt_block3 arg3 harg3 x2 24 inb_S25x1x50_S1x1x50_24_0_0 (0 : Fin 1) j)))
    (by decide)

/-- After the 25 layers: every column of row p holds its feature. -/
theorem inv25 : RowInv sS wW bB 25 1266 p (kernelRun0_A.sl.HS0_51 (F := Ideal) c arg1 harg1 arg2 harg2 arg3 harg3 arg7 x0 x1 x2) :=
  have h0 := inv0 c arg1 harg1 x0 x1 x2 p
  have h1 := step0 c arg1 harg1 arg2 harg2 arg3 harg3 arg7 x0 x1 x2 p h0
  have h2 := step1 c arg1 harg1 arg2 harg2 arg3 harg3 arg7 x0 x1 x2 p h1
  have h3 := step2 c arg1 harg1 arg2 harg2 arg3 harg3 arg7 x0 x1 x2 p h2
  have h4 := step3 c arg1 harg1 arg2 harg2 arg3 harg3 arg7 x0 x1 x2 p h3
  have h5 := step4 c arg1 harg1 arg2 harg2 arg3 harg3 arg7 x0 x1 x2 p h4
  have h6 := step5 c arg1 harg1 arg2 harg2 arg3 harg3 arg7 x0 x1 x2 p h5
  have h7 := step6 c arg1 harg1 arg2 harg2 arg3 harg3 arg7 x0 x1 x2 p h6
  have h8 := step7 c arg1 harg1 arg2 harg2 arg3 harg3 arg7 x0 x1 x2 p h7
  have h9 := step8 c arg1 harg1 arg2 harg2 arg3 harg3 arg7 x0 x1 x2 p h8
  have h10 := step9 c arg1 harg1 arg2 harg2 arg3 harg3 arg7 x0 x1 x2 p h9
  have h11 := step10 c arg1 harg1 arg2 harg2 arg3 harg3 arg7 x0 x1 x2 p h10
  have h12 := step11 c arg1 harg1 arg2 harg2 arg3 harg3 arg7 x0 x1 x2 p h11
  have h13 := step12 c arg1 harg1 arg2 harg2 arg3 harg3 arg7 x0 x1 x2 p h12
  have h14 := step13 c arg1 harg1 arg2 harg2 arg3 harg3 arg7 x0 x1 x2 p h13
  have h15 := step14 c arg1 harg1 arg2 harg2 arg3 harg3 arg7 x0 x1 x2 p h14
  have h16 := step15 c arg1 harg1 arg2 harg2 arg3 harg3 arg7 x0 x1 x2 p h15
  have h17 := step16 c arg1 harg1 arg2 harg2 arg3 harg3 arg7 x0 x1 x2 p h16
  have h18 := step17 c arg1 harg1 arg2 harg2 arg3 harg3 arg7 x0 x1 x2 p h17
  have h19 := step18 c arg1 harg1 arg2 harg2 arg3 harg3 arg7 x0 x1 x2 p h18
  have h20 := step19 c arg1 harg1 arg2 harg2 arg3 harg3 arg7 x0 x1 x2 p h19
  have h21 := step20 c arg1 harg1 arg2 harg2 arg3 harg3 arg7 x0 x1 x2 p h20
  have h22 := step21 c arg1 harg1 arg2 harg2 arg3 harg3 arg7 x0 x1 x2 p h21
  have h23 := step22 c arg1 harg1 arg2 harg2 arg3 harg3 arg7 x0 x1 x2 p h22
  have h24 := step23 c arg1 harg1 arg2 harg2 arg3 harg3 arg7 x0 x1 x2 p h23
  have h25 := step24 c arg1 harg1 arg2 harg2 arg3 harg3 arg7 x0 x1 x2 p h24
  h25

end Cert.KernelIdeal.BodyValue

end
-- ==== Proof.KernelBody.lean ====
/-
  WHAT THE KERNEL BODY LEAVES IN ITS OUTPUT BLOCK, row by row: the densely connected network's value on that
  row of the state block.

  The output block receives one store: the final contraction of the scratch buffer's 1266 columns with the
  output weight column, plus the output bias. After the 25 layers row p of the scratch buffer holds, in every
  column k, feature k of the row (the invariant along the stores, KernelBodyChain), so that contraction is the
  sum over the 1266 features of feature times weight, which is the network's value.
-/
import proofs.«119617_j10823317586373_2_alg».proof.Proof.Gen.KernelIdeal.Frame
import proofs.«119617_j10823317586373_2_alg».proof.Proof.Spec
import proofs.«119617_j10823317586373_2_alg».proof.Proof.KernelBodyChain
import Idealize.ShloMosaic.Lib.Pipeline.FrameBody

set_option maxRecDepth 16384

noncomputable section

namespace Cert.KernelIdeal.BodyValue

open Cert.KernelIdeal Cert.KernelIdeal.Gen Idealize.ShloMosaic Idealize.ShloMosaic.ValueIdx Cert.GrowingMlp

theorem out_apply (c : Dev nD) (i : grid0.Coords) (arg1 : Memref sig .tc .vmem S4096x16 .f32) (harg1 : arg1.IsWhole) (arg2 : Memref sig .tc .vmem S25x1266x50 .f32) (harg2 : arg2.IsWhole) (arg3 : Memref sig .tc .vmem S25x1x50 .f32) (harg3 : arg3.IsWhole) (arg4 : Memref sig .tc .vmem S1266x1 .f32) (harg4 : arg4.IsWhole) (arg5 : Memref sig .tc .vmem S1x1 .f32) (harg5 : arg5.IsWhole) (arg6 : Memref sig .tc .vmem S4096x1 .f32) (harg6 : arg6.IsWhole) (arg7 : Memref sig .tc .vmem S4096x1266 .f32) (harg7 : arg7.IsWhole)
    (x0 : Vec Ideal S4096x16 .f32) (x1 : Vec Ideal S25x1266x50 .f32) (x2 : Vec Ideal S25x1x50 .f32) (x3 : Vec Ideal S1266x1 .f32) (x4 : Vec Ideal S1x1 .f32) (p : Fin 4096) :
    out0_A_5 (F := Ideal) c i arg1 harg1 arg2 harg2 arg3 harg3 arg4 harg4 arg5 harg5 arg6 harg6 arg7 harg7 x0 x1 x2 x3 x4 (ix2 p (0 : Fin 1))
      = rowResult (rowOf x0 p) (fun n j k => weightOf x1 n k j) (fun n j => weightOf x2 n 0 j) (outWeightOf x3) (x4 (ix2 (0 : Fin 1) (0 : Fin 1))) := by
  -- the output's one store, read back at (p, 0), is its payload there
  unfold out0_A_5
  rw [View.read_writes_junk_eq_canon]
  unfold kernelRun0_A
  dsimp only
  refine (canon_cons_cols_hit (C := 1) 0 1 inb_S4096x1_S4096x1_0_0 _ [] p (0 : Fin 1) (0 : Fin 1) rfl).trans ?_
  -- the payload at (p, 0): the loaded row contracted with the weight column, plus the bias
  refine (final_apply _ _ _ p).trans ?_
  refine (congrArg₂ (· + ·) rfl (readAt_whole2 arg5 harg5 x4 inb_S1x1_S1x1_0_0 (0 : Fin 1) (0 : Fin 1))).trans ?_
  -- the loaded row is the 1266 features, the weight column the output weights
  exact rowResult_of_final (rowOf x0 p) (fun n j k => weightOf x1 n k j) (fun n j => weightOf x2 n 0 j) (outWeightOf x3)
    (x4 (ix2 (0 : Fin 1) (0 : Fin 1))) _ _
    (fun k => (load_of_inv _ _ _ arg7.view (inv25 c arg1 harg1 arg2 harg2 arg3 harg3 arg7 x0 x1 x2 p)
      inb_S4096x1266_S4096x1266_0_0 k).trans (padRow_lt _ _ _ k.isLt))
    (fun k => (readAt_whole2 arg4 harg4 x3 inb_S1266x1_S1266x1_0_0 k (0 : Fin 1)).trans (outWeightOf_lt x3 k.isLt).symm)

end Cert.KernelIdeal.BodyValue

end
-- ==== Proof.KernelArray.lean ====
/-
  From the kernel's blocks to its result array.

  The body's value (`BodyValue.out_apply`): row `p` of the output block a grid point writes back is the network's value
  on row `p` of that point's state block, with the weights read from the point's weight blocks.  The blocks, read at
  coordinates (`state_block`, `weight_block`, … and their function forms), are the launch's arrays: the state block's row
  `p` at point `t` is the state's row `4096 t + p`; the weight blocks are the launch's weights through the host's
  transposition and reshapes.  So what point `t` writes back is block `t` of ONE array, the specification's result of
  the launch's arguments (`flushed_eq`).  The eight blocks of 4096 rows tile the 32768 rows — row `r` is in the block
  of point `r / 4096` (`cover`) — so after the run the output array IS that result (`final`), and the generated frame
  run, which names the output array after the run, becomes a statement about the specification (`run`).
-/
import proofs.«119617_j10823317586373_2_alg».proof.Proof.KernelBlocks
import proofs.«119617_j10823317586373_2_alg».proof.Proof.KernelBody

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.GrowingMlp
open Idealize.ShloMosaic.Pipeline (Dat)

variable (m : (ℓ : Loc nD τ sig) → Buf (Elt Ideal) ℓ) (ρ : Dev nD → PrngReg)

/-! ## From the blocks to the array -/

/-- WHAT POINT `t` WRITES BACK is block `t` of the specification's result array of the launch's arguments: row `p` of the
    body's output block is the network's value on row `p` of the state block, which is row `4096 t + p` of the state,
    with the weights the launch was given (read through the host's transposition and the two reshapes). -/
theorem flushed_eq (c : Dev nD) (t : Fin cfg0.N) :
    (dats m 0 c).flushed 5 t = ((cfg0.win 5).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed5_A]
  funext j
  obtain ⟨p, q, rfl⟩ : ∃ (p : Fin 4096) (q : Fin 1), j = ix2 p q := ⟨j 0, j 1, eq_ix2 (n0 := 4096) (n1 := 1) j⟩
  obtain rfl : q = 0 := Subsingleton.elim _ _
  have hN : cfg0.N = 8 := N_0
  have hr : t.val * 4096 + p.val < 32768 := by have := t.isLt; have := p.isLt; omega
  have hemb : ((cfg0.win 5).blk t).view.emb (ix2 p (0 : Fin 1)) = ix2 ⟨t.val * 4096 + p.val, hr⟩ (0 : Fin 1) := by
    obtain ⟨-, -, -, -, -, -, -, -, -, -, -, -, e12, e13⟩ := idx_facts t
    funext a; apply Fin.ext
    match a with
    | ⟨0, _⟩ => show win0_5.index t (0 : Fin 2) * 4096 + 1 * p.val = t.val * 4096 + p.val; omega
    | ⟨1, _⟩ => show win0_5.index t (1 : Fin 2) * 1 + 1 * 0 = 0; omega
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (ix2 p (0 : Fin 1))
      = result (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p (0 : Fin 1)))
  refine (Cert.KernelIdeal.BodyValue.out_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) p).trans ?_
  rw [hemb]
  show rowResult _ _ _ _ _ = rowResult (rowOf (m ((c : Thread nD τ).loc main_arg0)) ⟨t.val * 4096 + p.val, hr⟩)
      (weightOf (m ((c : Thread nD τ).loc main_arg1))) (biasOf (m ((c : Thread nD τ).loc main_arg2)))
      (outWeightOf (m ((c : Thread nD τ).loc main_arg3))) (m ((c : Thread nD τ).loc main_arg4) (ix1 (0 : Fin 1)))
  rw [row_eq m c t p hr, weights_eq m c t, biases_eq m c t, outWeights_eq m c t, outBias_block m c t]

/-- An index of the output array is in point `t`'s block iff each coordinate is in the block's range on its axis. -/
theorem mem_blk (t : Fin cfg0.N) (i : S32768x1.Idx) :
    i ∈ ((cfg0.win 5).blk t).view.set ↔ ∀ a : Fin 2, win0_5.index t a * S4096x1.size a ≤ (i a).val ∧ (i a).val < win0_5.index t a * S4096x1.size a + S4096x1.size a := by
  show i ∈ ((View.whole main_v3).slice (win0_5.rect t)).set ↔ _
  rw [View.set_slice_whole, Rect.mem_set_unit]
  exact Iff.rfl

/-- THE COVER: row `r` of the output is in the block of point `r / 4096`; the eight blocks tile the 32768 rows. -/
theorem cover (i : S32768x1.Idx) : ∃ t : Fin cfg0.N, (cfg0.win 5).flush t = true ∧ i ∈ ((cfg0.win 5).blk t).view.set := by
  have hi0 : (i 0).val < 32768 := (i 0).isLt
  have hi1 : (i 1).val < 1 := (i 1).isLt
  have hN : cfg0.N = 8 := N_0
  refine ⟨⟨(i 0).val / 4096, by omega⟩, flush0_5 _, ?_⟩
  rw [mem_blk]
  obtain ⟨-, -, -, -, -, -, -, -, -, -, -, -, e12, e13⟩ := idx_facts ⟨(i 0).val / 4096, by omega⟩
  intro a
  match a with
  | ⟨0, _⟩ => show win0_5.index _ (0 : Fin 2) * 4096 ≤ (i 0).val ∧ (i 0).val < win0_5.index _ (0 : Fin 2) * 4096 + 4096; rw [e12]; show (i 0).val / 4096 * 4096 ≤ (i 0).val ∧ (i 0).val < (i 0).val / 4096 * 4096 + 4096; omega
  | ⟨1, _⟩ => show win0_5.index _ (1 : Fin 2) * 1 ≤ (i 1).val ∧ (i 1).val < win0_5.index _ (1 : Fin 2) * 1 + 1; rw [e13]; omega

/-- THE OUTPUT ARRAY after the run is the specification's result of the launch's arguments. -/
theorem final (c : Dev nD) : (dats m 0 c).arrAt 5 cfg0.N = result (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

/-- THE RUN, READ: every weakly fair execution of the idealized kernel terminates with its result array at the
    specification's result of the launch's arguments, and the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefLayers.lean ====
/-
  The reference's host program, layer by layer, as pure functions of arrays.

  One layer of the reference takes the row matrix `X` (one row per batch element, the features present so far as
  columns), cuts that layer's weights out of the weight stack (a slice of the stack, its unit axis dropped, transposed
  so that the contraction runs over the features), forms `X · Wᵀ + b` with the layer's bias row broadcast down the
  batch, applies the leaky rectifier entry by entry (`act`: the entry where it is at least zero, the slope times the
  entry elsewhere), and appends the 50 new columns to `X`.  `layer n` is that map for layer `n`, spelt with exactly the
  host operations the reference's text applies, in its order; `featsAfter n` is the row matrix after `n` layers and
  `refTerm` the final affine map of the last one.  The 25 definitions differ only in the layer's number and in the
  width `16 + 50 n` of the matrix they take.
-/
import proofs.«119617_j10823317586373_2_alg».proof.Proof.Gen.ReferenceIdeal

noncomputable section

namespace Cert.ReferenceIdeal.Layers

open Cert.ReferenceIdeal Cert.ReferenceIdeal.Gen Idealize.ShloMosaic

variable {F : FTy → Type} [FloatOps F]

/-- The leaky rectifier on a whole `[batch, 50]` array, as the reference spells it: a comparison with the broadcast
    zero selects between the entry and the broadcast slope times the entry. -/
def act (y : (⟨S32768x50, .f32⟩ : BufTy).Contents (Elt F)) : (⟨S32768x50, .f32⟩ : BufTy).Contents (Elt F) :=
  select (cmpf .oge y (broadcastInDim S32768x50 ![] bcast_S_S32768x50 (constant S_ .f32 0x00000000#32)))
    y (mulf (broadcastInDim S32768x50 ![] bcast_S_S32768x50 (id (constant S_ .f32 0x3C23D70A#32))) y)

/-- Layer `n`'s bias row, broadcast down the batch. -/
def biasRows (n : Fin 25) (h : S25x50.Slices ![n.val, 0] S1x50) (bs : (⟨S25x50, .f32⟩ : BufTy).Contents (Elt F)) :
    (⟨S32768x50, .f32⟩ : BufTy).Contents (Elt F) :=
  broadcastInDim S32768x50 ![0, 1] bcast_S1x50_S32768x50_0_1
    (broadcastInDim S1x50 ![1] bcast_S50_S1x50_1 (shapeCast S50 (extractStridedSlice S1x50 ![n.val, 0] bs h) shapeCasts_S1x50_S50))

/-- Layer 0: `[batch, 16] → [batch, 66]`. -/
def layer0 (X : (⟨S32768x16, .f32⟩ : BufTy).Contents (Elt F)) (Ws : (⟨S25x50x1266, .f32⟩ : BufTy).Contents (Elt F))
    (bs : (⟨S25x50, .f32⟩ : BufTy).Contents (Elt F)) : (⟨S32768x66, .f32⟩ : BufTy).Contents (Elt F) :=
  concatenate S32768x66 1 [⟨S32768x16, X⟩, ⟨S32768x50, act (addf
      (Host.dotGeneral dot_S32768x16_S16x50_S32768x50_1_0_0_1_n_n none X
        (transpose S16x50 [1, 0] (shapeCast S50x16 (extractStridedSlice S1x50x16 ![0, 0, 0] Ws slices_S25x50x1266_S1x50x16_0_0_0)
          shapeCasts_S1x50x16_S50x16) transposes_S50x16_S16x50_1_0))
      (biasRows 0 slices_S25x50_S1x50_0_0 bs))⟩] concatenates_S32768x16_S32768x50_S32768x66_d1

/-- Layer 1: `[batch, 66] → [batch, 116]`. -/
def layer1 (X : (⟨S32768x66, .f32⟩ : BufTy).Contents (Elt F)) (Ws : (⟨S25x50x1266, .f32⟩ : BufTy).Contents (Elt F))
    (bs : (⟨S25x50, .f32⟩ : BufTy).Contents (Elt F)) : (⟨S32768x116, .f32⟩ : BufTy).Contents (Elt F) :=
  concatenate S32768x116 1 [⟨S32768x66, X⟩, ⟨S32768x50, act (addf
      (Host.dotGeneral dot_S32768x66_S66x50_S32768x50_1_0_0_1_n_n none X
        (transpose S66x50 [1, 0] (shapeCast S50x66 (extractStridedSlice S1x50x66 ![1, 0, 0] Ws slices_S25x50x1266_S1x50x66_1_0_0)
          shapeCasts_S1x50x66_S50x66) transposes_S50x66_S66x50_1_0))
      (biasRows 1 slices_S25x50_S1x50_1_0 bs))⟩] concatenates_S32768x66_S32768x50_S32768x116_d1

/-- Layer 2: `[batch, 116] → [batch, 166]`. -/
def layer2 (X : (⟨S32768x116, .f32⟩ : BufTy).Contents (Elt F)) (Ws : (⟨S25x50x1266, .f32⟩ : BufTy).Contents (Elt F))
    (bs : (⟨S25x50, .f32⟩ : BufTy).Contents (Elt F)) : (⟨S32768x166, .f32⟩ : BufTy).Contents (Elt F) :=
  concatenate S32768x166 1 [⟨S32768x116, X⟩, ⟨S32768x50, act (addf
      (Host.dotGeneral dot_S32768x116_S116x50_S32768x50_1_0_0_1_n_n none X
        (transpose S116x50 [1, 0] (shapeCast S50x116 (extractStridedSlice S1x50x116 ![2, 0, 0] Ws slices_S25x50x1266_S1x50x116_2_0_0)
          shapeCasts_S1x50x116_S50x116) transposes_S50x116_S116x50_1_0))
      (biasRows 2 slices_S25x50_S1x50_2_0 bs))⟩] concatenates_S32768x116_S32768x50_S32768x166_d1

/-- Layer 3: `[batch, 166] → [batch, 216]`. -/
def layer3 (X : (⟨S32768x166, .f32⟩ : BufTy).Contents (Elt F)) (Ws : (⟨S25x50x1266, .f32⟩ : BufTy).Contents (Elt F))
    (bs : (⟨S25x50, .f32⟩ : BufTy).Contents (Elt F)) : (⟨S32768x216, .f32⟩ : BufTy).Contents (Elt F) :=
  concatenate S32768x216 1 [⟨S32768x166, X⟩, ⟨S32768x50, act (addf
      (Host.dotGeneral dot_S32768x166_S166x50_S32768x50_1_0_0_1_n_n none X
        (transpose S166x50 [1, 0] (shapeCast S50x166 (extractStridedSlice S1x50x166 ![3, 0, 0] Ws slices_S25x50x1266_S1x50x166_3_0_0)
          shapeCasts_S1x50x166_S50x166) transposes_S50x166_S166x50_1_0))
      (biasRows 3 slices_S25x50_S1x50_3_0 bs))⟩] concatenates_S32768x166_S32768x50_S32768x216_d1

/-- Layer 4: `[batch, 216] → [batch, 266]`. -/
def layer4 (X : (⟨S32768x216, .f32⟩ : BufTy).Contents (Elt F)) (Ws : (⟨S25x50x1266, .f32⟩ : BufTy).Contents (Elt F))
    (bs : (⟨S25x50, .f32⟩ : BufTy).Contents (Elt F)) : (⟨S32768x266, .f32⟩ : BufTy).Contents (Elt F) :=
  concatenate S32768x266 1 [⟨S32768x216, X⟩, ⟨S32768x50, act (addf
      (Host.dotGeneral dot_S32768x216_S216x50_S32768x50_1_0_0_1_n_n none X
        (transpose S216x50 [1, 0] (shapeCast S50x216 (extractStridedSlice S1x50x216 ![4, 0, 0] Ws slices_S25x50x1266_S1x50x216_4_0_0)
          shapeCasts_S1x50x216_S50x216) transposes_S50x216_S216x50_1_0))
      (biasRows 4 slices_S25x50_S1x50_4_0 bs))⟩] concatenates_S32768x216_S32768x50_S32768x266_d1

/-- Layer 5: `[batch, 266] → [batch, 316]`. -/
def layer5 (X : (⟨S32768x266, .f32⟩ : BufTy).Contents (Elt F)) (Ws : (⟨S25x50x1266, .f32⟩ : BufTy).Contents (Elt F))
    (bs : (⟨S25x50, .f32⟩ : BufTy).Contents (Elt F)) : (⟨S32768x316, .f32⟩ : BufTy).Contents (Elt F) :=
  concatenate S32768x316 1 [⟨S32768x266, X⟩, ⟨S32768x50, act (addf
      (Host.dotGeneral dot_S32768x266_S266x50_S32768x50_1_0_0_1_n_n none X
        (transpose S266x50 [1, 0] (shapeCast S50x266 (extractStridedSlice S1x50x266 ![5, 0, 0] Ws slices_S25x50x1266_S1x50x266_5_0_0)
          shapeCasts_S1x50x266_S50x266) transposes_S50x266_S266x50_1_0))
      (biasRows 5 slices_S25x50_S1x50_5_0 bs))⟩] concatenates_S32768x266_S32768x50_S32768x316_d1

/-- Layer 6: `[batch, 316] → [batch, 366]`. -/
def layer6 (X : (⟨S32768x316, .f32⟩ : BufTy).Contents (Elt F)) (Ws : (⟨S25x50x1266, .f32⟩ : BufTy).Contents (Elt F))
    (bs : (⟨S25x50, .f32⟩ : BufTy).Contents (Elt F)) : (⟨S32768x366, .f32⟩ : BufTy).Contents (Elt F) :=
  concatenate S32768x366 1 [⟨S32768x316, X⟩, ⟨S32768x50, act (addf
      (Host.dotGeneral dot_S32768x316_S316x50_S32768x50_1_0_0_1_n_n none X
        (transpose S316x50 [1, 0] (shapeCast S50x316 (extractStridedSlice S1x50x316 ![6, 0, 0] Ws slices_S25x50x1266_S1x50x316_6_0_0)
          shapeCasts_S1x50x316_S50x316) transposes_S50x316_S316x50_1_0))
      (biasRows 6 slices_S25x50_S1x50_6_0 bs))⟩] concatenates_S32768x316_S32768x50_S32768x366_d1

/-- Layer 7: `[batch, 366] → [batch, 416]`. -/
def layer7 (X : (⟨S32768x366, .f32⟩ : BufTy).Contents (Elt F)) (Ws : (⟨S25x50x1266, .f32⟩ : BufTy).Contents (Elt F))
    (bs : (⟨S25x50, .f32⟩ : BufTy).Contents (Elt F)) : (⟨S32768x416, .f32⟩ : BufTy).Contents (Elt F) :=
  concatenate S32768x416 1 [⟨S32768x366, X⟩, ⟨S32768x50, act (addf
      (Host.dotGeneral dot_S32768x366_S366x50_S32768x50_1_0_0_1_n_n none X
        (transpose S366x50 [1, 0] (shapeCast S50x366 (extractStridedSlice S1x50x366 ![7, 0, 0] Ws slices_S25x50x1266_S1x50x366_7_0_0)
          shapeCasts_S1x50x366_S50x366) transposes_S50x366_S366x50_1_0))
      (biasRows 7 slices_S25x50_S1x50_7_0 bs))⟩] concatenates_S32768x366_S32768x50_S32768x416_d1

/-- Layer 8: `[batch, 416] → [batch, 466]`. -/
def layer8 (X : (⟨S32768x416, .f32⟩ : BufTy).Contents (Elt F)) (Ws : (⟨S25x50x1266, .f32⟩ : BufTy).Contents (Elt F))
    (bs : (⟨S25x50, .f32⟩ : BufTy).Contents (Elt F)) : (⟨S32768x466, .f32⟩ : BufTy).Contents (Elt F) :=
  concatenate S32768x466 1 [⟨S32768x416, X⟩, ⟨S32768x50, act (addf
      (Host.dotGeneral dot_S32768x416_S416x50_S32768x50_1_0_0_1_n_n none X
        (transpose S416x50 [1, 0] (shapeCast S50x416 (extractStridedSlice S1x50x416 ![8, 0, 0] Ws slices_S25x50x1266_S1x50x416_8_0_0)
          shapeCasts_S1x50x416_S50x416) transposes_S50x416_S416x50_1_0))
      (biasRows 8 slices_S25x50_S1x50_8_0 bs))⟩] concatenates_S32768x416_S32768x50_S32768x466_d1

/-- Layer 9: `[batch, 466] → [batch, 516]`. -/
def layer9 (X : (⟨S32768x466, .f32⟩ : BufTy).Contents (Elt F)) (Ws : (⟨S25x50x1266, .f32⟩ : BufTy).Contents (Elt F))
    (bs : (⟨S25x50, .f32⟩ : BufTy).Contents (Elt F)) : (⟨S32768x516, .f32⟩ : BufTy).Contents (Elt F) :=
  concatenate S32768x516 1 [⟨S32768x466, X⟩, ⟨S32768x50, act (addf
      (Host.dotGeneral dot_S32768x466_S466x50_S32768x50_1_0_0_1_n_n none X
        (transpose S466x50 [1, 0] (shapeCast S50x466 (extractStridedSlice S1x50x466 ![9, 0, 0] Ws slices_S25x50x1266_S1x50x466_9_0_0)
          shapeCasts_S1x50x466_S50x466) transposes_S50x466_S466x50_1_0))
      (biasRows 9 slices_S25x50_S1x50_9_0 bs))⟩] concatenates_S32768x466_S32768x50_S32768x516_d1

/-- Layer 10: `[batch, 516] → [batch, 566]`. -/
def layer10 (X : (⟨S32768x516, .f32⟩ : BufTy).Contents (Elt F)) (Ws : (⟨S25x50x1266, .f32⟩ : BufTy).Contents (Elt F))
    (bs : (⟨S25x50, .f32⟩ : BufTy).Contents (Elt F)) : (⟨S32768x566, .f32⟩ : BufTy).Contents (Elt F) :=
  concatenate S32768x566 1 [⟨S32768x516, X⟩, ⟨S32768x50, act (addf
      (Host.dotGeneral dot_S32768x516_S516x50_S32768x50_1_0_0_1_n_n none X
        (transpose S516x50 [1, 0] (shapeCast S50x516 (extractStridedSlice S1x50x516 ![10, 0, 0] Ws slices_S25x50x1266_S1x50x516_10_0_0)
          shapeCasts_S1x50x516_S50x516) transposes_S50x516_S516x50_1_0))
      (biasRows 10 slices_S25x50_S1x50_10_0 bs))⟩] concatenates_S32768x516_S32768x50_S32768x566_d1

/-- Layer 11: `[batch, 566] → [batch, 616]`. -/
def layer11 (X : (⟨S32768x566, .f32⟩ : BufTy).Contents (Elt F)) (Ws : (⟨S25x50x1266, .f32⟩ : BufTy).Contents (Elt F))
    (bs : (⟨S25x50, .f32⟩ : BufTy).Contents (Elt F)) : (⟨S32768x616, .f32⟩ : BufTy).Contents (Elt F) :=
  concatenate S32768x616 1 [⟨S32768x566, X⟩, ⟨S32768x50, act (addf
      (Host.dotGeneral dot_S32768x566_S566x50_S32768x50_1_0_0_1_n_n none X
        (transpose S566x50 [1, 0] (shapeCast S50x566 (extractStridedSlice S1x50x566 ![11, 0, 0] Ws slices_S25x50x1266_S1x50x566_11_0_0)
          shapeCasts_S1x50x566_S50x566) transposes_S50x566_S566x50_1_0))
      (biasRows 11 slices_S25x50_S1x50_11_0 bs))⟩] concatenates_S32768x566_S32768x50_S32768x616_d1

/-- Layer 12: `[batch, 616] → [batch, 666]`. -/
def layer12 (X : (⟨S32768x616, .f32⟩ : BufTy).Contents (Elt F)) (Ws : (⟨S25x50x1266, .f32⟩ : BufTy).Contents (Elt F))
    (bs : (⟨S25x50, .f32⟩ : BufTy).Contents (Elt F)) : (⟨S32768x666, .f32⟩ : BufTy).Contents (Elt F) :=
  concatenate S32768x666 1 [⟨S32768x616, X⟩, ⟨S32768x50, act (addf
      (Host.dotGeneral dot_S32768x616_S616x50_S32768x50_1_0_0_1_n_n none X
        (transpose S616x50 [1, 0] (shapeCast S50x616 (extractStridedSlice S1x50x616 ![12, 0, 0] Ws slices_S25x50x1266_S1x50x616_12_0_0)
          shapeCasts_S1x50x616_S50x616) transposes_S50x616_S616x50_1_0))
      (biasRows 12 slices_S25x50_S1x50_12_0 bs))⟩] concatenates_S32768x616_S32768x50_S32768x666_d1

/-- Layer 13: `[batch, 666] → [batch, 716]`. -/
def layer13 (X : (⟨S32768x666, .f32⟩ : BufTy).Contents (Elt F)) (Ws : (⟨S25x50x1266, .f32⟩ : BufTy).Contents (Elt F))
    (bs : (⟨S25x50, .f32⟩ : BufTy).Contents (Elt F)) : (⟨S32768x716, .f32⟩ : BufTy).Contents (Elt F) :=
  concatenate S32768x716 1 [⟨S32768x666, X⟩, ⟨S32768x50, act (addf
      (Host.dotGeneral dot_S32768x666_S666x50_S32768x50_1_0_0_1_n_n none X
        (transpose S666x50 [1, 0] (shapeCast S50x666 (extractStridedSlice S1x50x666 ![13, 0, 0] Ws slices_S25x50x1266_S1x50x666_13_0_0)
          shapeCasts_S1x50x666_S50x666) transposes_S50x666_S666x50_1_0))
      (biasRows 13 slices_S25x50_S1x50_13_0 bs))⟩] concatenates_S32768x666_S32768x50_S32768x716_d1

/-- Layer 14: `[batch, 716] → [batch, 766]`. -/
def layer14 (X : (⟨S32768x716, .f32⟩ : BufTy).Contents (Elt F)) (Ws : (⟨S25x50x1266, .f32⟩ : BufTy).Contents (Elt F))
    (bs : (⟨S25x50, .f32⟩ : BufTy).Contents (Elt F)) : (⟨S32768x766, .f32⟩ : BufTy).Contents (Elt F) :=
  concatenate S32768x766 1 [⟨S32768x716, X⟩, ⟨S32768x50, act (addf
      (Host.dotGeneral dot_S32768x716_S716x50_S32768x50_1_0_0_1_n_n none X
        (transpose S716x50 [1, 0] (shapeCast S50x716 (extractStridedSlice S1x50x716 ![14, 0, 0] Ws slices_S25x50x1266_S1x50x716_14_0_0)
          shapeCasts_S1x50x716_S50x716) transposes_S50x716_S716x50_1_0))
      (biasRows 14 slices_S25x50_S1x50_14_0 bs))⟩] concatenates_S32768x716_S32768x50_S32768x766_d1

/-- Layer 15: `[batch, 766] → [batch, 816]`. -/
def layer15 (X : (⟨S32768x766, .f32⟩ : BufTy).Contents (Elt F)) (Ws : (⟨S25x50x1266, .f32⟩ : BufTy).Contents (Elt F))
    (bs : (⟨S25x50, .f32⟩ : BufTy).Contents (Elt F)) : (⟨S32768x816, .f32⟩ : BufTy).Contents (Elt F) :=
  concatenate S32768x816 1 [⟨S32768x766, X⟩, ⟨S32768x50, act (addf
      (Host.dotGeneral dot_S32768x766_S766x50_S32768x50_1_0_0_1_n_n none X
        (transpose S766x50 [1, 0] (shapeCast S50x766 (extractStridedSlice S1x50x766 ![15, 0, 0] Ws slices_S25x50x1266_S1x50x766_15_0_0)
          shapeCasts_S1x50x766_S50x766) transposes_S50x766_S766x50_1_0))
      (biasRows 15 slices_S25x50_S1x50_15_0 bs))⟩] concatenates_S32768x766_S32768x50_S32768x816_d1

/-- Layer 16: `[batch, 816] → [batch, 866]`. -/
def layer16 (X : (⟨S32768x816, .f32⟩ : BufTy).Contents (Elt F)) (Ws : (⟨S25x50x1266, .f32⟩ : BufTy).Contents (Elt F))
    (bs : (⟨S25x50, .f32⟩ : BufTy).Contents (Elt F)) : (⟨S32768x866, .f32⟩ : BufTy).Contents (Elt F) :=
  concatenate S32768x866 1 [⟨S32768x816, X⟩, ⟨S32768x50, act (addf
      (Host.dotGeneral dot_S32768x816_S816x50_S32768x50_1_0_0_1_n_n none X
        (transpose S816x50 [1, 0] (shapeCast S50x816 (extractStridedSlice S1x50x816 ![16, 0, 0] Ws slices_S25x50x1266_S1x50x816_16_0_0)
          shapeCasts_S1x50x816_S50x816) transposes_S50x816_S816x50_1_0))
      (biasRows 16 slices_S25x50_S1x50_16_0 bs))⟩] concatenates_S32768x816_S32768x50_S32768x866_d1

/-- Layer 17: `[batch, 866] → [batch, 916]`. -/
def layer17 (X : (⟨S32768x866, .f32⟩ : BufTy).Contents (Elt F)) (Ws : (⟨S25x50x1266, .f32⟩ : BufTy).Contents (Elt F))
    (bs : (⟨S25x50, .f32⟩ : BufTy).Contents (Elt F)) : (⟨S32768x916, .f32⟩ : BufTy).Contents (Elt F) :=
  concatenate S32768x916 1 [⟨S32768x866, X⟩, ⟨S32768x50, act (addf
      (Host.dotGeneral dot_S32768x866_S866x50_S32768x50_1_0_0_1_n_n none X
        (transpose S866x50 [1, 0] (shapeCast S50x866 (extractStridedSlice S1x50x866 ![17, 0, 0] Ws slices_S25x50x1266_S1x50x866_17_0_0)
          shapeCasts_S1x50x866_S50x866) transposes_S50x866_S866x50_1_0))
      (biasRows 17 slices_S25x50_S1x50_17_0 bs))⟩] concatenates_S32768x866_S32768x50_S32768x916_d1

/-- Layer 18: `[batch, 916] → [batch, 966]`. -/
def layer18 (X : (⟨S32768x916, .f32⟩ : BufTy).Contents (Elt F)) (Ws : (⟨S25x50x1266, .f32⟩ : BufTy).Contents (Elt F))
    (bs : (⟨S25x50, .f32⟩ : BufTy).Contents (Elt F)) : (⟨S32768x966, .f32⟩ : BufTy).Contents (Elt F) :=
  concatenate S32768x966 1 [⟨S32768x916, X⟩, ⟨S32768x50, act (addf
      (Host.dotGeneral dot_S32768x916_S916x50_S32768x50_1_0_0_1_n_n none X
        (transpose S916x50 [1, 0] (shapeCast S50x916 (extractStridedSlice S1x50x916 ![18, 0, 0] Ws slices_S25x50x1266_S1x50x916_18_0_0)
          shapeCasts_S1x50x916_S50x916) transposes_S50x916_S916x50_1_0))
      (biasRows 18 slices_S25x50_S1x50_18_0 bs))⟩] concatenates_S32768x916_S32768x50_S32768x966_d1

/-- Layer 19: `[batch, 966] → [batch, 1016]`. -/
def layer19 (X : (⟨S32768x966, .f32⟩ : BufTy).Contents (Elt F)) (Ws : (⟨S25x50x1266, .f32⟩ : BufTy).Contents (Elt F))
    (bs : (⟨S25x50, .f32⟩ : BufTy).Contents (Elt F)) : (⟨S32768x1016, .f32⟩ : BufTy).Contents (Elt F) :=
  concatenate S32768x1016 1 [⟨S32768x966, X⟩, ⟨S32768x50, act (addf
      (Host.dotGeneral dot_S32768x966_S966x50_S32768x50_1_0_0_1_n_n none X
        (transpose S966x50 [1, 0] (shapeCast S50x966 (extractStridedSlice S1x50x966 ![19, 0, 0] Ws slices_S25x50x1266_S1x50x966_19_0_0)
          shapeCasts_S1x50x966_S50x966) transposes_S50x966_S966x50_1_0))
      (biasRows 19 slices_S25x50_S1x50_19_0 bs))⟩] concatenates_S32768x966_S32768x50_S32768x1016_d1

/-- Layer 20: `[batch, 1016] → [batch, 1066]`. -/
def layer20 (X : (⟨S32768x1016, .f32⟩ : BufTy).Contents (Elt F)) (Ws : (⟨S25x50x1266, .f32⟩ : BufTy).Contents (Elt F))
    (bs : (⟨S25x50, .f32⟩ : BufTy).Contents (Elt F)) : (⟨S32768x1066, .f32⟩ : BufTy).Contents (Elt F) :=
  concatenate S32768x1066 1 [⟨S32768x1016, X⟩, ⟨S32768x50, act (addf
      (Host.dotGeneral dot_S32768x1016_S1016x50_S32768x50_1_0_0_1_n_n none X
        (transpose S1016x50 [1, 0] (shapeCast S50x1016 (extractStridedSlice S1x50x1016 ![20, 0, 0] Ws slices_S25x50x1266_S1x50x1016_20_0_0)
          shapeCasts_S1x50x1016_S50x1016) transposes_S50x1016_S1016x50_1_0))
      (biasRows 20 slices_S25x50_S1x50_20_0 bs))⟩] concatenates_S32768x1016_S32768x50_S32768x1066_d1

/-- Layer 21: `[batch, 1066] → [batch, 1116]`. -/
def layer21 (X : (⟨S32768x1066, .f32⟩ : BufTy).Contents (Elt F)) (Ws : (⟨S25x50x1266, .f32⟩ : BufTy).Contents (Elt F))
    (bs : (⟨S25x50, .f32⟩ : BufTy).Contents (Elt F)) : (⟨S32768x1116, .f32⟩ : BufTy).Contents (Elt F) :=
  concatenate S32768x1116 1 [⟨S32768x1066, X⟩, ⟨S32768x50, act (addf
      (Host.dotGeneral dot_S32768x1066_S1066x50_S32768x50_1_0_0_1_n_n none X
        (transpose S1066x50 [1, 0] (shapeCast S50x1066 (extractStridedSlice S1x50x1066 ![21, 0, 0] Ws slices_S25x50x1266_S1x50x1066_21_0_0)
          shapeCasts_S1x50x1066_S50x1066) transposes_S50x1066_S1066x50_1_0))
      (biasRows 21 slices_S25x50_S1x50_21_0 bs))⟩] concatenates_S32768x1066_S32768x50_S32768x1116_d1

/-- Layer 22: `[batch, 1116] → [batch, 1166]`. -/
def layer22 (X : (⟨S32768x1116, .f32⟩ : BufTy).Contents (Elt F)) (Ws : (⟨S25x50x1266, .f32⟩ : BufTy).Contents (Elt F))
    (bs : (⟨S25x50, .f32⟩ : BufTy).Contents (Elt F)) : (⟨S32768x1166, .f32⟩ : BufTy).Contents (Elt F) :=
  concatenate S32768x1166 1 [⟨S32768x1116, X⟩, ⟨S32768x50, act (addf
      (Host.dotGeneral dot_S32768x1116_S1116x50_S32768x50_1_0_0_1_n_n none X
        (transpose S1116x50 [1, 0] (shapeCast S50x1116 (extractStridedSlice S1x50x1116 ![22, 0, 0] Ws slices_S25x50x1266_S1x50x1116_22_0_0)
          shapeCasts_S1x50x1116_S50x1116) transposes_S50x1116_S1116x50_1_0))
      (biasRows 22 slices_S25x50_S1x50_22_0 bs))⟩] concatenates_S32768x1116_S32768x50_S32768x1166_d1

/-- Layer 23: `[batch, 1166] → [batch, 1216]`. -/
def layer23 (X : (⟨S32768x1166, .f32⟩ : BufTy).Contents (Elt F)) (Ws : (⟨S25x50x1266, .f32⟩ : BufTy).Contents (Elt F))
    (bs : (⟨S25x50, .f32⟩ : BufTy).Contents (Elt F)) : (⟨S32768x1216, .f32⟩ : BufTy).Contents (Elt F) :=
  concatenate S32768x1216 1 [⟨S32768x1166, X⟩, ⟨S32768x50, act (addf
      (Host.dotGeneral dot_S32768x1166_S1166x50_S32768x50_1_0_0_1_n_n none X
        (transpose S1166x50 [1, 0] (shapeCast S50x1166 (extractStridedSlice S1x50x1166 ![23, 0, 0] Ws slices_S25x50x1266_S1x50x1166_23_0_0)
          shapeCasts_S1x50x1166_S50x1166) transposes_S50x1166_S1166x50_1_0))
      (biasRows 23 slices_S25x50_S1x50_23_0 bs))⟩] concatenates_S32768x1166_S32768x50_S32768x1216_d1

/-- Layer 24: `[batch, 1216] → [batch, 1266]`. -/
def layer24 (X : (⟨S32768x1216, .f32⟩ : BufTy).Contents (Elt F)) (Ws : (⟨S25x50x1266, .f32⟩ : BufTy).Contents (Elt F))
    (bs : (⟨S25x50, .f32⟩ : BufTy).Contents (Elt F)) : (⟨S32768x1266, .f32⟩ : BufTy).Contents (Elt F) :=
  concatenate S32768x1266 1 [⟨S32768x1216, X⟩, ⟨S32768x50, act (addf
      (Host.dotGeneral dot_S32768x1216_S1216x50_S32768x50_1_0_0_1_n_n none X
        (transpose S1216x50 [1, 0] (shapeCast S50x1216 (extractStridedSlice S1x50x1216 ![24, 0, 0] Ws slices_S25x50x1266_S1x50x1216_24_0_0)
          shapeCasts_S1x50x1216_S50x1216) transposes_S50x1216_S1216x50_1_0))
      (biasRows 24 slices_S25x50_S1x50_24_0 bs))⟩] concatenates_S32768x1216_S32768x50_S32768x1266_d1

/-! ## The row matrix after each layer, and the result -/

/-- The row matrix after layer 0. -/
def featsAfter1 (state : (⟨S32768x16, .f32⟩ : BufTy).Contents (Elt F)) (Ws : (⟨S25x50x1266, .f32⟩ : BufTy).Contents (Elt F))
    (bs : (⟨S25x50, .f32⟩ : BufTy).Contents (Elt F)) : (⟨S32768x66, .f32⟩ : BufTy).Contents (Elt F) :=
  layer0 state Ws bs

/-- The row matrix after layers 0 … 1. -/
def featsAfter2 (state : (⟨S32768x16, .f32⟩ : BufTy).Contents (Elt F)) (Ws : (⟨S25x50x1266, .f32⟩ : BufTy).Contents (Elt F))
    (bs : (⟨S25x50, .f32⟩ : BufTy).Contents (Elt F)) : (⟨S32768x116, .f32⟩ : BufTy).Contents (Elt F) :=
  layer1 (featsAfter1 state Ws bs) Ws bs

/-- The row matrix after layers 0 … 2. -/
def featsAfter3 (state : (⟨S32768x16, .f32⟩ : BufTy).Contents (Elt F)) (Ws : (⟨S25x50x1266, .f32⟩ : BufTy).Contents (Elt F))
    (bs : (⟨S25x50, .f32⟩ : BufTy).Contents (Elt F)) : (⟨S32768x166, .f32⟩ : BufTy).Contents (Elt F) :=
  layer2 (featsAfter2 state Ws bs) Ws bs

/-- The row matrix after layers 0 … 3. -/
def featsAfter4 (state : (⟨S32768x16, .f32⟩ : BufTy).Contents (Elt F)) (Ws : (⟨S25x50x1266, .f32⟩ : BufTy).Contents (Elt F))
    (bs : (⟨S25x50, .f32⟩ : BufTy).Contents (Elt F)) : (⟨S32768x216, .f32⟩ : BufTy).Contents (Elt F) :=
  layer3 (featsAfter3 state Ws bs) Ws bs

/-- The row matrix after layers 0 … 4. -/
def featsAfter5 (state : (⟨S32768x16, .f32⟩ : BufTy).Contents (Elt F)) (Ws : (⟨S25x50x1266, .f32⟩ : BufTy).Contents (Elt F))
    (bs : (⟨S25x50, .f32⟩ : BufTy).Contents (Elt F)) : (⟨S32768x266, .f32⟩ : BufTy).Contents (Elt F) :=
  layer4 (featsAfter4 state Ws bs) Ws bs

/-- The row matrix after layers 0 … 5. -/
def featsAfter6 (state : (⟨S32768x16, .f32⟩ : BufTy).Contents (Elt F)) (Ws : (⟨S25x50x1266, .f32⟩ : BufTy).Contents (Elt F))
    (bs : (⟨S25x50, .f32⟩ : BufTy).Contents (Elt F)) : (⟨S32768x316, .f32⟩ : BufTy).Contents (Elt F) :=
  layer5 (featsAfter5 state Ws bs) Ws bs

/-- The row matrix after layers 0 … 6. -/
def featsAfter7 (state : (⟨S32768x16, .f32⟩ : BufTy).Contents (Elt F)) (Ws : (⟨S25x50x1266, .f32⟩ : BufTy).Contents (Elt F))
    (bs : (⟨S25x50, .f32⟩ : BufTy).Contents (Elt F)) : (⟨S32768x366, .f32⟩ : BufTy).Contents (Elt F) :=
  layer6 (featsAfter6 state Ws bs) Ws bs

/-- The row matrix after layers 0 … 7. -/
def featsAfter8 (state : (⟨S32768x16, .f32⟩ : BufTy).Contents (Elt F)) (Ws : (⟨S25x50x1266, .f32⟩ : BufTy).Contents (Elt F))
    (bs : (⟨S25x50, .f32⟩ : BufTy).Contents (Elt F)) : (⟨S32768x416, .f32⟩ : BufTy).Contents (Elt F) :=
  layer7 (featsAfter7 state Ws bs) Ws bs

/-- The row matrix after layers 0 … 8. -/
def featsAfter9 (state : (⟨S32768x16, .f32⟩ : BufTy).Contents (Elt F)) (Ws : (⟨S25x50x1266, .f32⟩ : BufTy).Contents (Elt F))
    (bs : (⟨S25x50, .f32⟩ : BufTy).Contents (Elt F)) : (⟨S32768x466, .f32⟩ : BufTy).Contents (Elt F) :=
  layer8 (featsAfter8 state Ws bs) Ws bs

/-- The row matrix after layers 0 … 9. -/
def featsAfter10 (state : (⟨S32768x16, .f32⟩ : BufTy).Contents (Elt F)) (Ws : (⟨S25x50x1266, .f32⟩ : BufTy).Contents (Elt F))
    (bs : (⟨S25x50, .f32⟩ : BufTy).Contents (Elt F)) : (⟨S32768x516, .f32⟩ : BufTy).Contents (Elt F) :=
  layer9 (featsAfter9 state Ws bs) Ws bs

/-- The row matrix after layers 0 … 10. -/
def featsAfter11 (state : (⟨S32768x16, .f32⟩ : BufTy).Contents (Elt F)) (Ws : (⟨S25x50x1266, .f32⟩ : BufTy).Contents (Elt F))
    (bs : (⟨S25x50, .f32⟩ : BufTy).Contents (Elt F)) : (⟨S32768x566, .f32⟩ : BufTy).Contents (Elt F) :=
  layer10 (featsAfter10 state Ws bs) Ws bs

/-- The row matrix after layers 0 … 11. -/
def featsAfter12 (state : (⟨S32768x16, .f32⟩ : BufTy).Contents (Elt F)) (Ws : (⟨S25x50x1266, .f32⟩ : BufTy).Contents (Elt F))
    (bs : (⟨S25x50, .f32⟩ : BufTy).Contents (Elt F)) : (⟨S32768x616, .f32⟩ : BufTy).Contents (Elt F) :=
  layer11 (featsAfter11 state Ws bs) Ws bs

/-- The row matrix after layers 0 … 12. -/
def featsAfter13 (state : (⟨S32768x16, .f32⟩ : BufTy).Contents (Elt F)) (Ws : (⟨S25x50x1266, .f32⟩ : BufTy).Contents (Elt F))
    (bs : (⟨S25x50, .f32⟩ : BufTy).Contents (Elt F)) : (⟨S32768x666, .f32⟩ : BufTy).Contents (Elt F) :=
  layer12 (featsAfter12 state Ws bs) Ws bs

/-- The row matrix after layers 0 … 13. -/
def featsAfter14 (state : (⟨S32768x16, .f32⟩ : BufTy).Contents (Elt F)) (Ws : (⟨S25x50x1266, .f32⟩ : BufTy).Contents (Elt F))
    (bs : (⟨S25x50, .f32⟩ : BufTy).Contents (Elt F)) : (⟨S32768x716, .f32⟩ : BufTy).Contents (Elt F) :=
  layer13 (featsAfter13 state Ws bs) Ws bs

/-- The row matrix after layers 0 … 14. -/
def featsAfter15 (state : (⟨S32768x16, .f32⟩ : BufTy).Contents (Elt F)) (Ws : (⟨S25x50x1266, .f32⟩ : BufTy).Contents (Elt F))
    (bs : (⟨S25x50, .f32⟩ : BufTy).Contents (Elt F)) : (⟨S32768x766, .f32⟩ : BufTy).Contents (Elt F) :=
  layer14 (featsAfter14 state Ws bs) Ws bs

/-- The row matrix after layers 0 … 15. -/
def featsAfter16 (state : (⟨S32768x16, .f32⟩ : BufTy).Contents (Elt F)) (Ws : (⟨S25x50x1266, .f32⟩ : BufTy).Contents (Elt F))
    (bs : (⟨S25x50, .f32⟩ : BufTy).Contents (Elt F)) : (⟨S32768x816, .f32⟩ : BufTy).Contents (Elt F) :=
  layer15 (featsAfter15 state Ws bs) Ws bs

/-- The row matrix after layers 0 … 16. -/
def featsAfter17 (state : (⟨S32768x16, .f32⟩ : BufTy).Contents (Elt F)) (Ws : (⟨S25x50x1266, .f32⟩ : BufTy).Contents (Elt F))
    (bs : (⟨S25x50, .f32⟩ : BufTy).Contents (Elt F)) : (⟨S32768x866, .f32⟩ : BufTy).Contents (Elt F) :=
  layer16 (featsAfter16 state Ws bs) Ws bs

/-- The row matrix after layers 0 … 17. -/
def featsAfter18 (state : (⟨S32768x16, .f32⟩ : BufTy).Contents (Elt F)) (Ws : (⟨S25x50x1266, .f32⟩ : BufTy).Contents (Elt F))
    (bs : (⟨S25x50, .f32⟩ : BufTy).Contents (Elt F)) : (⟨S32768x916, .f32⟩ : BufTy).Contents (Elt F) :=
  layer17 (featsAfter17 state Ws bs) Ws bs

/-- The row matrix after layers 0 … 18. -/
def featsAfter19 (state : (⟨S32768x16, .f32⟩ : BufTy).Contents (Elt F)) (Ws : (⟨S25x50x1266, .f32⟩ : BufTy).Contents (Elt F))
    (bs : (⟨S25x50, .f32⟩ : BufTy).Contents (Elt F)) : (⟨S32768x966, .f32⟩ : BufTy).Contents (Elt F) :=
  layer18 (featsAfter18 state Ws bs) Ws bs

/-- The row matrix after layers 0 … 19. -/
def featsAfter20 (state : (⟨S32768x16, .f32⟩ : BufTy).Contents (Elt F)) (Ws : (⟨S25x50x1266, .f32⟩ : BufTy).Contents (Elt F))
    (bs : (⟨S25x50, .f32⟩ : BufTy).Contents (Elt F)) : (⟨S32768x1016, .f32⟩ : BufTy).Contents (Elt F) :=
  layer19 (featsAfter19 state Ws bs) Ws bs

/-- The row matrix after layers 0 … 20. -/
def featsAfter21 (state : (⟨S32768x16, .f32⟩ : BufTy).Contents (Elt F)) (Ws : (⟨S25x50x1266, .f32⟩ : BufTy).Contents (Elt F))
    (bs : (⟨S25x50, .f32⟩ : BufTy).Contents (Elt F)) : (⟨S32768x1066, .f32⟩ : BufTy).Contents (Elt F) :=
  layer20 (featsAfter20 state Ws bs) Ws bs

/-- The row matrix after layers 0 … 21. -/
def featsAfter22 (state : (⟨S32768x16, .f32⟩ : BufTy).Contents (Elt F)) (Ws : (⟨S25x50x1266, .f32⟩ : BufTy).Contents (Elt F))
    (bs : (⟨S25x50, .f32⟩ : BufTy).Contents (Elt F)) : (⟨S32768x1116, .f32⟩ : BufTy).Contents (Elt F) :=
  layer21 (featsAfter21 state Ws bs) Ws bs

/-- The row matrix after layers 0 … 22. -/
def featsAfter23 (state : (⟨S32768x16, .f32⟩ : BufTy).Contents (Elt F)) (Ws : (⟨S25x50x1266, .f32⟩ : BufTy).Contents (Elt F))
    (bs : (⟨S25x50, .f32⟩ : BufTy).Contents (Elt F)) : (⟨S32768x1166, .f32⟩ : BufTy).Contents (Elt F) :=
  layer22 (featsAfter22 state Ws bs) Ws bs

/-- The row matrix after layers 0 … 23. -/
def featsAfter24 (state : (⟨S32768x16, .f32⟩ : BufTy).Contents (Elt F)) (Ws : (⟨S25x50x1266, .f32⟩ : BufTy).Contents (Elt F))
    (bs : (⟨S25x50, .f32⟩ : BufTy).Contents (Elt F)) : (⟨S32768x1216, .f32⟩ : BufTy).Contents (Elt F) :=
  layer23 (featsAfter23 state Ws bs) Ws bs

/-- The row matrix after layers 0 … 24. -/
def featsAfter25 (state : (⟨S32768x16, .f32⟩ : BufTy).Contents (Elt F)) (Ws : (⟨S25x50x1266, .f32⟩ : BufTy).Contents (Elt F))
    (bs : (⟨S25x50, .f32⟩ : BufTy).Contents (Elt F)) : (⟨S32768x1266, .f32⟩ : BufTy).Contents (Elt F) :=
  layer24 (featsAfter24 state Ws bs) Ws bs

/-- The final affine map: the 1266 features contracted with the output weights, plus the output bias broadcast
    down the batch. -/
def finalMap (X : (⟨S32768x1266, .f32⟩ : BufTy).Contents (Elt F)) (Wout : (⟨S1266x1, .f32⟩ : BufTy).Contents (Elt F))
    (bout : (⟨S1, .f32⟩ : BufTy).Contents (Elt F)) : (⟨S32768x1, .f32⟩ : BufTy).Contents (Elt F) :=
  addf (Host.dotGeneral dot_S32768x1266_S1266x1_S32768x1_1_0_0_1_n_n none X Wout)
    (broadcastInDim S32768x1 ![0, 1] bcast_S1x1_S32768x1_0_1 (broadcastInDim S1x1 ![1] bcast_S1_S1x1_1 bout))

/-- The reference's result as one function of its five arguments. -/
def refTerm (state : (⟨S32768x16, .f32⟩ : BufTy).Contents (Elt F)) (Ws : (⟨S25x50x1266, .f32⟩ : BufTy).Contents (Elt F))
    (bs : (⟨S25x50, .f32⟩ : BufTy).Contents (Elt F)) (Wout : (⟨S1266x1, .f32⟩ : BufTy).Contents (Elt F))
    (bout : (⟨S1, .f32⟩ : BufTy).Contents (Elt F)) : (⟨S32768x1, .f32⟩ : BufTy).Contents (Elt F) :=
  finalMap (featsAfter25 state Ws bs) Wout bout

end Cert.ReferenceIdeal.Layers

end
-- ==== Proof.RefRunBase.lean ====
/-
  What the window modules of the reference's run share: running two lists of host operations one after the other
  is running their concatenation, for the fold of the buffers' contents as for the program.
-/
import proofs.«119617_j10823317586373_2_alg».proof.Proof.RefLayers
import Idealize.ShloMosaic.Lib.StableHlo.Run

noncomputable section

namespace Cert.ReferenceIdeal.HostRun

open Idealize.ShloMosaic Idealize.ShloMosaic.StableHlo

variable {τ : Topo} {sig : RefSig} {Val : EltTy → Type}

/-- The contents after a concatenation are the contents after its second list, from the contents after its first. -/
theorem after_cat (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every operation of two lists holds of every operation of their concatenation. -/
theorem forall_mem_cat {P : HloOp τ sig Val → Prop} {l₁ l₂ : List (HloOp τ sig Val)}
    (h₁ : ∀ op ∈ l₁, P op) (h₂ : ∀ op ∈ l₂, P op) : ∀ op ∈ l₁ ++ l₂, P op := fun op h =>
  (List.mem_append.mp h).elim (h₁ op) (h₂ op)

end Cert.ReferenceIdeal.HostRun

end
-- ==== Proof.RefRunW0.lean ====
/-
  Layers 0 … 4 of the reference's host program, each as the list of its 18 host operations in the program's
  order: the slice of the weight stack, the reshape dropping its unit axis, the transpose, the contraction of the row
  matrix with it, the slice of the bias stack, its reshape and two broadcasts down the batch, the sum, the slope
  constant, the leaky rectifier's seven operations (the zero, its broadcast, the comparison, the slope converted and
  broadcast, the product, the selection) and the concatenation that appends the 50 new columns to the row matrix.

  For each layer: what the fold of these operations leaves in the layer's result buffer, from ANY contents `V` of the
  buffers, is the layer's pure function (`Layers.layerN`) of what `V` holds at the layer's input matrix, the weight stack
  and the bias stack; the five argument buffers are written by none of the operations and keep their contents; every
  operation touches TensorCore buffers only and determines its result.  The window's five layers in a row are the
  program's statements of this window, one for one.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- Layer 0's operations: `[batch, 16] → [batch, 66]`. -/
def opsLayer0 : List (HloOp τ sig (Elt F)) :=
  [ StableHlo.unary main_arg1 main_v0 ((extractStridedSlice S1x50x16 ![0, 0, 0] · slices_S25x50x1266_S1x50x16_0_0_0) : (⟨S25x50x1266, .f32⟩ : BufTy).Contents (Elt F) → (⟨S1x50x16, .f32⟩ : BufTy).Contents (Elt F)),
    StableHlo.reshape main_v0 main_v1 rfl shapeCasts_S1x50x16_S50x16,
    StableHlo.unary main_v1 main_v2 ((transpose S16x50 [1, 0] · transposes_S50x16_S16x50_1_0) : (⟨S50x16, .f32⟩ : BufTy).Contents (Elt F) → (⟨S16x50, .f32⟩ : BufTy).Contents (Elt F)),
    StableHlo.binary main_arg0 main_v2 main_v3 ((fun l r => Host.dotGeneral dot_S32768x16_S16x50_S32768x50_1_0_0_1_n_n none l r) : (⟨S32768x16, .f32⟩ : BufTy).Contents (Elt F) → (⟨S16x50, .f32⟩ : BufTy).Contents (Elt F) → (⟨S32768x50, .f32⟩ : BufTy).Contents (Elt F)),
    StableHlo.unary main_arg2 main_v4 ((extractStridedSlice S1x50 ![0, 0] · slices_S25x50_S1x50_0_0) : (⟨S25x50, .f32⟩ : BufTy).Contents (Elt F) → (⟨S1x50, .f32⟩ : BufTy).Contents (Elt F)),
    StableHlo.reshape main_v4 main_v5 rfl shapeCasts_S1x50_S50,
    StableHlo.unary main_v5 main_v6 (broadcastInDim S1x50 ![1] bcast_S50_S1x50_1 : (⟨S50, .f32⟩ : BufTy).Contents (Elt F) → (⟨S1x50, .f32⟩ : BufTy).Contents (Elt F)),
    StableHlo.unary main_v6 main_v7 (broadcastInDim S32768x50 ![0, 1] bcast_S1x50_S32768x50_0_1 : (⟨S1x50, .f32⟩ : BufTy).Contents (Elt F) → (⟨S32768x50, .f32⟩ : BufTy).Contents (Elt F)),
    StableHlo.binary main_v3 main_v7 main_v8 (addf : (⟨S32768x50, .f32⟩ : BufTy).Contents (Elt F) → (⟨S32768x50, .f32⟩ : BufTy).Contents (Elt F) → (⟨S32768x50, .f32⟩ : BufTy).Contents (Elt F)),
    StableHlo.nullary main_cst (constant S_ .f32 0x3C23D70A#32),
    TRef.nullary main_call0.cst (constant S_ .f32 0x00000000#32),
    TRef.unary main_call0.cst main_call0.v0 (broadcastInDim S32768x50 ![] bcast_S_S32768x50),
    TRef.binary (.of main_v8 : TRef sig ⟨S32768x50, .f32⟩) main_call0.v0 main_call0.v1 (cmpf .oge),
    TRef.unary (.of main_cst : TRef sig ⟨S_, .f32⟩) main_call0.v2 id,
    TRef.unary main_call0.v2 main_call0.v3 (broadcastInDim S32768x50 ![] bcast_S_S32768x50),
    TRef.binary main_call0.v3 (.of main_v8 : TRef sig ⟨S32768x50, .f32⟩) main_call0.v4 mulf,
    TRef.ternary main_call0.v1 (.of main_v8 : TRef sig ⟨S32768x50, .f32⟩) main_call0.v4 main_call0.call0.v0 select,
    StableHlo.binary main_arg0 main_v9 main_v10 ((fun a b => concatenate S32768x66 1 [⟨S32768x16, a⟩, ⟨S32768x50, b⟩] concatenates_S32768x16_S32768x50_S32768x66_d1) : (⟨S32768x16, .f32⟩ : BufTy).Contents (Elt F) → (⟨S32768x50, .f32⟩ : BufTy).Contents (Elt F) → (⟨S32768x66, .f32⟩ : BufTy).Contents (Elt F)) ]

-- eighteen results read back one rewrite at a time, each telling two buffers apart by computation
set_option maxHeartbeats 2000000 in
/-- The fold of layer 0's operations at its result buffer is `layer0` of the contents of its three inputs. -/
theorem layer0_out (V : Valuation τ sig (Elt F)) :
    after (opsLayer0 (F := F)) V (main_v10 : DevRef τ sig)
      = layer0 (V (main_arg0 : DevRef τ sig)) (V (main_arg1 : DevRef τ sig)) (V (main_arg2 : DevRef τ sig)) := by
  unfold opsLayer0
  after_results
  rfl

set_option maxHeartbeats 2000000 in
/-- Layer 0 writes none of the five argument buffers. -/
theorem layer0_args (V : Valuation τ sig (Elt F)) :
    after (opsLayer0 (F := F)) V (main_arg0 : DevRef τ sig) = V (main_arg0 : DevRef τ sig)
    ∧ after (opsLayer0 (F := F)) V (main_arg1 : DevRef τ sig) = V (main_arg1 : DevRef τ sig)
    ∧ after (opsLayer0 (F := F)) V (main_arg2 : DevRef τ sig) = V (main_arg2 : DevRef τ sig)
    ∧ after (opsLayer0 (F := F)) V (main_arg3 : DevRef τ sig) = V (main_arg3 : DevRef τ sig)
    ∧ after (opsLayer0 (F := F)) V (main_arg4 : DevRef τ sig) = V (main_arg4 : DevRef τ sig) := by
  unfold opsLayer0
  refine ⟨?_, ?_, ?_, ?_, ?_⟩ <;> after_results

theorem layer0_sub : ∀ op ∈ (opsLayer0 : List (HloOp τ sig (Elt F))), op.bufs ⊆ tcRefs τ sig :=
  List.forall_iff_forall_mem.mp
    (show (opsLayer0 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer0_fresh : ∀ op ∈ (opsLayer0 : List (HloOp τ sig (Elt F))), op.fresh = ∅ := by
  unfold opsLayer0
  intro _ h; (repeat (cases h with | head => rfl | tail _ h => ?_)); exact nomatch h

/-- Layer 1's operations: `[batch, 66] → [batch, 116]`. -/
def opsLayer1 : List (HloOp τ sig (Elt F)) :=
  [ StableHlo.unary main_arg1 main_v11 ((extractStridedSlice S1x50x66 ![1, 0, 0] · slices_S25x50x1266_S1x50x66_1_0_0) : (⟨S25x50x1266, .f32⟩ : BufTy).Contents (Elt F) → (⟨S1x50x66, .f32⟩ : BufTy).Contents (Elt F)),
    StableHlo.reshape main_v11 main_v12 rfl shapeCasts_S1x50x66_S50x66,
    StableHlo.unary main_v12 main_v13 ((transpose S66x50 [1, 0] · transposes_S50x66_S66x50_1_0) : (⟨S50x66, .f32⟩ : BufTy).Contents (Elt F) → (⟨S66x50, .f32⟩ : BufTy).Contents (Elt F)),
    StableHlo.binary main_v10 main_v13 main_v14 ((fun l r => Host.dotGeneral dot_S32768x66_S66x50_S32768x50_1_0_0_1_n_n none l r) : (⟨S32768x66, .f32⟩ : BufTy).Contents (Elt F) → (⟨S66x50, .f32⟩ : BufTy).Contents (Elt F) → (⟨S32768x50, .f32⟩ : BufTy).Contents (Elt F)),
    StableHlo.unary main_arg2 main_v15 ((extractStridedSlice S1x50 ![1, 0] · slices_S25x50_S1x50_1_0) : (⟨S25x50, .f32⟩ : BufTy).Contents (Elt F) → (⟨S1x50, .f32⟩ : BufTy).Contents (Elt F)),
    StableHlo.reshape main_v15 main_v16 rfl shapeCasts_S1x50_S50,
    StableHlo.unary main_v16 main_v17 (broadcastInDim S1x50 ![1] bcast_S50_S1x50_1 : (⟨S50, .f32⟩ : BufTy).Contents (Elt F) → (⟨S1x50, .f32⟩ : BufTy).Contents (Elt F)),
    StableHlo.unary main_v17 main_v18 (broadcastInDim S32768x50 ![0, 1] bcast_S1x50_S32768x50_0_1 : (⟨S1x50, .f32⟩ : BufTy).Contents (Elt F) → (⟨S32768x50, .f32⟩ : BufTy).Contents (Elt F)),
    StableHlo.binary main_v14 main_v18 main_v19 (addf : (⟨S32768x50, .f32⟩ : BufTy).Contents (Elt F) → (⟨S32768x50, .f32⟩ : BufTy).Contents (Elt F) → (⟨S32768x50, .f32⟩ : BufTy).Contents (Elt F)),
    StableHlo.nullary main_cst_0 (constant S_ .f32 0x3C23D70A#32),
    TRef.nullary main_call1.cst (constant S_ .f32 0x00000000#32),
    TRef.unary main_call1.cst main_call1.v0 (broadcastInDim S32768x50 ![] bcast_S_S32768x50),
    TRef.binary (.of main_v19 : TRef sig ⟨S32768x50, .f32⟩) main_call1.v0 main_call1.v1 (cmpf .oge),
    TRef.unary (.of main_cst_0 : TRef sig ⟨S_, .f32⟩) main_call1.v2 id,
    TRef.unary main_call1.v2 main_call1.v3 (broadcastInDim S32768x50 ![] bcast_S_S32768x50),
    TRef.binary main_call1.v3 (.of main_v19 : TRef sig ⟨S32768x50, .f32⟩) main_call1.v4 mulf,
    TRef.ternary main_call1.v1 (.of main_v19 : TRef sig ⟨S32768x50, .f32⟩) main_call1.v4 main_call1.call0.v0 select,
    StableHlo.binary main_v10 main_v20 main_v21 ((fun a b => concatenate S32768x116 1 [⟨S32768x66, a⟩, ⟨S32768x50, b⟩] concatenates_S32768x66_S32768x50_S32768x116_d1) : (⟨S32768x66, .f32⟩ : BufTy).Contents (Elt F) → (⟨S32768x50, .f32⟩ : BufTy).Contents (Elt F) → (⟨S32768x116, .f32⟩ : BufTy).Contents (Elt F)) ]

-- eighteen results read back one rewrite at a time, each telling two buffers apart by computation
set_option maxHeartbeats 2000000 in
/-- The fold of layer 1's operations at its result buffer is `layer1` of the contents of its three inputs. -/
theorem layer1_out (V : Valuation τ sig (Elt F)) :
    after (opsLayer1 (F := F)) V (main_v21 : DevRef τ sig)
      = layer1 (V (main_v10 : DevRef τ sig)) (V (main_arg1 : DevRef τ sig)) (V (main_arg2 : DevRef τ sig)) := by
  unfold opsLayer1
  after_results
  rfl

set_option maxHeartbeats 2000000 in
/-- Layer 1 writes none of the five argument buffers. -/
theorem layer1_args (V : Valuation τ sig (Elt F)) :
    after (opsLayer1 (F := F)) V (main_arg0 : DevRef τ sig) = V (main_arg0 : DevRef τ sig)
    ∧ after (opsLayer1 (F := F)) V (main_arg1 : DevRef τ sig) = V (main_arg1 : DevRef τ sig)
    ∧ after (opsLayer1 (F := F)) V (main_arg2 : DevRef τ sig) = V (main_arg2 : DevRef τ sig)
    ∧ after (opsLayer1 (F := F)) V (main_arg3 : DevRef τ sig) = V (main_arg3 : DevRef τ sig)
    ∧ after (opsLayer1 (F := F)) V (main_arg4 : DevRef τ sig) = V (main_arg4 : DevRef τ sig) := by
  unfold opsLayer1
  refine ⟨?_, ?_, ?_, ?_, ?_⟩ <;> after_results

theorem layer1_sub : ∀ op ∈ (opsLayer1 : List (HloOp τ sig (Elt F))), op.bufs ⊆ tcRefs τ sig :=
  List.forall_iff_forall_mem.mp
    (show (opsLayer1 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer1_fresh : ∀ op ∈ (opsLayer1 : List (HloOp τ sig (Elt F))), op.fresh = ∅ := by
  unfold opsLayer1
  intro _ h; (repeat (cases h with | head => rfl | tail _ h => ?_)); exact nomatch h

/-- Layer 2's operations: `[batch, 116] → [batch, 166]`. -/
def opsLayer2 : List (HloOp τ sig (Elt F)) :=
  [ StableHlo.unary main_arg1 main_v22 ((extractStridedSlice S1x50x116 ![2, 0, 0] · slices_S25x50x1266_S1x50x116_2_0_0) : (⟨S25x50x1266, .f32⟩ : BufTy).Contents (Elt F) → (⟨S1x50x116, .f32⟩ : BufTy).Contents (Elt F)),
    StableHlo.reshape main_v22 main_v23 rfl shapeCasts_S1x50x116_S50x116,
    StableHlo.unary main_v23 main_v24 ((transpose S116x50 [1, 0] · transposes_S50x116_S116x50_1_0) : (⟨S50x116, .f32⟩ : BufTy).Contents (Elt F) → (⟨S116x50, .f32⟩ : BufTy).Contents (Elt F)),
    StableHlo.binary main_v21 main_v24 main_v25 ((fun l r => Host.dotGeneral dot_S32768x116_S116x50_S32768x50_1_0_0_1_n_n none l r) : (⟨S32768x116, .f32⟩ : BufTy).Contents (Elt F) → (⟨S116x50, .f32⟩ : BufTy).Contents (Elt F) → (⟨S32768x50, .f32⟩ : BufTy).Contents (Elt F)),
    StableHlo.unary main_arg2 main_v26 ((extractStridedSlice S1x50 ![2, 0] · slices_S25x50_S1x50_2_0) : (⟨S25x50, .f32⟩ : BufTy).Contents (Elt F) → (⟨S1x50, .f32⟩ : BufTy).Contents (Elt F)),
    StableHlo.reshape main_v26 main_v27 rfl shapeCasts_S1x50_S50,
    StableHlo.unary main_v27 main_v28 (broadcastInDim S1x50 ![1] bcast_S50_S1x50_1 : (⟨S50, .f32⟩ : BufTy).Contents (Elt F) → (⟨S1x50, .f32⟩ : BufTy).Contents (Elt F)),
    StableHlo.unary main_v28 main_v29 (broadcastInDim S32768x50 ![0, 1] bcast_S1x50_S32768x50_0_1 : (⟨S1x50, .f32⟩ : BufTy).Contents (Elt F) → (⟨S32768x50, .f32⟩ : BufTy).Contents (Elt F)),
    StableHlo.binary main_v25 main_v29 main_v30 (addf : (⟨S32768x50, .f32⟩ : BufTy).Contents (Elt F) → (⟨S32768x50, .f32⟩ : BufTy).Contents (Elt F) → (⟨S32768x50, .f32⟩ : BufTy).Contents (Elt F)),
    StableHlo.nullary main_cst_1 (constant S_ .f32 0x3C23D70A#32),
    TRef.nullary main_call2.cst (constant S_ .f32 0x00000000#32),
    TRef.unary main_call2.cst main_call2.v0 (broadcastInDim S32768x50 ![] bcast_S_S32768x50),
    TRef.binary (.of main_v30 : TRef sig ⟨S32768x50, .f32⟩) main_call2.v0 main_call2.v1 (cmpf .oge),
    TRef.unary (.of main_cst_1 : TRef sig ⟨S_, .f32⟩) main_call2.v2 id,
    TRef.unary main_call2.v2 main_call2.v3 (broadcastInDim S32768x50 ![] bcast_S_S32768x50),
    TRef.binary main_call2.v3 (.of main_v30 : TRef sig ⟨S32768x50, .f32⟩) main_call2.v4 mulf,
    TRef.ternary main_call2.v1 (.of main_v30 : TRef sig ⟨S32768x50, .f32⟩) main_call2.v4 main_call2.call0.v0 select,
    StableHlo.binary main_v21 main_v31 main_v32 ((fun a b => concatenate S32768x166 1 [⟨S32768x116, a⟩, ⟨S32768x50, b⟩] concatenates_S32768x116_S32768x50_S32768x166_d1) : (⟨S32768x116, .f32⟩ : BufTy).Contents (Elt F) → (⟨S32768x50, .f32⟩ : BufTy).Contents (Elt F) → (⟨S32768x166, .f32⟩ : BufTy).Contents (Elt F)) ]

-- eighteen results read back one rewrite at a time, each telling two buffers apart by computation
set_option maxHeartbeats 2000000 in
/-- The fold of layer 2's operations at its result buffer is `layer2` of the contents of its three inputs. -/
theorem layer2_out (V : Valuation τ sig (Elt F)) :
    after (opsLayer2 (F := F)) V (main_v32 : DevRef τ sig)
      = layer2 (V (main_v21 : DevRef τ sig)) (V (main_arg1 : DevRef τ sig)) (V (main_arg2 : DevRef τ sig)) := by
  unfold opsLayer2
  after_results
  rfl

set_option maxHeartbeats 2000000 in
/-- Layer 2 writes none of the five argument buffers. -/
theorem layer2_args (V : Valuation τ sig (Elt F)) :
    after (opsLayer2 (F := F)) V (main_arg0 : DevRef τ sig) = V (main_arg0 : DevRef τ sig)
    ∧ after (opsLayer2 (F := F)) V (main_arg1 : DevRef τ sig) = V (main_arg1 : DevRef τ sig)
    ∧ after (opsLayer2 (F := F)) V (main_arg2 : DevRef τ sig) = V (main_arg2 : DevRef τ sig)
    ∧ after (opsLayer2 (F := F)) V (main_arg3 : DevRef τ sig) = V (main_arg3 : DevRef τ sig)
    ∧ after (opsLayer2 (F := F)) V (main_arg4 : DevRef τ sig) = V (main_arg4 : DevRef τ sig) := by
  unfold opsLayer2
  refine ⟨?_, ?_, ?_, ?_, ?_⟩ <;> after_results

theorem layer2_sub : ∀ op ∈ (opsLayer2 : List (HloOp τ sig (Elt F))), op.bufs ⊆ tcRefs τ sig :=
  List.forall_iff_forall_mem.mp
    (show (opsLayer2 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer2_fresh : ∀ op ∈ (opsLayer2 : List (HloOp τ sig (Elt F))), op.fresh = ∅ := by
  unfold opsLayer2
  intro _ h; (repeat (cases h with | head => rfl | tail _ h => ?_)); exact nomatch h

/-- Layer 3's operations: `[batch, 166] → [batch, 216]`. -/
def opsLayer3 : List (HloOp τ sig (Elt F)) :=
  [ StableHlo.unary main_arg1 main_v33 ((extractStridedSlice S1x50x166 ![3, 0, 0] · slices_S25x50x1266_S1x50x166_3_0_0) : (⟨S25x50x1266, .f32⟩ : BufTy).Contents (Elt F) → (⟨S1x50x166, .f32⟩ : BufTy).Contents (Elt F)),
    StableHlo.reshape main_v33 main_v34 rfl shapeCasts_S1x50x166_S50x166,
    StableHlo.unary main_v34 main_v35 ((transpose S166x50 [1, 0] · transposes_S50x166_S166x50_1_0) : (⟨S50x166, .f32⟩ : BufTy).Contents (Elt F) → (⟨S166x50, .f32⟩ : BufTy).Contents (Elt F)),
    StableHlo.binary main_v32 main_v35 main_v36 ((fun l r => Host.dotGeneral dot_S32768x166_S166x50_S32768x50_1_0_0_1_n_n none l r) : (⟨S32768x166, .f32⟩ : BufTy).Contents (Elt F) → (⟨S166x50, .f32⟩ : BufTy).Contents (Elt F) → (⟨S32768x50, .f32⟩ : BufTy).Contents (Elt F)),
    StableHlo.unary main_arg2 main_v37 ((extractStridedSlice S1x50 ![3, 0] · slices_S25x50_S1x50_3_0) : (⟨S25x50, .f32⟩ : BufTy).Contents (Elt F) → (⟨S1x50, .f32⟩ : BufTy).Contents (Elt F)),
    StableHlo.reshape main_v37 main_v38 rfl shapeCasts_S1x50_S50,
    StableHlo.unary main_v38 main_v39 (broadcastInDim S1x50 ![1] bcast_S50_S1x50_1 : (⟨S50, .f32⟩ : BufTy).Contents (Elt F) → (⟨S1x50, .f32⟩ : BufTy).Contents (Elt F)),
    StableHlo.unary main_v39 main_v40 (broadcastInDim S32768x50 ![0, 1] bcast_S1x50_S32768x50_0_1 : (⟨S1x50, .f32⟩ : BufTy).Contents (Elt F) → (⟨S32768x50, .f32⟩ : BufTy).Contents (Elt F)),
    StableHlo.binary main_v36 main_v40 main_v41 (addf : (⟨S32768x50, .f32⟩ : BufTy).Contents (Elt F) → (⟨S32768x50, .f32⟩ : BufTy).Contents (Elt F) → (⟨S32768x50, .f32⟩ : BufTy).Contents (Elt F)),
    StableHlo.nullary main_cst_2 (constant S_ .f32 0x3C23D70A#32),
    TRef.nullary main_call3.cst (constant S_ .f32 0x00000000#32),
    TRef.unary main_call3.cst main_call3.v0 (broadcastInDim S32768x50 ![] bcast_S_S32768x50),
    TRef.binary (.of main_v41 : TRef sig ⟨S32768x50, .f32⟩) main_call3.v0 main_call3.v1 (cmpf .oge),
    TRef.unary (.of main_cst_2 : TRef sig ⟨S_, .f32⟩) main_call3.v2 id,
    TRef.unary main_call3.v2 main_call3.v3 (broadcastInDim S32768x50 ![] bcast_S_S32768x50),
    TRef.binary main_call3.v3 (.of main_v41 : TRef sig ⟨S32768x50, .f32⟩) main_call3.v4 mulf,
    TRef.ternary main_call3.v1 (.of main_v41 : TRef sig ⟨S32768x50, .f32⟩) main_call3.v4 main_call3.call0.v0 select,
    StableHlo.binary main_v32 main_v42 main_v43 ((fun a b => concatenate S32768x216 1 [⟨S32768x166, a⟩, ⟨S32768x50, b⟩] concatenates_S32768x166_S32768x50_S32768x216_d1) : (⟨S32768x166, .f32⟩ : BufTy).Contents (Elt F) → (⟨S32768x50, .f32⟩ : BufTy).Contents (Elt F) → (⟨S32768x216, .f32⟩ : BufTy).Contents (Elt F)) ]

-- eighteen results read back one rewrite at a time, each telling two buffers apart by computation
set_option maxHeartbeats 2000000 in
/-- The fold of layer 3's operations at its result buffer is `layer3` of the contents of its three inputs. -/
theorem layer3_out (V : Valuation τ sig (Elt F)) :
    after (opsLayer3 (F := F)) V (main_v43 : DevRef τ sig)
      = layer3 (V (main_v32 : DevRef τ sig)) (V (main_arg1 : DevRef τ sig)) (V (main_arg2 : DevRef τ sig)) := by
  unfold opsLayer3
  after_results
  rfl

set_option maxHeartbeats 2000000 in
/-- Layer 3 writes none of the five argument buffers. -/
theorem layer3_args (V : Valuation τ sig (Elt F)) :
    after (opsLayer3 (F := F)) V (main_arg0 : DevRef τ sig) = V (main_arg0 : DevRef τ sig)
    ∧ after (opsLayer3 (F := F)) V (main_arg1 : DevRef τ sig) = V (main_arg1 : DevRef τ sig)
    ∧ after (opsLayer3 (F := F)) V (main_arg2 : DevRef τ sig) = V (main_arg2 : DevRef τ sig)
    ∧ after (opsLayer3 (F := F)) V (main_arg3 : DevRef τ sig) = V (main_arg3 : DevRef τ sig)
    ∧ after (opsLayer3 (F := F)) V (main_arg4 : DevRef τ sig) = V (main_arg4 : DevRef τ sig) := by
  unfold opsLayer3
  refine ⟨?_, ?_, ?_, ?_, ?_⟩ <;> after_results

theorem layer3_sub : ∀ op ∈ (opsLayer3 : List (HloOp τ sig (Elt F))), op.bufs ⊆ tcRefs τ sig :=
  List.forall_iff_forall_mem.mp
    (show (opsLayer3 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer3_fresh : ∀ op ∈ (opsLayer3 : List (HloOp τ sig (Elt F))), op.fresh = ∅ := by
  unfold opsLayer3
  intro _ h; (repeat (cases h with | head => rfl | tail _ h => ?_)); exact nomatch h

/-- Layer 4's operations: `[batch, 216] → [batch, 266]`. -/
def opsLayer4 : List (HloOp τ sig (Elt F)) :=
  [ StableHlo.unary main_arg1 main_v44 ((extractStridedSlice S1x50x216 ![4, 0, 0] · slices_S25x50x1266_S1x50x216_4_0_0) : (⟨S25x50x1266, .f32⟩ : BufTy).Contents (Elt F) → (⟨S1x50x216, .f32⟩ : BufTy).Contents (Elt F)),
    StableHlo.reshape main_v44 main_v45 rfl shapeCasts_S1x50x216_S50x216,
    StableHlo.unary main_v45 main_v46 ((transpose S216x50 [1, 0] · transposes_S50x216_S216x50_1_0) : (⟨S50x216, .f32⟩ : BufTy).Contents (Elt F) → (⟨S216x50, .f32⟩ : BufTy).Contents (Elt F)),
    StableHlo.binary main_v43 main_v46 main_v47 ((fun l r => Host.dotGeneral dot_S32768x216_S216x50_S32768x50_1_0_0_1_n_n none l r) : (⟨S32768x216, .f32⟩ : BufTy).Contents (Elt F) → (⟨S216x50, .f32⟩ : BufTy).Contents (Elt F) → (⟨S32768x50, .f32⟩ : BufTy).Contents (Elt F)),
    StableHlo.unary main_arg2 main_v48 ((extractStridedSlice S1x50 ![4, 0] · slices_S25x50_S1x50_4_0) : (⟨S25x50, .f32⟩ : BufTy).Contents (Elt F) → (⟨S1x50, .f32⟩ : BufTy).Contents (Elt F)),
    StableHlo.reshape main_v48 main_v49 rfl shapeCasts_S1x50_S50,
    StableHlo.unary main_v49 main_v50 (broadcastInDim S1x50 ![1] bcast_S50_S1x50_1 : (⟨S50, .f32⟩ : BufTy).Contents (Elt F) → (⟨S1x50, .f32⟩ : BufTy).Contents (Elt F)),
    StableHlo.unary main_v50 main_v51 (broadcastInDim S32768x50 ![0, 1] bcast_S1x50_S32768x50_0_1 : (⟨S1x50, .f32⟩ : BufTy).Contents (Elt F) → (⟨S32768x50, .f32⟩ : BufTy).Contents (Elt F)),
    StableHlo.binary main_v47 main_v51 main_v52 (addf : (⟨S32768x50, .f32⟩ : BufTy).Contents (Elt F) → (⟨S32768x50, .f32⟩ : BufTy).Contents (Elt F) → (⟨S32768x50, .f32⟩ : BufTy).Contents (Elt F)),
    StableHlo.nullary main_cst_3 (constant S_ .f32 0x3C23D70A#32),
    TRef.nullary main_call4.cst (constant S_ .f32 0x00000000#32),
    TRef.unary main_call4.cst main_call4.v0 (broadcastInDim S32768x50 ![] bcast_S_S32768x50),
    TRef.binary (.of main_v52 : TRef sig ⟨S32768x50, .f32⟩) main_call4.v0 main_call4.v1 (cmpf .oge),
    TRef.unary (.of main_cst_3 : TRef sig ⟨S_, .f32⟩) main_call4.v2 id,
    TRef.unary main_call4.v2 main_call4.v3 (broadcastInDim S32768x50 ![] bcast_S_S32768x50),
    TRef.binary main_call4.v3 (.of main_v52 : TRef sig ⟨S32768x50, .f32⟩) main_call4.v4 mulf,
    TRef.ternary main_call4.v1 (.of main_v52 : TRef sig ⟨S32768x50, .f32⟩) main_call4.v4 main_call4.call0.v0 select,
    StableHlo.binary main_v43 main_v53 main_v54 ((fun a b => concatenate S32768x266 1 [⟨S32768x216, a⟩, ⟨S32768x50, b⟩] concatenates_S32768x216_S32768x50_S32768x266_d1) : (⟨S32768x216, .f32⟩ : BufTy).Contents (Elt F) → (⟨S32768x50, .f32⟩ : BufTy).Contents (Elt F) → (⟨S32768x266, .f32⟩ : BufTy).Contents (Elt F)) ]

-- eighteen results read back one rewrite at a time, each telling two buffers apart by computation
set_option maxHeartbeats 2000000 in
/-- The fold of layer 4's operations at its result buffer is `layer4` of the contents of its three inputs. -/
theorem layer4_out (V : Valuation τ sig (Elt F)) :
    after (opsLayer4 (F := F)) V (main_v54 : DevRef τ sig)
      = layer4 (V (main_v43 : DevRef τ sig)) (V (main_arg1 : DevRef τ sig)) (V (main_arg2 : DevRef τ sig)) := by
  unfold opsLayer4
  after_results
  rfl

set_option maxHeartbeats 2000000 in
/-- Layer 4 writes none of the five argument buffers. -/
theorem layer4_args (V : Valuation τ sig (Elt F)) :
    after (opsLayer4 (F := F)) V (main_arg0 : DevRef τ sig) = V (main_arg0 : DevRef τ sig)
    ∧ after (opsLayer4 (F := F)) V (main_arg1 : DevRef τ sig) = V (main_arg1 : DevRef τ sig)
    ∧ after (opsLayer4 (F := F)) V (main_arg2 : DevRef τ sig) = V (main_arg2 : DevRef τ sig)
    ∧ after (opsLayer4 (F := F)) V (main_arg3 : DevRef τ sig) = V (main_arg3 : DevRef τ sig)
    ∧ after (opsLayer4 (F := F)) V (main_arg4 : DevRef τ sig) = V (main_arg4 : DevRef τ sig) := by
  unfold opsLayer4
  refine ⟨?_, ?_, ?_, ?_, ?_⟩ <;> after_results

theorem layer4_sub : ∀ op ∈ (opsLayer4 : List (HloOp τ sig (Elt F))), op.bufs ⊆ tcRefs τ sig :=
  List.forall_iff_forall_mem.mp
    (show (opsLayer4 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer4_fresh : ∀ op ∈ (opsLayer4 : List (HloOp τ sig (Elt F))), op.fresh = ∅ := by
  unfold opsLayer4
  intro _ h; (repeat (cases h with | head => rfl | tail _ h => ?_)); exact nomatch h

/-- The window's five layers in a row. -/
def opsWin0 : List (HloOp τ sig (Elt F)) :=
  opsLayer0 ++ (opsLayer1 ++ (opsLayer2 ++ (opsLayer3 ++ opsLayer4)))

-- ninety binds re-associated: the rewriting recurses once per statement
set_option maxRecDepth 8192 in
/-- The program's window 0 is that straight line (the rectifier's and the selection's definitions unfolded at their
    calls), whatever follows it. -/
theorem win0_eq (c : Dev nD) {β : Type}
    (k : Prog (TpuEff nD τ sig (Elt F) (Pipeline.Sig Λ₀ (Fin 0) fun p => (pcfgs (F := F) p).Adm) .tc) β) :
    (main_part0 (F := F) c >>= fun _ => k) = (seq (opsWin0 (F := F)) >>= fun _ => k) := by
  simp only [main_part0, fn_leaky_relu.body, fn_where.body, opsWin0, opsLayer0, opsLayer1, opsLayer2, opsLayer3, opsLayer4,
    seq, List.cons_append, List.nil_append, bind_assoc, pure_bind]

theorem win0_sub : ∀ op ∈ (opsWin0 : List (HloOp τ sig (Elt F))), op.bufs ⊆ tcRefs τ sig :=
  forall_mem_cat layer0_sub (forall_mem_cat layer1_sub (forall_mem_cat layer2_sub (forall_mem_cat layer3_sub layer4_sub)))

theorem win0_fresh : ∀ op ∈ (opsWin0 : List (HloOp τ sig (Elt F))), op.fresh = ∅ :=
  forall_mem_cat layer0_fresh (forall_mem_cat layer1_fresh (forall_mem_cat layer2_fresh (forall_mem_cat layer3_fresh layer4_fresh)))

end Cert.ReferenceIdeal.HostRun

end
-- ==== Proof.RefRunW1.lean ====
/-
  Layers 5 … 9 of the reference's host program, each as the list of its 18 host operations in the program's
  order: the slice of the weight stack, the reshape dropping its unit axis, the transpose, the contraction of the row
  matrix with it, the slice of the bias stack, its reshape and two broadcasts down the batch, the sum, the slope
  constant, the leaky rectifier's seven operations (the zero, its broadcast, the comparison, the slope converted and
  broadcast, the product, the selection) and the concatenation that appends the 50 new columns to the row matrix.

  For each layer: what the fold of these operations leaves in the layer's result buffer, from ANY contents `V` of the
  buffers, is the layer's pure function (`Layers.layerN`) of what `V` holds at the layer's input matrix, the weight stack
  and the bias stack; the five argument buffers are written by none of the operations and keep their contents; every
  operation touches TensorCore buffers only and determines its result.  The window's five layers in a row are the
  program's statements of this window, one for one.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- Layer 5's operations: `[batch, 266] → [batch, 316]`. -/
def opsLayer5 : List (HloOp τ sig (Elt F)) :=
  [ StableHlo.unary main_arg1 main_v55 ((extractStridedSlice S1x50x266 ![5, 0, 0] · slices_S25x50x1266_S1x50x266_5_0_0) : (⟨S25x50x1266, .f32⟩ : BufTy).Contents (Elt F) → (⟨S1x50x266, .f32⟩ : BufTy).Contents (Elt F)),
    StableHlo.reshape main_v55 main_v56 rfl shapeCasts_S1x50x266_S50x266,
    StableHlo.unary main_v56 main_v57 ((transpose S266x50 [1, 0] · transposes_S50x266_S266x50_1_0) : (⟨S50x266, .f32⟩ : BufTy).Contents (Elt F) → (⟨S266x50, .f32⟩ : BufTy).Contents (Elt F)),
    StableHlo.binary main_v54 main_v57 main_v58 ((fun l r => Host.dotGeneral dot_S32768x266_S266x50_S32768x50_1_0_0_1_n_n none l r) : (⟨S32768x266, .f32⟩ : BufTy).Contents (Elt F) → (⟨S266x50, .f32⟩ : BufTy).Contents (Elt F) → (⟨S32768x50, .f32⟩ : BufTy).Contents (Elt F)),
    StableHlo.unary main_arg2 main_v59 ((extractStridedSlice S1x50 ![5, 0] · slices_S25x50_S1x50_5_0) : (⟨S25x50, .f32⟩ : BufTy).Contents (Elt F) → (⟨S1x50, .f32⟩ : BufTy).Contents (Elt F)),
    StableHlo.reshape main_v59 main_v60 rfl shapeCasts_S1x50_S50,
    StableHlo.unary main_v60 main_v61 (broadcastInDim S1x50 ![1] bcast_S50_S1x50_1 : (⟨S50, .f32⟩ : BufTy).Contents (Elt F) → (⟨S1x50, .f32⟩ : BufTy).Contents (Elt F)),
    StableHlo.unary main_v61 main_v62 (broadcastInDim S32768x50 ![0, 1] bcast_S1x50_S32768x50_0_1 : (⟨S1x50, .f32⟩ : BufTy).Contents (Elt F) → (⟨S32768x50, .f32⟩ : BufTy).Contents (Elt F)),
    StableHlo.binary main_v58 main_v62 main_v63 (addf : (⟨S32768x50, .f32⟩ : BufTy).Contents (Elt F) → (⟨S32768x50, .f32⟩ : BufTy).Contents (Elt F) → (⟨S32768x50, .f32⟩ : BufTy).Contents (Elt F)),
    StableHlo.nullary main_cst_4 (constant S_ .f32 0x3C23D70A#32),
    TRef.nullary main_call5.cst (constant S_ .f32 0x00000000#32),
    TRef.unary main_call5.cst main_call5.v0 (broadcastInDim S32768x50 ![] bcast_S_S32768x50),
    TRef.binary (.of main_v63 : TRef sig ⟨S32768x50, .f32⟩) main_call5.v0 main_call5.v1 (cmpf .oge),
    TRef.unary (.of main_cst_4 : TRef sig ⟨S_, .f32⟩) main_call5.v2 id,
    TRef.unary main_call5.v2 main_call5.v3 (broadcastInDim S32768x50 ![] bcast_S_S32768x50),
    TRef.binary main_call5.v3 (.of main_v63 : TRef sig ⟨S32768x50, .f32⟩) main_call5.v4 mulf,
    TRef.ternary main_call5.v1 (.of main_v63 : TRef sig ⟨S32768x50, .f32⟩) main_call5.v4 main_call5.call0.v0 select,
    StableHlo.binary main_v54 main_v64 main_v65 ((fun a b => concatenate S32768x316 1 [⟨S32768x266, a⟩, ⟨S32768x50, b⟩] concatenates_S32768x266_S32768x50_S32768x316_d1) : (⟨S32768x266, .f32⟩ : BufTy).Contents (Elt F) → (⟨S32768x50, .f32⟩ : BufTy).Contents (Elt F) → (⟨S32768x316, .f32⟩ : BufTy).Contents (Elt F)) ]

-- eighteen results read back one rewrite at a time, each telling two buffers apart by computation
set_option maxHeartbeats 2000000 in
/-- The fold of layer 5's operations at its result buffer is `layer5` of the contents of its three inputs. -/
theorem layer5_out (V : Valuation τ sig (Elt F)) :
    after (opsLayer5 (F := F)) V (main_v65 : DevRef τ sig)
      = layer5 (V (main_v54 : DevRef τ sig)) (V (main_arg1 : DevRef τ sig)) (V (main_arg2 : DevRef τ sig)) := by
  unfold opsLayer5
  after_results
  rfl

set_option maxHeartbeats 2000000 in
/-- Layer 5 writes none of the five argument buffers. -/
theorem layer5_args (V : Valuation τ sig (Elt F)) :
    after (opsLayer5 (F := F)) V (main_arg0 : DevRef τ sig) = V (main_arg0 : DevRef τ sig)
    ∧ after (opsLayer5 (F := F)) V (main_arg1 : DevRef τ sig) = V (main_arg1 : DevRef τ sig)
    ∧ after (opsLayer5 (F := F)) V (main_arg2 : DevRef τ sig) = V (main_arg2 : DevRef τ sig)
    ∧ after (opsLayer5 (F := F)) V (main_arg3 : DevRef τ sig) = V (main_arg3 : DevRef τ sig)
    ∧ after (opsLayer5 (F := F)) V (main_arg4 : DevRef τ sig) = V (main_arg4 : DevRef τ sig) := by
  unfold opsLayer5
  refine ⟨?_, ?_, ?_, ?_, ?_⟩ <;> after_results

theorem layer5_sub : ∀ op ∈ (opsLayer5 : List (HloOp τ sig (Elt F))), op.bufs ⊆ tcRefs τ sig :=
  List.forall_iff_forall_mem.mp
    (show (opsLayer5 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer5_fresh : ∀ op ∈ (opsLayer5 : List (HloOp τ sig (Elt F))), op.fresh = ∅ := by
  unfold opsLayer5
  intro _ h; (repeat (cases h with | head => rfl | tail _ h => ?_)); exact nomatch h

/-- Layer 6's operations: `[batch, 316] → [batch, 366]`. -/
def opsLayer6 : List (HloOp τ sig (Elt F)) :=
  [ StableHlo.unary main_arg1 main_v66 ((extractStridedSlice S1x50x316 ![6, 0, 0] · slices_S25x50x1266_S1x50x316_6_0_0) : (⟨S25x50x1266, .f32⟩ : BufTy).Contents (Elt F) → (⟨S1x50x316, .f32⟩ : BufTy).Contents (Elt F)),
    StableHlo.reshape main_v66 main_v67 rfl shapeCasts_S1x50x316_S50x316,
    StableHlo.unary main_v67 main_v68 ((transpose S316x50 [1, 0] · transposes_S50x316_S316x50_1_0) : (⟨S50x316, .f32⟩ : BufTy).Contents (Elt F) → (⟨S316x50, .f32⟩ : BufTy).Contents (Elt F)),
    StableHlo.binary main_v65 main_v68 main_v69 ((fun l r => Host.dotGeneral dot_S32768x316_S316x50_S32768x50_1_0_0_1_n_n none l r) : (⟨S32768x316, .f32⟩ : BufTy).Contents (Elt F) → (⟨S316x50, .f32⟩ : BufTy).Contents (Elt F) → (⟨S32768x50, .f32⟩ : BufTy).Contents (Elt F)),
    StableHlo.unary main_arg2 main_v70 ((extractStridedSlice S1x50 ![6, 0] · slices_S25x50_S1x50_6_0) : (⟨S25x50, .f32⟩ : BufTy).Contents (Elt F) → (⟨S1x50, .f32⟩ : BufTy).Contents (Elt F)),
    StableHlo.reshape main_v70 main_v71 rfl shapeCasts_S1x50_S50,
    StableHlo.unary main_v71 main_v72 (broadcastInDim S1x50 ![1] bcast_S50_S1x50_1 : (⟨S50, .f32⟩ : BufTy).Contents (Elt F) → (⟨S1x50, .f32⟩ : BufTy).Contents (Elt F)),
    StableHlo.unary main_v72 main_v73 (broadcastInDim S32768x50 ![0, 1] bcast_S1x50_S32768x50_0_1 : (⟨S1x50, .f32⟩ : BufTy).Contents (Elt F) → (⟨S32768x50, .f32⟩ : BufTy).Contents (Elt F)),
    StableHlo.binary main_v69 main_v73 main_v74 (addf : (⟨S32768x50, .f32⟩ : BufTy).Contents (Elt F) → (⟨S32768x50, .f32⟩ : BufTy).Contents (Elt F) → (⟨S32768x50, .f32⟩ : BufTy).Contents (Elt F)),
    StableHlo.nullary main_cst_5 (constant S_ .f32 0x3C23D70A#32),
    TRef.nullary main_call6.cst (constant S_ .f32 0x00000000#32),
    TRef.unary main_call6.cst main_call6.v0 (broadcastInDim S32768x50 ![] bcast_S_S32768x50),
    TRef.binary (.of main_v74 : TRef sig ⟨S32768x50, .f32⟩) main_call6.v0 main_call6.v1 (cmpf .oge),
    TRef.unary (.of main_cst_5 : TRef sig ⟨S_, .f32⟩) main_call6.v2 id,
    TRef.unary main_call6.v2 main_call6.v3 (broadcastInDim S32768x50 ![] bcast_S_S32768x50),
    TRef.binary main_call6.v3 (.of main_v74 : TRef sig ⟨S32768x50, .f32⟩) main_call6.v4 mulf,
    TRef.ternary main_call6.v1 (.of main_v74 : TRef sig ⟨S32768x50, .f32⟩) main_call6.v4 main_call6.call0.v0 select,
    StableHlo.binary main_v65 main_v75 main_v76 ((fun a b => concatenate S32768x366 1 [⟨S32768x316, a⟩, ⟨S32768x50, b⟩] concatenates_S32768x316_S32768x50_S32768x366_d1) : (⟨S32768x316, .f32⟩ : BufTy).Contents (Elt F) → (⟨S32768x50, .f32⟩ : BufTy).Contents (Elt F) → (⟨S32768x366, .f32⟩ : BufTy).Contents (Elt F)) ]

-- eighteen results read back one rewrite at a time, each telling two buffers apart by computation
set_option maxHeartbeats 2000000 in
/-- The fold of layer 6's operations at its result buffer is `layer6` of the contents of its three inputs. -/
theorem layer6_out (V : Valuation τ sig (Elt F)) :
    after (opsLayer6 (F := F)) V (main_v76 : DevRef τ sig)
      = layer6 (V (main_v65 : DevRef τ sig)) (V (main_arg1 : DevRef τ sig)) (V (main_arg2 : DevRef τ sig)) := by
  unfold opsLayer6
  after_results
  rfl

set_option maxHeartbeats 2000000 in
/-- Layer 6 writes none of the five argument buffers. -/
theorem layer6_args (V : Valuation τ sig (Elt F)) :
    after (opsLayer6 (F := F)) V (main_arg0 : DevRef τ sig) = V (main_arg0 : DevRef τ sig)
    ∧ after (opsLayer6 (F := F)) V (main_arg1 : DevRef τ sig) = V (main_arg1 : DevRef τ sig)
    ∧ after (opsLayer6 (F := F)) V (main_arg2 : DevRef τ sig) = V (main_arg2 : DevRef τ sig)
    ∧ after (opsLayer6 (F := F)) V (main_arg3 : DevRef τ sig) = V (main_arg3 : DevRef τ sig)
    ∧ after (opsLayer6 (F := F)) V (main_arg4 : DevRef τ sig) = V (main_arg4 : DevRef τ sig) := by
  unfold opsLayer6
  refine ⟨?_, ?_, ?_, ?_, ?_⟩ <;> after_results

theorem layer6_sub : ∀ op ∈ (opsLayer6 : List (HloOp τ sig (Elt F))), op.bufs ⊆ tcRefs τ sig :=
  List.forall_iff_forall_mem.mp
    (show (opsLayer6 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer6_fresh : ∀ op ∈ (opsLayer6 : List (HloOp τ sig (Elt F))), op.fresh = ∅ := by
  unfold opsLayer6
  intro _ h; (repeat (cases h with | head => rfl | tail _ h => ?_)); exact nomatch h

/-- Layer 7's operations: `[batch, 366] → [batch, 416]`. -/
def opsLayer7 : List (HloOp τ sig (Elt F)) :=
  [ StableHlo.unary main_arg1 main_v77 ((extractStridedSlice S1x50x366 ![7, 0, 0] · slices_S25x50x1266_S1x50x366_7_0_0) : (⟨S25x50x1266, .f32⟩ : BufTy).Contents (Elt F) → (⟨S1x50x366, .f32⟩ : BufTy).Contents (Elt F)),
    StableHlo.reshape main_v77 main_v78 rfl shapeCasts_S1x50x366_S50x366,
    StableHlo.unary main_v78 main_v79 ((transpose S366x50 [1, 0] · transposes_S50x366_S366x50_1_0) : (⟨S50x366, .f32⟩ : BufTy).Contents (Elt F) → (⟨S366x50, .f32⟩ : BufTy).Contents (Elt F)),
    StableHlo.binary main_v76 main_v79 main_v80 ((fun l r => Host.dotGeneral dot_S32768x366_S366x50_S32768x50_1_0_0_1_n_n none l r) : (⟨S32768x366, .f32⟩ : BufTy).Contents (Elt F) → (⟨S366x50, .f32⟩ : BufTy).Contents (Elt F) → (⟨S32768x50, .f32⟩ : BufTy).Contents (Elt F)),
    StableHlo.unary main_arg2 main_v81 ((extractStridedSlice S1x50 ![7, 0] · slices_S25x50_S1x50_7_0) : (⟨S25x50, .f32⟩ : BufTy).Contents (Elt F) → (⟨S1x50, .f32⟩ : BufTy).Contents (Elt F)),
    StableHlo.reshape main_v81 main_v82 rfl shapeCasts_S1x50_S50,
    StableHlo.unary main_v82 main_v83 (broadcastInDim S1x50 ![1] bcast_S50_S1x50_1 : (⟨S50, .f32⟩ : BufTy).Contents (Elt F) → (⟨S1x50, .f32⟩ : BufTy).Contents (Elt F)),
    StableHlo.unary main_v83 main_v84 (broadcastInDim S32768x50 ![0, 1] bcast_S1x50_S32768x50_0_1 : (⟨S1x50, .f32⟩ : BufTy).Contents (Elt F) → (⟨S32768x50, .f32⟩ : BufTy).Contents (Elt F)),
    StableHlo.binary main_v80 main_v84 main_v85 (addf : (⟨S32768x50, .f32⟩ : BufTy).Contents (Elt F) → (⟨S32768x50, .f32⟩ : BufTy).Contents (Elt F) → (⟨S32768x50, .f32⟩ : BufTy).Contents (Elt F)),
    StableHlo.nullary main_cst_6 (constant S_ .f32 0x3C23D70A#32),
    TRef.nullary main_call7.cst (constant S_ .f32 0x00000000#32),
    TRef.unary main_call7.cst main_call7.v0 (broadcastInDim S32768x50 ![] bcast_S_S32768x50),
    TRef.binary (.of main_v85 : TRef sig ⟨S32768x50, .f32⟩) main_call7.v0 main_call7.v1 (cmpf .oge),
    TRef.unary (.of main_cst_6 : TRef sig ⟨S_, .f32⟩) main_call7.v2 id,
    TRef.unary main_call7.v2 main_call7.v3 (broadcastInDim S32768x50 ![] bcast_S_S32768x50),
    TRef.binary main_call7.v3 (.of main_v85 : TRef sig ⟨S32768x50, .f32⟩) main_call7.v4 mulf,
    TRef.ternary main_call7.v1 (.of main_v85 : TRef sig ⟨S32768x50, .f32⟩) main_call7.v4 main_call7.call0.v0 select,
    StableHlo.binary main_v76 main_v86 main_v87 ((fun a b => concatenate S32768x416 1 [⟨S32768x366, a⟩, ⟨S32768x50, b⟩] concatenates_S32768x366_S32768x50_S32768x416_d1) : (⟨S32768x366, .f32⟩ : BufTy).Contents (Elt F) → (⟨S32768x50, .f32⟩ : BufTy).Contents (Elt F) → (⟨S32768x416, .f32⟩ : BufTy).Contents (Elt F)) ]

-- eighteen results read back one rewrite at a time, each telling two buffers apart by computation
set_option maxHeartbeats 2000000 in
/-- The fold of layer 7's operations at its result buffer is `layer7` of the contents of its three inputs. -/
theorem layer7_out (V : Valuation τ sig (Elt F)) :
    after (opsLayer7 (F := F)) V (main_v87 : DevRef τ sig)
      = layer7 (V (main_v76 : DevRef τ sig)) (V (main_arg1 : DevRef τ sig)) (V (main_arg2 : DevRef τ sig)) := by
  unfold opsLayer7
  after_results
  rfl

set_option maxHeartbeats 2000000 in
/-- Layer 7 writes none of the five argument buffers. -/
theorem layer7_args (V : Valuation τ sig (Elt F)) :
    after (opsLayer7 (F := F)) V (main_arg0 : DevRef τ sig) = V (main_arg0 : DevRef τ sig)
    ∧ after (opsLayer7 (F := F)) V (main_arg1 : DevRef τ sig) = V (main_arg1 : DevRef τ sig)
    ∧ after (opsLayer7 (F := F)) V (main_arg2 : DevRef τ sig) = V (main_arg2 : DevRef τ sig)
    ∧ after (opsLayer7 (F := F)) V (main_arg3 : DevRef τ sig) = V (main_arg3 : DevRef τ sig)
    ∧ after (opsLayer7 (F := F)) V (main_arg4 : DevRef τ sig) = V (main_arg4 : DevRef τ sig) := by
  unfold opsLayer7
  refine ⟨?_, ?_, ?_, ?_, ?_⟩ <;> after_results

theorem layer7_sub : ∀ op ∈ (opsLayer7 : List (HloOp τ sig (Elt F))), op.bufs ⊆ tcRefs τ sig :=
  List.forall_iff_forall_mem.mp
    (show (opsLayer7 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer7_fresh : ∀ op ∈ (opsLayer7 : List (HloOp τ sig (Elt F))), op.fresh = ∅ := by
  unfold opsLayer7
  intro _ h; (repeat (cases h with | head => rfl | tail _ h => ?_)); exact nomatch h

/-- Layer 8's operations: `[batch, 416] → [batch, 466]`. -/
def opsLayer8 : List (HloOp τ sig (Elt F)) :=
  [ StableHlo.unary main_arg1 main_v88 ((extractStridedSlice S1x50x416 ![8, 0, 0] · slices_S25x50x1266_S1x50x416_8_0_0) : (⟨S25x50x1266, .f32⟩ : BufTy).Contents (Elt F) → (⟨S1x50x416, .f32⟩ : BufTy).Contents (Elt F)),
    StableHlo.reshape main_v88 main_v89 rfl shapeCasts_S1x50x416_S50x416,
    StableHlo.unary main_v89 main_v90 ((transpose S416x50 [1, 0] · transposes_S50x416_S416x50_1_0) : (⟨S50x416, .f32⟩ : BufTy).Contents (Elt F) → (⟨S416x50, .f32⟩ : BufTy).Contents (Elt F)),
    StableHlo.binary main_v87 main_v90 main_v91 ((fun l r => Host.dotGeneral dot_S32768x416_S416x50_S32768x50_1_0_0_1_n_n none l r) : (⟨S32768x416, .f32⟩ : BufTy).Contents (Elt F) → (⟨S416x50, .f32⟩ : BufTy).Contents (Elt F) → (⟨S32768x50, .f32⟩ : BufTy).Contents (Elt F)),
    StableHlo.unary main_arg2 main_v92 ((extractStridedSlice S1x50 ![8, 0] · slices_S25x50_S1x50_8_0) : (⟨S25x50, .f32⟩ : BufTy).Contents (Elt F) → (⟨S1x50, .f32⟩ : BufTy).Contents (Elt F)),
    StableHlo.reshape main_v92 main_v93 rfl shapeCasts_S1x50_S50,
    StableHlo.unary main_v93 main_v94 (broadcastInDim S1x50 ![1] bcast_S50_S1x50_1 : (⟨S50, .f32⟩ : BufTy).Contents (Elt F) → (⟨S1x50, .f32⟩ : BufTy).Contents (Elt F)),
    StableHlo.unary main_v94 main_v95 (broadcastInDim S32768x50 ![0, 1] bcast_S1x50_S32768x50_0_1 : (⟨S1x50, .f32⟩ : BufTy).Contents (Elt F) → (⟨S32768x50, .f32⟩ : BufTy).Contents (Elt F)),
    StableHlo.binary main_v91 main_v95 main_v96 (addf : (⟨S32768x50, .f32⟩ : BufTy).Contents (Elt F) → (⟨S32768x50, .f32⟩ : BufTy).Contents (Elt F) → (⟨S32768x50, .f32⟩ : BufTy).Contents (Elt F)),
    StableHlo.nullary main_cst_7 (constant S_ .f32 0x3C23D70A#32),
    TRef.nullary main_call8.cst (constant S_ .f32 0x00000000#32),
    TRef.unary main_call8.cst main_call8.v0 (broadcastInDim S32768x50 ![] bcast_S_S32768x50),
    TRef.binary (.of main_v96 : TRef sig ⟨S32768x50, .f32⟩) main_call8.v0 main_call8.v1 (cmpf .oge),
    TRef.unary (.of main_cst_7 : TRef sig ⟨S_, .f32⟩) main_call8.v2 id,
    TRef.unary main_call8.v2 main_call8.v3 (broadcastInDim S32768x50 ![] bcast_S_S32768x50),
    TRef.binary main_call8.v3 (.of main_v96 : TRef sig ⟨S32768x50, .f32⟩) main_call8.v4 mulf,
    TRef.ternary main_call8.v1 (.of main_v96 : TRef sig ⟨S32768x50, .f32⟩) main_call8.v4 main_call8.call0.v0 select,
    StableHlo.binary main_v87 main_v97 main_v98 ((fun a b => concatenate S32768x466 1 [⟨S32768x416, a⟩, ⟨S32768x50, b⟩] concatenates_S32768x416_S32768x50_S32768x466_d1) : (⟨S32768x416, .f32⟩ : BufTy).Contents (Elt F) → (⟨S32768x50, .f32⟩ : BufTy).Contents (Elt F) → (⟨S32768x466, .f32⟩ : BufTy).Contents (Elt F)) ]

-- eighteen results read back one rewrite at a time, each telling two buffers apart by computation
set_option maxHeartbeats 2000000 in
/-- The fold of layer 8's operations at its result buffer is `layer8` of the contents of its three inputs. -/
theorem layer8_out (V : Valuation τ sig (Elt F)) :
    after (opsLayer8 (F := F)) V (main_v98 : DevRef τ sig)
      = layer8 (V (main_v87 : DevRef τ sig)) (V (main_arg1 : DevRef τ sig)) (V (main_arg2 : DevRef τ sig)) := by
  unfold opsLayer8
  after_results
  rfl

set_option maxHeartbeats 2000000 in
/-- Layer 8 writes none of the five argument buffers. -/
theorem layer8_args (V : Valuation τ sig (Elt F)) :
    after (opsLayer8 (F := F)) V (main_arg0 : DevRef τ sig) = V (main_arg0 : DevRef τ sig)
    ∧ after (opsLayer8 (F := F)) V (main_arg1 : DevRef τ sig) = V (main_arg1 : DevRef τ sig)
    ∧ after (opsLayer8 (F := F)) V (main_arg2 : DevRef τ sig) = V (main_arg2 : DevRef τ sig)
    ∧ after (opsLayer8 (F := F)) V (main_arg3 : DevRef τ sig) = V (main_arg3 : DevRef τ sig)
    ∧ after (opsLayer8 (F := F)) V (main_arg4 : DevRef τ sig) = V (main_arg4 : DevRef τ sig) := by
  unfold opsLayer8
  refine ⟨?_, ?_, ?_, ?_, ?_⟩ <;> after_results

theorem layer8_sub : ∀ op ∈ (opsLayer8 : List (HloOp τ sig (Elt F))), op.bufs ⊆ tcRefs τ sig :=
  List.forall_iff_forall_mem.mp
    (show (opsLayer8 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer8_fresh : ∀ op ∈ (opsLayer8 : List (HloOp τ sig (Elt F))), op.fresh = ∅ := by
  unfold opsLayer8
  intro _ h; (repeat (cases h with | head => rfl | tail _ h => ?_)); exact nomatch h

/-- Layer 9's operations: `[batch, 466] → [batch, 516]`. -/
def opsLayer9 : List (HloOp τ sig (Elt F)) :=
  [ StableHlo.unary main_arg1 main_v99 ((extractStridedSlice S1x50x466 ![9, 0, 0] · slices_S25x50x1266_S1x50x466_9_0_0) : (⟨S25x50x1266, .f32⟩ : BufTy).Contents (Elt F) → (⟨S1x50x466, .f32⟩ : BufTy).Contents (Elt F)),
    StableHlo.reshape main_v99 main_v100 rfl shapeCasts_S1x50x466_S50x466,
    StableHlo.unary main_v100 main_v101 ((transpose S466x50 [1, 0] · transposes_S50x466_S466x50_1_0) : (⟨S50x466, .f32⟩ : BufTy).Contents (Elt F) → (⟨S466x50, .f32⟩ : BufTy).Contents (Elt F)),
    StableHlo.binary main_v98 main_v101 main_v102 ((fun l r => Host.dotGeneral dot_S32768x466_S466x50_S32768x50_1_0_0_1_n_n none l r) : (⟨S32768x466, .f32⟩ : BufTy).Contents (Elt F) → (⟨S466x50, .f32⟩ : BufTy).Contents (Elt F) → (⟨S32768x50, .f32⟩ : BufTy).Contents (Elt F)),
    StableHlo.unary main_arg2 main_v103 ((extractStridedSlice S1x50 ![9, 0] · slices_S25x50_S1x50_9_0) : (⟨S25x50, .f32⟩ : BufTy).Contents (Elt F) → (⟨S1x50, .f32⟩ : BufTy).Contents (Elt F)),
    StableHlo.reshape main_v103 main_v104 rfl shapeCasts_S1x50_S50,
    StableHlo.unary main_v104 main_v105 (broadcastInDim S1x50 ![1] bcast_S50_S1x50_1 : (⟨S50, .f32⟩ : BufTy).Contents (Elt F) → (⟨S1x50, .f32⟩ : BufTy).Contents (Elt F)),
    StableHlo.unary main_v105 main_v106 (broadcastInDim S32768x50 ![0, 1] bcast_S1x50_S32768x50_0_1 : (⟨S1x50, .f32⟩ : BufTy).Contents (Elt F) → (⟨S32768x50, .f32⟩ : BufTy).Contents (Elt F)),
    StableHlo.binary main_v102 main_v106 main_v107 (addf : (⟨S32768x50, .f32⟩ : BufTy).Contents (Elt F) → (⟨S32768x50, .f32⟩ : BufTy).Contents (Elt F) → (⟨S32768x50, .f32⟩ : BufTy).Contents (Elt F)),
    StableHlo.nullary main_cst_8 (constant S_ .f32 0x3C23D70A#32),
    TRef.nullary main_call9.cst (constant S_ .f32 0x00000000#32),
    TRef.unary main_call9.cst main_call9.v0 (broadcastInDim S32768x50 ![] bcast_S_S32768x50),
    TRef.binary (.of main_v107 : TRef sig ⟨S32768x50, .f32⟩) main_call9.v0 main_call9.v1 (cmpf .oge),
    TRef.unary (.of main_cst_8 : TRef sig ⟨S_, .f32⟩) main_call9.v2 id,
    TRef.unary main_call9.v2 main_call9.v3 (broadcastInDim S32768x50 ![] bcast_S_S32768x50),
    TRef.binary main_call9.v3 (.of main_v107 : TRef sig ⟨S32768x50, .f32⟩) main_call9.v4 mulf,
    TRef.ternary main_call9.v1 (.of main_v107 : TRef sig ⟨S32768x50, .f32⟩) main_call9.v4 main_call9.call0.v0 select,
    StableHlo.binary main_v98 main_v108 main_v109 ((fun a b => concatenate S32768x516 1 [⟨S32768x466, a⟩, ⟨S32768x50, b⟩] concatenates_S32768x466_S32768x50_S32768x516_d1) : (⟨S32768x466, .f32⟩ : BufTy).Contents (Elt F) → (⟨S32768x50, .f32⟩ : BufTy).Contents (Elt F) → (⟨S32768x516, .f32⟩ : BufTy).Contents (Elt F)) ]

-- eighteen results read back one rewrite at a time, each telling two buffers apart by computation
set_option maxHeartbeats 2000000 in
/-- The fold of layer 9's operations at its result buffer is `layer9` of the contents of its three inputs. -/
theorem layer9_out (V : Valuation τ sig (Elt F)) :
    after (opsLayer9 (F := F)) V (main_v109 : DevRef τ sig)
      = layer9 (V (main_v98 : DevRef τ sig)) (V (main_arg1 : DevRef τ sig)) (V (main_arg2 : DevRef τ sig)) := by
  unfold opsLayer9
  after_results
  rfl

set_option maxHeartbeats 2000000 in
/-- Layer 9 writes none of the five argument buffers. -/
theorem layer9_args (V : Valuation τ sig (Elt F)) :
    after (opsLayer9 (F := F)) V (main_arg0 : DevRef τ sig) = V (main_arg0 : DevRef τ sig)
    ∧ after (opsLayer9 (F := F)) V (main_arg1 : DevRef τ sig) = V (main_arg1 : DevRef τ sig)
    ∧ after (opsLayer9 (F := F)) V (main_arg2 : DevRef τ sig) = V (main_arg2 : DevRef τ sig)
    ∧ after (opsLayer9 (F := F)) V (main_arg3 : DevRef τ sig) = V (main_arg3 : DevRef τ sig)
    ∧ after (opsLayer9 (F := F)) V (main_arg4 : DevRef τ sig) = V (main_arg4 : DevRef τ sig) := by
  unfold opsLayer9
  refine ⟨?_, ?_, ?_, ?_, ?_⟩ <;> after_results

theorem layer9_sub : ∀ op ∈ (opsLayer9 : List (HloOp τ sig (Elt F))), op.bufs ⊆ tcRefs τ sig :=
  List.forall_iff_forall_mem.mp
    (show (opsLayer9 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer9_fresh : ∀ op ∈ (opsLayer9 : List (HloOp τ sig (Elt F))), op.fresh = ∅ := by
  unfold opsLayer9
  intro _ h; (repeat (cases h with | head => rfl | tail _ h => ?_)); exact nomatch h

/-- The window's five layers in a row. -/
def opsWin1 : List (HloOp τ sig (Elt F)) :=
  opsLayer5 ++ (opsLayer6 ++ (opsLayer7 ++ (opsLayer8 ++ opsLayer9)))

-- ninety binds re-associated: the rewriting recurses once per statement
set_option maxRecDepth 8192 in
/-- The program's window 1 is that straight line (the rectifier's and the selection's definitions unfolded at their
    calls), whatever follows it. -/
theorem win1_eq (c : Dev nD) {β : Type}
    (k : Prog (TpuEff nD τ sig (Elt F) (Pipeline.Sig Λ₀ (Fin 0) fun p => (pcfgs (F := F) p).Adm) .tc) β) :
    (main_part1 (F := F) c >>= fun _ => k) = (seq (opsWin1 (F := F)) >>= fun _ => k) := by
  simp only [main_part1, fn_leaky_relu.body, fn_where.body, opsWin1, opsLayer5, opsLayer6, opsLayer7, opsLayer8, opsLayer9,
    seq, List.cons_append, List.nil_append, bind_assoc, pure_bind]

theorem win1_sub : ∀ op ∈ (opsWin1 : List (HloOp τ sig (Elt F))), op.bufs ⊆ tcRefs τ sig :=
  forall_mem_cat layer5_sub (forall_mem_cat layer6_sub (forall_mem_cat layer7_sub (forall_mem_cat layer8_sub layer9_sub)))

theorem win1_fresh : ∀ op ∈ (opsWin1 : List (HloOp τ sig (Elt F))), op.fresh = ∅ :=
  forall_mem_cat layer5_fresh (forall_mem_cat layer6_fresh (forall_mem_cat layer7_fresh (forall_mem_cat layer8_fresh layer9_fresh)))

end Cert.ReferenceIdeal.HostRun

end
-- ==== Proof.RefRunW2.lean ====
/-
  Layers 10 … 14 of the reference's host program, each as the list of its 18 host operations in the program's
  order: the slice of the weight stack, the reshape dropping its unit axis, the transpose, the contraction of the row
  matrix with it, the slice of the bias stack, its reshape and two broadcasts down the batch, the sum, the slope
  constant, the leaky rectifier's seven operations (the zero, its broadcast, the comparison, the slope converted and
  broadcast, the product, the selection) and the concatenation that appends the 50 new columns to the row matrix.

  For each layer: what the fold of these operations leaves in the layer's result buffer, from ANY contents `V` of the
  buffers, is the layer's pure function (`Layers.layerN`) of what `V` holds at the layer's input matrix, the weight stack
  and the bias stack; the five argument buffers are written by none of the operations and keep their contents; every
  operation touches TensorCore buffers only and determines its result.  The window's five layers in a row are the
  program's statements of this window, one for one.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- Layer 10's operations: `[batch, 516] → [batch, 566]`. -/
def opsLayer10 : List (HloOp τ sig (Elt F)) :=
  [ StableHlo.unary main_arg1 main_v110 ((extractStridedSlice S1x50x516 ![10, 0, 0] · slices_S25x50x1266_S1x50x516_10_0_0) : (⟨S25x50x1266, .f32⟩ : BufTy).Contents (Elt F) → (⟨S1x50x516, .f32⟩ : BufTy).Contents (Elt F)),
    StableHlo.reshape main_v110 main_v111 rfl shapeCasts_S1x50x516_S50x516,
    StableHlo.unary main_v111 main_v112 ((transpose S516x50 [1, 0] · transposes_S50x516_S516x50_1_0) : (⟨S50x516, .f32⟩ : BufTy).Contents (Elt F) → (⟨S516x50, .f32⟩ : BufTy).Contents (Elt F)),
    StableHlo.binary main_v109 main_v112 main_v113 ((fun l r => Host.dotGeneral dot_S32768x516_S516x50_S32768x50_1_0_0_1_n_n none l r) : (⟨S32768x516, .f32⟩ : BufTy).Contents (Elt F) → (⟨S516x50, .f32⟩ : BufTy).Contents (Elt F) → (⟨S32768x50, .f32⟩ : BufTy).Contents (Elt F)),
    StableHlo.unary main_arg2 main_v114 ((extractStridedSlice S1x50 ![10, 0] · slices_S25x50_S1x50_10_0) : (⟨S25x50, .f32⟩ : BufTy).Contents (Elt F) → (⟨S1x50, .f32⟩ : BufTy).Contents (Elt F)),
    StableHlo.reshape main_v114 main_v115 rfl shapeCasts_S1x50_S50,
    StableHlo.unary main_v115 main_v116 (broadcastInDim S1x50 ![1] bcast_S50_S1x50_1 : (⟨S50, .f32⟩ : BufTy).Contents (Elt F) → (⟨S1x50, .f32⟩ : BufTy).Contents (Elt F)),
    StableHlo.unary main_v116 main_v117 (broadcastInDim S32768x50 ![0, 1] bcast_S1x50_S32768x50_0_1 : (⟨S1x50, .f32⟩ : BufTy).Contents (Elt F) → (⟨S32768x50, .f32⟩ : BufTy).Contents (Elt F)),
    StableHlo.binary main_v113 main_v117 main_v118 (addf : (⟨S32768x50, .f32⟩ : BufTy).Contents (Elt F) → (⟨S32768x50, .f32⟩ : BufTy).Contents (Elt F) → (⟨S32768x50, .f32⟩ : BufTy).Contents (Elt F)),
    StableHlo.nullary main_cst_9 (constant S_ .f32 0x3C23D70A#32),
    TRef.nullary main_call10.cst (constant S_ .f32 0x00000000#32),
    TRef.unary main_call10.cst main_call10.v0 (broadcastInDim S32768x50 ![] bcast_S_S32768x50),
    TRef.binary (.of main_v118 : TRef sig ⟨S32768x50, .f32⟩) main_call10.v0 main_call10.v1 (cmpf .oge),
    TRef.unary (.of main_cst_9 : TRef sig ⟨S_, .f32⟩) main_call10.v2 id,
    TRef.unary main_call10.v2 main_call10.v3 (broadcastInDim S32768x50 ![] bcast_S_S32768x50),
    TRef.binary main_call10.v3 (.of main_v118 : TRef sig ⟨S32768x50, .f32⟩) main_call10.v4 mulf,
    TRef.ternary main_call10.v1 (.of main_v118 : TRef sig ⟨S32768x50, .f32⟩) main_call10.v4 main_call10.call0.v0 select,
    StableHlo.binary main_v109 main_v119 main_v120 ((fun a b => concatenate S32768x566 1 [⟨S32768x516, a⟩, ⟨S32768x50, b⟩] concatenates_S32768x516_S32768x50_S32768x566_d1) : (⟨S32768x516, .f32⟩ : BufTy).Contents (Elt F) → (⟨S32768x50, .f32⟩ : BufTy).Contents (Elt F) → (⟨S32768x566, .f32⟩ : BufTy).Contents (Elt F)) ]

-- eighteen results read back one rewrite at a time, each telling two buffers apart by computation
set_option maxHeartbeats 2000000 in
/-- The fold of layer 10's operations at its result buffer is `layer10` of the contents of its three inputs. -/
theorem layer10_out (V : Valuation τ sig (Elt F)) :
    after (opsLayer10 (F := F)) V (main_v120 : DevRef τ sig)
      = layer10 (V (main_v109 : DevRef τ sig)) (V (main_arg1 : DevRef τ sig)) (V (main_arg2 : DevRef τ sig)) := by
  unfold opsLayer10
  after_results
  rfl

set_option maxHeartbeats 2000000 in
/-- Layer 10 writes none of the five argument buffers. -/
theorem layer10_args (V : Valuation τ sig (Elt F)) :
    after (opsLayer10 (F := F)) V (main_arg0 : DevRef τ sig) = V (main_arg0 : DevRef τ sig)
    ∧ after (opsLayer10 (F := F)) V (main_arg1 : DevRef τ sig) = V (main_arg1 : DevRef τ sig)
    ∧ after (opsLayer10 (F := F)) V (main_arg2 : DevRef τ sig) = V (main_arg2 : DevRef τ sig)
    ∧ after (opsLayer10 (F := F)) V (main_arg3 : DevRef τ sig) = V (main_arg3 : DevRef τ sig)
    ∧ after (opsLayer10 (F := F)) V (main_arg4 : DevRef τ sig) = V (main_arg4 : DevRef τ sig) := by
  unfold opsLayer10
  refine ⟨?_, ?_, ?_, ?_, ?_⟩ <;> after_results

theorem layer10_sub : ∀ op ∈ (opsLayer10 : List (HloOp τ sig (Elt F))), op.bufs ⊆ tcRefs τ sig :=
  List.forall_iff_forall_mem.mp
    (show (opsLayer10 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer10_fresh : ∀ op ∈ (opsLayer10 : List (HloOp τ sig (Elt F))), op.fresh = ∅ := by
  unfold opsLayer10
  intro _ h; (repeat (cases h with | head => rfl | tail _ h => ?_)); exact nomatch h

/-- Layer 11's operations: `[batch, 566] → [batch, 616]`. -/
def opsLayer11 : List (HloOp τ sig (Elt F)) :=
  [ StableHlo.unary main_arg1 main_v121 ((extractStridedSlice S1x50x566 ![11, 0, 0] · slices_S25x50x1266_S1x50x566_11_0_0) : (⟨S25x50x1266, .f32⟩ : BufTy).Contents (Elt F) → (⟨S1x50x566, .f32⟩ : BufTy).Contents (Elt F)),
    StableHlo.reshape main_v121 main_v122 rfl shapeCasts_S1x50x566_S50x566,
    StableHlo.unary main_v122 main_v123 ((transpose S566x50 [1, 0] · transposes_S50x566_S566x50_1_0) : (⟨S50x566, .f32⟩ : BufTy).Contents (Elt F) → (⟨S566x50, .f32⟩ : BufTy).Contents (Elt F)),
    StableHlo.binary main_v120 main_v123 main_v124 ((fun l r => Host.dotGeneral dot_S32768x566_S566x50_S32768x50_1_0_0_1_n_n none l r) : (⟨S32768x566, .f32⟩ : BufTy).Contents (Elt F) → (⟨S566x50, .f32⟩ : BufTy).Contents (Elt F) → (⟨S32768x50, .f32⟩ : BufTy).Contents (Elt F)),
    StableHlo.unary main_arg2 main_v125 ((extractStridedSlice S1x50 ![11, 0] · slices_S25x50_S1x50_11_0) : (⟨S25x50, .f32⟩ : BufTy).Contents (Elt F) → (⟨S1x50, .f32⟩ : BufTy).Contents (Elt F)),
    StableHlo.reshape main_v125 main_v126 rfl shapeCasts_S1x50_S50,
    StableHlo.unary main_v126 main_v127 (broadcastInDim S1x50 ![1] bcast_S50_S1x50_1 : (⟨S50, .f32⟩ : BufTy).Contents (Elt F) → (⟨S1x50, .f32⟩ : BufTy).Contents (Elt F)),
    StableHlo.unary main_v127 main_v128 (broadcastInDim S32768x50 ![0, 1] bcast_S1x50_S32768x50_0_1 : (⟨S1x50, .f32⟩ : BufTy).Contents (Elt F) → (⟨S32768x50, .f32⟩ : BufTy).Contents (Elt F)),
    StableHlo.binary main_v124 main_v128 main_v129 (addf : (⟨S32768x50, .f32⟩ : BufTy).Contents (Elt F) → (⟨S32768x50, .f32⟩ : BufTy).Contents (Elt F) → (⟨S32768x50, .f32⟩ : BufTy).Contents (Elt F)),
    StableHlo.nullary main_cst_10 (constant S_ .f32 0x3C23D70A#32),
    TRef.nullary main_call11.cst (constant S_ .f32 0x00000000#32),
    TRef.unary main_call11.cst main_call11.v0 (broadcastInDim S32768x50 ![] bcast_S_S32768x50),
    TRef.binary (.of main_v129 : TRef sig ⟨S32768x50, .f32⟩) main_call11.v0 main_call11.v1 (cmpf .oge),
    TRef.unary (.of main_cst_10 : TRef sig ⟨S_, .f32⟩) main_call11.v2 id,
    TRef.unary main_call11.v2 main_call11.v3 (broadcastInDim S32768x50 ![] bcast_S_S32768x50),
    TRef.binary main_call11.v3 (.of main_v129 : TRef sig ⟨S32768x50, .f32⟩) main_call11.v4 mulf,
    TRef.ternary main_call11.v1 (.of main_v129 : TRef sig ⟨S32768x50, .f32⟩) main_call11.v4 main_call11.call0.v0 select,
    StableHlo.binary main_v120 main_v130 main_v131 ((fun a b => concatenate S32768x616 1 [⟨S32768x566, a⟩, ⟨S32768x50, b⟩] concatenates_S32768x566_S32768x50_S32768x616_d1) : (⟨S32768x566, .f32⟩ : BufTy).Contents (Elt F) → (⟨S32768x50, .f32⟩ : BufTy).Contents (Elt F) → (⟨S32768x616, .f32⟩ : BufTy).Contents (Elt F)) ]

-- eighteen results read back one rewrite at a time, each telling two buffers apart by computation
set_option maxHeartbeats 2000000 in
/-- The fold of layer 11's operations at its result buffer is `layer11` of the contents of its three inputs. -/
theorem layer11_out (V : Valuation τ sig (Elt F)) :
    after (opsLayer11 (F := F)) V (main_v131 : DevRef τ sig)
      = layer11 (V (main_v120 : DevRef τ sig)) (V (main_arg1 : DevRef τ sig)) (V (main_arg2 : DevRef τ sig)) := by
  unfold opsLayer11
  after_results
  rfl

set_option maxHeartbeats 2000000 in
/-- Layer 11 writes none of the five argument buffers. -/
theorem layer11_args (V : Valuation τ sig (Elt F)) :
    after (opsLayer11 (F := F)) V (main_arg0 : DevRef τ sig) = V (main_arg0 : DevRef τ sig)
    ∧ after (opsLayer11 (F := F)) V (main_arg1 : DevRef τ sig) = V (main_arg1 : DevRef τ sig)
    ∧ after (opsLayer11 (F := F)) V (main_arg2 : DevRef τ sig) = V (main_arg2 : DevRef τ sig)
    ∧ after (opsLayer11 (F := F)) V (main_arg3 : DevRef τ sig) = V (main_arg3 : DevRef τ sig)
    ∧ after (opsLayer11 (F := F)) V (main_arg4 : DevRef τ sig) = V (main_arg4 : DevRef τ sig) := by
  unfold opsLayer11
  refine ⟨?_, ?_, ?_, ?_, ?_⟩ <;> after_results

theorem layer11_sub : ∀ op ∈ (opsLayer11 : List (HloOp τ sig (Elt F))), op.bufs ⊆ tcRefs τ sig :=
  List.forall_iff_forall_mem.mp
    (show (opsLayer11 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer11_fresh : ∀ op ∈ (opsLayer11 : List (HloOp τ sig (Elt F))), op.fresh = ∅ := by
  unfold opsLayer11
  intro _ h; (repeat (cases h with | head => rfl | tail _ h => ?_)); exact nomatch h

/-- Layer 12's operations: `[batch, 616] → [batch, 666]`. -/
def opsLayer12 : List (HloOp τ sig (Elt F)) :=
  [ StableHlo.unary main_arg1 main_v132 ((extractStridedSlice S1x50x616 ![12, 0, 0] · slices_S25x50x1266_S1x50x616_12_0_0) : (⟨S25x50x1266, .f32⟩ : BufTy).Contents (Elt F) → (⟨S1x50x616, .f32⟩ : BufTy).Contents (Elt F)),
    StableHlo.reshape main_v132 main_v133 rfl shapeCasts_S1x50x616_S50x616,
    StableHlo.unary main_v133 main_v134 ((transpose S616x50 [1, 0] · transposes_S50x616_S616x50_1_0) : (⟨S50x616, .f32⟩ : BufTy).Contents (Elt F) → (⟨S616x50, .f32⟩ : BufTy).Contents (Elt F)),
    StableHlo.binary main_v131 main_v134 main_v135 ((fun l r => Host.dotGeneral dot_S32768x616_S616x50_S32768x50_1_0_0_1_n_n none l r) : (⟨S32768x616, .f32⟩ : BufTy).Contents (Elt F) → (⟨S616x50, .f32⟩ : BufTy).Contents (Elt F) → (⟨S32768x50, .f32⟩ : BufTy).Contents (Elt F)),
    StableHlo.unary main_arg2 main_v136 ((extractStridedSlice S1x50 ![12, 0] · slices_S25x50_S1x50_12_0) : (⟨S25x50, .f32⟩ : BufTy).Contents (Elt F) → (⟨S1x50, .f32⟩ : BufTy).Contents (Elt F)),
    StableHlo.reshape main_v136 main_v137 rfl shapeCasts_S1x50_S50,
    StableHlo.unary main_v137 main_v138 (broadcastInDim S1x50 ![1] bcast_S50_S1x50_1 : (⟨S50, .f32⟩ : BufTy).Contents (Elt F) → (⟨S1x50, .f32⟩ : BufTy).Contents (Elt F)),
    StableHlo.unary main_v138 main_v139 (broadcastInDim S32768x50 ![0, 1] bcast_S1x50_S32768x50_0_1 : (⟨S1x50, .f32⟩ : BufTy).Contents (Elt F) → (⟨S32768x50, .f32⟩ : BufTy).Contents (Elt F)),
    StableHlo.binary main_v135 main_v139 main_v140 (addf : (⟨S32768x50, .f32⟩ : BufTy).Contents (Elt F) → (⟨S32768x50, .f32⟩ : BufTy).Contents (Elt F) → (⟨S32768x50, .f32⟩ : BufTy).Contents (Elt F)),
    StableHlo.nullary main_cst_11 (constant S_ .f32 0x3C23D70A#32),
    TRef.nullary main_call12.cst (constant S_ .f32 0x00000000#32),
    TRef.unary main_call12.cst main_call12.v0 (broadcastInDim S32768x50 ![] bcast_S_S32768x50),
    TRef.binary (.of main_v140 : TRef sig ⟨S32768x50, .f32⟩) main_call12.v0 main_call12.v1 (cmpf .oge),
    TRef.unary (.of main_cst_11 : TRef sig ⟨S_, .f32⟩) main_call12.v2 id,
    TRef.unary main_call12.v2 main_call12.v3 (broadcastInDim S32768x50 ![] bcast_S_S32768x50),
    TRef.binary main_call12.v3 (.of main_v140 : TRef sig ⟨S32768x50, .f32⟩) main_call12.v4 mulf,
    TRef.ternary main_call12.v1 (.of main_v140 : TRef sig ⟨S32768x50, .f32⟩) main_call12.v4 main_call12.call0.v0 select,
    StableHlo.binary main_v131 main_v141 main_v142 ((fun a b => concatenate S32768x666 1 [⟨S32768x616, a⟩, ⟨S32768x50, b⟩] concatenates_S32768x616_S32768x50_S32768x666_d1) : (⟨S32768x616, .f32⟩ : BufTy).Contents (Elt F) → (⟨S32768x50, .f32⟩ : BufTy).Contents (Elt F) → (⟨S32768x666, .f32⟩ : BufTy).Contents (Elt F)) ]

-- eighteen results read back one rewrite at a time, each telling two buffers apart by computation
set_option maxHeartbeats 2000000 in
/-- The fold of layer 12's operations at its result buffer is `layer12` of the contents of its three inputs. -/
theorem layer12_out (V : Valuation τ sig (Elt F)) :
    after (opsLayer12 (F := F)) V (main_v142 : DevRef τ sig)
      = layer12 (V (main_v131 : DevRef τ sig)) (V (main_arg1 : DevRef τ sig)) (V (main_arg2 : DevRef τ sig)) := by
  unfold opsLayer12
  after_results
  rfl

set_option maxHeartbeats 2000000 in
/-- Layer 12 writes none of the five argument buffers. -/
theorem layer12_args (V : Valuation τ sig (Elt F)) :
    after (opsLayer12 (F := F)) V (main_arg0 : DevRef τ sig) = V (main_arg0 : DevRef τ sig)
    ∧ after (opsLayer12 (F := F)) V (main_arg1 : DevRef τ sig) = V (main_arg1 : DevRef τ sig)
    ∧ after (opsLayer12 (F := F)) V (main_arg2 : DevRef τ sig) = V (main_arg2 : DevRef τ sig)
    ∧ after (opsLayer12 (F := F)) V (main_arg3 : DevRef τ sig) = V (main_arg3 : DevRef τ sig)
    ∧ after (opsLayer12 (F := F)) V (main_arg4 : DevRef τ sig) = V (main_arg4 : DevRef τ sig) := by
  unfold opsLayer12
  refine ⟨?_, ?_, ?_, ?_, ?_⟩ <;> after_results

theorem layer12_sub : ∀ op ∈ (opsLayer12 : List (HloOp τ sig (Elt F))), op.bufs ⊆ tcRefs τ sig :=
  List.forall_iff_forall_mem.mp
    (show (opsLayer12 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer12_fresh : ∀ op ∈ (opsLayer12 : List (HloOp τ sig (Elt F))), op.fresh = ∅ := by
  unfold opsLayer12
  intro _ h; (repeat (cases h with | head => rfl | tail _ h => ?_)); exact nomatch h

/-- Layer 13's operations: `[batch, 666] → [batch, 716]`. -/
def opsLayer13 : List (HloOp τ sig (Elt F)) :=
  [ StableHlo.unary main_arg1 main_v143 ((extractStridedSlice S1x50x666 ![13, 0, 0] · slices_S25x50x1266_S1x50x666_13_0_0) : (⟨S25x50x1266, .f32⟩ : BufTy).Contents (Elt F) → (⟨S1x50x666, .f32⟩ : BufTy).Contents (Elt F)),
    StableHlo.reshape main_v143 main_v144 rfl shapeCasts_S1x50x666_S50x666,
    StableHlo.unary main_v144 main_v145 ((transpose S666x50 [1, 0] · transposes_S50x666_S666x50_1_0) : (⟨S50x666, .f32⟩ : BufTy).Contents (Elt F) → (⟨S666x50, .f32⟩ : BufTy).Contents (Elt F)),
    StableHlo.binary main_v142 main_v145 main_v146 ((fun l r => Host.dotGeneral dot_S32768x666_S666x50_S32768x50_1_0_0_1_n_n none l r) : (⟨S32768x666, .f32⟩ : BufTy).Contents (Elt F) → (⟨S666x50, .f32⟩ : BufTy).Contents (Elt F) → (⟨S32768x50, .f32⟩ : BufTy).Contents (Elt F)),
    StableHlo.unary main_arg2 main_v147 ((extractStridedSlice S1x50 ![13, 0] · slices_S25x50_S1x50_13_0) : (⟨S25x50, .f32⟩ : BufTy).Contents (Elt F) → (⟨S1x50, .f32⟩ : BufTy).Contents (Elt F)),
    StableHlo.reshape main_v147 main_v148 rfl shapeCasts_S1x50_S50,
    StableHlo.unary main_v148 main_v149 (broadcastInDim S1x50 ![1] bcast_S50_S1x50_1 : (⟨S50, .f32⟩ : BufTy).Contents (Elt F) → (⟨S1x50, .f32⟩ : BufTy).Contents (Elt F)),
    StableHlo.unary main_v149 main_v150 (broadcastInDim S32768x50 ![0, 1] bcast_S1x50_S32768x50_0_1 : (⟨S1x50, .f32⟩ : BufTy).Contents (Elt F) → (⟨S32768x50, .f32⟩ : BufTy).Contents (Elt F)),
    StableHlo.binary main_v146 main_v150 main_v151 (addf : (⟨S32768x50, .f32⟩ : BufTy).Contents (Elt F) → (⟨S32768x50, .f32⟩ : BufTy).Contents (Elt F) → (⟨S32768x50, .f32⟩ : BufTy).Contents (Elt F)),
    StableHlo.nullary main_cst_12 (constant S_ .f32 0x3C23D70A#32),
    TRef.nullary main_call13.cst (constant S_ .f32 0x00000000#32),
    TRef.unary main_call13.cst main_call13.v0 (broadcastInDim S32768x50 ![] bcast_S_S32768x50),
    TRef.binary (.of main_v151 : TRef sig ⟨S32768x50, .f32⟩) main_call13.v0 main_call13.v1 (cmpf .oge),
    TRef.unary (.of main_cst_12 : TRef sig ⟨S_, .f32⟩) main_call13.v2 id,
    TRef.unary main_call13.v2 main_call13.v3 (broadcastInDim S32768x50 ![] bcast_S_S32768x50),
    TRef.binary main_call13.v3 (.of main_v151 : TRef sig ⟨S32768x50, .f32⟩) main_call13.v4 mulf,
    TRef.ternary main_call13.v1 (.of main_v151 : TRef sig ⟨S32768x50, .f32⟩) main_call13.v4 main_call13.call0.v0 select,
    StableHlo.binary main_v142 main_v152 main_v153 ((fun a b => concatenate S32768x716 1 [⟨S32768x666, a⟩, ⟨S32768x50, b⟩] concatenates_S32768x666_S32768x50_S32768x716_d1) : (⟨S32768x666, .f32⟩ : BufTy).Contents (Elt F) → (⟨S32768x50, .f32⟩ : BufTy).Contents (Elt F) → (⟨S32768x716, .f32⟩ : BufTy).Contents (Elt F)) ]

-- eighteen results read back one rewrite at a time, each telling two buffers apart by computation
set_option maxHeartbeats 2000000 in
/-- The fold of layer 13's operations at its result buffer is `layer13` of the contents of its three inputs. -/
theorem layer13_out (V : Valuation τ sig (Elt F)) :
    after (opsLayer13 (F := F)) V (main_v153 : DevRef τ sig)
      = layer13 (V (main_v142 : DevRef τ sig)) (V (main_arg1 : DevRef τ sig)) (V (main_arg2 : DevRef τ sig)) := by
  unfold opsLayer13
  after_results
  rfl

set_option maxHeartbeats 2000000 in
/-- Layer 13 writes none of the five argument buffers. -/
theorem layer13_args (V : Valuation τ sig (Elt F)) :
    after (opsLayer13 (F := F)) V (main_arg0 : DevRef τ sig) = V (main_arg0 : DevRef τ sig)
    ∧ after (opsLayer13 (F := F)) V (main_arg1 : DevRef τ sig) = V (main_arg1 : DevRef τ sig)
    ∧ after (opsLayer13 (F := F)) V (main_arg2 : DevRef τ sig) = V (main_arg2 : DevRef τ sig)
    ∧ after (opsLayer13 (F := F)) V (main_arg3 : DevRef τ sig) = V (main_arg3 : DevRef τ sig)
    ∧ after (opsLayer13 (F := F)) V (main_arg4 : DevRef τ sig) = V (main_arg4 : DevRef τ sig) := by
  unfold opsLayer13
  refine ⟨?_, ?_, ?_, ?_, ?_⟩ <;> after_results

theorem layer13_sub : ∀ op ∈ (opsLayer13 : List (HloOp τ sig (Elt F))), op.bufs ⊆ tcRefs τ sig :=
  List.forall_iff_forall_mem.mp
    (show (opsLayer13 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer13_fresh : ∀ op ∈ (opsLayer13 : List (HloOp τ sig (Elt F))), op.fresh = ∅ := by
  unfold opsLayer13
  intro _ h; (repeat (cases h with | head => rfl | tail _ h => ?_)); exact nomatch h

/-- Layer 14's operations: `[batch, 716] → [batch, 766]`. -/
def opsLayer14 : List (HloOp τ sig (Elt F)) :=
  [ StableHlo.unary main_arg1 main_v154 ((extractStridedSlice S1x50x716 ![14, 0, 0] · slices_S25x50x1266_S1x50x716_14_0_0) : (⟨S25x50x1266, .f32⟩ : BufTy).Contents (Elt F) → (⟨S1x50x716, .f32⟩ : BufTy).Contents (Elt F)),
    StableHlo.reshape main_v154 main_v155 rfl shapeCasts_S1x50x716_S50x716,
    StableHlo.unary main_v155 main_v156 ((transpose S716x50 [1, 0] · transposes_S50x716_S716x50_1_0) : (⟨S50x716, .f32⟩ : BufTy).Contents (Elt F) → (⟨S716x50, .f32⟩ : BufTy).Contents (Elt F)),
    StableHlo.binary main_v153 main_v156 main_v157 ((fun l r => Host.dotGeneral dot_S32768x716_S716x50_S32768x50_1_0_0_1_n_n none l r) : (⟨S32768x716, .f32⟩ : BufTy).Contents (Elt F) → (⟨S716x50, .f32⟩ : BufTy).Contents (Elt F) → (⟨S32768x50, .f32⟩ : BufTy).Contents (Elt F)),
    StableHlo.unary main_arg2 main_v158 ((extractStridedSlice S1x50 ![14, 0] · slices_S25x50_S1x50_14_0) : (⟨S25x50, .f32⟩ : BufTy).Contents (Elt F) → (⟨S1x50, .f32⟩ : BufTy).Contents (Elt F)),
    StableHlo.reshape main_v158 main_v159 rfl shapeCasts_S1x50_S50,
    StableHlo.unary main_v159 main_v160 (broadcastInDim S1x50 ![1] bcast_S50_S1x50_1 : (⟨S50, .f32⟩ : BufTy).Contents (Elt F) → (⟨S1x50, .f32⟩ : BufTy).Contents (Elt F)),
    StableHlo.unary main_v160 main_v161 (broadcastInDim S32768x50 ![0, 1] bcast_S1x50_S32768x50_0_1 : (⟨S1x50, .f32⟩ : BufTy).Contents (Elt F) → (⟨S32768x50, .f32⟩ : BufTy).Contents (Elt F)),
    StableHlo.binary main_v157 main_v161 main_v162 (addf : (⟨S32768x50, .f32⟩ : BufTy).Contents (Elt F) → (⟨S32768x50, .f32⟩ : BufTy).Contents (Elt F) → (⟨S32768x50, .f32⟩ : BufTy).Contents (Elt F)),
    StableHlo.nullary main_cst_13 (constant S_ .f32 0x3C23D70A#32),
    TRef.nullary main_call14.cst (constant S_ .f32 0x00000000#32),
    TRef.unary main_call14.cst main_call14.v0 (broadcastInDim S32768x50 ![] bcast_S_S32768x50),
    TRef.binary (.of main_v162 : TRef sig ⟨S32768x50, .f32⟩) main_call14.v0 main_call14.v1 (cmpf .oge),
    TRef.unary (.of main_cst_13 : TRef sig ⟨S_, .f32⟩) main_call14.v2 id,
    TRef.unary main_call14.v2 main_call14.v3 (broadcastInDim S32768x50 ![] bcast_S_S32768x50),
    TRef.binary main_call14.v3 (.of main_v162 : TRef sig ⟨S32768x50, .f32⟩) main_call14.v4 mulf,
    TRef.ternary main_call14.v1 (.of main_v162 : TRef sig ⟨S32768x50, .f32⟩) main_call14.v4 main_call14.call0.v0 select,
    StableHlo.binary main_v153 main_v163 main_v164 ((fun a b => concatenate S32768x766 1 [⟨S32768x716, a⟩, ⟨S32768x50, b⟩] concatenates_S32768x716_S32768x50_S32768x766_d1) : (⟨S32768x716, .f32⟩ : BufTy).Contents (Elt F) → (⟨S32768x50, .f32⟩ : BufTy).Contents (Elt F) → (⟨S32768x766, .f32⟩ : BufTy).Contents (Elt F)) ]

-- eighteen results read back one rewrite at a time, each telling two buffers apart by computation
set_option maxHeartbeats 2000000 in
/-- The fold of layer 14's operations at its result buffer is `layer14` of the contents of its three inputs. -/
theorem layer14_out (V : Valuation τ sig (Elt F)) :
    after (opsLayer14 (F := F)) V (main_v164 : DevRef τ sig)
      = layer14 (V (main_v153 : DevRef τ sig)) (V (main_arg1 : DevRef τ sig)) (V (main_arg2 : DevRef τ sig)) := by
  unfold opsLayer14
  after_results
  rfl

set_option maxHeartbeats 2000000 in
/-- Layer 14 writes none of the five argument buffers. -/
theorem layer14_args (V : Valuation τ sig (Elt F)) :
    after (opsLayer14 (F := F)) V (main_arg0 : DevRef τ sig) = V (main_arg0 : DevRef τ sig)
    ∧ after (opsLayer14 (F := F)) V (main_arg1 : DevRef τ sig) = V (main_arg1 : DevRef τ sig)
    ∧ after (opsLayer14 (F := F)) V (main_arg2 : DevRef τ sig) = V (main_arg2 : DevRef τ sig)
    ∧ after (opsLayer14 (F := F)) V (main_arg3 : DevRef τ sig) = V (main_arg3 : DevRef τ sig)
    ∧ after (opsLayer14 (F := F)) V (main_arg4 : DevRef τ sig) = V (main_arg4 : DevRef τ sig) := by
  unfold opsLayer14
  refine ⟨?_, ?_, ?_, ?_, ?_⟩ <;> after_results

theorem layer14_sub : ∀ op ∈ (opsLayer14 : List (HloOp τ sig (Elt F))), op.bufs ⊆ tcRefs τ sig :=
  List.forall_iff_forall_mem.mp
    (show (opsLayer14 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer14_fresh : ∀ op ∈ (opsLayer14 : List (HloOp τ sig (Elt F))), op.fresh = ∅ := by
  unfold opsLayer14
  intro _ h; (repeat (cases h with | head => rfl | tail _ h => ?_)); exact nomatch h

/-- The window's five layers in a row. -/
def opsWin2 : List (HloOp τ sig (Elt F)) :=
  opsLayer10 ++ (opsLayer11 ++ (opsLayer12 ++ (opsLayer13 ++ opsLayer14)))

-- ninety binds re-associated: the rewriting recurses once per statement
set_option maxRecDepth 8192 in
/-- The program's window 2 is that straight line (the rectifier's and the selection's definitions unfolded at their
    calls), whatever follows it. -/
theorem win2_eq (c : Dev nD) {β : Type}
    (k : Prog (TpuEff nD τ sig (Elt F) (Pipeline.Sig Λ₀ (Fin 0) fun p => (pcfgs (F := F) p).Adm) .tc) β) :
    (main_part2 (F := F) c >>= fun _ => k) = (seq (opsWin2 (F := F)) >>= fun _ => k) := by
  simp only [main_part2, fn_leaky_relu.body, fn_where.body, opsWin2, opsLayer10, opsLayer11, opsLayer12, opsLayer13, opsLayer14,
    seq, List.cons_append, List.nil_append, bind_assoc, pure_bind]

theorem win2_sub : ∀ op ∈ (opsWin2 : List (HloOp τ sig (Elt F))), op.bufs ⊆ tcRefs τ sig :=
  forall_mem_cat layer10_sub (forall_mem_cat layer11_sub (forall_mem_cat layer12_sub (forall_mem_cat layer13_sub layer14_sub)))

theorem win2_fresh : ∀ op ∈ (opsWin2 : List (HloOp τ sig (Elt F))), op.fresh = ∅ :=
  forall_mem_cat layer10_fresh (forall_mem_cat layer11_fresh (forall_mem_cat layer12_fresh (forall_mem_cat layer13_fresh layer14_fresh)))

end Cert.ReferenceIdeal.HostRun

end
-- ==== Proof.RefRunW3.lean ====
/-
  Layers 15 … 19 of the reference's host program, each as the list of its 18 host operations in the program's
  order: the slice of the weight stack, the reshape dropping its unit axis, the transpose, the contraction of the row
  matrix with it, the slice of the bias stack, its reshape and two broadcasts down the batch, the sum, the slope
  constant, the leaky rectifier's seven operations (the zero, its broadcast, the comparison, the slope converted and
  broadcast, the product, the selection) and the concatenation that appends the 50 new columns to the row matrix.

  For each layer: what the fold of these operations leaves in the layer's result buffer, from ANY contents `V` of the
  buffers, is the layer's pure function (`Layers.layerN`) of what `V` holds at the layer's input matrix, the weight stack
  and the bias stack; the five argument buffers are written by none of the operations and keep their contents; every
  operation touches TensorCore buffers only and determines its result.  The window's five layers in a row are the
  program's statements of this window, one for one.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- Layer 15's operations: `[batch, 766] → [batch, 816]`. -/
def opsLayer15 : List (HloOp τ sig (Elt F)) :=
  [ StableHlo.unary main_arg1 main_v165 ((extractStridedSlice S1x50x766 ![15, 0, 0] · slices_S25x50x1266_S1x50x766_15_0_0) : (⟨S25x50x1266, .f32⟩ : BufTy).Contents (Elt F) → (⟨S1x50x766, .f32⟩ : BufTy).Contents (Elt F)),
    StableHlo.reshape main_v165 main_v166 rfl shapeCasts_S1x50x766_S50x766,
    StableHlo.unary main_v166 main_v167 ((transpose S766x50 [1, 0] · transposes_S50x766_S766x50_1_0) : (⟨S50x766, .f32⟩ : BufTy).Contents (Elt F) → (⟨S766x50, .f32⟩ : BufTy).Contents (Elt F)),
    StableHlo.binary main_v164 main_v167 main_v168 ((fun l r => Host.dotGeneral dot_S32768x766_S766x50_S32768x50_1_0_0_1_n_n none l r) : (⟨S32768x766, .f32⟩ : BufTy).Contents (Elt F) → (⟨S766x50, .f32⟩ : BufTy).Contents (Elt F) → (⟨S32768x50, .f32⟩ : BufTy).Contents (Elt F)),
    StableHlo.unary main_arg2 main_v169 ((extractStridedSlice S1x50 ![15, 0] · slices_S25x50_S1x50_15_0) : (⟨S25x50, .f32⟩ : BufTy).Contents (Elt F) → (⟨S1x50, .f32⟩ : BufTy).Contents (Elt F)),
    StableHlo.reshape main_v169 main_v170 rfl shapeCasts_S1x50_S50,
    StableHlo.unary main_v170 main_v171 (broadcastInDim S1x50 ![1] bcast_S50_S1x50_1 : (⟨S50, .f32⟩ : BufTy).Contents (Elt F) → (⟨S1x50, .f32⟩ : BufTy).Contents (Elt F)),
    StableHlo.unary main_v171 main_v172 (broadcastInDim S32768x50 ![0, 1] bcast_S1x50_S32768x50_0_1 : (⟨S1x50, .f32⟩ : BufTy).Contents (Elt F) → (⟨S32768x50, .f32⟩ : BufTy).Contents (Elt F)),
    StableHlo.binary main_v168 main_v172 main_v173 (addf : (⟨S32768x50, .f32⟩ : BufTy).Contents (Elt F) → (⟨S32768x50, .f32⟩ : BufTy).Contents (Elt F) → (⟨S32768x50, .f32⟩ : BufTy).Contents (Elt F)),
    StableHlo.nullary main_cst_14 (constant S_ .f32 0x3C23D70A#32),
    TRef.nullary main_call15.cst (constant S_ .f32 0x00000000#32),
    TRef.unary main_call15.cst main_call15.v0 (broadcastInDim S32768x50 ![] bcast_S_S32768x50),
    TRef.binary (.of main_v173 : TRef sig ⟨S32768x50, .f32⟩) main_call15.v0 main_call15.v1 (cmpf .oge),
    TRef.unary (.of main_cst_14 : TRef sig ⟨S_, .f32⟩) main_call15.v2 id,
    TRef.unary main_call15.v2 main_call15.v3 (broadcastInDim S32768x50 ![] bcast_S_S32768x50),
    TRef.binary main_call15.v3 (.of main_v173 : TRef sig ⟨S32768x50, .f32⟩) main_call15.v4 mulf,
    TRef.ternary main_call15.v1 (.of main_v173 : TRef sig ⟨S32768x50, .f32⟩) main_call15.v4 main_call15.call0.v0 select,
    StableHlo.binary main_v164 main_v174 main_v175 ((fun a b => concatenate S32768x816 1 [⟨S32768x766, a⟩, ⟨S32768x50, b⟩] concatenates_S32768x766_S32768x50_S32768x816_d1) : (⟨S32768x766, .f32⟩ : BufTy).Contents (Elt F) → (⟨S32768x50, .f32⟩ : BufTy).Contents (Elt F) → (⟨S32768x816, .f32⟩ : BufTy).Contents (Elt F)) ]

-- eighteen results read back one rewrite at a time, each telling two buffers apart by computation
set_option maxHeartbeats 2000000 in
/-- The fold of layer 15's operations at its result buffer is `layer15` of the contents of its three inputs. -/
theorem layer15_out (V : Valuation τ sig (Elt F)) :
    after (opsLayer15 (F := F)) V (main_v175 : DevRef τ sig)
      = layer15 (V (main_v164 : DevRef τ sig)) (V (main_arg1 : DevRef τ sig)) (V (main_arg2 : DevRef τ sig)) := by
  unfold opsLayer15
  after_results
  rfl

set_option maxHeartbeats 2000000 in
/-- Layer 15 writes none of the five argument buffers. -/
theorem layer15_args (V : Valuation τ sig (Elt F)) :
    after (opsLayer15 (F := F)) V (main_arg0 : DevRef τ sig) = V (main_arg0 : DevRef τ sig)
    ∧ after (opsLayer15 (F := F)) V (main_arg1 : DevRef τ sig) = V (main_arg1 : DevRef τ sig)
    ∧ after (opsLayer15 (F := F)) V (main_arg2 : DevRef τ sig) = V (main_arg2 : DevRef τ sig)
    ∧ after (opsLayer15 (F := F)) V (main_arg3 : DevRef τ sig) = V (main_arg3 : DevRef τ sig)
    ∧ after (opsLayer15 (F := F)) V (main_arg4 : DevRef τ sig) = V (main_arg4 : DevRef τ sig) := by
  unfold opsLayer15
  refine ⟨?_, ?_, ?_, ?_, ?_⟩ <;> after_results

theorem layer15_sub : ∀ op ∈ (opsLayer15 : List (HloOp τ sig (Elt F))), op.bufs ⊆ tcRefs τ sig :=
  List.forall_iff_forall_mem.mp
    (show (opsLayer15 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer15_fresh : ∀ op ∈ (opsLayer15 : List (HloOp τ sig (Elt F))), op.fresh = ∅ := by
  unfold opsLayer15
  intro _ h; (repeat (cases h with | head => rfl | tail _ h => ?_)); exact nomatch h

/-- Layer 16's operations: `[batch, 816] → [batch, 866]`. -/
def opsLayer16 : List (HloOp τ sig (Elt F)) :=
  [ StableHlo.unary main_arg1 main_v176 ((extractStridedSlice S1x50x816 ![16, 0, 0] · slices_S25x50x1266_S1x50x816_16_0_0) : (⟨S25x50x1266, .f32⟩ : BufTy).Contents (Elt F) → (⟨S1x50x816, .f32⟩ : BufTy).Contents (Elt F)),
    StableHlo.reshape main_v176 main_v177 rfl shapeCasts_S1x50x816_S50x816,
    StableHlo.unary main_v177 main_v178 ((transpose S816x50 [1, 0] · transposes_S50x816_S816x50_1_0) : (⟨S50x816, .f32⟩ : BufTy).Contents (Elt F) → (⟨S816x50, .f32⟩ : BufTy).Contents (Elt F)),
    StableHlo.binary main_v175 main_v178 main_v179 ((fun l r => Host.dotGeneral dot_S32768x816_S816x50_S32768x50_1_0_0_1_n_n none l r) : (⟨S32768x816, .f32⟩ : BufTy).Contents (Elt F) → (⟨S816x50, .f32⟩ : BufTy).Contents (Elt F) → (⟨S32768x50, .f32⟩ : BufTy).Contents (Elt F)),
    StableHlo.unary main_arg2 main_v180 ((extractStridedSlice S1x50 ![16, 0] · slices_S25x50_S1x50_16_0) : (⟨S25x50, .f32⟩ : BufTy).Contents (Elt F) → (⟨S1x50, .f32⟩ : BufTy).Contents (Elt F)),
    StableHlo.reshape main_v180 main_v181 rfl shapeCasts_S1x50_S50,
    StableHlo.unary main_v181 main_v182 (broadcastInDim S1x50 ![1] bcast_S50_S1x50_1 : (⟨S50, .f32⟩ : BufTy).Contents (Elt F) → (⟨S1x50, .f32⟩ : BufTy).Contents (Elt F)),
    StableHlo.unary main_v182 main_v183 (broadcastInDim S32768x50 ![0, 1] bcast_S1x50_S32768x50_0_1 : (⟨S1x50, .f32⟩ : BufTy).Contents (Elt F) → (⟨S32768x50, .f32⟩ : BufTy).Contents (Elt F)),
    StableHlo.binary main_v179 main_v183 main_v184 (addf : (⟨S32768x50, .f32⟩ : BufTy).Contents (Elt F) → (⟨S32768x50, .f32⟩ : BufTy).Contents (Elt F) → (⟨S32768x50, .f32⟩ : BufTy).Contents (Elt F)),
    StableHlo.nullary main_cst_15 (constant S_ .f32 0x3C23D70A#32),
    TRef.nullary main_call16.cst (constant S_ .f32 0x00000000#32),
    TRef.unary main_call16.cst main_call16.v0 (broadcastInDim S32768x50 ![] bcast_S_S32768x50),
    TRef.binary (.of main_v184 : TRef sig ⟨S32768x50, .f32⟩) main_call16.v0 main_call16.v1 (cmpf .oge),
    TRef.unary (.of main_cst_15 : TRef sig ⟨S_, .f32⟩) main_call16.v2 id,
    TRef.unary main_call16.v2 main_call16.v3 (broadcastInDim S32768x50 ![] bcast_S_S32768x50),
    TRef.binary main_call16.v3 (.of main_v184 : TRef sig ⟨S32768x50, .f32⟩) main_call16.v4 mulf,
    TRef.ternary main_call16.v1 (.of main_v184 : TRef sig ⟨S32768x50, .f32⟩) main_call16.v4 main_call16.call0.v0 select,
    StableHlo.binary main_v175 main_v185 main_v186 ((fun a b => concatenate S32768x866 1 [⟨S32768x816, a⟩, ⟨S32768x50, b⟩] concatenates_S32768x816_S32768x50_S32768x866_d1) : (⟨S32768x816, .f32⟩ : BufTy).Contents (Elt F) → (⟨S32768x50, .f32⟩ : BufTy).Contents (Elt F) → (⟨S32768x866, .f32⟩ : BufTy).Contents (Elt F)) ]

-- eighteen results read back one rewrite at a time, each telling two buffers apart by computation
set_option maxHeartbeats 2000000 in
/-- The fold of layer 16's operations at its result buffer is `layer16` of the contents of its three inputs. -/
theorem layer16_out (V : Valuation τ sig (Elt F)) :
    after (opsLayer16 (F := F)) V (main_v186 : DevRef τ sig)
      = layer16 (V (main_v175 : DevRef τ sig)) (V (main_arg1 : DevRef τ sig)) (V (main_arg2 : DevRef τ sig)) := by
  unfold opsLayer16
  after_results
  rfl

set_option maxHeartbeats 2000000 in
/-- Layer 16 writes none of the five argument buffers. -/
theorem layer16_args (V : Valuation τ sig (Elt F)) :
    after (opsLayer16 (F := F)) V (main_arg0 : DevRef τ sig) = V (main_arg0 : DevRef τ sig)
    ∧ after (opsLayer16 (F := F)) V (main_arg1 : DevRef τ sig) = V (main_arg1 : DevRef τ sig)
    ∧ after (opsLayer16 (F := F)) V (main_arg2 : DevRef τ sig) = V (main_arg2 : DevRef τ sig)
    ∧ after (opsLayer16 (F := F)) V (main_arg3 : DevRef τ sig) = V (main_arg3 : DevRef τ sig)
    ∧ after (opsLayer16 (F := F)) V (main_arg4 : DevRef τ sig) = V (main_arg4 : DevRef τ sig) := by
  unfold opsLayer16
  refine ⟨?_, ?_, ?_, ?_, ?_⟩ <;> after_results

theorem layer16_sub : ∀ op ∈ (opsLayer16 : List (HloOp τ sig (Elt F))), op.bufs ⊆ tcRefs τ sig :=
  List.forall_iff_forall_mem.mp
    (show (opsLayer16 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer16_fresh : ∀ op ∈ (opsLayer16 : List (HloOp τ sig (Elt F))), op.fresh = ∅ := by
  unfold opsLayer16
  intro _ h; (repeat (cases h with | head => rfl | tail _ h => ?_)); exact nomatch h

/-- Layer 17's operations: `[batch, 866] → [batch, 916]`. -/
def opsLayer17 : List (HloOp τ sig (Elt F)) :=
  [ StableHlo.unary main_arg1 main_v187 ((extractStridedSlice S1x50x866 ![17, 0, 0] · slices_S25x50x1266_S1x50x866_17_0_0) : (⟨S25x50x1266, .f32⟩ : BufTy).Contents (Elt F) → (⟨S1x50x866, .f32⟩ : BufTy).Contents (Elt F)),
    StableHlo.reshape main_v187 main_v188 rfl shapeCasts_S1x50x866_S50x866,
    StableHlo.unary main_v188 main_v189 ((transpose S866x50 [1, 0] · transposes_S50x866_S866x50_1_0) : (⟨S50x866, .f32⟩ : BufTy).Contents (Elt F) → (⟨S866x50, .f32⟩ : BufTy).Contents (Elt F)),
    StableHlo.binary main_v186 main_v189 main_v190 ((fun l r => Host.dotGeneral dot_S32768x866_S866x50_S32768x50_1_0_0_1_n_n none l r) : (⟨S32768x866, .f32⟩ : BufTy).Contents (Elt F) → (⟨S866x50, .f32⟩ : BufTy).Contents (Elt F) → (⟨S32768x50, .f32⟩ : BufTy).Contents (Elt F)),
    StableHlo.unary main_arg2 main_v191 ((extractStridedSlice S1x50 ![17, 0] · slices_S25x50_S1x50_17_0) : (⟨S25x50, .f32⟩ : BufTy).Contents (Elt F) → (⟨S1x50, .f32⟩ : BufTy).Contents (Elt F)),
    StableHlo.reshape main_v191 main_v192 rfl shapeCasts_S1x50_S50,
    StableHlo.unary main_v192 main_v193 (broadcastInDim S1x50 ![1] bcast_S50_S1x50_1 : (⟨S50, .f32⟩ : BufTy).Contents (Elt F) → (⟨S1x50, .f32⟩ : BufTy).Contents (Elt F)),
    StableHlo.unary main_v193 main_v194 (broadcastInDim S32768x50 ![0, 1] bcast_S1x50_S32768x50_0_1 : (⟨S1x50, .f32⟩ : BufTy).Contents (Elt F) → (⟨S32768x50, .f32⟩ : BufTy).Contents (Elt F)),
    StableHlo.binary main_v190 main_v194 main_v195 (addf : (⟨S32768x50, .f32⟩ : BufTy).Contents (Elt F) → (⟨S32768x50, .f32⟩ : BufTy).Contents (Elt F) → (⟨S32768x50, .f32⟩ : BufTy).Contents (Elt F)),
    StableHlo.nullary main_cst_16 (constant S_ .f32 0x3C23D70A#32),
    TRef.nullary main_call17.cst (constant S_ .f32 0x00000000#32),
    TRef.unary main_call17.cst main_call17.v0 (broadcastInDim S32768x50 ![] bcast_S_S32768x50),
    TRef.binary (.of main_v195 : TRef sig ⟨S32768x50, .f32⟩) main_call17.v0 main_call17.v1 (cmpf .oge),
    TRef.unary (.of main_cst_16 : TRef sig ⟨S_, .f32⟩) main_call17.v2 id,
    TRef.unary main_call17.v2 main_call17.v3 (broadcastInDim S32768x50 ![] bcast_S_S32768x50),
    TRef.binary main_call17.v3 (.of main_v195 : TRef sig ⟨S32768x50, .f32⟩) main_call17.v4 mulf,
    TRef.ternary main_call17.v1 (.of main_v195 : TRef sig ⟨S32768x50, .f32⟩) main_call17.v4 main_call17.call0.v0 select,
    StableHlo.binary main_v186 main_v196 main_v197 ((fun a b => concatenate S32768x916 1 [⟨S32768x866, a⟩, ⟨S32768x50, b⟩] concatenates_S32768x866_S32768x50_S32768x916_d1) : (⟨S32768x866, .f32⟩ : BufTy).Contents (Elt F) → (⟨S32768x50, .f32⟩ : BufTy).Contents (Elt F) → (⟨S32768x916, .f32⟩ : BufTy).Contents (Elt F)) ]

-- eighteen results read back one rewrite at a time, each telling two buffers apart by computation
set_option maxHeartbeats 2000000 in
/-- The fold of layer 17's operations at its result buffer is `layer17` of the contents of its three inputs. -/
theorem layer17_out (V : Valuation τ sig (Elt F)) :
    after (opsLayer17 (F := F)) V (main_v197 : DevRef τ sig)
      = layer17 (V (main_v186 : DevRef τ sig)) (V (main_arg1 : DevRef τ sig)) (V (main_arg2 : DevRef τ sig)) := by
  unfold opsLayer17
  after_results
  rfl

set_option maxHeartbeats 2000000 in
/-- Layer 17 writes none of the five argument buffers. -/
theorem layer17_args (V : Valuation τ sig (Elt F)) :
    after (opsLayer17 (F := F)) V (main_arg0 : DevRef τ sig) = V (main_arg0 : DevRef τ sig)
    ∧ after (opsLayer17 (F := F)) V (main_arg1 : DevRef τ sig) = V (main_arg1 : DevRef τ sig)
    ∧ after (opsLayer17 (F := F)) V (main_arg2 : DevRef τ sig) = V (main_arg2 : DevRef τ sig)
    ∧ after (opsLayer17 (F := F)) V (main_arg3 : DevRef τ sig) = V (main_arg3 : DevRef τ sig)
    ∧ after (opsLayer17 (F := F)) V (main_arg4 : DevRef τ sig) = V (main_arg4 : DevRef τ sig) := by
  unfold opsLayer17
  refine ⟨?_, ?_, ?_, ?_, ?_⟩ <;> after_results

theorem layer17_sub : ∀ op ∈ (opsLayer17 : List (HloOp τ sig (Elt F))), op.bufs ⊆ tcRefs τ sig :=
  List.forall_iff_forall_mem.mp
    (show (opsLayer17 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer17_fresh : ∀ op ∈ (opsLayer17 : List (HloOp τ sig (Elt F))), op.fresh = ∅ := by
  unfold opsLayer17
  intro _ h; (repeat (cases h with | head => rfl | tail _ h => ?_)); exact nomatch h

/-- Layer 18's operations: `[batch, 916] → [batch, 966]`. -/
def opsLayer18 : List (HloOp τ sig (Elt F)) :=
  [ StableHlo.unary main_arg1 main_v198 ((extractStridedSlice S1x50x916 ![18, 0, 0] · slices_S25x50x1266_S1x50x916_18_0_0) : (⟨S25x50x1266, .f32⟩ : BufTy).Contents (Elt F) → (⟨S1x50x916, .f32⟩ : BufTy).Contents (Elt F)),
    StableHlo.reshape main_v198 main_v199 rfl shapeCasts_S1x50x916_S50x916,
    StableHlo.unary main_v199 main_v200 ((transpose S916x50 [1, 0] · transposes_S50x916_S916x50_1_0) : (⟨S50x916, .f32⟩ : BufTy).Contents (Elt F) → (⟨S916x50, .f32⟩ : BufTy).Contents (Elt F)),
    StableHlo.binary main_v197 main_v200 main_v201 ((fun l r => Host.dotGeneral dot_S32768x916_S916x50_S32768x50_1_0_0_1_n_n none l r) : (⟨S32768x916, .f32⟩ : BufTy).Contents (Elt F) → (⟨S916x50, .f32⟩ : BufTy).Contents (Elt F) → (⟨S32768x50, .f32⟩ : BufTy).Contents (Elt F)),
    StableHlo.unary main_arg2 main_v202 ((extractStridedSlice S1x50 ![18, 0] · slices_S25x50_S1x50_18_0) : (⟨S25x50, .f32⟩ : BufTy).Contents (Elt F) → (⟨S1x50, .f32⟩ : BufTy).Contents (Elt F)),
    StableHlo.reshape main_v202 main_v203 rfl shapeCasts_S1x50_S50,
    StableHlo.unary main_v203 main_v204 (broadcastInDim S1x50 ![1] bcast_S50_S1x50_1 : (⟨S50, .f32⟩ : BufTy).Contents (Elt F) → (⟨S1x50, .f32⟩ : BufTy).Contents (Elt F)),
    StableHlo.unary main_v204 main_v205 (broadcastInDim S32768x50 ![0, 1] bcast_S1x50_S32768x50_0_1 : (⟨S1x50, .f32⟩ : BufTy).Contents (Elt F) → (⟨S32768x50, .f32⟩ : BufTy).Contents (Elt F)),
    StableHlo.binary main_v201 main_v205 main_v206 (addf : (⟨S32768x50, .f32⟩ : BufTy).Contents (Elt F) → (⟨S32768x50, .f32⟩ : BufTy).Contents (Elt F) → (⟨S32768x50, .f32⟩ : BufTy).Contents (Elt F)),
    StableHlo.nullary main_cst_17 (constant S_ .f32 0x3C23D70A#32),
    TRef.nullary main_call18.cst (constant S_ .f32 0x00000000#32),
    TRef.unary main_call18.cst main_call18.v0 (broadcastInDim S32768x50 ![] bcast_S_S32768x50),
    TRef.binary (.of main_v206 : TRef sig ⟨S32768x50, .f32⟩) main_call18.v0 main_call18.v1 (cmpf .oge),
    TRef.unary (.of main_cst_17 : TRef sig ⟨S_, .f32⟩) main_call18.v2 id,
    TRef.unary main_call18.v2 main_call18.v3 (broadcastInDim S32768x50 ![] bcast_S_S32768x50),
    TRef.binary main_call18.v3 (.of main_v206 : TRef sig ⟨S32768x50, .f32⟩) main_call18.v4 mulf,
    TRef.ternary main_call18.v1 (.of main_v206 : TRef sig ⟨S32768x50, .f32⟩) main_call18.v4 main_call18.call0.v0 select,
    StableHlo.binary main_v197 main_v207 main_v208 ((fun a b => concatenate S32768x966 1 [⟨S32768x916, a⟩, ⟨S32768x50, b⟩] concatenates_S32768x916_S32768x50_S32768x966_d1) : (⟨S32768x916, .f32⟩ : BufTy).Contents (Elt F) → (⟨S32768x50, .f32⟩ : BufTy).Contents (Elt F) → (⟨S32768x966, .f32⟩ : BufTy).Contents (Elt F)) ]

-- eighteen results read back one rewrite at a time, each telling two buffers apart by computation
set_option maxHeartbeats 2000000 in
/-- The fold of layer 18's operations at its result buffer is `layer18` of the contents of its three inputs. -/
theorem layer18_out (V : Valuation τ sig (Elt F)) :
    after (opsLayer18 (F := F)) V (main_v208 : DevRef τ sig)
      = layer18 (V (main_v197 : DevRef τ sig)) (V (main_arg1 : DevRef τ sig)) (V (main_arg2 : DevRef τ sig)) := by
  unfold opsLayer18
  after_results
  rfl

set_option maxHeartbeats 2000000 in
/-- Layer 18 writes none of the five argument buffers. -/
theorem layer18_args (V : Valuation τ sig (Elt F)) :
    after (opsLayer18 (F := F)) V (main_arg0 : DevRef τ sig) = V (main_arg0 : DevRef τ sig)
    ∧ after (opsLayer18 (F := F)) V (main_arg1 : DevRef τ sig) = V (main_arg1 : DevRef τ sig)
    ∧ after (opsLayer18 (F := F)) V (main_arg2 : DevRef τ sig) = V (main_arg2 : DevRef τ sig)
    ∧ after (opsLayer18 (F := F)) V (main_arg3 : DevRef τ sig) = V (main_arg3 : DevRef τ sig)
    ∧ after (opsLayer18 (F := F)) V (main_arg4 : DevRef τ sig) = V (main_arg4 : DevRef τ sig) := by
  unfold opsLayer18
  refine ⟨?_, ?_, ?_, ?_, ?_⟩ <;> after_results

theorem layer18_sub : ∀ op ∈ (opsLayer18 : List (HloOp τ sig (Elt F))), op.bufs ⊆ tcRefs τ sig :=
  List.forall_iff_forall_mem.mp
    (show (opsLayer18 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer18_fresh : ∀ op ∈ (opsLayer18 : List (HloOp τ sig (Elt F))), op.fresh = ∅ := by
  unfold opsLayer18
  intro _ h; (repeat (cases h with | head => rfl | tail _ h => ?_)); exact nomatch h

/-- Layer 19's operations: `[batch, 966] → [batch, 1016]`. -/
def opsLayer19 : List (HloOp τ sig (Elt F)) :=
  [ StableHlo.unary main_arg1 main_v209 ((extractStridedSlice S1x50x966 ![19, 0, 0] · slices_S25x50x1266_S1x50x966_19_0_0) : (⟨S25x50x1266, .f32⟩ : BufTy).Contents (Elt F) → (⟨S1x50x966, .f32⟩ : BufTy).Contents (Elt F)),
    StableHlo.reshape main_v209 main_v210 rfl shapeCasts_S1x50x966_S50x966,
    StableHlo.unary main_v210 main_v211 ((transpose S966x50 [1, 0] · transposes_S50x966_S966x50_1_0) : (⟨S50x966, .f32⟩ : BufTy).Contents (Elt F) → (⟨S966x50, .f32⟩ : BufTy).Contents (Elt F)),
    StableHlo.binary main_v208 main_v211 main_v212 ((fun l r => Host.dotGeneral dot_S32768x966_S966x50_S32768x50_1_0_0_1_n_n none l r) : (⟨S32768x966, .f32⟩ : BufTy).Contents (Elt F) → (⟨S966x50, .f32⟩ : BufTy).Contents (Elt F) → (⟨S32768x50, .f32⟩ : BufTy).Contents (Elt F)),
    StableHlo.unary main_arg2 main_v213 ((extractStridedSlice S1x50 ![19, 0] · slices_S25x50_S1x50_19_0) : (⟨S25x50, .f32⟩ : BufTy).Contents (Elt F) → (⟨S1x50, .f32⟩ : BufTy).Contents (Elt F)),
    StableHlo.reshape main_v213 main_v214 rfl shapeCasts_S1x50_S50,
    StableHlo.unary main_v214 main_v215 (broadcastInDim S1x50 ![1] bcast_S50_S1x50_1 : (⟨S50, .f32⟩ : BufTy).Contents (Elt F) → (⟨S1x50, .f32⟩ : BufTy).Contents (Elt F)),
    StableHlo.unary main_v215 main_v216 (broadcastInDim S32768x50 ![0, 1] bcast_S1x50_S32768x50_0_1 : (⟨S1x50, .f32⟩ : BufTy).Contents (Elt F) → (⟨S32768x50, .f32⟩ : BufTy).Contents (Elt F)),
    StableHlo.binary main_v212 main_v216 main_v217 (addf : (⟨S32768x50, .f32⟩ : BufTy).Contents (Elt F) → (⟨S32768x50, .f32⟩ : BufTy).Contents (Elt F) → (⟨S32768x50, .f32⟩ : BufTy).Contents (Elt F)),
    StableHlo.nullary main_cst_18 (constant S_ .f32 0x3C23D70A#32),
    TRef.nullary main_call19.cst (constant S_ .f32 0x00000000#32),
    TRef.unary main_call19.cst main_call19.v0 (broadcastInDim S32768x50 ![] bcast_S_S32768x50),
    TRef.binary (.of main_v217 : TRef sig ⟨S32768x50, .f32⟩) main_call19.v0 main_call19.v1 (cmpf .oge),
    TRef.unary (.of main_cst_18 : TRef sig ⟨S_, .f32⟩) main_call19.v2 id,
    TRef.unary main_call19.v2 main_call19.v3 (broadcastInDim S32768x50 ![] bcast_S_S32768x50),
    TRef.binary main_call19.v3 (.of main_v217 : TRef sig ⟨S32768x50, .f32⟩) main_call19.v4 mulf,
    TRef.ternary main_call19.v1 (.of main_v217 : TRef sig ⟨S32768x50, .f32⟩) main_call19.v4 main_call19.call0.v0 select,
    StableHlo.binary main_v208 main_v218 main_v219 ((fun a b => concatenate S32768x1016 1 [⟨S32768x966, a⟩, ⟨S32768x50, b⟩] concatenates_S32768x966_S32768x50_S32768x1016_d1) : (⟨S32768x966, .f32⟩ : BufTy).Contents (Elt F) → (⟨S32768x50, .f32⟩ : BufTy).Contents (Elt F) → (⟨S32768x1016, .f32⟩ : BufTy).Contents (Elt F)) ]

-- eighteen results read back one rewrite at a time, each telling two buffers apart by computation
set_option maxHeartbeats 2000000 in
/-- The fold of layer 19's operations at its result buffer is `layer19` of the contents of its three inputs. -/
theorem layer19_out (V : Valuation τ sig (Elt F)) :
    after (opsLayer19 (F := F)) V (main_v219 : DevRef τ sig)
      = layer19 (V (main_v208 : DevRef τ sig)) (V (main_arg1 : DevRef τ sig)) (V (main_arg2 : DevRef τ sig)) := by
  unfold opsLayer19
  after_results
  rfl

set_option maxHeartbeats 2000000 in
/-- Layer 19 writes none of the five argument buffers. -/
theorem layer19_args (V : Valuation τ sig (Elt F)) :
    after (opsLayer19 (F := F)) V (main_arg0 : DevRef τ sig) = V (main_arg0 : DevRef τ sig)
    ∧ after (opsLayer19 (F := F)) V (main_arg1 : DevRef τ sig) = V (main_arg1 : DevRef τ sig)
    ∧ after (opsLayer19 (F := F)) V (main_arg2 : DevRef τ sig) = V (main_arg2 : DevRef τ sig)
    ∧ after (opsLayer19 (F := F)) V (main_arg3 : DevRef τ sig) = V (main_arg3 : DevRef τ sig)
    ∧ after (opsLayer19 (F := F)) V (main_arg4 : DevRef τ sig) = V (main_arg4 : DevRef τ sig) := by
  unfold opsLayer19
  refine ⟨?_, ?_, ?_, ?_, ?_⟩ <;> after_results

theorem layer19_sub : ∀ op ∈ (opsLayer19 : List (HloOp τ sig (Elt F))), op.bufs ⊆ tcRefs τ sig :=
  List.forall_iff_forall_mem.mp
    (show (opsLayer19 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer19_fresh : ∀ op ∈ (opsLayer19 : List (HloOp τ sig (Elt F))), op.fresh = ∅ := by
  unfold opsLayer19
  intro _ h; (repeat (cases h with | head => rfl | tail _ h => ?_)); exact nomatch h

/-- The window's five layers in a row. -/
def opsWin3 : List (HloOp τ sig (Elt F)) :=
  opsLayer15 ++ (opsLayer16 ++ (opsLayer17 ++ (opsLayer18 ++ opsLayer19)))

-- ninety binds re-associated: the rewriting recurses once per statement
set_option maxRecDepth 8192 in
/-- The program's window 3 is that straight line (the rectifier's and the selection's definitions unfolded at their
    calls), whatever follows it. -/
theorem win3_eq (c : Dev nD) {β : Type}
    (k : Prog (TpuEff nD τ sig (Elt F) (Pipeline.Sig Λ₀ (Fin 0) fun p => (pcfgs (F := F) p).Adm) .tc) β) :
    (main_part3 (F := F) c >>= fun _ => k) = (seq (opsWin3 (F := F)) >>= fun _ => k) := by
  simp only [main_part3, fn_leaky_relu.body, fn_where.body, opsWin3, opsLayer15, opsLayer16, opsLayer17, opsLayer18, opsLayer19,
    seq, List.cons_append, List.nil_append, bind_assoc, pure_bind]

theorem win3_sub : ∀ op ∈ (opsWin3 : List (HloOp τ sig (Elt F))), op.bufs ⊆ tcRefs τ sig :=
  forall_mem_cat layer15_sub (forall_mem_cat layer16_sub (forall_mem_cat layer17_sub (forall_mem_cat layer18_sub layer19_sub)))

theorem win3_fresh : ∀ op ∈ (opsWin3 : List (HloOp τ sig (Elt F))), op.fresh = ∅ :=
  forall_mem_cat layer15_fresh (forall_mem_cat layer16_fresh (forall_mem_cat layer17_fresh (forall_mem_cat layer18_fresh layer19_fresh)))

end Cert.ReferenceIdeal.HostRun

end
-- ==== Proof.RefRunW4.lean ====
/-
  Layers 20 … 24 of the reference's host program, each as the list of its 18 host operations in the program's
  order: the slice of the weight stack, the reshape dropping its unit axis, the transpose, the contraction of the row
  matrix with it, the slice of the bias stack, its reshape and two broadcasts down the batch, the sum, the slope
  constant, the leaky rectifier's seven operations (the zero, its broadcast, the comparison, the slope converted and
  broadcast, the product, the selection) and the concatenation that appends the 50 new columns to the row matrix.

  For each layer: what the fold of these operations leaves in the layer's result buffer, from ANY contents `V` of the
  buffers, is the layer's pure function (`Layers.layerN`) of what `V` holds at the layer's input matrix, the weight stack
  and the bias stack; the five argument buffers are written by none of the operations and keep their contents; every
  operation touches TensorCore buffers only and determines its result.  The window's five layers in a row are the
  program's statements of this window, one for one.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- Layer 20's operations: `[batch, 1016] → [batch, 1066]`. -/
def opsLayer20 : List (HloOp τ sig (Elt F)) :=
  [ StableHlo.unary main_arg1 main_v220 ((extractStridedSlice S1x50x1016 ![20, 0, 0] · slices_S25x50x1266_S1x50x1016_20_0_0) : (⟨S25x50x1266, .f32⟩ : BufTy).Contents (Elt F) → (⟨S1x50x1016, .f32⟩ : BufTy).Contents (Elt F)),
    StableHlo.reshape main_v220 main_v221 rfl shapeCasts_S1x50x1016_S50x1016,
    StableHlo.unary main_v221 main_v222 ((transpose S1016x50 [1, 0] · transposes_S50x1016_S1016x50_1_0) : (⟨S50x1016, .f32⟩ : BufTy).Contents (Elt F) → (⟨S1016x50, .f32⟩ : BufTy).Contents (Elt F)),
    StableHlo.binary main_v219 main_v222 main_v223 ((fun l r => Host.dotGeneral dot_S32768x1016_S1016x50_S32768x50_1_0_0_1_n_n none l r) : (⟨S32768x1016, .f32⟩ : BufTy).Contents (Elt F) → (⟨S1016x50, .f32⟩ : BufTy).Contents (Elt F) → (⟨S32768x50, .f32⟩ : BufTy).Contents (Elt F)),
    StableHlo.unary main_arg2 main_v224 ((extractStridedSlice S1x50 ![20, 0] · slices_S25x50_S1x50_20_0) : (⟨S25x50, .f32⟩ : BufTy).Contents (Elt F) → (⟨S1x50, .f32⟩ : BufTy).Contents (Elt F)),
    StableHlo.reshape main_v224 main_v225 rfl shapeCasts_S1x50_S50,
    StableHlo.unary main_v225 main_v226 (broadcastInDim S1x50 ![1] bcast_S50_S1x50_1 : (⟨S50, .f32⟩ : BufTy).Contents (Elt F) → (⟨S1x50, .f32⟩ : BufTy).Contents (Elt F)),
    StableHlo.unary main_v226 main_v227 (broadcastInDim S32768x50 ![0, 1] bcast_S1x50_S32768x50_0_1 : (⟨S1x50, .f32⟩ : BufTy).Contents (Elt F) → (⟨S32768x50, .f32⟩ : BufTy).Contents (Elt F)),
    StableHlo.binary main_v223 main_v227 main_v228 (addf : (⟨S32768x50, .f32⟩ : BufTy).Contents (Elt F) → (⟨S32768x50, .f32⟩ : BufTy).Contents (Elt F) → (⟨S32768x50, .f32⟩ : BufTy).Contents (Elt F)),
    StableHlo.nullary main_cst_19 (constant S_ .f32 0x3C23D70A#32),
    TRef.nullary main_call20.cst (constant S_ .f32 0x00000000#32),
    TRef.unary main_call20.cst main_call20.v0 (broadcastInDim S32768x50 ![] bcast_S_S32768x50),
    TRef.binary (.of main_v228 : TRef sig ⟨S32768x50, .f32⟩) main_call20.v0 main_call20.v1 (cmpf .oge),
    TRef.unary (.of main_cst_19 : TRef sig ⟨S_, .f32⟩) main_call20.v2 id,
    TRef.unary main_call20.v2 main_call20.v3 (broadcastInDim S32768x50 ![] bcast_S_S32768x50),
    TRef.binary main_call20.v3 (.of main_v228 : TRef sig ⟨S32768x50, .f32⟩) main_call20.v4 mulf,
    TRef.ternary main_call20.v1 (.of main_v228 : TRef sig ⟨S32768x50, .f32⟩) main_call20.v4 main_call20.call0.v0 select,
    StableHlo.binary main_v219 main_v229 main_v230 ((fun a b => concatenate S32768x1066 1 [⟨S32768x1016, a⟩, ⟨S32768x50, b⟩] concatenates_S32768x1016_S32768x50_S32768x1066_d1) : (⟨S32768x1016, .f32⟩ : BufTy).Contents (Elt F) → (⟨S32768x50, .f32⟩ : BufTy).Contents (Elt F) → (⟨S32768x1066, .f32⟩ : BufTy).Contents (Elt F)) ]

-- eighteen results read back one rewrite at a time, each telling two buffers apart by computation
set_option maxHeartbeats 2000000 in
/-- The fold of layer 20's operations at its result buffer is `layer20` of the contents of its three inputs. -/
theorem layer20_out (V : Valuation τ sig (Elt F)) :
    after (opsLayer20 (F := F)) V (main_v230 : DevRef τ sig)
      = layer20 (V (main_v219 : DevRef τ sig)) (V (main_arg1 : DevRef τ sig)) (V (main_arg2 : DevRef τ sig)) := by
  unfold opsLayer20
  after_results
  rfl

set_option maxHeartbeats 2000000 in
/-- Layer 20 writes none of the five argument buffers. -/
theorem layer20_args (V : Valuation τ sig (Elt F)) :
    after (opsLayer20 (F := F)) V (main_arg0 : DevRef τ sig) = V (main_arg0 : DevRef τ sig)
    ∧ after (opsLayer20 (F := F)) V (main_arg1 : DevRef τ sig) = V (main_arg1 : DevRef τ sig)
    ∧ after (opsLayer20 (F := F)) V (main_arg2 : DevRef τ sig) = V (main_arg2 : DevRef τ sig)
    ∧ after (opsLayer20 (F := F)) V (main_arg3 : DevRef τ sig) = V (main_arg3 : DevRef τ sig)
    ∧ after (opsLayer20 (F := F)) V (main_arg4 : DevRef τ sig) = V (main_arg4 : DevRef τ sig) := by
  unfold opsLayer20
  refine ⟨?_, ?_, ?_, ?_, ?_⟩ <;> after_results

theorem layer20_sub : ∀ op ∈ (opsLayer20 : List (HloOp τ sig (Elt F))), op.bufs ⊆ tcRefs τ sig :=
  List.forall_iff_forall_mem.mp
    (show (opsLayer20 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer20_fresh : ∀ op ∈ (opsLayer20 : List (HloOp τ sig (Elt F))), op.fresh = ∅ := by
  unfold opsLayer20
  intro _ h; (repeat (cases h with | head => rfl | tail _ h => ?_)); exact nomatch h

/-- Layer 21's operations: `[batch, 1066] → [batch, 1116]`. -/
def opsLayer21 : List (HloOp τ sig (Elt F)) :=
  [ StableHlo.unary main_arg1 main_v231 ((extractStridedSlice S1x50x1066 ![21, 0, 0] · slices_S25x50x1266_S1x50x1066_21_0_0) : (⟨S25x50x1266, .f32⟩ : BufTy).Contents (Elt F) → (⟨S1x50x1066, .f32⟩ : BufTy).Contents (Elt F)),
    StableHlo.reshape main_v231 main_v232 rfl shapeCasts_S1x50x1066_S50x1066,
    StableHlo.unary main_v232 main_v233 ((transpose S1066x50 [1, 0] · transposes_S50x1066_S1066x50_1_0) : (⟨S50x1066, .f32⟩ : BufTy).Contents (Elt F) → (⟨S1066x50, .f32⟩ : BufTy).Contents (Elt F)),
    StableHlo.binary main_v230 main_v233 main_v234 ((fun l r => Host.dotGeneral dot_S32768x1066_S1066x50_S32768x50_1_0_0_1_n_n none l r) : (⟨S32768x1066, .f32⟩ : BufTy).Contents (Elt F) → (⟨S1066x50, .f32⟩ : BufTy).Contents (Elt F) → (⟨S32768x50, .f32⟩ : BufTy).Contents (Elt F)),
    StableHlo.unary main_arg2 main_v235 ((extractStridedSlice S1x50 ![21, 0] · slices_S25x50_S1x50_21_0) : (⟨S25x50, .f32⟩ : BufTy).Contents (Elt F) → (⟨S1x50, .f32⟩ : BufTy).Contents (Elt F)),
    StableHlo.reshape main_v235 main_v236 rfl shapeCasts_S1x50_S50,
    StableHlo.unary main_v236 main_v237 (broadcastInDim S1x50 ![1] bcast_S50_S1x50_1 : (⟨S50, .f32⟩ : BufTy).Contents (Elt F) → (⟨S1x50, .f32⟩ : BufTy).Contents (Elt F)),
    StableHlo.unary main_v237 main_v238 (broadcastInDim S32768x50 ![0, 1] bcast_S1x50_S32768x50_0_1 : (⟨S1x50, .f32⟩ : BufTy).Contents (Elt F) → (⟨S32768x50, .f32⟩ : BufTy).Contents (Elt F)),
    StableHlo.binary main_v234 main_v238 main_v239 (addf : (⟨S32768x50, .f32⟩ : BufTy).Contents (Elt F) → (⟨S32768x50, .f32⟩ : BufTy).Contents (Elt F) → (⟨S32768x50, .f32⟩ : BufTy).Contents (Elt F)),
    StableHlo.nullary main_cst_20 (constant S_ .f32 0x3C23D70A#32),
    TRef.nullary main_call21.cst (constant S_ .f32 0x00000000#32),
    TRef.unary main_call21.cst main_call21.v0 (broadcastInDim S32768x50 ![] bcast_S_S32768x50),
    TRef.binary (.of main_v239 : TRef sig ⟨S32768x50, .f32⟩) main_call21.v0 main_call21.v1 (cmpf .oge),
    TRef.unary (.of main_cst_20 : TRef sig ⟨S_, .f32⟩) main_call21.v2 id,
    TRef.unary main_call21.v2 main_call21.v3 (broadcastInDim S32768x50 ![] bcast_S_S32768x50),
    TRef.binary main_call21.v3 (.of main_v239 : TRef sig ⟨S32768x50, .f32⟩) main_call21.v4 mulf,
    TRef.ternary main_call21.v1 (.of main_v239 : TRef sig ⟨S32768x50, .f32⟩) main_call21.v4 main_call21.call0.v0 select,
    StableHlo.binary main_v230 main_v240 main_v241 ((fun a b => concatenate S32768x1116 1 [⟨S32768x1066, a⟩, ⟨S32768x50, b⟩] concatenates_S32768x1066_S32768x50_S32768x1116_d1) : (⟨S32768x1066, .f32⟩ : BufTy).Contents (Elt F) → (⟨S32768x50, .f32⟩ : BufTy).Contents (Elt F) → (⟨S32768x1116, .f32⟩ : BufTy).Contents (Elt F)) ]

-- eighteen results read back one rewrite at a time, each telling two buffers apart by computation
set_option maxHeartbeats 2000000 in
/-- The fold of layer 21's operations at its result buffer is `layer21` of the contents of its three inputs. -/
theorem layer21_out (V : Valuation τ sig (Elt F)) :
    after (opsLayer21 (F := F)) V (main_v241 : DevRef τ sig)
      = layer21 (V (main_v230 : DevRef τ sig)) (V (main_arg1 : DevRef τ sig)) (V (main_arg2 : DevRef τ sig)) := by
  unfold opsLayer21
  after_results
  rfl

set_option maxHeartbeats 2000000 in
/-- Layer 21 writes none of the five argument buffers. -/
theorem layer21_args (V : Valuation τ sig (Elt F)) :
    after (opsLayer21 (F := F)) V (main_arg0 : DevRef τ sig) = V (main_arg0 : DevRef τ sig)
    ∧ after (opsLayer21 (F := F)) V (main_arg1 : DevRef τ sig) = V (main_arg1 : DevRef τ sig)
    ∧ after (opsLayer21 (F := F)) V (main_arg2 : DevRef τ sig) = V (main_arg2 : DevRef τ sig)
    ∧ after (opsLayer21 (F := F)) V (main_arg3 : DevRef τ sig) = V (main_arg3 : DevRef τ sig)
    ∧ after (opsLayer21 (F := F)) V (main_arg4 : DevRef τ sig) = V (main_arg4 : DevRef τ sig) := by
  unfold opsLayer21
  refine ⟨?_, ?_, ?_, ?_, ?_⟩ <;> after_results

theorem layer21_sub : ∀ op ∈ (opsLayer21 : List (HloOp τ sig (Elt F))), op.bufs ⊆ tcRefs τ sig :=
  List.forall_iff_forall_mem.mp
    (show (opsLayer21 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer21_fresh : ∀ op ∈ (opsLayer21 : List (HloOp τ sig (Elt F))), op.fresh = ∅ := by
  unfold opsLayer21
  intro _ h; (repeat (cases h with | head => rfl | tail _ h => ?_)); exact nomatch h

/-- Layer 22's operations: `[batch, 1116] → [batch, 1166]`. -/
def opsLayer22 : List (HloOp τ sig (Elt F)) :=
  [ StableHlo.unary main_arg1 main_v242 ((extractStridedSlice S1x50x1116 ![22, 0, 0] · slices_S25x50x1266_S1x50x1116_22_0_0) : (⟨S25x50x1266, .f32⟩ : BufTy).Contents (Elt F) → (⟨S1x50x1116, .f32⟩ : BufTy).Contents (Elt F)),
    StableHlo.reshape main_v242 main_v243 rfl shapeCasts_S1x50x1116_S50x1116,
    StableHlo.unary main_v243 main_v244 ((transpose S1116x50 [1, 0] · transposes_S50x1116_S1116x50_1_0) : (⟨S50x1116, .f32⟩ : BufTy).Contents (Elt F) → (⟨S1116x50, .f32⟩ : BufTy).Contents (Elt F)),
    StableHlo.binary main_v241 main_v244 main_v245 ((fun l r => Host.dotGeneral dot_S32768x1116_S1116x50_S32768x50_1_0_0_1_n_n none l r) : (⟨S32768x1116, .f32⟩ : BufTy).Contents (Elt F) → (⟨S1116x50, .f32⟩ : BufTy).Contents (Elt F) → (⟨S32768x50, .f32⟩ : BufTy).Contents (Elt F)),
    StableHlo.unary main_arg2 main_v246 ((extractStridedSlice S1x50 ![22, 0] · slices_S25x50_S1x50_22_0) : (⟨S25x50, .f32⟩ : BufTy).Contents (Elt F) → (⟨S1x50, .f32⟩ : BufTy).Contents (Elt F)),
    StableHlo.reshape main_v246 main_v247 rfl shapeCasts_S1x50_S50,
    StableHlo.unary main_v247 main_v248 (broadcastInDim S1x50 ![1] bcast_S50_S1x50_1 : (⟨S50, .f32⟩ : BufTy).Contents (Elt F) → (⟨S1x50, .f32⟩ : BufTy).Contents (Elt F)),
    StableHlo.unary main_v248 main_v249 (broadcastInDim S32768x50 ![0, 1] bcast_S1x50_S32768x50_0_1 : (⟨S1x50, .f32⟩ : BufTy).Contents (Elt F) → (⟨S32768x50, .f32⟩ : BufTy).Contents (Elt F)),
    StableHlo.binary main_v245 main_v249 main_v250 (addf : (⟨S32768x50, .f32⟩ : BufTy).Contents (Elt F) → (⟨S32768x50, .f32⟩ : BufTy).Contents (Elt F) → (⟨S32768x50, .f32⟩ : BufTy).Contents (Elt F)),
    StableHlo.nullary main_cst_21 (constant S_ .f32 0x3C23D70A#32),
    TRef.nullary main_call22.cst (constant S_ .f32 0x00000000#32),
    TRef.unary main_call22.cst main_call22.v0 (broadcastInDim S32768x50 ![] bcast_S_S32768x50),
    TRef.binary (.of main_v250 : TRef sig ⟨S32768x50, .f32⟩) main_call22.v0 main_call22.v1 (cmpf .oge),
    TRef.unary (.of main_cst_21 : TRef sig ⟨S_, .f32⟩) main_call22.v2 id,
    TRef.unary main_call22.v2 main_call22.v3 (broadcastInDim S32768x50 ![] bcast_S_S32768x50),
    TRef.binary main_call22.v3 (.of main_v250 : TRef sig ⟨S32768x50, .f32⟩) main_call22.v4 mulf,
    TRef.ternary main_call22.v1 (.of main_v250 : TRef sig ⟨S32768x50, .f32⟩) main_call22.v4 main_call22.call0.v0 select,
    StableHlo.binary main_v241 main_v251 main_v252 ((fun a b => concatenate S32768x1166 1 [⟨S32768x1116, a⟩, ⟨S32768x50, b⟩] concatenates_S32768x1116_S32768x50_S32768x1166_d1) : (⟨S32768x1116, .f32⟩ : BufTy).Contents (Elt F) → (⟨S32768x50, .f32⟩ : BufTy).Contents (Elt F) → (⟨S32768x1166, .f32⟩ : BufTy).Contents (Elt F)) ]

-- eighteen results read back one rewrite at a time, each telling two buffers apart by computation
set_option maxHeartbeats 2000000 in
/-- The fold of layer 22's operations at its result buffer is `layer22` of the contents of its three inputs. -/
theorem layer22_out (V : Valuation τ sig (Elt F)) :
    after (opsLayer22 (F := F)) V (main_v252 : DevRef τ sig)
      = layer22 (V (main_v241 : DevRef τ sig)) (V (main_arg1 : DevRef τ sig)) (V (main_arg2 : DevRef τ sig)) := by
  unfold opsLayer22
  after_results
  rfl

set_option maxHeartbeats 2000000 in
/-- Layer 22 writes none of the five argument buffers. -/
theorem layer22_args (V : Valuation τ sig (Elt F)) :
    after (opsLayer22 (F := F)) V (main_arg0 : DevRef τ sig) = V (main_arg0 : DevRef τ sig)
    ∧ after (opsLayer22 (F := F)) V (main_arg1 : DevRef τ sig) = V (main_arg1 : DevRef τ sig)
    ∧ after (opsLayer22 (F := F)) V (main_arg2 : DevRef τ sig) = V (main_arg2 : DevRef τ sig)
    ∧ after (opsLayer22 (F := F)) V (main_arg3 : DevRef τ sig) = V (main_arg3 : DevRef τ sig)
    ∧ after (opsLayer22 (F := F)) V (main_arg4 : DevRef τ sig) = V (main_arg4 : DevRef τ sig) := by
  unfold opsLayer22
  refine ⟨?_, ?_, ?_, ?_, ?_⟩ <;> after_results

theorem layer22_sub : ∀ op ∈ (opsLayer22 : List (HloOp τ sig (Elt F))), op.bufs ⊆ tcRefs τ sig :=
  List.forall_iff_forall_mem.mp
    (show (opsLayer22 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer22_fresh : ∀ op ∈ (opsLayer22 : List (HloOp τ sig (Elt F))), op.fresh = ∅ := by
  unfold opsLayer22
  intro _ h; (repeat (cases h with | head => rfl | tail _ h => ?_)); exact nomatch h

/-- Layer 23's operations: `[batch, 1166] → [batch, 1216]`. -/
def opsLayer23 : List (HloOp τ sig (Elt F)) :=
  [ StableHlo.unary main_arg1 main_v253 ((extractStridedSlice S1x50x1166 ![23, 0, 0] · slices_S25x50x1266_S1x50x1166_23_0_0) : (⟨S25x50x1266, .f32⟩ : BufTy).Contents (Elt F) → (⟨S1x50x1166, .f32⟩ : BufTy).Contents (Elt F)),
    StableHlo.reshape main_v253 main_v254 rfl shapeCasts_S1x50x1166_S50x1166,
    StableHlo.unary main_v254 main_v255 ((transpose S1166x50 [1, 0] · transposes_S50x1166_S1166x50_1_0) : (⟨S50x1166, .f32⟩ : BufTy).Contents (Elt F) → (⟨S1166x50, .f32⟩ : BufTy).Contents (Elt F)),
    StableHlo.binary main_v252 main_v255 main_v256 ((fun l r => Host.dotGeneral dot_S32768x1166_S1166x50_S32768x50_1_0_0_1_n_n none l r) : (⟨S32768x1166, .f32⟩ : BufTy).Contents (Elt F) → (⟨S1166x50, .f32⟩ : BufTy).Contents (Elt F) → (⟨S32768x50, .f32⟩ : BufTy).Contents (Elt F)),
    StableHlo.unary main_arg2 main_v257 ((extractStridedSlice S1x50 ![23, 0] · slices_S25x50_S1x50_23_0) : (⟨S25x50, .f32⟩ : BufTy).Contents (Elt F) → (⟨S1x50, .f32⟩ : BufTy).Contents (Elt F)),
    StableHlo.reshape main_v257 main_v258 rfl shapeCasts_S1x50_S50,
    StableHlo.unary main_v258 main_v259 (broadcastInDim S1x50 ![1] bcast_S50_S1x50_1 : (⟨S50, .f32⟩ : BufTy).Contents (Elt F) → (⟨S1x50, .f32⟩ : BufTy).Contents (Elt F)),
    StableHlo.unary main_v259 main_v260 (broadcastInDim S32768x50 ![0, 1] bcast_S1x50_S32768x50_0_1 : (⟨S1x50, .f32⟩ : BufTy).Contents (Elt F) → (⟨S32768x50, .f32⟩ : BufTy).Contents (Elt F)),
    StableHlo.binary main_v256 main_v260 main_v261 (addf : (⟨S32768x50, .f32⟩ : BufTy).Contents (Elt F) → (⟨S32768x50, .f32⟩ : BufTy).Contents (Elt F) → (⟨S32768x50, .f32⟩ : BufTy).Contents (Elt F)),
    StableHlo.nullary main_cst_22 (constant S_ .f32 0x3C23D70A#32),
    TRef.nullary main_call23.cst (constant S_ .f32 0x00000000#32),
    TRef.unary main_call23.cst main_call23.v0 (broadcastInDim S32768x50 ![] bcast_S_S32768x50),
    TRef.binary (.of main_v261 : TRef sig ⟨S32768x50, .f32⟩) main_call23.v0 main_call23.v1 (cmpf .oge),
    TRef.unary (.of main_cst_22 : TRef sig ⟨S_, .f32⟩) main_call23.v2 id,
    TRef.unary main_call23.v2 main_call23.v3 (broadcastInDim S32768x50 ![] bcast_S_S32768x50),
    TRef.binary main_call23.v3 (.of main_v261 : TRef sig ⟨S32768x50, .f32⟩) main_call23.v4 mulf,
    TRef.ternary main_call23.v1 (.of main_v261 : TRef sig ⟨S32768x50, .f32⟩) main_call23.v4 main_call23.call0.v0 select,
    StableHlo.binary main_v252 main_v262 main_v263 ((fun a b => concatenate S32768x1216 1 [⟨S32768x1166, a⟩, ⟨S32768x50, b⟩] concatenates_S32768x1166_S32768x50_S32768x1216_d1) : (⟨S32768x1166, .f32⟩ : BufTy).Contents (Elt F) → (⟨S32768x50, .f32⟩ : BufTy).Contents (Elt F) → (⟨S32768x1216, .f32⟩ : BufTy).Contents (Elt F)) ]

-- eighteen results read back one rewrite at a time, each telling two buffers apart by computation
set_option maxHeartbeats 2000000 in
/-- The fold of layer 23's operations at its result buffer is `layer23` of the contents of its three inputs. -/
theorem layer23_out (V : Valuation τ sig (Elt F)) :
    after (opsLayer23 (F := F)) V (main_v263 : DevRef τ sig)
      = layer23 (V (main_v252 : DevRef τ sig)) (V (main_arg1 : DevRef τ sig)) (V (main_arg2 : DevRef τ sig)) := by
  unfold opsLayer23
  after_results
  rfl

set_option maxHeartbeats 2000000 in
/-- Layer 23 writes none of the five argument buffers. -/
theorem layer23_args (V : Valuation τ sig (Elt F)) :
    after (opsLayer23 (F := F)) V (main_arg0 : DevRef τ sig) = V (main_arg0 : DevRef τ sig)
    ∧ after (opsLayer23 (F := F)) V (main_arg1 : DevRef τ sig) = V (main_arg1 : DevRef τ sig)
    ∧ after (opsLayer23 (F := F)) V (main_arg2 : DevRef τ sig) = V (main_arg2 : DevRef τ sig)
    ∧ after (opsLayer23 (F := F)) V (main_arg3 : DevRef τ sig) = V (main_arg3 : DevRef τ sig)
    ∧ after (opsLayer23 (F := F)) V (main_arg4 : DevRef τ sig) = V (main_arg4 : DevRef τ sig) := by
  unfold opsLayer23
  refine ⟨?_, ?_, ?_, ?_, ?_⟩ <;> after_results

theorem layer23_sub : ∀ op ∈ (opsLayer23 : List (HloOp τ sig (Elt F))), op.bufs ⊆ tcRefs τ sig :=
  List.forall_iff_forall_mem.mp
    (show (opsLayer23 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer23_fresh : ∀ op ∈ (opsLayer23 : List (HloOp τ sig (Elt F))), op.fresh = ∅ := by
  unfold opsLayer23
  intro _ h; (repeat (cases h with | head => rfl | tail _ h => ?_)); exact nomatch h

/-- Layer 24's operations: `[batch, 1216] → [batch, 1266]`. -/
def opsLayer24 : List (HloOp τ sig (Elt F)) :=
  [ StableHlo.unary main_arg1 main_v264 ((extractStridedSlice S1x50x1216 ![24, 0, 0] · slices_S25x50x1266_S1x50x1216_24_0_0) : (⟨S25x50x1266, .f32⟩ : BufTy).Contents (Elt F) → (⟨S1x50x1216, .f32⟩ : BufTy).Contents (Elt F)),
    StableHlo.reshape main_v264 main_v265 rfl shapeCasts_S1x50x1216_S50x1216,
    StableHlo.unary main_v265 main_v266 ((transpose S1216x50 [1, 0] · transposes_S50x1216_S1216x50_1_0) : (⟨S50x1216, .f32⟩ : BufTy).Contents (Elt F) → (⟨S1216x50, .f32⟩ : BufTy).Contents (Elt F)),
    StableHlo.binary main_v263 main_v266 main_v267 ((fun l r => Host.dotGeneral dot_S32768x1216_S1216x50_S32768x50_1_0_0_1_n_n none l r) : (⟨S32768x1216, .f32⟩ : BufTy).Contents (Elt F) → (⟨S1216x50, .f32⟩ : BufTy).Contents (Elt F) → (⟨S32768x50, .f32⟩ : BufTy).Contents (Elt F)),
    StableHlo.unary main_arg2 main_v268 ((extractStridedSlice S1x50 ![24, 0] · slices_S25x50_S1x50_24_0) : (⟨S25x50, .f32⟩ : BufTy).Contents (Elt F) → (⟨S1x50, .f32⟩ : BufTy).Contents (Elt F)),
    StableHlo.reshape main_v268 main_v269 rfl shapeCasts_S1x50_S50,
    StableHlo.unary main_v269 main_v270 (broadcastInDim S1x50 ![1] bcast_S50_S1x50_1 : (⟨S50, .f32⟩ : BufTy).Contents (Elt F) → (⟨S1x50, .f32⟩ : BufTy).Contents (Elt F)),
    StableHlo.unary main_v270 main_v271 (broadcastInDim S32768x50 ![0, 1] bcast_S1x50_S32768x50_0_1 : (⟨S1x50, .f32⟩ : BufTy).Contents (Elt F) → (⟨S32768x50, .f32⟩ : BufTy).Contents (Elt F)),
    StableHlo.binary main_v267 main_v271 main_v272 (addf : (⟨S32768x50, .f32⟩ : BufTy).Contents (Elt F) → (⟨S32768x50, .f32⟩ : BufTy).Contents (Elt F) → (⟨S32768x50, .f32⟩ : BufTy).Contents (Elt F)),
    StableHlo.nullary main_cst_23 (constant S_ .f32 0x3C23D70A#32),
    TRef.nullary main_call24.cst (constant S_ .f32 0x00000000#32),
    TRef.unary main_call24.cst main_call24.v0 (broadcastInDim S32768x50 ![] bcast_S_S32768x50),
    TRef.binary (.of main_v272 : TRef sig ⟨S32768x50, .f32⟩) main_call24.v0 main_call24.v1 (cmpf .oge),
    TRef.unary (.of main_cst_23 : TRef sig ⟨S_, .f32⟩) main_call24.v2 id,
    TRef.unary main_call24.v2 main_call24.v3 (broadcastInDim S32768x50 ![] bcast_S_S32768x50),
    TRef.binary main_call24.v3 (.of main_v272 : TRef sig ⟨S32768x50, .f32⟩) main_call24.v4 mulf,
    TRef.ternary main_call24.v1 (.of main_v272 : TRef sig ⟨S32768x50, .f32⟩) main_call24.v4 main_call24.call0.v0 select,
    StableHlo.binary main_v263 main_v273 main_v274 ((fun a b => concatenate S32768x1266 1 [⟨S32768x1216, a⟩, ⟨S32768x50, b⟩] concatenates_S32768x1216_S32768x50_S32768x1266_d1) : (⟨S32768x1216, .f32⟩ : BufTy).Contents (Elt F) → (⟨S32768x50, .f32⟩ : BufTy).Contents (Elt F) → (⟨S32768x1266, .f32⟩ : BufTy).Contents (Elt F)) ]

-- eighteen results read back one rewrite at a time, each telling two buffers apart by computation
set_option maxHeartbeats 2000000 in
/-- The fold of layer 24's operations at its result buffer is `layer24` of the contents of its three inputs. -/
theorem layer24_out (V : Valuation τ sig (Elt F)) :
    after (opsLayer24 (F := F)) V (main_v274 : DevRef τ sig)
      = layer24 (V (main_v263 : DevRef τ sig)) (V (main_arg1 : DevRef τ sig)) (V (main_arg2 : DevRef τ sig)) := by
  unfold opsLayer24
  after_results
  rfl

set_option maxHeartbeats 2000000 in
/-- Layer 24 writes none of the five argument buffers. -/
theorem layer24_args (V : Valuation τ sig (Elt F)) :
    after (opsLayer24 (F := F)) V (main_arg0 : DevRef τ sig) = V (main_arg0 : DevRef τ sig)
    ∧ after (opsLayer24 (F := F)) V (main_arg1 : DevRef τ sig) = V (main_arg1 : DevRef τ sig)
    ∧ after (opsLayer24 (F := F)) V (main_arg2 : DevRef τ sig) = V (main_arg2 : DevRef τ sig)
    ∧ after (opsLayer24 (F := F)) V (main_arg3 : DevRef τ sig) = V (main_arg3 : DevRef τ sig)
    ∧ after (opsLayer24 (F := F)) V (main_arg4 : DevRef τ sig) = V (main_arg4 : DevRef τ sig) := by
  unfold opsLayer24
  refine ⟨?_, ?_, ?_, ?_, ?_⟩ <;> after_results

theorem layer24_sub : ∀ op ∈ (opsLayer24 : List (HloOp τ sig (Elt F))), op.bufs ⊆ tcRefs τ sig :=
  List.forall_iff_forall_mem.mp
    (show (opsLayer24 : List (HloOp τ sig (Elt F))).Forall fun op => op.bufs ⊆ tcRefs τ sig from
      ⟨unary_bufs_sub .., reshape_bufs_sub .., unary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩)

theorem layer24_fresh : ∀ op ∈ (opsLayer24 : List (HloOp τ sig (Elt F))), op.fresh = ∅ := by
  unfold opsLayer24
  intro _ h; (repeat (cases h with | head => rfl | tail _ h => ?_)); exact nomatch h

/-- The window's five layers in a row. -/
def opsWin4 : List (HloOp τ sig (Elt F)) :=
  opsLayer20 ++ (opsLayer21 ++ (opsLayer22 ++ (opsLayer23 ++ opsLayer24)))

-- ninety binds re-associated: the rewriting recurses once per statement
set_option maxRecDepth 8192 in
/-- The program's window 4 is that straight line (the rectifier's and the selection's definitions unfolded at their
    calls), whatever follows it. -/
theorem win4_eq (c : Dev nD) {β : Type}
    (k : Prog (TpuEff nD τ sig (Elt F) (Pipeline.Sig Λ₀ (Fin 0) fun p => (pcfgs (F := F) p).Adm) .tc) β) :
    (main_part4 (F := F) c >>= fun _ => k) = (seq (opsWin4 (F := F)) >>= fun _ => k) := by
  simp only [main_part4, fn_leaky_relu.body, fn_where.body, opsWin4, opsLayer20, opsLayer21, opsLayer22, opsLayer23, opsLayer24,
    seq, List.cons_append, List.nil_append, bind_assoc, pure_bind]

theorem win4_sub : ∀ op ∈ (opsWin4 : List (HloOp τ sig (Elt F))), op.bufs ⊆ tcRefs τ sig :=
  forall_mem_cat layer20_sub (forall_mem_cat layer21_sub (forall_mem_cat layer22_sub (forall_mem_cat layer23_sub layer24_sub)))

theorem win4_fresh : ∀ op ∈ (opsWin4 : List (HloOp τ sig (Elt F))), op.fresh = ∅ :=
  forall_mem_cat layer20_fresh (forall_mem_cat layer21_fresh (forall_mem_cat layer22_fresh (forall_mem_cat layer23_fresh layer24_fresh)))

end Cert.ReferenceIdeal.HostRun

end
-- ==== Proof.RefRunTail.lean ====
/-
  The reference's last four operations: the contraction of the final row matrix (the 1266 features of every batch row)
  with the output weights, the output bias broadcast down the batch in two steps, and their sum.  The fold of the
  four at the result buffer is the final affine map (`Layers.finalMap`) of the contents of the row matrix, the output
  weights and the output bias; the five argument buffers keep their contents.
-/
import proofs.«119617_j10823317586373_2_alg».proof.Proof.RefRunBase

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-- The final affine map's four operations. -/
def opsTail : List (HloOp τ sig (Elt F)) :=
  [ StableHlo.binary main_v274 main_arg3 main_v275 ((fun l r => Host.dotGeneral dot_S32768x1266_S1266x1_S32768x1_1_0_0_1_n_n none l r) : (⟨S32768x1266, .f32⟩ : BufTy).Contents (Elt F) → (⟨S1266x1, .f32⟩ : BufTy).Contents (Elt F) → (⟨S32768x1, .f32⟩ : BufTy).Contents (Elt F)),
    StableHlo.unary main_arg4 main_v276 (broadcastInDim S1x1 ![1] bcast_S1_S1x1_1 : (⟨S1, .f32⟩ : BufTy).Contents (Elt F) → (⟨S1x1, .f32⟩ : BufTy).Contents (Elt F)),
    StableHlo.unary main_v276 main_v277 (broadcastInDim S32768x1 ![0, 1] bcast_S1x1_S32768x1_0_1 : (⟨S1x1, .f32⟩ : BufTy).Contents (Elt F) → (⟨S32768x1, .f32⟩ : BufTy).Contents (Elt F)),
    StableHlo.binary main_v275 main_v277 main_v278 (addf : (⟨S32768x1, .f32⟩ : BufTy).Contents (Elt F) → (⟨S32768x1, .f32⟩ : BufTy).Contents (Elt F) → (⟨S32768x1, .f32⟩ : BufTy).Contents (Elt F)) ]

/-- The fold of the four at the result buffer is `finalMap` of the contents of its three inputs. -/
theorem tail_out (V : Valuation τ sig (Elt F)) :
    after (opsTail (F := F)) V (main_v278 : DevRef τ sig)
      = finalMap (V (main_v274 : DevRef τ sig)) (V (main_arg3 : DevRef τ sig)) (V (main_arg4 : DevRef τ sig)) := by
  unfold opsTail
  after_results
  rfl

/-- The four write none of the five argument buffers. -/
theorem tail_args (V : Valuation τ sig (Elt F)) :
    after (opsTail (F := F)) V (main_arg0 : DevRef τ sig) = V (main_arg0 : DevRef τ sig)
    ∧ after (opsTail (F := F)) V (main_arg1 : DevRef τ sig) = V (main_arg1 : DevRef τ sig)
    ∧ after (opsTail (F := F)) V (main_arg2 : DevRef τ sig) = V (main_arg2 : DevRef τ sig)
    ∧ after (opsTail (F := F)) V (main_arg3 : DevRef τ sig) = V (main_arg3 : DevRef τ sig)
    ∧ after (opsTail (F := F)) V (main_arg4 : DevRef τ sig) = V (main_arg4 : DevRef τ sig) := by
  unfold opsTail
  refine ⟨?_, ?_, ?_, ?_, ?_⟩ <;> after_results

theorem tail_sub : ∀ op ∈ (opsTail : List (HloOp τ sig (Elt F))), op.bufs ⊆ tcRefs τ sig :=
  List.forall_iff_forall_mem.mp
    (show (opsTail : List (HloOp τ sig (Elt F))).Forall fun op => op.bufs ⊆ tcRefs τ sig from
      ⟨binary_bufs_sub .., unary_bufs_sub .., unary_bufs_sub .., binary_bufs_sub ..⟩)

theorem tail_fresh : ∀ op ∈ (opsTail : List (HloOp τ sig (Elt F))), op.fresh = ∅ := by
  unfold opsTail
  intro _ h; (repeat (cases h with | head => rfl | tail _ h => ?_)); exact nomatch h

/-- The program's last window is that straight line. -/
theorem tail_eq (c : Dev nD) : main_part5 (F := F) c = seq opsTail := rfl

end Cert.ReferenceIdeal.HostRun

end
-- ==== Proof.RefRun.lean ====
/-
  The reference's run, read back.

  The reference launches no kernel: its program is one straight line of host operations, 25 layers of 18 operations
  each and the 4 operations of the final affine map.  The line is listed window by window, as the program is printed
  (five windows of five layers, then the final map), and the program is shown to BE the line, each window's
  statements being its list one for one.

  What the buffers hold after a line of operations is a fold over the list, and the fold over a concatenation is the
  fold over its second part started from the fold over its first.  So the last row matrix's contents after the 25
  layers unfold from the end: layer 24 leaves its pure function of the row matrix before it and of the weight and
  bias stacks, layer 23 the same of the one before, and so on down to layer 0, which reads the arguments' launch
  contents — the nest of the 25 layer functions that `Layers.featsAfter25` names; the last four operations then leave
  the final affine map of it, `Layers.refTerm`.  No operation writes an argument buffer, so the stacks each layer reads
  are the launch contents, and the arguments end as they began.  The run itself is the library's: a straight line of
  operations that touch TensorCore buffers only and determine their results terminates from any memory with each
  buffer at the fold.
-/
import proofs.«119617_j10823317586373_2_alg».proof.Proof.RefRunW0
import proofs.«119617_j10823317586373_2_alg».proof.Proof.RefRunW1
import proofs.«119617_j10823317586373_2_alg».proof.Proof.RefRunW2
import proofs.«119617_j10823317586373_2_alg».proof.Proof.RefRunW3
import proofs.«119617_j10823317586373_2_alg».proof.Proof.RefRunW4
import proofs.«119617_j10823317586373_2_alg».proof.Proof.RefRunTail

noncomputable section

namespace Cert.ReferenceIdeal.HostRun

open Cert.ReferenceIdeal Cert.ReferenceIdeal.Gen Cert.ReferenceIdeal.Layers Idealize.ShloMosaic Idealize.ShloMosaic.TcCoe Idealize.SL.Sem Idealize.ShloMosaic.StableHlo

variable {F : FTy → Type} [FloatOps F]

/-! ## The line, and the program as the line -/

/-- The 25 layers' operations: the five windows in order. -/
abbrev opsBody : List (HloOp τ sig (Elt F)) :=
  opsWin0 ++ (opsWin1 ++ (opsWin2 ++ (opsWin3 ++ opsWin4)))

/-- @main's 454 operations, in order: the five windows of five layers, then the final affine map. -/
abbrev ops : List (HloOp τ sig (Elt F)) :=
  opsWin0 ++ (opsWin1 ++ (opsWin2 ++ (opsWin3 ++ (opsWin4 ++ opsTail))))

/-- The line is the 25 layers followed by the final map (concatenation is associative). -/
theorem ops_split : (ops : List (HloOp τ sig (Elt F))) = opsBody ++ opsTail := by
  simp only [List.append_assoc]

/-- The program is that straight line: its six windows in order are the six lists in order, and running lists one
    after the other is running their concatenation. -/
theorem main_eq (c : Dev nD) : main (F := F) c = seq ops :=
  calc main (F := F) c
      = (main_part0 c >>= fun _ => main_part1 c >>= fun _ => main_part2 c >>= fun _ => main_part3 c >>= fun _ =>
          main_part4 c >>= fun _ => main_part5 c) := rfl
    _ = seq (opsWin0 ++ (opsWin1 ++ (opsWin2 ++ (opsWin3 ++ (opsWin4 ++ opsTail))))) := by
      rw [seq_append, seq_append, seq_append, seq_append, seq_append,
        win0_eq c, win1_eq c, win2_eq c, win3_eq c, win4_eq c, tail_eq c]

/-! ## The argument buffers are written by nothing -/

/-- A list of operations after which, from any contents, the five argument buffers hold what they held. -/
def KeepsArgs (l : List (HloOp τ sig (Elt F))) : Prop :=
  ∀ V : Valuation τ sig (Elt F),
    after l V (main_arg0 : DevRef τ sig) = V (main_arg0 : DevRef τ sig)
    ∧ after l V (main_arg1 : DevRef τ sig) = V (main_arg1 : DevRef τ sig)
    ∧ after l V (main_arg2 : DevRef τ sig) = V (main_arg2 : DevRef τ sig)
    ∧ after l V (main_arg3 : DevRef τ sig) = V (main_arg3 : DevRef τ sig)
    ∧ after l V (main_arg4 : DevRef τ sig) = V (main_arg4 : DevRef τ sig)

/-- Two such lists in a row are such a list. -/
theorem KeepsArgs.cat {l₁ l₂ : List (HloOp τ sig (Elt F))} (h₁ : KeepsArgs l₁) (h₂ : KeepsArgs l₂) :
    KeepsArgs (l₁ ++ l₂) := fun V => by
  obtain ⟨a0, a1, a2, a3, a4⟩ := h₁ V
  obtain ⟨b0, b1, b2, b3, b4⟩ := h₂ (after l₁ V)
  rw [after_cat]
  exact ⟨b0.trans a0, b1.trans a1, b2.trans a2, b3.trans a3, b4.trans a4⟩

theorem win0_args : KeepsArgs (opsWin0 (F := F)) := KeepsArgs.cat layer0_args (KeepsArgs.cat layer1_args (KeepsArgs.cat layer2_args (KeepsArgs.cat layer3_args layer4_args)))
theorem win1_args : KeepsArgs (opsWin1 (F := F)) := KeepsArgs.cat layer5_args (KeepsArgs.cat layer6_args (KeepsArgs.cat layer7_args (KeepsArgs.cat layer8_args layer9_args)))
theorem win2_args : KeepsArgs (opsWin2 (F := F)) := KeepsArgs.cat layer10_args (KeepsArgs.cat layer11_args (KeepsArgs.cat layer12_args (KeepsArgs.cat layer13_args layer14_args)))
theorem win3_args : KeepsArgs (opsWin3 (F := F)) := KeepsArgs.cat layer15_args (KeepsArgs.cat layer16_args (KeepsArgs.cat layer17_args (KeepsArgs.cat layer18_args layer19_args)))
theorem win4_args : KeepsArgs (opsWin4 (F := F)) := KeepsArgs.cat layer20_args (KeepsArgs.cat layer21_args (KeepsArgs.cat layer22_args (KeepsArgs.cat layer23_args layer24_args)))

theorem body_args : KeepsArgs (opsBody (F := F)) :=
  win0_args.cat (win1_args.cat (win2_args.cat (win3_args.cat win4_args)))

/-- The five argument buffers after the whole line hold what they held. -/
theorem ops_args : KeepsArgs (ops (F := F)) :=
  win0_args.cat (win1_args.cat (win2_args.cat (win3_args.cat (win4_args.cat tail_args))))

/-! ## The result -/

/-- The last row matrix after the 25 layers, from any contents `V`: the nest of the 25 layer functions over what `V`
    holds at the first three arguments.  The fold is split at every concatenation; then, from the end, each layer's
    fold at its result buffer is the layer's function of the buffers it reads, and the weight and bias stacks read
    through a layer are read before it. -/
theorem body_out (V : Valuation τ sig (Elt F)) :
    after (opsBody (F := F)) V (main_v274 : DevRef τ sig)
      = featsAfter25 (V (main_arg0 : DevRef τ sig)) (V (main_arg1 : DevRef τ sig)) (V (main_arg2 : DevRef τ sig)) := by
  simp only [opsBody, opsWin0, opsWin1, opsWin2, opsWin3, opsWin4, after_cat]
  rw [layer24_out, layer23_out, (layer23_args _).2.1, (layer23_args _).2.2.1, layer22_out,
    (layer22_args _).2.1, (layer22_args _).2.2.1, layer21_out, (layer21_args _).2.1, (layer21_args _).2.2.1,
    layer20_out, (layer20_args _).2.1, (layer20_args _).2.2.1, layer19_out, (layer19_args _).2.1,
    (layer19_args _).2.2.1, layer18_out, (layer18_args _).2.1, (layer18_args _).2.2.1, layer17_out,
    (layer17_args _).2.1, (layer17_args _).2.2.1, layer16_out, (layer16_args _).2.1, (layer16_args _).2.2.1,
    layer15_out, (layer15_args _).2.1, (layer15_args _).2.2.1, layer14_out, (layer14_args _).2.1,
    (layer14_args _).2.2.1, layer13_out, (layer13_args _).2.1, (layer13_args _).2.2.1, layer12_out,
    (layer12_args _).2.1, (layer12_args _).2.2.1, layer11_out, (layer11_args _).2.1, (layer11_args _).2.2.1,
    layer10_out, (layer10_args _).2.1, (layer10_args _).2.2.1, layer9_out, (layer9_args _).2.1,
    (layer9_args _).2.2.1, layer8_out, (layer8_args _).2.1, (layer8_args _).2.2.1, layer7_out,
    (layer7_args _).2.1, (layer7_args _).2.2.1, layer6_out, (layer6_args _).2.1, (layer6_args _).2.2.1,
    layer5_out, (layer5_args _).2.1, (layer5_args _).2.2.1, layer4_out, (layer4_args _).2.1,
    (layer4_args _).2.2.1, layer3_out, (layer3_args _).2.1, (layer3_args _).2.2.1, layer2_out,
    (layer2_args _).2.1, (layer2_args _).2.2.1, layer1_out, (layer1_args _).2.1, (layer1_args _).2.2.1,
    layer0_out, (layer0_args _).2.1, (layer0_args _).2.2.1]
  rfl

/-- The result buffer after the whole line, from any contents `V`: the final affine map of that nest — the final
    map's operations read the last row matrix and the last two arguments as the 25 layers left them. -/
theorem ops_out (V : Valuation τ sig (Elt F)) :
    after (ops (F := F)) V (main_v278 : DevRef τ sig)
      = refTerm (V (main_arg0 : DevRef τ sig)) (V (main_arg1 : DevRef τ sig)) (V (main_arg2 : DevRef τ sig))
          (V (main_arg3 : DevRef τ sig)) (V (main_arg4 : DevRef τ sig)) := by
  rw [ops_split, after_cat, tail_out, body_out, (body_args V).2.2.2.1, (body_args V).2.2.2.2]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  List.forall_iff_forall_mem.mpr
    (forall_mem_cat win0_sub (forall_mem_cat win1_sub (forall_mem_cat win2_sub (forall_mem_cat win3_sub
      (forall_mem_cat win4_sub tail_sub)))))

/-- Every operation of the line determines its results. -/
theorem ops_fresh : ∀ op ∈ (ops : List (HloOp τ sig (Elt F))), op.fresh = ∅ :=
  forall_mem_cat win0_fresh (forall_mem_cat win1_fresh (forall_mem_cat win2_fresh (forall_mem_cat win3_fresh
    (forall_mem_cat win4_fresh tail_fresh))))

/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have a := ops_args (F := F) (launchContents m c)
      ⟨(h c main_v278).trans (ops_out (launchContents m c)),
        (h c main_arg0).trans a.1, (h c main_arg1).trans a.2.1, (h c main_arg2).trans a.2.2.1,
        (h c main_arg3).trans a.2.2.2.1, (h c main_arg4).trans a.2.2.2.2⟩)
    (run_seq scopedRefs_eq scopedSems_eq defs main (fun _ => ops) main_eq (fun _ => ops_sub) m ρ (fun _ => ops_fresh))

end Cert.ReferenceIdeal.HostRun

end
-- ==== Proof.RefValueStep.lean ====
/-
  The reference's layer, read index by index.

  One layer of the reference appends to the row matrix `X` (width `w`) the 50 columns
  `rectifier (X · Wₙᵀ + bₙ)`.  Read at row `r` and column `k`: for `k < w` the entry is `X`'s own;
  for `k = w + j` it is the rectifier of `∑ k' < w, X r k' · W n j k' + b n j`.  That is exactly the
  recurrence `feat` of the specification, so if `X`'s row `r` holds `feat … n`, the layer's holds `feat … (n + 1)`.
  The lemma is stated once, over a variable width, with the layer's shape facts and contraction record as
  hypotheses; the 25 layers are its instances.
-/
import proofs.«119617_j10823317586373_2_alg».proof.Proof.Spec
import proofs.«119617_j10823317586373_2_alg».proof.Proof.RefLayers
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.RefValue

open Idealize.ShloMosaic Idealize.ShloMosaic.ValueIdx Cert.GrowingMlp Cert.ReferenceIdeal Cert.ReferenceIdeal.Gen
open scoped BigOperators

/-! ## A contraction record with one free axis on each side -/

/-- On the left operand's one free axis (no batch axes) the left index is the result index's first coordinate. -/
theorem lhsIdx_val_of_free {sl sr so : Shape} (d : DotDims sl sr so) {a : Fin sl.rank}
    (hb : d.lhsBatch = []) (hn : d.lhsNonContracting = [a]) (j : so.Idx) (k : d.contr.Idx) :
    (d.lhsIdx j k a).val = (j ⟨0, by rw [d.rank_out, hn]; simp⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's one free axis (no batch axes, one free axis on the left) the right index is the result
    index's second coordinate. -/
theorem rhsIdx_val_of_free {sl sr so : Shape} (d : DotDims sl sr so) {a : Fin sl.rank} {b : Fin sr.rank}
    (hlb : d.lhsBatch = []) (hrb : d.rhsBatch = []) (hln : d.lhsNonContracting = [a]) (hrn : d.rhsNonContracting = [b])
    (j : so.Idx) (k : d.contr.Idx) :
    (d.rhsIdx j k b).val = (j ⟨1, by rw [d.rank_out, hln, hrn]; simp⟩).val := by
  have hnb : b ∉ d.rhsBatch := by rw [hrb]; exact List.not_mem_nil
  have hmem : b ∈ d.rhsNonContracting := by rw [hrn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

/-- A matrix product on the host, read at `(r, c)`: the plain sum over the shared axis. -/
theorem dot_apply {M K N : ℕ} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (X : FVec Ideal ⟨2, ![M, K]⟩ .f32) (Y : FVec Ideal ⟨2, ![K, N]⟩ .f32) (r : Fin M) (c : Fin N) :
    Host.dotGeneral (F := Ideal) D none X Y (ix2 r c) = ∑ k : Fin K, X (ix2 r k) * Y (ix2 k c) := by
  have hr : D.contr.rank = 1 := by rw [D.rank_contr, hlc]; rfl
  have hs : D.contr.size ⟨0, by omega⟩ = K := by
    have h0 := D.size_contr 0 (by rw [hlc]; exact Nat.one_pos)
    rw [h0]
    simp only [hlc, List.getElem_cons_zero]
    rfl
  simp only [Host.dotGeneral]
  rw [Ideal.dotGeneral_apply, ← Equiv.sum_comp (contrEquiv1 D K hr hs).symm]
  refine Finset.sum_congr rfl fun k _ => ?_
  have eL : D.lhsIdx (ix2 r c) ((contrEquiv1 D K hr hs).symm k) = ix2 r k := by
    funext a
    match a with
    | ⟨0, _⟩ => exact Fin.ext (lhsIdx_val_of_free D hlb hln (ix2 r c) _)
    | ⟨1, _⟩ => exact Fin.ext ((D.lhsIdx_val_of_single hlc (ix2 r c) _).trans (contrEquiv1_symm_val D K hr hs k))
  have eR : D.rhsIdx (ix2 r c) ((contrEquiv1 D K hr hs).symm k) = ix2 k c := by
    funext a
    match a with
    | ⟨0, _⟩ => exact Fin.ext ((D.rhsIdx_val_of_single hrc (ix2 r c) _).trans (contrEquiv1_symm_val D K hr hs k))
    | ⟨1, _⟩ => exact Fin.ext (rhsIdx_val_of_free D hlb hrb hln hrn (ix2 r c) _)
  rw [eL, eR]

/-! ## The pieces of one layer at an index -/

/-- The reference's rectifier on an array is the specification's rectifier entry by entry. -/
theorem act_apply (y : FVec Ideal ⟨2, ![32768, 50]⟩ .f32) (i : (⟨2, ![32768, 50]⟩ : Shape).Idx) :
    Layers.act (F := Ideal) y i = lrelu (y i) := rfl

/-- Layer `n`'s bias row broadcast down the batch reads, at `(r, j)`, the bias stack at `(n, j)`. -/
theorem biasRows_apply (n : Fin 25) (h : S25x50.Slices ![n.val, 0] S1x50) (bs : FVec Ideal ⟨2, ![25, 50]⟩ .f32)
    (r : Fin 32768) (j : Fin 50) :
    Layers.biasRows (F := Ideal) n h bs (ix2 r j) = bs (ix2 n j) := by
  unfold Layers.biasRows
  refine (broadcastInDim_apply _ _ _ (ix2 r j) (ix2 (0 : Fin 1) j) fun a => ?_).trans ?_
  · match a with
    | ⟨0, _⟩ => rfl
    | ⟨1, _⟩ => rfl
  refine (broadcastInDim_apply _ _ _ (ix2 (0 : Fin 1) j) (ix1 j) fun a => ?_).trans ?_
  · match a with
    | ⟨0, _⟩ => rfl
  refine (shapeCast_1a_a_apply _ _ j).trans ?_
  exact slice2_axis0_apply n.val bs h (0 : Fin 1) j n (by simp)

/-- Layer `n`'s weights as the contraction reads them — the stack's slab `n`, its unit axis dropped, transposed —
    at `(k, j)`: the stack at `(n, j, k)`. -/
theorem weights_apply (n : Fin 25) {w : ℕ} (hw : w ≤ 1266) (Ws : FVec Ideal ⟨3, ![25, 50, 1266]⟩ .f32)
    (hS : (⟨3, ![25, 50, 1266]⟩ : Shape).Slices ![n.val, 0, 0] ⟨3, ![1, 50, w]⟩)
    (hC : (⟨3, ![1, 50, w]⟩ : Shape).ShapeCasts ⟨2, ![50, w]⟩)
    (hT : (⟨2, ![50, w]⟩ : Shape).Transposes [1, 0] ⟨2, ![w, 50]⟩) (k : Fin w) (j : Fin 50) :
    transpose (⟨2, ![w, 50]⟩ : Shape) [1, 0]
      (shapeCast (⟨2, ![50, w]⟩ : Shape) (extractStridedSlice (⟨3, ![1, 50, w]⟩ : Shape) ![n.val, 0, 0] Ws hS) hC) hT (ix2 k j)
      = Ws (ix3 n j ⟨k.val, lt_of_lt_of_le k.isLt hw⟩) := by
  refine (transpose_ix2_apply _ hT k j).trans ?_
  refine (shapeCast_1ab_ab_apply _ hC j k).trans ?_
  refine extractStridedSlice_apply _ Ws hS _ _ fun a => ?_
  match a with
  | ⟨0, _⟩ => rfl
  | ⟨1, _⟩ => exact (Nat.zero_add _).symm
  | ⟨2, _⟩ => exact (Nat.zero_add _).symm

/-! ## One layer -/

/-- THE LAYER STEP.  If row `r` of `X` (width `w = width n`) holds the specification's features after `n` layers, then
    row `r` of layer `n`'s result — `X` with the 50 columns `rectifier (X · Wₙᵀ + bₙ)` appended — holds the features
    after `n + 1` layers.  Columns below `w` are `X`'s own, kept by the recurrence; column `w + j` is the rectifier of
    the contraction of row `r` with the weights `W n j ·` over exactly the `w` columns present, plus `b n j`. -/
theorem layer_step (n : ℕ) (nF : Fin 25) (hnF : nF.val = n) {w w' : ℕ} (hw : w = width n) (hw' : w' = w + 50) (hwK : w ≤ 1266)
    (D : DotDims ⟨2, ![32768, w]⟩ ⟨2, ![w, 50]⟩ ⟨2, ![32768, 50]⟩)
    (hlc : D.lhsContracting = [1]) (hrc : D.rhsContracting = [0])
    (hln : D.lhsNonContracting = [0]) (hrn : D.rhsNonContracting = [1])
    (hlb : D.lhsBatch = []) (hrb : D.rhsBatch = [])
    (hS : (⟨3, ![25, 50, 1266]⟩ : Shape).Slices ![nF.val, 0, 0] ⟨3, ![1, 50, w]⟩)
    (hC : (⟨3, ![1, 50, w]⟩ : Shape).ShapeCasts ⟨2, ![50, w]⟩)
    (hT : (⟨2, ![50, w]⟩ : Shape).Transposes [1, 0] ⟨2, ![w, 50]⟩)
    (hB : S25x50.Slices ![nF.val, 0] S1x50)
    (hK : Shape.Concatenates [(⟨2, ![32768, w]⟩ : Shape), (⟨2, ![32768, 50]⟩ : Shape)] ⟨2, ![32768, w']⟩ 1)
    (X : FVec Ideal ⟨2, ![32768, w]⟩ .f32) (Ws : FVec Ideal ⟨3, ![25, 50, 1266]⟩ .f32) (bs : FVec Ideal ⟨2, ![25, 50]⟩ .f32)
    (s : ℕ → EReal) (r : Fin 32768)
    (hX : ∀ (k : ℕ) (h : k < w), X (ix2 r ⟨k, h⟩) = feat s (weightOf Ws) (biasOf bs) n k)
    (k : ℕ) (h : k < w') :
    concatenate (⟨2, ![32768, w']⟩ : Shape) 1
        [⟨(⟨2, ![32768, w]⟩ : Shape), X⟩,
         ⟨(⟨2, ![32768, 50]⟩ : Shape), Layers.act (F := Ideal) (addf
            (Host.dotGeneral (F := Ideal) D none X
              (transpose (⟨2, ![w, 50]⟩ : Shape) [1, 0]
                (shapeCast (⟨2, ![50, w]⟩ : Shape) (extractStridedSlice (⟨3, ![1, 50, w]⟩ : Shape) ![nF.val, 0, 0] Ws hS) hC) hT))
            (Layers.biasRows (F := Ideal) nF hB bs))⟩] hK (ix2 r ⟨k, h⟩)
      = feat s (weightOf Ws) (biasOf bs) (n + 1) k := by
  have hn25 : n < 25 := hnF ▸ nF.isLt
  by_cases hk : k < w
  · -- a column already present: the first piece, and the recurrence keeps it
    rw [feat_succ_lt s _ _ (hw ▸ hk), ← hX k hk]
    exact concatenate_pair_apply_left 1 X _ hK (ix2 r ⟨k, h⟩) rfl (ix2 r ⟨k, hk⟩) fun b => by
      match b with
      | ⟨0, _⟩ => rfl
      | ⟨1, _⟩ => rfl
  · -- a new column `w + j`: the second piece at `(r, j)`
    have hwk : w ≤ k := Nat.not_lt.mp hk
    obtain ⟨j, rfl⟩ : ∃ j, k = w + j := ⟨k - w, by omega⟩
    have hj' : j < 50 := by omega
    refine (concatenate_pair_apply_right 1 X _ hK (ix2 r ⟨w + j, h⟩) rfl rfl (ix2 r ⟨j, hj'⟩) (fun b hb => ?_) ?_).trans ?_
    · match b with
      | ⟨0, _⟩ => rfl
      | ⟨1, _⟩ => exact absurd rfl hb
    · show j + w = w + j
      exact Nat.add_comm j w
    have hnew : feat s (weightOf Ws) (biasOf bs) (n + 1) (w + j)
        = lrelu ((∑ k' ∈ Finset.range w, feat s (weightOf Ws) (biasOf bs) n k' * weightOf Ws n j k') + biasOf bs n j) := by
      rw [hw]; exact feat_new s _ _ n j
    rw [act_apply, addf_apply, dot_apply D hlc hrc hln hrn hlb hrb, biasRows_apply, hnew]
    congr 1
    congr 1
    · -- the contraction: the invariant on the row, the weight stack on the weights, then `Fin w` to `range w`
      rw [← sum_fin_eq_range w fun k' => feat s (weightOf Ws) (biasOf bs) n k' * weightOf Ws n j k']
      refine Finset.sum_congr rfl fun k' _ => ?_
      rw [weights_apply nF hwK Ws hS hC hT k' ⟨j, hj'⟩, hX k'.val k'.isLt,
        weightOf_lt Ws hn25 hj' (lt_of_lt_of_le k'.isLt hwK)]
      subst hnF
      rfl
    · rw [biasOf_lt bs hn25 hj']
      subst hnF
      rfl

/-! ## The final affine map -/

/-- The final map at `(r, 0)`: the contraction of row `r` with the output weights over the 1266 features, plus the
    output bias. -/
theorem finalMap_apply (X : FVec Ideal ⟨2, ![32768, 1266]⟩ .f32) (Wout : FVec Ideal ⟨2, ![1266, 1]⟩ .f32)
    (bout : FVec Ideal ⟨1, ![1]⟩ .f32) (r : Fin 32768) :
    Layers.finalMap (F := Ideal) X Wout bout (ix2 r (0 : Fin 1))
      = (∑ k : Fin 1266, X (ix2 r k) * Wout (ix2 k (0 : Fin 1))) + bout (ix1 (0 : Fin 1)) := by
  unfold Layers.finalMap
  rw [addf_apply, dot_apply _ rfl rfl rfl rfl rfl rfl]
  congr 1
  refine (broadcastInDim_apply _ _ _ (ix2 r (0 : Fin 1)) (ix2 (0 : Fin 1) (0 : Fin 1)) fun a => ?_).trans ?_
  · match a with
    | ⟨0, _⟩ => rfl
    | ⟨1, _⟩ => rfl
  refine broadcastInDim_apply _ _ _ (ix2 (0 : Fin 1) (0 : Fin 1)) (ix1 (0 : Fin 1)) fun a => ?_
  match a with
  | ⟨0, _⟩ => rfl

end Cert.ReferenceIdeal.RefValue

end
-- ==== Proof.RefValueChain.lean ====
/-
  The reference's row matrix after each layer, read index by index.

  By induction along the 25 layers: row `r` of the row matrix after `n` layers holds, in its `16 + 50 n` columns, the
  specification's features `feat … n` of row `r` of the input.  The matrix before the first layer is the input itself;
  each further layer is one instance of the layer step, at that layer's width, with the layer's shape facts and
  contraction record as the step's arguments and the previous layer's statement as its hypothesis.
-/
import proofs.«119617_j10823317586373_2_alg».proof.Proof.RefValueStep

noncomputable section

namespace Cert.ReferenceIdeal.RefValue

open Idealize.ShloMosaic Idealize.ShloMosaic.ValueIdx Cert.GrowingMlp Cert.ReferenceIdeal Cert.ReferenceIdeal.Gen

/-- Before the first layer the row matrix is the input: row `r` holds the features after 0 layers. -/
theorem feats0_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 16) :
    state (ix2 r ⟨k, h⟩) = feat (rowOf state r) (weightOf Ws) (biasOf bs) 0 k :=
  (rowOf_lt state r h).symm

/-- After layer 0: row `r` of the row matrix (width 66) holds the specification's features `feat … 1`. -/
theorem feats1_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 66) :
    Layers.featsAfter1 (F := Ideal) state Ws bs (ix2 r ⟨k, h⟩) = feat (rowOf state r) (weightOf Ws) (biasOf bs) 1 k := by
  unfold Layers.featsAfter1 Layers.layer0
  exact layer_step 0 0 rfl (w := 16) (w' := 66) rfl rfl (by decide) dot_S32768x16_S16x50_S32768x50_1_0_0_1_n_n rfl rfl rfl rfl rfl rfl
    slices_S25x50x1266_S1x50x16_0_0_0 shapeCasts_S1x50x16_S50x16 transposes_S50x16_S16x50_1_0 slices_S25x50_S1x50_0_0
    concatenates_S32768x16_S32768x50_S32768x66_d1 state Ws bs (rowOf state r) r
    (fun k h => feats0_apply state Ws bs r k h) k h

/-- After layer 1: row `r` of the row matrix (width 116) holds the specification's features `feat … 2`. -/
theorem feats2_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 116) :
    Layers.featsAfter2 (F := Ideal) state Ws bs (ix2 r ⟨k, h⟩) = feat (rowOf state r) (weightOf Ws) (biasOf bs) 2 k := by
  unfold Layers.featsAfter2 Layers.layer1
  exact layer_step 1 1 rfl (w := 66) (w' := 116) rfl rfl (by decide) dot_S32768x66_S66x50_S32768x50_1_0_0_1_n_n rfl rfl rfl rfl rfl rfl
    slices_S25x50x1266_S1x50x66_1_0_0 shapeCasts_S1x50x66_S50x66 transposes_S50x66_S66x50_1_0 slices_S25x50_S1x50_1_0
    concatenates_S32768x66_S32768x50_S32768x116_d1 (Layers.featsAfter1 (F := Ideal) state Ws bs) Ws bs (rowOf state r) r
    (fun k h => feats1_apply state Ws bs r k h) k h

/-- After layer 2: row `r` of the row matrix (width 166) holds the specification's features `feat … 3`. -/
theorem feats3_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 166) :
    Layers.featsAfter3 (F := Ideal) state Ws bs (ix2 r ⟨k, h⟩) = feat (rowOf state r) (weightOf Ws) (biasOf bs) 3 k := by
  unfold Layers.featsAfter3 Layers.layer2
  exact layer_step 2 2 rfl (w := 116) (w' := 166) rfl rfl (by decide) dot_S32768x116_S116x50_S32768x50_1_0_0_1_n_n rfl rfl rfl rfl rfl rfl
    slices_S25x50x1266_S1x50x116_2_0_0 shapeCasts_S1x50x116_S50x116 transposes_S50x116_S116x50_1_0 slices_S25x50_S1x50_2_0
    concatenates_S32768x116_S32768x50_S32768x166_d1 (Layers.featsAfter2 (F := Ideal) state Ws bs) Ws bs (rowOf state r) r
    (fun k h => feats2_apply state Ws bs r k h) k h

/-- After layer 3: row `r` of the row matrix (width 216) holds the specification's features `feat … 4`. -/
theorem feats4_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 216) :
    Layers.featsAfter4 (F := Ideal) state Ws bs (ix2 r ⟨k, h⟩) = feat (rowOf state r) (weightOf Ws) (biasOf bs) 4 k := by
  unfold Layers.featsAfter4 Layers.layer3
  exact layer_step 3 3 rfl (w := 166) (w' := 216) rfl rfl (by decide) dot_S32768x166_S166x50_S32768x50_1_0_0_1_n_n rfl rfl rfl rfl rfl rfl
    slices_S25x50x1266_S1x50x166_3_0_0 shapeCasts_S1x50x166_S50x166 transposes_S50x166_S166x50_1_0 slices_S25x50_S1x50_3_0
    concatenates_S32768x166_S32768x50_S32768x216_d1 (Layers.featsAfter3 (F := Ideal) state Ws bs) Ws bs (rowOf state r) r
    (fun k h => feats3_apply state Ws bs r k h) k h

/-- After layer 4: row `r` of the row matrix (width 266) holds the specification's features `feat … 5`. -/
theorem feats5_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 266) :
    Layers.featsAfter5 (F := Ideal) state Ws bs (ix2 r ⟨k, h⟩) = feat (rowOf state r) (weightOf Ws) (biasOf bs) 5 k := by
  unfold Layers.featsAfter5 Layers.layer4
  exact layer_step 4 4 rfl (w := 216) (w' := 266) rfl rfl (by decide) dot_S32768x216_S216x50_S32768x50_1_0_0_1_n_n rfl rfl rfl rfl rfl rfl
    slices_S25x50x1266_S1x50x216_4_0_0 shapeCasts_S1x50x216_S50x216 transposes_S50x216_S216x50_1_0 slices_S25x50_S1x50_4_0
    concatenates_S32768x216_S32768x50_S32768x266_d1 (Layers.featsAfter4 (F := Ideal) state Ws bs) Ws bs (rowOf state r) r
    (fun k h => feats4_apply state Ws bs r k h) k h

/-- After layer 5: row `r` of the row matrix (width 316) holds the specification's features `feat … 6`. -/
theorem feats6_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 316) :
    Layers.featsAfter6 (F := Ideal) state Ws bs (ix2 r ⟨k, h⟩) = feat (rowOf state r) (weightOf Ws) (biasOf bs) 6 k := by
  unfold Layers.featsAfter6 Layers.layer5
  exact layer_step 5 5 rfl (w := 266) (w' := 316) rfl rfl (by decide) dot_S32768x266_S266x50_S32768x50_1_0_0_1_n_n rfl rfl rfl rfl rfl rfl
    slices_S25x50x1266_S1x50x266_5_0_0 shapeCasts_S1x50x266_S50x266 transposes_S50x266_S266x50_1_0 slices_S25x50_S1x50_5_0
    concatenates_S32768x266_S32768x50_S32768x316_d1 (Layers.featsAfter5 (F := Ideal) state Ws bs) Ws bs (rowOf state r) r
    (fun k h => feats5_apply state Ws bs r k h) k h

/-- After layer 6: row `r` of the row matrix (width 366) holds the specification's features `feat … 7`. -/
theorem feats7_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 366) :
    Layers.featsAfter7 (F := Ideal) state Ws bs (ix2 r ⟨k, h⟩) = feat (rowOf state r) (weightOf Ws) (biasOf bs) 7 k := by
  unfold Layers.featsAfter7 Layers.layer6
  exact layer_step 6 6 rfl (w := 316) (w' := 366) rfl rfl (by decide) dot_S32768x316_S316x50_S32768x50_1_0_0_1_n_n rfl rfl rfl rfl rfl rfl
    slices_S25x50x1266_S1x50x316_6_0_0 shapeCasts_S1x50x316_S50x316 transposes_S50x316_S316x50_1_0 slices_S25x50_S1x50_6_0
    concatenates_S32768x316_S32768x50_S32768x366_d1 (Layers.featsAfter6 (F := Ideal) state Ws bs) Ws bs (rowOf state r) r
    (fun k h => feats6_apply state Ws bs r k h) k h

/-- After layer 7: row `r` of the row matrix (width 416) holds the specification's features `feat … 8`. -/
theorem feats8_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 416) :
    Layers.featsAfter8 (F := Ideal) state Ws bs (ix2 r ⟨k, h⟩) = feat (rowOf state r) (weightOf Ws) (biasOf bs) 8 k := by
  unfold Layers.featsAfter8 Layers.layer7
  exact layer_step 7 7 rfl (w := 366) (w' := 416) rfl rfl (by decide) dot_S32768x366_S366x50_S32768x50_1_0_0_1_n_n rfl rfl rfl rfl rfl rfl
    slices_S25x50x1266_S1x50x366_7_0_0 shapeCasts_S1x50x366_S50x366 transposes_S50x366_S366x50_1_0 slices_S25x50_S1x50_7_0
    concatenates_S32768x366_S32768x50_S32768x416_d1 (Layers.featsAfter7 (F := Ideal) state Ws bs) Ws bs (rowOf state r) r
    (fun k h => feats7_apply state Ws bs r k h) k h

/-- After layer 8: row `r` of the row matrix (width 466) holds the specification's features `feat … 9`. -/
theorem feats9_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 466) :
    Layers.featsAfter9 (F := Ideal) state Ws bs (ix2 r ⟨k, h⟩) = feat (rowOf state r) (weightOf Ws) (biasOf bs) 9 k := by
  unfold Layers.featsAfter9 Layers.layer8
  exact layer_step 8 8 rfl (w := 416) (w' := 466) rfl rfl (by decide) dot_S32768x416_S416x50_S32768x50_1_0_0_1_n_n rfl rfl rfl rfl rfl rfl
    slices_S25x50x1266_S1x50x416_8_0_0 shapeCasts_S1x50x416_S50x416 transposes_S50x416_S416x50_1_0 slices_S25x50_S1x50_8_0
    concatenates_S32768x416_S32768x50_S32768x466_d1 (Layers.featsAfter8 (F := Ideal) state Ws bs) Ws bs (rowOf state r) r
    (fun k h => feats8_apply state Ws bs r k h) k h

/-- After layer 9: row `r` of the row matrix (width 516) holds the specification's features `feat … 10`. -/
theorem feats10_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 516) :
    Layers.featsAfter10 (F := Ideal) state Ws bs (ix2 r ⟨k, h⟩) = feat (rowOf state r) (weightOf Ws) (biasOf bs) 10 k := by
  unfold Layers.featsAfter10 Layers.layer9
  exact layer_step 9 9 rfl (w := 466) (w' := 516) rfl rfl (by decide) dot_S32768x466_S466x50_S32768x50_1_0_0_1_n_n rfl rfl rfl rfl rfl rfl
    slices_S25x50x1266_S1x50x466_9_0_0 shapeCasts_S1x50x466_S50x466 transposes_S50x466_S466x50_1_0 slices_S25x50_S1x50_9_0
    concatenates_S32768x466_S32768x50_S32768x516_d1 (Layers.featsAfter9 (F := Ideal) state Ws bs) Ws bs (rowOf state r) r
    (fun k h => feats9_apply state Ws bs r k h) k h

/-- After layer 10: row `r` of the row matrix (width 566) holds the specification's features `feat … 11`. -/
theorem feats11_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 566) :
    Layers.featsAfter11 (F := Ideal) state Ws bs (ix2 r ⟨k, h⟩) = feat (rowOf state r) (weightOf Ws) (biasOf bs) 11 k := by
  unfold Layers.featsAfter11 Layers.layer10
  exact layer_step 10 10 rfl (w := 516) (w' := 566) rfl rfl (by decide) dot_S32768x516_S516x50_S32768x50_1_0_0_1_n_n rfl rfl rfl rfl rfl rfl
    slices_S25x50x1266_S1x50x516_10_0_0 shapeCasts_S1x50x516_S50x516 transposes_S50x516_S516x50_1_0 slices_S25x50_S1x50_10_0
    concatenates_S32768x516_S32768x50_S32768x566_d1 (Layers.featsAfter10 (F := Ideal) state Ws bs) Ws bs (rowOf state r) r
    (fun k h => feats10_apply state Ws bs r k h) k h

/-- After layer 11: row `r` of the row matrix (width 616) holds the specification's features `feat … 12`. -/
theorem feats12_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 616) :
    Layers.featsAfter12 (F := Ideal) state Ws bs (ix2 r ⟨k, h⟩) = feat (rowOf state r) (weightOf Ws) (biasOf bs) 12 k := by
  unfold Layers.featsAfter12 Layers.layer11
  exact layer_step 11 11 rfl (w := 566) (w' := 616) rfl rfl (by decide) dot_S32768x566_S566x50_S32768x50_1_0_0_1_n_n rfl rfl rfl rfl rfl rfl
    slices_S25x50x1266_S1x50x566_11_0_0 shapeCasts_S1x50x566_S50x566 transposes_S50x566_S566x50_1_0 slices_S25x50_S1x50_11_0
    concatenates_S32768x566_S32768x50_S32768x616_d1 (Layers.featsAfter11 (F := Ideal) state Ws bs) Ws bs (rowOf state r) r
    (fun k h => feats11_apply state Ws bs r k h) k h

/-- After layer 12: row `r` of the row matrix (width 666) holds the specification's features `feat … 13`. -/
theorem feats13_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 666) :
    Layers.featsAfter13 (F := Ideal) state Ws bs (ix2 r ⟨k, h⟩) = feat (rowOf state r) (weightOf Ws) (biasOf bs) 13 k := by
  unfold Layers.featsAfter13 Layers.layer12
  exact layer_step 12 12 rfl (w := 616) (w' := 666) rfl rfl (by decide) dot_S32768x616_S616x50_S32768x50_1_0_0_1_n_n rfl rfl rfl rfl rfl rfl
    slices_S25x50x1266_S1x50x616_12_0_0 shapeCasts_S1x50x616_S50x616 transposes_S50x616_S616x50_1_0 slices_S25x50_S1x50_12_0
    concatenates_S32768x616_S32768x50_S32768x666_d1 (Layers.featsAfter12 (F := Ideal) state Ws bs) Ws bs (rowOf state r) r
    (fun k h => feats12_apply state Ws bs r k h) k h

/-- After layer 13: row `r` of the row matrix (width 716) holds the specification's features `feat … 14`. -/
theorem feats14_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 716) :
    Layers.featsAfter14 (F := Ideal) state Ws bs (ix2 r ⟨k, h⟩) = feat (rowOf state r) (weightOf Ws) (biasOf bs) 14 k := by
  unfold Layers.featsAfter14 Layers.layer13
  exact layer_step 13 13 rfl (w := 666) (w' := 716) rfl rfl (by decide) dot_S32768x666_S666x50_S32768x50_1_0_0_1_n_n rfl rfl rfl rfl rfl rfl
    slices_S25x50x1266_S1x50x666_13_0_0 shapeCasts_S1x50x666_S50x666 transposes_S50x666_S666x50_1_0 slices_S25x50_S1x50_13_0
    concatenates_S32768x666_S32768x50_S32768x716_d1 (Layers.featsAfter13 (F := Ideal) state Ws bs) Ws bs (rowOf state r) r
    (fun k h => feats13_apply state Ws bs r k h) k h

/-- After layer 14: row `r` of the row matrix (width 766) holds the specification's features `feat … 15`. -/
theorem feats15_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 766) :
    Layers.featsAfter15 (F := Ideal) state Ws bs (ix2 r ⟨k, h⟩) = feat (rowOf state r) (weightOf Ws) (biasOf bs) 15 k := by
  unfold Layers.featsAfter15 Layers.layer14
  exact layer_step 14 14 rfl (w := 716) (w' := 766) rfl rfl (by decide) dot_S32768x716_S716x50_S32768x50_1_0_0_1_n_n rfl rfl rfl rfl rfl rfl
    slices_S25x50x1266_S1x50x716_14_0_0 shapeCasts_S1x50x716_S50x716 transposes_S50x716_S716x50_1_0 slices_S25x50_S1x50_14_0
    concatenates_S32768x716_S32768x50_S32768x766_d1 (Layers.featsAfter14 (F := Ideal) state Ws bs) Ws bs (rowOf state r) r
    (fun k h => feats14_apply state Ws bs r k h) k h

/-- After layer 15: row `r` of the row matrix (width 816) holds the specification's features `feat … 16`. -/
theorem feats16_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 816) :
    Layers.featsAfter16 (F := Ideal) state Ws bs (ix2 r ⟨k, h⟩) = feat (rowOf state r) (weightOf Ws) (biasOf bs) 16 k := by
  unfold Layers.featsAfter16 Layers.layer15
  exact layer_step 15 15 rfl (w := 766) (w' := 816) rfl rfl (by decide) dot_S32768x766_S766x50_S32768x50_1_0_0_1_n_n rfl rfl rfl rfl rfl rfl
    slices_S25x50x1266_S1x50x766_15_0_0 shapeCasts_S1x50x766_S50x766 transposes_S50x766_S766x50_1_0 slices_S25x50_S1x50_15_0
    concatenates_S32768x766_S32768x50_S32768x816_d1 (Layers.featsAfter15 (F := Ideal) state Ws bs) Ws bs (rowOf state r) r
    (fun k h => feats15_apply state Ws bs r k h) k h

/-- After layer 16: row `r` of the row matrix (width 866) holds the specification's features `feat … 17`. -/
theorem feats17_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 866) :
    Layers.featsAfter17 (F := Ideal) state Ws bs (ix2 r ⟨k, h⟩) = feat (rowOf state r) (weightOf Ws) (biasOf bs) 17 k := by
  unfold Layers.featsAfter17 Layers.layer16
  exact layer_step 16 16 rfl (w := 816) (w' := 866) rfl rfl (by decide) dot_S32768x816_S816x50_S32768x50_1_0_0_1_n_n rfl rfl rfl rfl rfl rfl
    slices_S25x50x1266_S1x50x816_16_0_0 shapeCasts_S1x50x816_S50x816 transposes_S50x816_S816x50_1_0 slices_S25x50_S1x50_16_0
    concatenates_S32768x816_S32768x50_S32768x866_d1 (Layers.featsAfter16 (F := Ideal) state Ws bs) Ws bs (rowOf state r) r
    (fun k h => feats16_apply state Ws bs r k h) k h

/-- After layer 17: row `r` of the row matrix (width 916) holds the specification's features `feat … 18`. -/
theorem feats18_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 916) :
    Layers.featsAfter18 (F := Ideal) state Ws bs (ix2 r ⟨k, h⟩) = feat (rowOf state r) (weightOf Ws) (biasOf bs) 18 k := by
  unfold Layers.featsAfter18 Layers.layer17
  exact layer_step 17 17 rfl (w := 866) (w' := 916) rfl rfl (by decide) dot_S32768x866_S866x50_S32768x50_1_0_0_1_n_n rfl rfl rfl rfl rfl rfl
    slices_S25x50x1266_S1x50x866_17_0_0 shapeCasts_S1x50x866_S50x866 transposes_S50x866_S866x50_1_0 slices_S25x50_S1x50_17_0
    concatenates_S32768x866_S32768x50_S32768x916_d1 (Layers.featsAfter17 (F := Ideal) state Ws bs) Ws bs (rowOf state r) r
    (fun k h => feats17_apply state Ws bs r k h) k h

/-- After layer 18: row `r` of the row matrix (width 966) holds the specification's features `feat … 19`. -/
theorem feats19_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 966) :
    Layers.featsAfter19 (F := Ideal) state Ws bs (ix2 r ⟨k, h⟩) = feat (rowOf state r) (weightOf Ws) (biasOf bs) 19 k := by
  unfold Layers.featsAfter19 Layers.layer18
  exact layer_step 18 18 rfl (w := 916) (w' := 966) rfl rfl (by decide) dot_S32768x916_S916x50_S32768x50_1_0_0_1_n_n rfl rfl rfl rfl rfl rfl
    slices_S25x50x1266_S1x50x916_18_0_0 shapeCasts_S1x50x916_S50x916 transposes_S50x916_S916x50_1_0 slices_S25x50_S1x50_18_0
    concatenates_S32768x916_S32768x50_S32768x966_d1 (Layers.featsAfter18 (F := Ideal) state Ws bs) Ws bs (rowOf state r) r
    (fun k h => feats18_apply state Ws bs r k h) k h

/-- After layer 19: row `r` of the row matrix (width 1016) holds the specification's features `feat … 20`. -/
theorem feats20_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1016) :
    Layers.featsAfter20 (F := Ideal) state Ws bs (ix2 r ⟨k, h⟩) = feat (rowOf state r) (weightOf Ws) (biasOf bs) 20 k := by
  unfold Layers.featsAfter20 Layers.layer19
  exact layer_step 19 19 rfl (w := 966) (w' := 1016) rfl rfl (by decide) dot_S32768x966_S966x50_S32768x50_1_0_0_1_n_n rfl rfl rfl rfl rfl rfl
    slices_S25x50x1266_S1x50x966_19_0_0 shapeCasts_S1x50x966_S50x966 transposes_S50x966_S966x50_1_0 slices_S25x50_S1x50_19_0
    concatenates_S32768x966_S32768x50_S32768x1016_d1 (Layers.featsAfter19 (F := Ideal) state Ws bs) Ws bs (rowOf state r) r
    (fun k h => feats19_apply state Ws bs r k h) k h

/-- After layer 20: row `r` of the row matrix (width 1066) holds the specification's features `feat … 21`. -/
theorem feats21_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1066) :
    Layers.featsAfter21 (F := Ideal) state Ws bs (ix2 r ⟨k, h⟩) = feat (rowOf state r) (weightOf Ws) (biasOf bs) 21 k := by
  unfold Layers.featsAfter21 Layers.layer20
  exact layer_step 20 20 rfl (w := 1016) (w' := 1066) rfl rfl (by decide) dot_S32768x1016_S1016x50_S32768x50_1_0_0_1_n_n rfl rfl rfl rfl rfl rfl
    slices_S25x50x1266_S1x50x1016_20_0_0 shapeCasts_S1x50x1016_S50x1016 transposes_S50x1016_S1016x50_1_0 slices_S25x50_S1x50_20_0
    concatenates_S32768x1016_S32768x50_S32768x1066_d1 (Layers.featsAfter20 (F := Ideal) state Ws bs) Ws bs (rowOf state r) r
    (fun k h => feats20_apply state Ws bs r k h) k h

/-- After layer 21: row `r` of the row matrix (width 1116) holds the specification's features `feat … 22`. -/
theorem feats22_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1116) :
    Layers.featsAfter22 (F := Ideal) state Ws bs (ix2 r ⟨k, h⟩) = feat (rowOf state r) (weightOf Ws) (biasOf bs) 22 k := by
  unfold Layers.featsAfter22 Layers.layer21
  exact layer_step 21 21 rfl (w := 1066) (w' := 1116) rfl rfl (by decide) dot_S32768x1066_S1066x50_S32768x50_1_0_0_1_n_n rfl rfl rfl rfl rfl rfl
    slices_S25x50x1266_S1x50x1066_21_0_0 shapeCasts_S1x50x1066_S50x1066 transposes_S50x1066_S1066x50_1_0 slices_S25x50_S1x50_21_0
    concatenates_S32768x1066_S32768x50_S32768x1116_d1 (Layers.featsAfter21 (F := Ideal) state Ws bs) Ws bs (rowOf state r) r
    (fun k h => feats21_apply state Ws bs r k h) k h

/-- After layer 22: row `r` of the row matrix (width 1166) holds the specification's features `feat … 23`. -/
theorem feats23_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1166) :
    Layers.featsAfter23 (F := Ideal) state Ws bs (ix2 r ⟨k, h⟩) = feat (rowOf state r) (weightOf Ws) (biasOf bs) 23 k := by
  unfold Layers.featsAfter23 Layers.layer22
  exact layer_step 22 22 rfl (w := 1116) (w' := 1166) rfl rfl (by decide) dot_S32768x1116_S1116x50_S32768x50_1_0_0_1_n_n rfl rfl rfl rfl rfl rfl
    slices_S25x50x1266_S1x50x1116_22_0_0 shapeCasts_S1x50x1116_S50x1116 transposes_S50x1116_S1116x50_1_0 slices_S25x50_S1x50_22_0
    concatenates_S32768x1116_S32768x50_S32768x1166_d1 (Layers.featsAfter22 (F := Ideal) state Ws bs) Ws bs (rowOf state r) r
    (fun k h => feats22_apply state Ws bs r k h) k h

/-- After layer 23: row `r` of the row matrix (width 1216) holds the specification's features `feat … 24`. -/
theorem feats24_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1216) :
    Layers.featsAfter24 (F := Ideal) state Ws bs (ix2 r ⟨k, h⟩) = feat (rowOf state r) (weightOf Ws) (biasOf bs) 24 k := by
  unfold Layers.featsAfter24 Layers.layer23
  exact layer_step 23 23 rfl (w := 1166) (w' := 1216) rfl rfl (by decide) dot_S32768x1166_S1166x50_S32768x50_1_0_0_1_n_n rfl rfl rfl rfl rfl rfl
    slices_S25x50x1266_S1x50x1166_23_0_0 shapeCasts_S1x50x1166_S50x1166 transposes_S50x1166_S1166x50_1_0 slices_S25x50_S1x50_23_0
    concatenates_S32768x1166_S32768x50_S32768x1216_d1 (Layers.featsAfter23 (F := Ideal) state Ws bs) Ws bs (rowOf state r) r
    (fun k h => feats23_apply state Ws bs r k h) k h

/-- After layer 24: row `r` of the row matrix (width 1266) holds the specification's features `feat … 25`. -/
theorem feats25_apply (state : FVec Ideal ⟨2, ![32768, 16]⟩ .f32) (Ws : FVec Ideal ⟨3, ![25, 50, 1266]⟩ .f32)
    (bs : FVec Ideal ⟨2, ![25, 50]⟩ .f32) (r : Fin 32768) (k : ℕ) (h : k < 1266) :
    Layers.featsAfter25 (F := Ideal) state Ws bs (ix2 r ⟨k, h⟩) = feat (rowOf state r) (weightOf Ws) (biasOf bs) 25 k := by
  unfold Layers.featsAfter25 Layers.layer24
  exact layer_step 24 24 rfl (w := 1216) (w' := 1266) rfl rfl (by decide) dot_S32768x1216_S1216x50_S32768x50_1_0_0_1_n_n rfl rfl rfl rfl rfl rfl
    slices_S25x50x1266_S1x50x1216_24_0_0 shapeCasts_S1x50x1216_S50x1216 transposes_S50x1216_S1216x50_1_0 slices_S25x50_S1x50_24_0
    concatenates_S32768x1216_S32768x50_S32768x1266_d1 (Layers.featsAfter24 (F := Ideal) state Ws bs) Ws bs (rowOf state r) r
    (fun k h => feats24_apply state Ws bs r k h) k h

end Cert.ReferenceIdeal.RefValue

end
-- ==== Proof.RefValue.lean ====
/-
  The reference's composed term is the specification, index by index.

  The reference computes its result as the final affine map of the row matrix after the 25 layers.  Row `r` of that
  matrix holds the specification's 1266 features of row `r` of the input (the induction along the layers), so entry
  `(r, 0)` of the result is the contraction of those features with the output weights plus the output bias — the
  specification's `rowResult` on row `r`.  The reference contracts over exactly the columns present at each layer, as
  the specification does, so no sum is reordered and no finiteness is used.
-/
import proofs.«119617_j10823317586373_2_alg».proof.Proof.Spec
import proofs.«119617_j10823317586373_2_alg».proof.Proof.RefLayers
import proofs.«119617_j10823317586373_2_alg».proof.Proof.RefValueStep
import proofs.«119617_j10823317586373_2_alg».proof.Proof.RefValueChain

noncomputable section

namespace Cert.ReferenceIdeal.RefValue

open Idealize.ShloMosaic Idealize.ShloMosaic.ValueIdx Cert.GrowingMlp Cert.ReferenceIdeal Cert.ReferenceIdeal.Gen
open scoped BigOperators

/-- THE REFERENCE'S RESULT IS THE SPECIFICATION'S, as arrays: at every index `(r, 0)` the final map of the row matrix
    after 25 layers is the network's value on row `r` of the input. -/
theorem refTerm_eq (state : FVec Ideal ⟨2, ![32768, 16]⟩ .f32) (Ws : FVec Ideal ⟨3, ![25, 50, 1266]⟩ .f32) (bs : FVec Ideal ⟨2, ![25, 50]⟩ .f32)
    (Wout : FVec Ideal ⟨2, ![1266, 1]⟩ .f32) (bout : FVec Ideal ⟨1, ![1]⟩ .f32) :
    Cert.ReferenceIdeal.Layers.refTerm (F := Ideal) state Ws bs Wout bout = Cert.GrowingMlp.result state Ws bs Wout bout := by
  funext i
  obtain ⟨r, c, rfl⟩ : ∃ (r : Fin 32768) (c : Fin 1), i = ix2 r c := ⟨i 0, i 1, eq_ix2 i⟩
  obtain rfl : c = 0 := Subsingleton.elim _ _
  unfold Layers.refTerm
  rw [finalMap_apply]
  show _ = rowResult (rowOf state r) (weightOf Ws) (biasOf bs) (outWeightOf Wout) (bout (ix1 (0 : Fin 1)))
  unfold rowResult
  refine congrArg (fun t => t + bout (ix1 (0 : Fin 1))) ?_
  rw [← sum_fin_eq_range 1266 fun k => feat (rowOf state r) (weightOf Ws) (biasOf bs) 25 k * outWeightOf Wout k]
  refine Finset.sum_congr rfl fun k _ => ?_
  rw [feats25_apply state Ws bs r k.val k.isLt, outWeightOf_lt Wout k.isLt]

end Cert.ReferenceIdeal.RefValue

end
-- ==== Proof.lean ====
/-
  The certificate's proof.

  THE TWO PROGRAMS.  A densely connected perceptron on a batch of 32768 rows: a row starts as 16 features; each of 25
  layers reads ALL the features the row holds so far, forms 50 new ones (an affine map followed by a leaky rectifier) and
  appends them; a last affine map takes the 1266 features to one number.  The reference does this with whole-batch
  arrays, slicing each layer's weights to the present width and concatenating.  The kernel works tile by tile (4096
  rows per grid point) on a scratch of 1266 columns; before each layer it fills the columns between the present width
  and the next multiple of 128 with zeros, and contracts over that padded width, so that every contraction is aligned.

  WHY THEY AGREE ON THE EXTENDED REALS.  Both are the same recurrence (`GrowingMlp.feat`, Proof/Spec.lean) once the
  padded contraction is seen to be the unpadded one: the extra terms are products with a zero factor, and on the
  extended reals `0 * x = 0` for EVERY `x`, so they vanish with no appeal to finiteness; a `tpu.matmul` into a zero
  accumulator and the host's `dot_general` are both the plain sum over the contracted axis; the rectifier is the same
  comparison, product and selection on both sides, with the same two literals (never evaluated).  The precondition
  (finite inputs) is not used.

  THE PARTS.  Proof/Spec.lean: the recurrence and the result array as one function `GrowingMlp.result` of the five
  arguments.  Kernel side: Proof/KernelBody*.lean reads the body's output block row by row as the recurrence on the
  point's blocks; Proof/KernelBlocks.lean reads the blocks off the launch's arrays; Proof/KernelArray.lean goes from the
  eight blocks to the array and restates the generated frame run.  Reference side: Proof/RefLayers.lean spells the host
  program layer by layer as pure functions; Proof/RefRun*.lean runs the program to that term; Proof/RefValue*.lean reads
  the term index by index as the recurrence.  Below: the three frames (the kernels' are the generated frame
  certificates; the reference's is its run with the result dropped), `preserves` (the idealization rewrote nothing, so
  the claim is `True`), and `algebraic` (the two runs side by side, stated with the same array).
-/
import proofs.«119617_j10823317586373_2_alg».proof.Defs
import proofs.«119617_j10823317586373_2_alg».proof.Proof.Gen.Kernel
import proofs.«119617_j10823317586373_2_alg».proof.Proof.Gen.Kernel.Skeleton
import proofs.«119617_j10823317586373_2_alg».proof.Proof.Gen.Kernel.Launch
import proofs.«119617_j10823317586373_2_alg».proof.Proof.Gen.Kernel.Points
import proofs.«119617_j10823317586373_2_alg».proof.Proof.Gen.Kernel.Frame
import proofs.«119617_j10823317586373_2_alg».proof.Proof.Gen.KernelIdeal
import proofs.«119617_j10823317586373_2_alg».proof.Proof.Gen.KernelIdeal.Skeleton
import proofs.«119617_j10823317586373_2_alg».proof.Proof.Gen.KernelIdeal.Launch
import proofs.«119617_j10823317586373_2_alg».proof.Proof.Gen.KernelIdeal.Points
import proofs.«119617_j10823317586373_2_alg».proof.Proof.Gen.KernelIdeal.Frame
import proofs.«119617_j10823317586373_2_alg».proof.Proof.Gen.KernelIdeal.Value
import proofs.«119617_j10823317586373_2_alg».proof.Proof.Gen.ReferenceIdeal
import proofs.«119617_j10823317586373_2_alg».proof.Proof.Gen.Pre_finite_inputs
import proofs.«119617_j10823317586373_2_alg».proof.Proof.KernelArray
import proofs.«119617_j10823317586373_2_alg».proof.Proof.RefRun
import proofs.«119617_j10823317586373_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments: the generated frame certificate. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HostRun.run (F := Ideal) m ρ)

/-- The idealization rewrote no operation: there is nothing to preserve beyond the program's own text read at the ideal instance. -/
theorem preserves : Cert.preserves_Kernel_KernelIdeal := trivial

/-- From memories agreeing on the arguments, the idealized kernel ends with its result array at the specification's
    result of the arguments (`ArrayValue.run`), and the reference at its composed term of the same arguments
    (`HostRun.run`), which is that same array (`RefValue.refTerm_eq`). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2.1, (hagree c).2.2.2.2]
  exact Cert.ReferenceIdeal.RefValue.refTerm_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
